-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4096x200 : S_.BroadcastsInDim S4096x200 (![] : Fin 0 → Fin S4096x200.rank)
  reducesTo_S4096x200_S_d0_1 : S4096x200.ReducesTo [0, 1] S_

variable [Facts]

def fn {F : FTy → Type} [FloatOps F] (main_arg0 : IVec S4096x200 32) (main_arg1 : FVec F S100000x128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S4096x200 32 := broadcastInDim S4096x200 ![] bcast_S_S4096x200 main_c_0
  let main_v5 : IVec S4096x200 1 := cmpi .sge main_arg0 main_v4
  let main_c_1 : IVec S_ 32 := constantI S_ 32 99999#32
  let main_v6 : IVec S4096x200 32 := broadcastInDim S4096x200 ![] bcast_S_S4096x200 main_c_1
  let main_v7 : IVec S4096x200 1 := cmpi .sle main_arg0 main_v6
  let main_v8 : IVec S4096x200 1 := andi main_v5 main_v7
  let main_c_2 : IVec S_ 1 := constantI S_ 1 1#1
  let main_v9 : IVec S_ 1 := (fun x v => Host.reduce IntOp.andi x v reducesTo_S4096x200_S_d0_1 h_S_) main_v8 main_c_2
  let main_v10 : IVec S_ 1 := andi main_v3 main_v9
  main_v10
-- ==== Kernel.lean ====
abbrev S4096x200 : Shape := ⟨2, ![4096, 200]⟩
abbrev S100000x128 : Shape := ⟨2, ![100000, 128]⟩
abbrev S32x200x128 : Shape := ⟨3, ![32, 200, 128]⟩
abbrev S819200x128 : Shape := ⟨2, ![819200, 128]⟩
abbrev S200x128 : Shape := ⟨2, ![200, 128]⟩
abbrev S128x128 : Shape := ⟨2, ![128, 128]⟩
abbrev S_ : Shape := ⟨0, ![]⟩
abbrev S1x200x128 : Shape := ⟨3, ![1, 200, 128]⟩
abbrev S1x128 : Shape := ⟨2, ![1, 128]⟩
abbrev S128 : Shape := ⟨1, ![128]⟩
abbrev S1x16 : Shape := ⟨2, ![1, 16]⟩
abbrev S16 : Shape := ⟨1, ![16]⟩
abbrev S4096x200x128 : Shape := ⟨3, ![4096, 200, 128]⟩

abbrev nBuf : Table → Nat
  | .hbm => 5
  | .local .scVector .vmem => 6
  | _ => 0

abbrev bufTy : (tb : Table) → Fin (nBuf tb) → BufTy
  | .hbm, ⟨0, _⟩ => ⟨S4096x200, .i32⟩
  | .hbm, ⟨1, _⟩ => ⟨S100000x128, .f32⟩
  | .hbm, ⟨2, _⟩ => ⟨S32x200x128, .i32⟩
  | .hbm, ⟨3, _⟩ => ⟨S819200x128, .f32⟩
  | .hbm, ⟨4, _⟩ => ⟨S4096x200x128, .f32⟩
  | .local .scVector .vmem, ⟨0, _⟩ => ⟨S200x128, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg1_scv : Ref sig .scVector := ⟨.hbm, 1, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_40_r0 : BitVec 32 := 0#32
  let c0_i32_41_r0 : BitVec 32 := 0#32
  ![v1.toNat, 0, 0]
@[reducible] def k0_t1_loop : Scf.Loop 32 :=
  let c0_i32_27 : BitVec 32 := 0#32
  let c40_i32 : BitVec 32 := 40#32
  let v23 : BitVec 32 := Scalar.addi c0_i32_27 c40_i32
  let c1_i32_28 : BitVec 32 := 1#32
  ⟨c0_i32_27, v23, c1_i32_28⟩
def k0_off2 (k0_t1 : Fin k0_t1_loop.trips) (c0_i32_40 : BitVec 32) : Fin 2 → Nat :=
  let c1_i32_41 : BitVec 32 := 1#32
  let c0_i32_27 : BitVec 32 := 0#32
  let c1_i32_28 : BitVec 32 := 1#32
  let arg21 : BitVec 32 := Scf.iv c0_i32_27 c1_i32_28 k0_t1
  let c5_i32 : BitVec 32 := 5#32
  let v39 : BitVec 32 := Scalar.muli arg21 c5_i32
  let v40 : BitVec 32 := Scalar.addi v39 c0_i32_40
  let v41 : BitVec 32 := Scalar.muli c1_i32_41 v40
  let c0_i32_42 : BitVec 32 := 0#32
  let v42 : BitVec 32 := Scalar.addi v41 c0_i32_42
  let c0_i32_45 : BitVec 32 := 0#32
  ![v42.toNat, 0]
@[reducible] def k0_t2_loop : Scf.Loop 32 :=
  let c0_i32_49 : BitVec 32 := 0#32
  let c64_i32 : BitVec 32 := 64#32
  let v47 : BitVec 32 := Scalar.addi c0_i32_49 c64_i32
  let c1_i32_50 : BitVec 32 := 1#32
  ⟨c0_i32_49, v47, c1_i32_50⟩
def k0_off3 (k0_t2 : Fin k0_t2_loop.trips) (c0_i32_125 : BitVec 32) : Fin 2 → Nat :=
  let c2_i32_124 : BitVec 32 := 2#32
  let c0_i32_49 : BitVec 32 := 0#32
  let c1_i32_50 : BitVec 32 := 1#32
  let arg22 : BitVec 32 := Scf.iv c0_i32_49 c1_i32_50 k0_t2
  let v108 : BitVec 32 := Scalar.muli c2_i32_124 arg22
  let v109 : BitVec 32 := Scalar.addi v108 c0_i32_125
  let v110 : Index := Scalar.indexCast v109
  let c0 : Index := 0#32
  ![v110.toNat, 0]
def k0_off4 (k0_t2 : Fin k0_t2_loop.trips) (c0_i32_130 : BitVec 32) : Fin 2 → Nat :=
  let c2_i32_129 : BitVec 32 := 2#32
  let c0_i32_49 : BitVec 32 := 0#32
  let c1_i32_50 : BitVec 32 := 1#32
  let arg22 : BitVec 32 := Scf.iv c0_i32_49 c1_i32_50 k0_t2
  let v121 : BitVec 32 := Scalar.muli c2_i32_129 arg22
  let v122 : BitVec 32 := Scalar.addi v121 c0_i32_130
  let v123 : Index := Scalar.indexCast v122
  let c16 : Index := 16#32
  ![v123.toNat, 16]
def k0_off5 (k0_t2 : Fin k0_t2_loop.trips) (c0_i32_136 : BitVec 32) : Fin 2 → Nat :=
  let c2_i32_135 : BitVec 32 := 2#32
  let c0_i32_49 : BitVec 32 := 0#32
  let c1_i32_50 : BitVec 32 := 1#32
  let arg22 : BitVec 32 := Scf.iv c0_i32_49 c1_i32_50 k0_t2
  let v134 : BitVec 32 := Scalar.muli c2_i32_135 arg22
  let v135 : BitVec 32 := Scalar.addi v134 c0_i32_136
  let v136 : Index := Scalar.indexCast v135
  let c32 : Index := 32#32
  ![v136.toNat, 32]
def k0_off6 (k0_t2 : Fin k0_t2_loop.trips) (c0_i32_142 : BitVec 32) : Fin 2 → Nat :=
  let c2_i32_141 : BitVec 32 := 2#32
  let c0_i32_49 : BitVec 32 := 0#32
  let c1_i32_50 : BitVec 32 := 1#32
  let arg22 : BitVec 32 := Scf.iv c0_i32_49 c1_i32_50 k0_t2
  let v147 : BitVec 32 := Scalar.muli c2_i32_141 arg22
  let v148 : BitVec 32 := Scalar.addi v147 c0_i32_142
  let v149 : Index := Scalar.indexCast v148
  let c48 : Index := 48#32
  ![v149.toNat, 48]
def k0_off7 (k0_t2 : Fin k0_t2_loop.trips) (c0_i32_148 : BitVec 32) : Fin 2 → Nat :=
  let c2_i32_147 : BitVec 32 := 2#32
  let c0_i32_49 : BitVec 32 := 0#32
  let c1_i32_50 : BitVec 32 := 1#32
  let arg22 : BitVec 32 := Scf.iv c0_i32_49 c1_i32_50 k0_t2
  let v160 : BitVec 32 := Scalar.muli c2_i32_147 arg22
  let v161 : BitVec 32 := Scalar.addi v160 c0_i32_148
  let v162 : Index := Scalar.indexCast v161
  let c64 : Index := 64#32
  ![v162.toNat, 64]
def k0_off8 (k0_t2 : Fin k0_t2_loop.trips) (c0_i32_154 : BitVec 32) : Fin 2 → Nat :=
  let c2_i32_153 : BitVec 32 := 2#32
  let c0_i32_49 : BitVec 32 := 0#32
  let c1_i32_50 : BitVec 32 := 1#32
  let arg22 : BitVec 32 := Scf.iv c0_i32_49 c1_i32_50 k0_t2
  let v173 : BitVec 32 := Scalar.muli c2_i32_153 arg22
  let v174 : BitVec 32 := Scalar.addi v173 c0_i32_154
  let v175 : Index := Scalar.indexCast v174
  let c80 : Index := 80#32
  ![v175.toNat, 80]
def k0_off9 (k0_t2 : Fin k0_t2_loop.trips) (c0_i32_160 : BitVec 32) : Fin 2 → Nat :=
  let c2_i32_159 : BitVec 32 := 2#32
  let c0_i32_49 : BitVec 32 := 0#32
  let c1_i32_50 : BitVec 32 := 1#32
  let arg22 : BitVec 32 := Scf.iv c0_i32_49 c1_i32_50 k0_t2
  let v186 : BitVec 32 := Scalar.muli c2_i32_159 arg22
  let v187 : BitVec 32 := Scalar.addi v186 c0_i32_160
  let v188 : Index := Scalar.indexCast v187
  let c96 : Index := 96#32
  ![v188.toNat, 96]
def k0_off10 (k0_t2 : Fin k0_t2_loop.trips) (c0_i32_166 : BitVec 32) : Fin 2 → Nat :=
  let c2_i32_165 : BitVec 32 := 2#32
  let c0_i32_49 : BitVec 32 := 0#32
  let c1_i32_50 : BitVec 32 := 1#32
  let arg22 : BitVec 32 := Scf.iv c0_i32_49 c1_i32_50 k0_t2
  let v199 : BitVec 32 := Scalar.muli c2_i32_165 arg22
  let v200 : BitVec 32 := Scalar.addi v199 c0_i32_166
  let v201 : Index := Scalar.indexCast v200
  let c112 : Index := 112#32
  ![v201.toNat, 112]
def k0_off11 (i : grid0.Coords) (k0_t1 : Fin k0_t1_loop.trips) (c0_i32_52 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_27 : BitVec 32 := 0#32
  let c1_i32_28 : BitVec 32 := 1#32
  let arg21 : BitVec 32 := Scf.iv c0_i32_27 c1_i32_28 k0_t1
  let c5_i32 : BitVec 32 := 5#32
  let v39 : BitVec 32 := Scalar.muli arg21 c5_i32
  let v48 : BitVec 32 := Scalar.addi v39 c0_i32_52
  let c128_i32 : BitVec 32 := 128#32
  let v49 : BitVec 32 := Scalar.muli v48 c128_i32
  let v50 : BitVec 32 := Scalar.addi v2 v49
  let c0_i32_53 : BitVec 32 := 0#32
  ![v50.toNat, 0]
@[reducible] def k0_t3_loop : Scf.Loop 32 :=
  let c0_i32_64 : BitVec 32 := 0#32
  let c64_i32_65 : BitVec 32 := 64#32
  let v60 : BitVec 32 := Scalar.addi c0_i32_64 c64_i32_65
  let c1_i32_66 : BitVec 32 := 1#32
  ⟨c0_i32_64, v60, c1_i32_66⟩
def k0_off12 (k0_t3 : Fin k0_t3_loop.trips) (c0_i32_125 : BitVec 32) : Fin 2 → Nat :=
  let c2_i32_124 : BitVec 32 := 2#32
  let c0_i32_64 : BitVec 32 := 0#32
  let c1_i32_66 : BitVec 32 := 1#32
  let arg22 : BitVec 32 := Scf.iv c0_i32_64 c1_i32_66 k0_t3
  let v108 : BitVec 32 := Scalar.muli c2_i32_124 arg22
  let v109 : BitVec 32 := Scalar.addi v108 c0_i32_125
  let v110 : Index := Scalar.indexCast v109
  let c0 : Index := 0#32
  ![v110.toNat, 0]
def k0_off13 (k0_t3 : Fin k0_t3_loop.trips) (c0_i32_130 : BitVec 32) : Fin 2 → Nat :=
  let c2_i32_129 : BitVec 32 := 2#32
  let c0_i32_64 : BitVec 32 := 0#32
  let c1_i32_66 : BitVec 32 := 1#32
  let arg22 : BitVec 32 := Scf.iv c0_i32_64 c1_i32_66 k0_t3
  let v121 : BitVec 32 := Scalar.muli c2_i32_129 arg22
  let v122 : BitVec 32 := Scalar.addi v121 c0_i32_130
  let v123 : Index := Scalar.indexCast v122
  let c16 : Index := 16#32
  ![v123.toNat, 16]
def k0_off14 (k0_t3 : Fin k0_t3_loop.trips) (c0_i32_136 : BitVec 32) : Fin 2 → Nat :=
  let c2_i32_135 : BitVec 32 := 2#32
  let c0_i32_64 : BitVec 32 := 0#32
  let c1_i32_66 : BitVec 32 := 1#32
  let arg22 : BitVec 32 := Scf.iv c0_i32_64 c1_i32_66 k0_t3
  let v134 : BitVec 32 := Scalar.muli c2_i32_135 arg22
  let v135 : BitVec 32 := Scalar.addi v134 c0_i32_136
  let v136 : Index := Scalar.indexCast v135
  let c32 : Index := 32#32
  ![v136.toNat, 32]
def k0_off15 (k0_t3 : Fin k0_t3_loop.trips) (c0_i32_142 : BitVec 32) : Fin 2 → Nat :=
  let c2_i32_141 : BitVec 32 := 2#32
  let c0_i32_64 : BitVec 32 := 0#32
  let c1_i32_66 : BitVec 32 := 1#32
  let arg22 : BitVec 32 := Scf.iv c0_i32_64 c1_i32_66 k0_t3
  let v147 : BitVec 32 := Scalar.muli c2_i32_141 arg22
  let v148 : BitVec 32 := Scalar.addi v147 c0_i32_142
  let v149 : Index := Scalar.indexCast v148
  let c48 : Index := 48#32
  ![v149.toNat, 48]
def k0_off16 (k0_t3 : Fin k0_t3_loop.trips) (c0_i32_148 : BitVec 32) : Fin 2 → Nat :=
  let c2_i32_147 : BitVec 32 := 2#32
  let c0_i32_64 : BitVec 32 := 0#32
  let c1_i32_66 : BitVec 32 := 1#32
  let arg22 : BitVec 32 := Scf.iv c0_i32_64 c1_i32_66 k0_t3
  let v160 : BitVec 32 := Scalar.muli c2_i32_147 arg22
  let v161 : BitVec 32 := Scalar.addi v160 c0_i32_148
  let v162 : Index := Scalar.indexCast v161
  let c64 : Index := 64#32
  ![v162.toNat, 64]
def k0_off17 (k0_t3 : Fin k0_t3_loop.trips) (c0_i32_154 : BitVec 32) : Fin 2 → Nat :=
  let c2_i32_153 : BitVec 32 := 2#32
  let c0_i32_64 : BitVec 32 := 0#32
  let c1_i32_66 : BitVec 32 := 1#32
  let arg22 : BitVec 32 := Scf.iv c0_i32_64 c1_i32_66 k0_t3
  let v173 : BitVec 32 := Scalar.muli c2_i32_153 arg22
  let v174 : BitVec 32 := Scalar.addi v173 c0_i32_154
  let v175 : Index := Scalar.indexCast v174
  let c80 : Index := 80#32
  ![v175.toNat, 80]
def k0_off18 (k0_t3 : Fin k0_t3_loop.trips) (c0_i32_160 : BitVec 32) : Fin 2 → Nat :=
  let c2_i32_159 : BitVec 32 := 2#32
  let c0_i32_64 : BitVec 32 := 0#32
  let c1_i32_66 : BitVec 32 := 1#32
  let arg22 : BitVec 32 := Scf.iv c0_i32_64 c1_i32_66 k0_t3
  let v186 : BitVec 32 := Scalar.muli c2_i32_159 arg22
  let v187 : BitVec 32 := Scalar.addi v186 c0_i32_160
  let v188 : Index := Scalar.indexCast v187
  let c96 : Index := 96#32
  ![v188.toNat, 96]
def k0_off19 (k0_t3 : Fin k0_t3_loop.trips) (c0_i32_166 : BitVec 32) : Fin 2 → Nat :=
  let c2_i32_165 : BitVec 32 := 2#32
  let c0_i32_64 : BitVec 32 := 0#32
  let c1_i32_66 : BitVec 32 := 1#32
  let arg22 : BitVec 32 := Scf.iv c0_i32_64 c1_i32_66 k0_t3
  let v199 : BitVec 32 := Scalar.muli c2_i32_165 arg22
  let v200 : BitVec 32 := Scalar.addi v199 c0_i32_166
  let v201 : Index := Scalar.indexCast v200
  let c112 : Index := 112#32
  ![v201.toNat, 112]
@[reducible] def k0_t4_loop : Scf.Loop 32 :=
  let c0_i32_81 : BitVec 32 := 0#32
  let c64_i32_82 : BitVec 32 := 64#32
  let v73 : BitVec 32 := Scalar.addi c0_i32_81 c64_i32_82
  let c1_i32_83 : BitVec 32 := 1#32
  ⟨c0_i32_81, v73, c1_i32_83⟩
def k0_off20 (k0_t4 : Fin k0_t4_loop.trips) (c0_i32_125 : BitVec 32) : Fin 2 → Nat :=
  let c2_i32_124 : BitVec 32 := 2#32
  let c0_i32_81 : BitVec 32 := 0#32
  let c1_i32_83 : BitVec 32 := 1#32
  let arg22 : BitVec 32 := Scf.iv c0_i32_81 c1_i32_83 k0_t4
  let v108 : BitVec 32 := Scalar.muli c2_i32_124 arg22
  let v109 : BitVec 32 := Scalar.addi v108 c0_i32_125
  let v110 : Index := Scalar.indexCast v109
  let c0 : Index := 0#32
  ![v110.toNat, 0]
def k0_off21 (k0_t4 : Fin k0_t4_loop.trips) (c0_i32_130 : BitVec 32) : Fin 2 → Nat :=
  let c2_i32_129 : BitVec 32 := 2#32
  let c0_i32_81 : BitVec 32 := 0#32
  let c1_i32_83 : BitVec 32 := 1#32
  let arg22 : BitVec 32 := Scf.iv c0_i32_81 c1_i32_83 k0_t4
  let v121 : BitVec 32 := Scalar.muli c2_i32_129 arg22
  let v122 : BitVec 32 := Scalar.addi v121 c0_i32_130
  let v123 : Index := Scalar.indexCast v122
  let c16 : Index := 16#32
  ![v123.toNat, 16]
def k0_off22 (k0_t4 : Fin k0_t4_loop.trips) (c0_i32_136 : BitVec 32) : Fin 2 → Nat :=
  let c2_i32_135 : BitVec 32 := 2#32
  let c0_i32_81 : BitVec 32 := 0#32
  let c1_i32_83 : BitVec 32 := 1#32
  let arg22 : BitVec 32 := Scf.iv c0_i32_81 c1_i32_83 k0_t4
  let v134 : BitVec 32 := Scalar.muli c2_i32_135 arg22
  let v135 : BitVec 32 := Scalar.addi v134 c0_i32_136
  let v136 : Index := Scalar.indexCast v135
  let c32 : Index := 32#32
  ![v136.toNat, 32]
def k0_off23 (k0_t4 : Fin k0_t4_loop.trips) (c0_i32_142 : BitVec 32) : Fin 2 → Nat :=
  let c2_i32_141 : BitVec 32 := 2#32
  let c0_i32_81 : BitVec 32 := 0#32
  let c1_i32_83 : BitVec 32 := 1#32
  let arg22 : BitVec 32 := Scf.iv c0_i32_81 c1_i32_83 k0_t4
  let v147 : BitVec 32 := Scalar.muli c2_i32_141 arg22
  let v148 : BitVec 32 := Scalar.addi v147 c0_i32_142
  let v149 : Index := Scalar.indexCast v148
  let c48 : Index := 48#32
  ![v149.toNat, 48]
def k0_off24 (k0_t4 : Fin k0_t4_loop.trips) (c0_i32_148 : BitVec 32) : Fin 2 → Nat :=
  let c2_i32_147 : BitVec 32 := 2#32
  let c0_i32_81 : BitVec 32 := 0#32
  let c1_i32_83 : BitVec 32 := 1#32
  let arg22 : BitVec 32 := Scf.iv c0_i32_81 c1_i32_83 k0_t4
  let v160 : BitVec 32 := Scalar.muli c2_i32_147 arg22
  let v161 : BitVec 32 := Scalar.addi v160 c0_i32_148
  let v162 : Index := Scalar.indexCast v161
  let c64 : Index := 64#32
  ![v162.toNat, 64]
def k0_off25 (k0_t4 : Fin k0_t4_loop.trips) (c0_i32_154 : BitVec 32) : Fin 2 → Nat :=
  let c2_i32_153 : BitVec 32 := 2#32
  let c0_i32_81 : BitVec 32 := 0#32
  let c1_i32_83 : BitVec 32 := 1#32
  let arg22 : BitVec 32 := Scf.iv c0_i32_81 c1_i32_83 k0_t4
  let v173 : BitVec 32 := Scalar.muli c2_i32_153 arg22
  let v174 : BitVec 32 := Scalar.addi v173 c0_i32_154
  let v175 : Index := Scalar.indexCast v174
  let c80 : Index := 80#32
  ![v175.toNat, 80]
def k0_off26 (k0_t4 : Fin k0_t4_loop.trips) (c0_i32_160 : BitVec 32) : Fin 2 → Nat :=
  let c2_i32_159 : BitVec 32 := 2#32
  let c0_i32_81 : BitVec 32 := 0#32
  let c1_i32_83 : BitVec 32 := 1#32
  let arg22 : BitVec 32 := Scf.iv c0_i32_81 c1_i32_83 k0_t4
  let v186 : BitVec 32 := Scalar.muli c2_i32_159 arg22
  let v187 : BitVec 32 := Scalar.addi v186 c0_i32_160
  let v188 : Index := Scalar.indexCast v187
  let c96 : Index := 96#32
  ![v188.toNat, 96]
def k0_off27 (k0_t4 : Fin k0_t4_loop.trips) (c0_i32_166 : BitVec 32) : Fin 2 → Nat :=
  let c2_i32_165 : BitVec 32 := 2#32
  let c0_i32_81 : BitVec 32 := 0#32
  let c1_i32_83 : BitVec 32 := 1#32
  let arg22 : BitVec 32 := Scf.iv c0_i32_81 c1_i32_83 k0_t4
  let v199 : BitVec 32 := Scalar.muli c2_i32_165 arg22
  let v200 : BitVec 32 := Scalar.addi v199 c0_i32_166
  let v201 : Index := Scalar.indexCast v200
  let c112 : Index := 112#32
  ![v201.toNat, 112]
@[reducible] def k0_t5_loop : Scf.Loop 32 :=
  let c0_i32_98 : BitVec 32 := 0#32
  let c64_i32_99 : BitVec 32 := 64#32
  let v86 : BitVec 32 := Scalar.addi c0_i32_98 c64_i32_99
  let c1_i32_100 : BitVec 32 := 1#32
  ⟨c0_i32_98, v86, c1_i32_100⟩
def k0_off28 (k0_t5 : Fin k0_t5_loop.trips) (c0_i32_125 : BitVec 32) : Fin 2 → Nat :=
  let c2_i32_124 : BitVec 32 := 2#32
  let c0_i32_98 : BitVec 32 := 0#32
  let c1_i32_100 : BitVec 32 := 1#32
  let arg22 : BitVec 32 := Scf.iv c0_i32_98 c1_i32_100 k0_t5
  let v108 : BitVec 32 := Scalar.muli c2_i32_124 arg22
  let v109 : BitVec 32 := Scalar.addi v108 c0_i32_125
  let v110 : Index := Scalar.indexCast v109
  let c0 : Index := 0#32
  ![v110.toNat, 0]
def k0_off29 (k0_t5 : Fin k0_t5_loop.trips) (c0_i32_130 : BitVec 32) : Fin 2 → Nat :=
  let c2_i32_129 : BitVec 32 := 2#32
  let c0_i32_98 : BitVec 32 := 0#32
  let c1_i32_100 : BitVec 32 := 1#32
  let arg22 : BitVec 32 := Scf.iv c0_i32_98 c1_i32_100 k0_t5
  let v121 : BitVec 32 := Scalar.muli c2_i32_129 arg22
  let v122 : BitVec 32 := Scalar.addi v121 c0_i32_130
  let v123 : Index := Scalar.indexCast v122
  let c16 : Index := 16#32
  ![v123.toNat, 16]
def k0_off30 (k0_t5 : Fin k0_t5_loop.trips) (c0_i32_136 : BitVec 32) : Fin 2 → Nat :=
  let c2_i32_135 : BitVec 32 := 2#32
  let c0_i32_98 : BitVec 32 := 0#32
  let c1_i32_100 : BitVec 32 := 1#32
  let arg22 : BitVec 32 := Scf.iv c0_i32_98 c1_i32_100 k0_t5
  let v134 : BitVec 32 := Scalar.muli c2_i32_135 arg22
  let v135 : BitVec 32 := Scalar.addi v134 c0_i32_136
  let v136 : Index := Scalar.indexCast v135
  let c32 : Index := 32#32
  ![v136.toNat, 32]
def k0_off31 (k0_t5 : Fin k0_t5_loop.trips) (c0_i32_142 : BitVec 32) : Fin 2 → Nat :=
  let c2_i32_141 : BitVec 32 := 2#32
  let c0_i32_98 : BitVec 32 := 0#32
  let c1_i32_100 : BitVec 32 := 1#32
  let arg22 : BitVec 32 := Scf.iv c0_i32_98 c1_i32_100 k0_t5
  let v147 : BitVec 32 := Scalar.muli c2_i32_141 arg22
  let v148 : BitVec 32 := Scalar.addi v147 c0_i32_142
  let v149 : Index := Scalar.indexCast v148
  let c48 : Index := 48#32
  ![v149.toNat, 48]
def k0_off32 (k0_t5 : Fin k0_t5_loop.trips) (c0_i32_148 : BitVec 32) : Fin 2 → Nat :=
  let c2_i32_147 : BitVec 32 := 2#32
  let c0_i32_98 : BitVec 32 := 0#32
  let c1_i32_100 : BitVec 32 := 1#32
  let arg22 : BitVec 32 := Scf.iv c0_i32_98 c1_i32_100 k0_t5
  let v160 : BitVec 32 := Scalar.muli c2_i32_147 arg22
  let v161 : BitVec 32 := Scalar.addi v160 c0_i32_148
  let v162 : Index := Scalar.indexCast v161
  let c64 : Index := 64#32
  ![v162.toNat, 64]
def k0_off33 (k0_t5 : Fin k0_t5_loop.trips) (c0_i32_154 : BitVec 32) : Fin 2 → Nat :=
  let c2_i32_153 : BitVec 32 := 2#32
  let c0_i32_98 : BitVec 32 := 0#32
  let c1_i32_100 : BitVec 32 := 1#32
  let arg22 : BitVec 32 := Scf.iv c0_i32_98 c1_i32_100 k0_t5
  let v173 : BitVec 32 := Scalar.muli c2_i32_153 arg22
  let v174 : BitVec 32 := Scalar.addi v173 c0_i32_154
  let v175 : Index := Scalar.indexCast v174
  let c80 : Index := 80#32
  ![v175.toNat, 80]
def k0_off34 (k0_t5 : Fin k0_t5_loop.trips) (c0_i32_160 : BitVec 32) : Fin 2 → Nat :=
  let c2_i32_159 : BitVec 32 := 2#32
  let c0_i32_98 : BitVec 32 := 0#32
  let c1_i32_100 : BitVec 32 := 1#32
  let arg22 : BitVec 32 := Scf.iv c0_i32_98 c1_i32_100 k0_t5
  let v186 : BitVec 32 := Scalar.muli c2_i32_159 arg22
  let v187 : BitVec 32 := Scalar.addi v186 c0_i32_160
  let v188 : Index := Scalar.indexCast v187
  let c96 : Index := 96#32
  ![v188.toNat, 96]
def k0_off35 (k0_t5 : Fin k0_t5_loop.trips) (c0_i32_166 : BitVec 32) : Fin 2 → Nat :=
  let c2_i32_165 : BitVec 32 := 2#32
  let c0_i32_98 : BitVec 32 := 0#32
  let c1_i32_100 : BitVec 32 := 1#32
  let arg22 : BitVec 32 := Scf.iv c0_i32_98 c1_i32_100 k0_t5
  let v199 : BitVec 32 := Scalar.muli c2_i32_165 arg22
  let v200 : BitVec 32 := Scalar.addi v199 c0_i32_166
  let v201 : Index := Scalar.indexCast v200
  let c112 : Index := 112#32
  ![v201.toNat, 112]
@[reducible] def k0_t6_loop : Scf.Loop 32 :=
  let c0_i32_115 : BitVec 32 := 0#32
  let c64_i32_116 : BitVec 32 := 64#32
  let v99 : BitVec 32 := Scalar.addi c0_i32_115 c64_i32_116
  let c1_i32_117 : BitVec 32 := 1#32
  ⟨c0_i32_115, v99, c1_i32_117⟩
def k0_off36 (k0_t6 : Fin k0_t6_loop.trips) (c0_i32_125 : BitVec 32) : Fin 2 → Nat :=
  let c2_i32_124 : BitVec 32 := 2#32
  let c0_i32_115 : BitVec 32 := 0#32
  let c1_i32_117 : BitVec 32 := 1#32
  let arg22 : BitVec 32 := Scf.iv c0_i32_115 c1_i32_117 k0_t6
  let v108 : BitVec 32 := Scalar.muli c2_i32_124 arg22
  let v109 : BitVec 32 := Scalar.addi v108 c0_i32_125
  let v110 : Index := Scalar.indexCast v109
  let c0 : Index := 0#32
  ![v110.toNat, 0]
def k0_off37 (k0_t6 : Fin k0_t6_loop.trips) (c0_i32_130 : BitVec 32) : Fin 2 → Nat :=
  let c2_i32_129 : BitVec 32 := 2#32
  let c0_i32_115 : BitVec 32 := 0#32
  let c1_i32_117 : BitVec 32 := 1#32
  let arg22 : BitVec 32 := Scf.iv c0_i32_115 c1_i32_117 k0_t6
  let v121 : BitVec 32 := Scalar.muli c2_i32_129 arg22
  let v122 : BitVec 32 := Scalar.addi v121 c0_i32_130
  let v123 : Index := Scalar.indexCast v122
  let c16 : Index := 16#32
  ![v123.toNat, 16]
def k0_off38 (k0_t6 : Fin k0_t6_loop.trips) (c0_i32_136 : BitVec 32) : Fin 2 → Nat :=
  let c2_i32_135 : BitVec 32 := 2#32
  let c0_i32_115 : BitVec 32 := 0#32
  let c1_i32_117 : BitVec 32 := 1#32
  let arg22 : BitVec 32 := Scf.iv c0_i32_115 c1_i32_117 k0_t6
  let v134 : BitVec 32 := Scalar.muli c2_i32_135 arg22
  let v135 : BitVec 32 := Scalar.addi v134 c0_i32_136
  let v136 : Index := Scalar.indexCast v135
  let c32 : Index := 32#32
  ![v136.toNat, 32]
def k0_off39 (k0_t6 : Fin k0_t6_loop.trips) (c0_i32_142 : BitVec 32) : Fin 2 → Nat :=
  let c2_i32_141 : BitVec 32 := 2#32
  let c0_i32_115 : BitVec 32 := 0#32
  let c1_i32_117 : BitVec 32 := 1#32
  let arg22 : BitVec 32 := Scf.iv c0_i32_115 c1_i32_117 k0_t6
  let v147 : BitVec 32 := Scalar.muli c2_i32_141 arg22
  let v148 : BitVec 32 := Scalar.addi v147 c0_i32_142
  let v149 : Index := Scalar.indexCast v148
  let c48 : Index := 48#32
  ![v149.toNat, 48]
def k0_off40 (k0_t6 : Fin k0_t6_loop.trips) (c0_i32_148 : BitVec 32) : Fin 2 → Nat :=
  let c2_i32_147 : BitVec 32 := 2#32
  let c0_i32_115 : BitVec 32 := 0#32
  let c1_i32_117 : BitVec 32 := 1#32
  let arg22 : BitVec 32 := Scf.iv c0_i32_115 c1_i32_117 k0_t6
  let v160 : BitVec 32 := Scalar.muli c2_i32_147 arg22
  let v161 : BitVec 32 := Scalar.addi v160 c0_i32_148
  let v162 : Index := Scalar.indexCast v161
  let c64 : Index := 64#32
  ![v162.toNat, 64]
def k0_off41 (k0_t6 : Fin k0_t6_loop.trips) (c0_i32_154 : BitVec 32) : Fin 2 → Nat :=
  let c2_i32_153 : BitVec 32 := 2#32
  let c0_i32_115 : BitVec 32 := 0#32
  let c1_i32_117 : BitVec 32 := 1#32
  let arg22 : BitVec 32 := Scf.iv c0_i32_115 c1_i32_117 k0_t6
  let v173 : BitVec 32 := Scalar.muli c2_i32_153 arg22
  let v174 : BitVec 32 := Scalar.addi v173 c0_i32_154
  let v175 : Index := Scalar.indexCast v174
  let c80 : Index := 80#32
  ![v175.toNat, 80]
def k0_off42 (k0_t6 : Fin k0_t6_loop.trips) (c0_i32_160 : BitVec 32) : Fin 2 → Nat :=
  let c2_i32_159 : BitVec 32 := 2#32
  let c0_i32_115 : BitVec 32 := 0#32
  let c1_i32_117 : BitVec 32 := 1#32
  let arg22 : BitVec 32 := Scf.iv c0_i32_115 c1_i32_117 k0_t6
  let v186 : BitVec 32 := Scalar.muli c2_i32_159 arg22
  let v187 : BitVec 32 := Scalar.addi v186 c0_i32_160
  let v188 : Index := Scalar.indexCast v187
  let c96 : Index := 96#32
  ![v188.toNat, 96]
def k0_off43 (k0_t6 : Fin k0_t6_loop.trips) (c0_i32_166 : BitVec 32) : Fin 2 → Nat :=
  let c2_i32_165 : BitVec 32 := 2#32
  let c0_i32_115 : BitVec 32 := 0#32
  let c1_i32_117 : BitVec 32 := 1#32
  let arg22 : BitVec 32 := Scf.iv c0_i32_115 c1_i32_117 k0_t6
  let v199 : BitVec 32 := Scalar.muli c2_i32_165 arg22
  let v200 : BitVec 32 := Scalar.addi v199 c0_i32_166
  let v201 : Index := Scalar.indexCast v200
  let c112 : Index := 112#32
  ![v201.toNat, 112]
def k0_cond1 (k0_t1 : Fin k0_t1_loop.trips) : BitVec 1 :=
  let c0_i32_27 : BitVec 32 := 0#32
  let c1_i32_28 : BitVec 32 := 1#32
  let arg21 : BitVec 32 := Scf.iv c0_i32_27 c1_i32_28 k0_t1
  let c39_i32 : BitVec 32 := 39#32
  let v105 : BitVec 1 := Scalar.cmpi .slt arg21 c39_i32
  let v106 : BitVec 32 := Scalar.extui v105
  let c0_i32_123 : BitVec 32 := 0#32
  let v107 : BitVec 1 := Scalar.cmpi .ne v106 c0_i32_123
  v107

def k0_off44 (i : grid0.Coords) (k0_t1 : Fin k0_t1_loop.trips) (c0_i32_124 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_27 : BitVec 32 := 0#32
  let c1_i32_28 : BitVec 32 := 1#32
  let arg21 : BitVec 32 := Scf.iv c0_i32_27 c1_i32_28 k0_t1
  let c5_i32 : BitVec 32 := 5#32
  let v39 : BitVec 32 := Scalar.muli arg21 c5_i32
  let v108 : BitVec 32 := Scalar.addi v39 c0_i32_124
  let c128_i32_125 : BitVec 32 := 128#32
  let v109 : BitVec 32 := Scalar.muli v108 c128_i32_125
  let v110 : BitVec 32 := Scalar.addi v2 v109
  let c0_i32_126 : BitVec 32 := 0#32
  ![v110.toNat, 0]
def k0_off45 (k0_t1 : Fin k0_t1_loop.trips) (c0_i32_129 : BitVec 32) : Fin 2 → Nat :=
  let c1_i32_130 : BitVec 32 := 1#32
  let c0_i32_27 : BitVec 32 := 0#32
  let c1_i32_28 : BitVec 32 := 1#32
  let arg21 : BitVec 32 := Scf.iv c0_i32_27 c1_i32_28 k0_t1
  let c5_i32 : BitVec 32 := 5#32
  let v39 : BitVec 32 := Scalar.muli arg21 c5_i32
  let c5_i32_128 : BitVec 32 := 5#32
  let v113 : BitVec 32 := Scalar.addi v39 c5_i32_128
  let v114 : BitVec 32 := Scalar.addi v113 c0_i32_129
  let v115 : BitVec 32 := Scalar.muli c1_i32_130 v114
  let c0_i32_131 : BitVec 32 := 0#32
  let v116 : BitVec 32 := Scalar.addi v115 c0_i32_131
  let c0_i32_134 : BitVec 32 := 0#32
  ![v116.toNat, 0]
def k0_off46 (i : grid0.Coords) (c24960_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let v24 : BitVec 32 := Scalar.addi v2 c24960_i32
  let c0_i32_30 : BitVec 32 := 0#32
  ![v24.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x200_S32x200x128 : S4096x200.ShapeCasts S32x200x128
  squeezes_S1x200x128_S200x128 : S1x200x128.Squeezes S200x128
  inb_S128x128_S128x128_0_0 : ∀ a, (![0, 0] : Fin 2 → Nat) a + S128x128.size a ≤ S128x128.size a
  inb_S200x128_S1x128_0_0 : ∀ a, (![0, 0] : Fin 2 → Nat) a + S1x128.size a ≤ S200x128.size a
  squeezes_S1x128_S128 : S1x128.Squeezes S128
  inb_S100000x128_S100000x128_0_0 : ∀ a, (![0, 0] : Fin 2 → Nat) a + S100000x128.size a ≤ S100000x128.size a
  gathers_S100000x128_S128x128 : S100000x128.Gathers 0 S128x128
  inb_S200x128_S1x128_1_0 : ∀ a, (![1, 0] : Fin 2 → Nat) a + S1x128.size a ≤ S200x128.size a
  inb_S200x128_S1x128_2_0 : ∀ a, (![2, 0] : Fin 2 → Nat) a + S1x128.size a ≤ S200x128.size a
  inb_S200x128_S1x128_3_0 : ∀ a, (![3, 0] : Fin 2 → Nat) a + S1x128.size a ≤ S200x128.size a
  inb_S200x128_S1x128_4_0 : ∀ a, (![4, 0] : Fin 2 → Nat) a + S1x128.size a ≤ S200x128.size a
  h_S1x16 : 0 < S1x16.numel
  shapeCasts_S1x16_S16 : S1x16.ShapeCasts S16
  shapeCasts_S16_S1x16 : S16.ShapeCasts S1x16
  shapeCasts_S819200x128_S4096x200x128 : S819200x128.ShapeCasts S4096x200x128
  hcc0_scratch6 : 0 + S_.numel ≤ 11
  hcc0_scratch7 : 1 + S_.numel ≤ 11
  hcc0_scratch8 : 2 + S_.numel ≤ 11
  hcc0_scratch9 : 3 + S_.numel ≤ 11
  hcc0_scratch10 : 4 + S_.numel ≤ 11
  hcc0_scratch11 : 5 + S_.numel ≤ 11
  hcc0_scratch12 : 6 + S_.numel ≤ 11
  hcc0_scratch13 : 7 + S_.numel ≤ 11
  hcc0_scratch14 : 8 + S_.numel ≤ 11
  hcc0_scratch15 : 9 + S_.numel ≤ 11
  hcc0_scoped0 : 10 + S_.numel ≤ 11
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x200x128.size a ≤ S32x200x128.size a
  k0_t1_ok : k0_t1_loop.OK
  k0_off2_inb : ∀ k0_t1 : Fin k0_t1_loop.trips, ∀ (r : Fin 5), ∀ a, (k0_off2 k0_t1 (BitVec.ofNat 32 r.val)) a + S1x128.size a ≤ S200x128.size a
  k0_t2_ok : k0_t2_loop.OK
  k0_off3_inb : ∀ k0_t2 : Fin k0_t2_loop.trips, ∀ (r : Fin 2), ∀ a, (k0_off3 k0_t2 (BitVec.ofNat 32 r.val)) a + S1x16.size a ≤ S128x128.size a
  k0_off4_inb : ∀ k0_t2 : Fin k0_t2_loop.trips, ∀ (r : Fin 2), ∀ a, (k0_off4 k0_t2 (BitVec.ofNat 32 r.val)) a + S1x16.size a ≤ S128x128.size a
  k0_off5_inb : ∀ k0_t2 : Fin k0_t2_loop.trips, ∀ (r : Fin 2), ∀ a, (k0_off5 k0_t2 (BitVec.ofNat 32 r.val)) a + S1x16.size a ≤ S128x128.size a
  k0_off6_inb : ∀ k0_t2 : Fin k0_t2_loop.trips, ∀ (r : Fin 2), ∀ a, (k0_off6 k0_t2 (BitVec.ofNat 32 r.val)) a + S1x16.size a ≤ S128x128.size a
  k0_off7_inb : ∀ k0_t2 : Fin k0_t2_loop.trips, ∀ (r : Fin 2), ∀ a, (k0_off7 k0_t2 (BitVec.ofNat 32 r.val)) a + S1x16.size a ≤ S128x128.size a
  k0_off8_inb : ∀ k0_t2 : Fin k0_t2_loop.trips, ∀ (r : Fin 2), ∀ a, (k0_off8 k0_t2 (BitVec.ofNat 32 r.val)) a + S1x16.size a ≤ S128x128.size a
  k0_off9_inb : ∀ k0_t2 : Fin k0_t2_loop.trips, ∀ (r : Fin 2), ∀ a, (k0_off9 k0_t2 (BitVec.ofNat 32 r.val)) a + S1x16.size a ≤ S128x128.size a
  k0_off10_inb : ∀ k0_t2 : Fin k0_t2_loop.trips, ∀ (r : Fin 2), ∀ a, (k0_off10 k0_t2 (BitVec.ofNat 32 r.val)) a + S1x16.size a ≤ S128x128.size a
  k0_off11_inb : ∀ (i : grid0.Coords) (k0_t1 : Fin k0_t1_loop.trips), ∀ (r : Fin 5), ∀ a, (k0_off11 i k0_t1 (BitVec.ofNat 32 r.val)) a + S128x128.size a ≤ S819200x128.size a
  k0_t3_ok : k0_t3_loop.OK
  k0_off12_inb : ∀ k0_t3 : Fin k0_t3_loop.trips, ∀ (r : Fin 2), ∀ a, (k0_off12 k0_t3 (BitVec.ofNat 32 r.val)) a + S1x16.size a ≤ S128x128.size a
  k0_off13_inb : ∀ k0_t3 : Fin k0_t3_loop.trips, ∀ (r : Fin 2), ∀ a, (k0_off13 k0_t3 (BitVec.ofNat 32 r.val)) a + S1x16.size a ≤ S128x128.size a
  k0_off14_inb : ∀ k0_t3 : Fin k0_t3_loop.trips, ∀ (r : Fin 2), ∀ a, (k0_off14 k0_t3 (BitVec.ofNat 32 r.val)) a + S1x16.size a ≤ S128x128.size a
  k0_off15_inb : ∀ k0_t3 : Fin k0_t3_loop.trips, ∀ (r : Fin 2), ∀ a, (k0_off15 k0_t3 (BitVec.ofNat 32 r.val)) a + S1x16.size a ≤ S128x128.size a
  k0_off16_inb : ∀ k0_t3 : Fin k0_t3_loop.trips, ∀ (r : Fin 2), ∀ a, (k0_off16 k0_t3 (BitVec.ofNat 32 r.val)) a + S1x16.size a ≤ S128x128.size a
  k0_off17_inb : ∀ k0_t3 : Fin k0_t3_loop.trips, ∀ (r : Fin 2), ∀ a, (k0_off17 k0_t3 (BitVec.ofNat 32 r.val)) a + S1x16.size a ≤ S128x128.size a
  k0_off18_inb : ∀ k0_t3 : Fin k0_t3_loop.trips, ∀ (r : Fin 2), ∀ a, (k0_off18 k0_t3 (BitVec.ofNat 32 r.val)) a + S1x16.size a ≤ S128x128.size a
  k0_off19_inb : ∀ k0_t3 : Fin k0_t3_loop.trips, ∀ (r : Fin 2), ∀ a, (k0_off19 k0_t3 (BitVec.ofNat 32 r.val)) a + S1x16.size a ≤ S128x128.size a
  k0_t4_ok : k0_t4_loop.OK
  k0_off20_inb : ∀ k0_t4 : Fin k0_t4_loop.trips, ∀ (r : Fin 2), ∀ a, (k0_off20 k0_t4 (BitVec.ofNat 32 r.val)) a + S1x16.size a ≤ S128x128.size a
  k0_off21_inb : ∀ k0_t4 : Fin k0_t4_loop.trips, ∀ (r : Fin 2), ∀ a, (k0_off21 k0_t4 (BitVec.ofNat 32 r.val)) a + S1x16.size a ≤ S128x128.size a
  k0_off22_inb : ∀ k0_t4 : Fin k0_t4_loop.trips, ∀ (r : Fin 2), ∀ a, (k0_off22 k0_t4 (BitVec.ofNat 32 r.val)) a + S1x16.size a ≤ S128x128.size a
  k0_off23_inb : ∀ k0_t4 : Fin k0_t4_loop.trips, ∀ (r : Fin 2), ∀ a, (k0_off23 k0_t4 (BitVec.ofNat 32 r.val)) a + S1x16.size a ≤ S128x128.size a
  k0_off24_inb : ∀ k0_t4 : Fin k0_t4_loop.trips, ∀ (r : Fin 2), ∀ a, (k0_off24 k0_t4 (BitVec.ofNat 32 r.val)) a + S1x16.size a ≤ S128x128.size a
  k0_off25_inb : ∀ k0_t4 : Fin k0_t4_loop.trips, ∀ (r : Fin 2), ∀ a, (k0_off25 k0_t4 (BitVec.ofNat 32 r.val)) a + S1x16.size a ≤ S128x128.size a
  k0_off26_inb : ∀ k0_t4 : Fin k0_t4_loop.trips, ∀ (r : Fin 2), ∀ a, (k0_off26 k0_t4 (BitVec.ofNat 32 r.val)) a + S1x16.size a ≤ S128x128.size a
  k0_off27_inb : ∀ k0_t4 : Fin k0_t4_loop.trips, ∀ (r : Fin 2), ∀ a, (k0_off27 k0_t4 (BitVec.ofNat 32 r.val)) a + S1x16.size a ≤ S128x128.size a
  k0_t5_ok : k0_t5_loop.OK
  k0_off28_inb : ∀ k0_t5 : Fin k0_t5_loop.trips, ∀ (r : Fin 2), ∀ a, (k0_off28 k0_t5 (BitVec.ofNat 32 r.val)) a + S1x16.size a ≤ S128x128.size a
  k0_off29_inb : ∀ k0_t5 : Fin k0_t5_loop.trips, ∀ (r : Fin 2), ∀ a, (k0_off29 k0_t5 (BitVec.ofNat 32 r.val)) a + S1x16.size a ≤ S128x128.size a
  k0_off30_inb : ∀ k0_t5 : Fin k0_t5_loop.trips, ∀ (r : Fin 2), ∀ a, (k0_off30 k0_t5 (BitVec.ofNat 32 r.val)) a + S1x16.size a ≤ S128x128.size a
  k0_off31_inb : ∀ k0_t5 : Fin k0_t5_loop.trips, ∀ (r : Fin 2), ∀ a, (k0_off31 k0_t5 (BitVec.ofNat 32 r.val)) a + S1x16.size a ≤ S128x128.size a
  k0_off32_inb : ∀ k0_t5 : Fin k0_t5_loop.trips, ∀ (r : Fin 2), ∀ a, (k0_off32 k0_t5 (BitVec.ofNat 32 r.val)) a + S1x16.size a ≤ S128x128.size a
  k0_off33_inb : ∀ k0_t5 : Fin k0_t5_loop.trips, ∀ (r : Fin 2), ∀ a, (k0_off33 k0_t5 (BitVec.ofNat 32 r.val)) a + S1x16.size a ≤ S128x128.size a
  k0_off34_inb : ∀ k0_t5 : Fin k0_t5_loop.trips, ∀ (r : Fin 2), ∀ a, (k0_off34 k0_t5 (BitVec.ofNat 32 r.val)) a + S1x16.size a ≤ S128x128.size a
  k0_off35_inb : ∀ k0_t5 : Fin k0_t5_loop.trips, ∀ (r : Fin 2), ∀ a, (k0_off35 k0_t5 (BitVec.ofNat 32 r.val)) a + S1x16.size a ≤ S128x128.size a
  k0_t6_ok : k0_t6_loop.OK
  k0_off36_inb : ∀ k0_t6 : Fin k0_t6_loop.trips, ∀ (r : Fin 2), ∀ a, (k0_off36 k0_t6 (BitVec.ofNat 32 r.val)) a + S1x16.size a ≤ S128x128.size a
  k0_off37_inb : ∀ k0_t6 : Fin k0_t6_loop.trips, ∀ (r : Fin 2), ∀ a, (k0_off37 k0_t6 (BitVec.ofNat 32 r.val)) a + S1x16.size a ≤ S128x128.size a
  k0_off38_inb : ∀ k0_t6 : Fin k0_t6_loop.trips, ∀ (r : Fin 2), ∀ a, (k0_off38 k0_t6 (BitVec.ofNat 32 r.val)) a + S1x16.size a ≤ S128x128.size a
  k0_off39_inb : ∀ k0_t6 : Fin k0_t6_loop.trips, ∀ (r : Fin 2), ∀ a, (k0_off39 k0_t6 (BitVec.ofNat 32 r.val)) a + S1x16.size a ≤ S128x128.size a
  k0_off40_inb : ∀ k0_t6 : Fin k0_t6_loop.trips, ∀ (r : Fin 2), ∀ a, (k0_off40 k0_t6 (BitVec.ofNat 32 r.val)) a + S1x16.size a ≤ S128x128.size a
  k0_off41_inb : ∀ k0_t6 : Fin k0_t6_loop.trips, ∀ (r : Fin 2), ∀ a, (k0_off41 k0_t6 (BitVec.ofNat 32 r.val)) a + S1x16.size a ≤ S128x128.size a
  k0_off42_inb : ∀ k0_t6 : Fin k0_t6_loop.trips, ∀ (r : Fin 2), ∀ a, (k0_off42 k0_t6 (BitVec.ofNat 32 r.val)) a + S1x16.size a ≤ S128x128.size a
  k0_off43_inb : ∀ k0_t6 : Fin k0_t6_loop.trips, ∀ (r : Fin 2), ∀ a, (k0_off43 k0_t6 (BitVec.ofNat 32 r.val)) a + S1x16.size a ≤ S128x128.size a
  k0_off44_inb : ∀ (i : grid0.Coords) (k0_t1 : Fin k0_t1_loop.trips), ∀ (k0_h1 : k0_cond1 k0_t1 = 1#1), ∀ (r : Fin 5), ∀ a, (k0_off44 i k0_t1 (BitVec.ofNat 32 r.val)) a + S128x128.size a ≤ S819200x128.size a
  k0_off45_inb : ∀ k0_t1 : Fin k0_t1_loop.trips, ∀ (k0_h1 : k0_cond1 k0_t1 = 1#1), ∀ (r : Fin 5), ∀ a, (k0_off45 k0_t1 (BitVec.ofNat 32 r.val)) a + S1x128.size a ≤ S200x128.size a
  k0_off46_inb : ∀ i : grid0.Coords, ∀ (r : Fin 5), ∀ a, (k0_off46 i (BitVec.ofNat 32 (24960 + 128 * r.val))) a + S128x128.size a ≤ S819200x128.size a

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scratch9 : DmaSems sig S_ := SemArray.consecutive 3 S_ hcc0_scratch9
abbrev cc0_scratch10 : DmaSems sig S_ := SemArray.consecutive 4 S_ hcc0_scratch10
abbrev cc0_scratch11 : DmaSems sig S_ := SemArray.consecutive 5 S_ hcc0_scratch11
abbrev cc0_scratch12 : DmaSems sig S_ := SemArray.consecutive 6 S_ hcc0_scratch12
abbrev cc0_scratch13 : DmaSems sig S_ := SemArray.consecutive 7 S_ hcc0_scratch13
abbrev cc0_scratch14 : DmaSems sig S_ := SemArray.consecutive 8 S_ hcc0_scratch14
abbrev cc0_scratch15 : DmaSems sig S_ := SemArray.consecutive 9 S_ hcc0_scratch15
abbrev cc0_scoped0 : DmaSems sig S_ := SemArray.consecutive 10 S_ hcc0_scoped0

class Facts : Prop extends Facts₀ where

variable [Facts]
-- ==== ReferenceIdeal.lean ====
abbrev S4096x200 : Shape := ⟨2, ![4096, 200]⟩
abbrev S100000x128 : Shape := ⟨2, ![100000, 128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩

abbrev nBuf : Space → Nat
  | .hbm => 28
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S100000x128, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x128, .f32⟩
  | .hbm, ⟨21, _⟩ => ⟨S4096x200x128, .i1⟩
  | .hbm, ⟨22, _⟩ => ⟨S_, .f32⟩
  | .hbm, ⟨23, _⟩ => ⟨S4096x200x128, .f32⟩
  | .hbm, ⟨24, _⟩ => ⟨S4096x200x128, .f32⟩
  | .hbm, ⟨25, _⟩ => ⟨S_, .f32⟩
  | .hbm, ⟨26, _⟩ => ⟨S4096x200x128, .f32⟩
  | .hbm, ⟨27, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_v2 : Ref sig .tc := ⟨.hbm, 27, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x128_0_1 : S4096x200.BroadcastsInDim S4096x200x128 (![0, 1] : Fin 2 → Fin S4096x200x128.rank)
  bcast_S_S4096x200x128 : S_.BroadcastsInDim S4096x200x128 (![] : Fin 0 → Fin S4096x200x128.rank)
  gather_S100000x128_S4096x200x1_S4096x200x128_2_0_n_n_0_2_1128_wf : GatherDims.WF S100000x128 S4096x200x1 S4096x200x128 [2] [0] [] [0] [] 2 ![1, 128]

variable [Facts₀]

def gather_S100000x128_S4096x200x1_S4096x200x128_2_0_n_n_0_2_1128 : GatherDims S100000x128 S4096x200x1 S4096x200x128 where
  offsetDims := [2]
  collapsedSliceDims := [0]
  operandBatchingDims := []
  startIndicesBatchingDims := []
  startIndexMap := [0]
  indexVectorDim := 2
  sliceSizes := ![1, 128]
  wf := gather_S100000x128_S4096x200x1_S4096x200x128_2_0_n_n_0_2_1128_wf

class Facts : Prop extends Facts₀ where

variable [Facts]
-- ==== Proof.Spec.lean ====
/-
  The lookup both programs compute, as one function of the two argument arrays.

  `tok` is a 4096 x 200 array of 32-bit words and `tab` a 100000 x 128 table of floats. Entry (a, b, q) of the
  result is entry q of the table row that token (a, b) names, times one fixed float (the scale, the same word in
  both programs). A word that names no row of the table is sent to the last row, so that the function is total;
  under the precondition (every token between 0 and 99999) that clause is never used.

  The kernel produces the same numbers as an 819200 x 128 array: flat row n = 200 * a + b holds result row (a, b).
  `flat` is that array, and `G_eq_flat` says the final reshape of `flat` is `G`.
-/
import Idealize.ShloMosaic.PureOps.Ideal
import Idealize.ShloMosaic.Lib.ValueIdx

noncomputable section

namespace Cert.Spec

open Idealize.ShloMosaic Idealize.ShloMosaic.ValueIdx

abbrev STok : Shape := ⟨2, ![4096, 200]⟩
abbrev STab : Shape := ⟨2, ![100000, 128]⟩
abbrev SRes : Shape := ⟨3, ![4096, 200, 128]⟩
abbrev SFlat : Shape := ⟨2, ![819200, 128]⟩
abbrev SIdx : Shape := ⟨3, ![32, 200, 128]⟩

/-- The table row a token word names; a word beyond the table is sent to the last row. -/
def rowOf (w : BitVec 32) : Fin 100000 := ⟨min w.toNat 99999, by omega⟩

theorem rowOf_val_of_le {w : BitVec 32} (h : w.toNat ≤ 99999) : (rowOf w).val = w.toNat := by
  show min w.toNat 99999 = w.toNat; omega

variable {F : FTy → Type} [FloatOps F]

/-- The scale: the float whose word is 0x413504F3 (the single-precision rounding of the square root of 128). -/
def scale : F .f32 := FloatOps.ofBits .f32 0x413504F3#32

/-- The lookup: entry (a, b, q) is entry q of the table row token (a, b) names, times the scale. -/
def G (tok : IVec STok 32) (tab : FVec F STab .f32) : FVec F SRes .f32 :=
  fun j => FloatOps.mulf (tab (ix2 (rowOf (tok (ix2 (j 0) (j 1)))) (j 2))) scale

/-- Token number n of the 819200 tokens, read in row-major order: token (n / 200, n % 200). -/
def tokAt (tok : IVec STok 32) (n : Fin 819200) : BitVec 32 :=
  tok (ix2 ⟨n.val / 200, by have := n.isLt; omega⟩ ⟨n.val % 200, Nat.mod_lt _ (by omega)⟩)

/-- The lookup laid out flat: row n is the scaled table row of token number n. -/
def flat (tok : IVec STok 32) (tab : FVec F STab .f32) : FVec F SFlat .f32 :=
  fun j => FloatOps.mulf (tab (ix2 (rowOf (tokAt tok (j 0))) (j 1))) scale

end Cert.Spec

end
-- ==== Proof.PreDecode.lean ====
/-
  The precondition read as a range on the tokens.

  The precondition is a program that returns one bit. It computes "every table entry is finite" as an and over the
  whole table, and "every token t has 0 <= t and t <= 99999" (both comparisons signed) as an and over all tokens, and
  returns the and of the two bits. If the returned bit is 1 then the second bit is 1, so the and over all tokens is 1,
  so at every token both comparison bits are 1. A 32-bit word whose signed value lies between 0 and 99999 has its top
  bit clear, so its unsigned value is the same number: at most 99999. The finiteness half is not used here.
-/
import proofs.«219849_g103079215527_week1_w1_1010_20_alg».proof.Pre_input_domain
import proofs.«219849_g103079215527_week1_w1_1010_20_alg».proof.Proof.Gen.Pre_input_domain
import proofs.«219849_g103079215527_week1_w1_1010_20_alg».proof.Proof.Spec
import Idealize.ShloMosaic.Lib.ReduceAll

namespace Cert.PreDecode

open Idealize.ShloMosaic Cert.Pre_input_domain

/-- The scalar shape has exactly one index. -/
instance : Subsingleton S_.Idx := ⟨fun _ _ => funext fun d => d.elim0⟩

/-- A 32-bit word whose signed value is between 0 and 99999 reads the same unsigned. -/
theorem toNat_le_of_toInt (w : BitVec 32) (h0 : 0 ≤ w.toInt) (h1 : w.toInt ≤ 99999) : w.toNat ≤ 99999 := by
  have c := BitVec.toInt_eq_toNat_cond w
  have := w.isLt
  split at c <;> omega

/-- If the precondition's bit is 1, every token is at most 99999 as an unsigned number. -/
theorem tokens_le {F : FTy → Type} [FloatOps F] (tok : IVec S4096x200 32) (tab : FVec F S100000x128 .f32)
    (h : Cert.Pre_input_domain.fn (F := F) tok tab = fun _ => 1#1) : ∀ i, (tok i).toNat ≤ 99999 := by
  intro i
  -- the returned bit, at the scalar shape's one index
  have h0 := congrFun h (fun a => a.elim0)
  dsimp only [Cert.Pre_input_domain.fn] at h0
  -- the and of the two halves is 1: keep the token half
  have h1 := (IntOp.andi_eq_one.1 h0).2
  -- the and over all tokens is 1: so is the entry at token i
  have h2 := Host.reduce_andi_all _ _ _ _ _ h1 i
  -- that entry is the and of the two comparisons
  obtain ⟨hge, hle⟩ := IntOp.andi_eq_one.1 h2
  have hge' : (0#32 : BitVec 32).toInt ≤ (tok i).toInt := IntOp.cmpi_sge.1 hge
  have hle' : (tok i).toInt ≤ (99999#32 : BitVec 32).toInt := IntOp.cmpi_sle.1 hle
  have z : (0#32 : BitVec 32).toInt = 0 := by decide
  have n : (99999#32 : BitVec 32).toInt = 99999 := by decide
  exact toNat_le_of_toInt _ (by omega) (by omega)

end Cert.PreDecode
-- ==== Proof.RefTerm.lean ====
/-
  The value the reference computes, as one term of its two arguments, and why that term is the lookup.

  The reference is jnp.take(table, tokens, axis=0) times a constant. Operation by operation it does this:
    * a token t that reads negative is replaced by t + 100000 (Python's negative indexing);
    * the result is compared with 0 and with 99999 to give a mask "this index names a row of the table";
    * the table rows are gathered at the indices, each index read signed and clamped into 0 .. 99999;
    * where the mask is off the gathered value is replaced by a NaN;
    * everything is multiplied by the float whose word is 0x413504F3.
  When every token t has 0 <= t <= 99999 (as an unsigned number; such a word reads the same signed):
    * no token reads negative, so no token is replaced;
    * the mask is on everywhere, so no NaN is ever selected;
    * the clamp does nothing, so the gathered row is row t;
  and entry (a, b, q) of the result is table entry (t, q) times the constant, for t the token (a, b). That is the
  lookup of Spec.lean.

  Everything below is proved at one index at a time: no array of full size is ever evaluated.
-/
import proofs.«219849_g103079215527_week1_w1_1010_20_alg».proof.ReferenceIdeal
import proofs.«219849_g103079215527_week1_w1_1010_20_alg».proof.Proof.Gen.ReferenceIdeal
import proofs.«219849_g103079215527_week1_w1_1010_20_alg».proof.Proof.Spec
import Idealize.ShloMosaic.Lib.ValueIdx
import Idealize.ShloMosaic.Lib.ReduceAll
import Idealize.ShloMosaic.Lib.Pipeline.Value

noncomputable section

namespace Cert.RefSide

open Cert.ReferenceIdeal Cert.ReferenceIdeal.Gen Idealize.ShloMosaic Idealize.ShloMosaic.ValueIdx

/-! ## A gather of whole rows, read at an index -/

section TakeRows
variable {α : Type}

/-- The dimension numbers of "rows of an N x D table at an R x C x 1 array of row numbers": the result is R x C x D,
    its last axis runs along the row, the table's first axis is indexed and collapsed. -/
abbrev takeRowsDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The position (t, j, 0) of the row numbers that result position (t, j, q) reads. -/
abbrev takeRowsIdx {R C D : Nat} (y : (⟨3, ![R, C, D]⟩ : Shape).Idx) : (⟨3, ![R, C, 1]⟩ : Shape).Idx :=
  ix3 (y 0 : Fin R) (y 1 : Fin C) (⟨0, Nat.one_pos⟩ : Fin 1)

/-- The gather read at (t, j, q): entry q of the table row whose number is the word at (t, j, 0), read signed and
    clamped into 0 .. N - 1. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (y : (⟨3, ![R, C, D]⟩ : Shape).Idx) :
    Host.gather (takeRowsDims N D R C wf) x idx y
      = x (ix2 (⟨min (idx (takeRowsIdx y)).toInt.toNat (N - 1), by omega⟩ : Fin N) (y 2 : Fin D)) := by
  unfold Host.gather
  congr 1
  funext a
  refine Fin.ext ?_
  match a with
  | ⟨0, _⟩ =>
    show (takeRowsDims N D R C wf).start y idx 0 + (takeRowsDims N D R C wf).batchCoord y 0
      + (takeRowsDims N D R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRowsDims N D R C wf).startIndexMap from List.mem_singleton.mpr rfl)]
    have hsi : (takeRowsDims N D R C wf).siIdx y ⟨List.idxOf (0 : Fin 2) (takeRowsDims N D R C wf).startIndexMap,
        List.idxOf_lt_length_iff.2 (List.mem_singleton.mpr rfl)⟩ = takeRowsIdx y := by
      funext b; refine Fin.ext ?_
      match b with
      | ⟨0, _⟩ => rfl
      | ⟨1, _⟩ => rfl
      | ⟨2, _⟩ => rfl
    rw [hsi]
    rfl
  | ⟨1, _⟩ =>
    show (takeRowsDims N D R C wf).start y idx 1 + (takeRowsDims N D R C wf).batchCoord y 1
      + (takeRowsDims N D R C wf).offCoord y 1 = (y 2).val
    rw [GatherDims.batchCoord_eq_zero _ _ _ List.not_mem_nil]
    have hs : (takeRowsDims N D R C wf).start y idx 1 = 0 := by
      unfold GatherDims.start
      rw [dif_neg (show ¬ (1 : Fin 2) ∈ ([0] : List (Fin 2)) from by decide)]
    have hk : (1 : Fin 2) ∈ (takeRowsDims N D R C wf).sKept :=
      (GatherDims.mem_sKept _ _).mpr ⟨show ¬ (1 : Fin 2) ∈ ([0] : List (Fin 2)) from by decide, List.not_mem_nil⟩
    have ho : (takeRowsDims N D R C wf).offCoord y 1 = (y 2).val := by
      unfold GatherDims.offCoord
      rw [dif_pos hk]
      rfl
    rw [hs, ho]
    omega

end TakeRows

/-! ## Words between 0 and 99999 -/

/-- A 32-bit word that is at most 99999 unsigned reads the same signed. -/
theorem toInt_of_le {w : BitVec 32} (h : w.toNat ≤ 99999) : w.toInt = (w.toNat : Int) := by
  have c := BitVec.toInt_eq_toNat_cond w
  split at c <;> omega

/-- An and of one-bit words, started at 1, that meets only 1s is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons.2 (Or.inl rfl)), show IntOp.andi 1#1 1#1 = 1#1 from by decide]
    exact foldl_andi_ones f l (fun n hn => h n (List.mem_cons.2 (Or.inr hn)))

/-! ## The reference's value, named piece by piece -/

/-- The index after Python's wrap: a token that reads negative has 100000 added. -/
def idx (tok : IVec S4096x200 32) : IVec S4096x200 32 :=
  select (cmpi .slt tok (broadcastInDim S4096x200 ![] bcast_S_S4096x200 (constantI S_ 32 0#32)))
    (addi tok (broadcastInDim S4096x200 ![] bcast_S_S4096x200 (constantI S_ 32 100000#32))) tok

/-- The same with a trailing axis of length one: the gather's row numbers. -/
def idx3 (tok : IVec S4096x200 32) : IVec S4096x200x1 32 :=
  broadcastInDim S4096x200x1 ![0, 1] bcast_S4096x200_S4096x200x1_0_1 (idx tok)

/-- The mask "the index names a row": 0 <= index and index <= 99999, and-ed over the trailing axis. -/
def mask (tok : IVec S4096x200 32) : IVec S4096x200 1 :=
  Host.reduce IntOp.andi
    (andi (cmpi .sge (idx3 tok) (broadcastInDim S4096x200x1 ![] bcast_S_S4096x200x1 (constantI S_ 32 0#32)))
      (cmpi .sle (idx3 tok) (broadcastInDim S4096x200x1 ![0, 1, 2] bcast_S1x1x1_S4096x200x1_0_1_2
        (broadcastInDim S1x1x1 ![2] bcast_S1_S1x1x1_2 (constantI S1 32 99999#32)))))
    (constantI S_ 1 1#1) reducesTo_S4096x200x1_S4096x200_d2 h_S_

variable {F : FTy → Type} [FloatOps F]

/-- The reference's result as a function of its arguments: the gathered rows, NaN where the mask is off, times the
    constant. Stated for any float instance: nothing below depends on which. -/
def refTerm (tok : IVec S4096x200 32) (tab : FVec F S100000x128 .f32) : FVec F S4096x200x128 .f32 :=
  mulf
    (select (broadcastInDim S4096x200x128 ![0, 1] bcast_S4096x200_S4096x200x128_0_1 (mask tok))
      (Host.gather gather_S100000x128_S4096x200x1_S4096x200x128_2_0_n_n_0_2_1128 tab (idx3 tok))
      (broadcastInDim S4096x200x128 ![] bcast_S_S4096x200x128 (constant S_ .f32 0x7FC00000#32)))
    (broadcastInDim S4096x200x128 ![] bcast_S_S4096x200x128 (constant S_ .f32 0x413504F3#32))

/-- A product of two arrays read at an index is the product of the entries. -/
theorem mulf_at {s : Shape} {φ : FTy} (x y : FVec F s φ) (i : s.Idx) :
    mulf x y i = FloatOps.mulf (x i) (y i) := rfl

/-! ## The pieces under the precondition -/

section Under
variable (tok : IVec S4096x200 32) (hin : ∀ i, (tok i).toNat ≤ 99999)
include hin

/-- No token reads negative, so the wrap changes nothing. -/
theorem idx_apply (k : S4096x200.Idx) : idx tok k = tok k := by
  show Scalar.select (IntOp.cmpi .slt (tok k) 0#32) (IntOp.addi (tok k) 100000#32) (tok k) = tok k
  have hlt : ¬ IntOp.cmpi .slt (tok k) (0#32 : BitVec 32) = 1#1 := by
    rw [IntOp.cmpi_slt, toInt_of_le (hin k)]
    have z : (0#32 : BitVec 32).toInt = 0 := by decide
    omega
  rw [eq_zero_of_ne_one hlt, select_zero]

/-- The row number at (a, b, 0) is token (a, b). -/
theorem idx3_apply (i : S4096x200x1.Idx) : idx3 tok i = tok (ix2 (i 0 : Fin 4096) (i 1 : Fin 200)) := by
  unfold idx3
  rw [broadcastInDim_apply ![0, 1] bcast_S4096x200_S4096x200x1_0_1 (idx tok) i (ix2 (i 0 : Fin 4096) (i 1 : Fin 200))
    (fun a => match a with | ⟨0, _⟩ => rfl | ⟨1, _⟩ => rfl)]
  exact idx_apply tok hin _

/-- The mask is on everywhere. -/
theorem mask_apply (k : S4096x200.Idx) : mask tok k = 1#1 := by
  unfold mask
  rw [Host.reduce_eq_foldl]
  refine foldl_andi_ones _ _ (fun i _ => ?_)
  show IntOp.andi (IntOp.cmpi .sge (idx3 tok i) (0#32 : BitVec 32)) (IntOp.cmpi .sle (idx3 tok i) (99999#32 : BitVec 32)) = 1#1
  rw [idx3_apply tok hin i, IntOp.andi_eq_one, IntOp.cmpi_sge, IntOp.cmpi_sle, toInt_of_le (hin _)]
  have z : (0#32 : BitVec 32).toInt = 0 := by decide
  have n : (99999#32 : BitVec 32).toInt = 99999 := by decide
  have := hin (ix2 (i 0 : Fin 4096) (i 1 : Fin 200))
  constructor <;> omega

/-- The gathered value at (a, b, q) is entry q of the row token (a, b) names. -/
theorem gather_apply (tab : FVec F S100000x128 .f32) (j : S4096x200x128.Idx) :
    Host.gather gather_S100000x128_S4096x200x1_S4096x200x128_2_0_n_n_0_2_1128 tab (idx3 tok) j
      = tab (ix2 (Cert.Spec.rowOf (tok (ix2 (j 0 : Fin 4096) (j 1 : Fin 200)))) (j 2 : Fin 128)) := by
  have e := gather_rows_apply (N := 100000) (D := 128) (R := 4096) (C := 200) (by omega)
    gather_S100000x128_S4096x200x1_S4096x200x128_2_0_n_n_0_2_1128_wf tab (idx3 tok) j
  refine e.trans ?_
  have h3 : idx3 tok (takeRowsIdx j) = tok (ix2 (j 0 : Fin 4096) (j 1 : Fin 200)) := idx3_apply tok hin _
  have hle := hin (ix2 (j 0 : Fin 4096) (j 1 : Fin 200))
  have hrow : (⟨min (idx3 tok (takeRowsIdx j)).toInt.toNat (100000 - 1), by omega⟩ : Fin 100000)
      = Cert.Spec.rowOf (tok (ix2 (j 0 : Fin 4096) (j 1 : Fin 200))) := by
    refine Fin.ext ?_
    show min (idx3 tok (takeRowsIdx j)).toInt.toNat (100000 - 1) = min (tok (ix2 (j 0 : Fin 4096) (j 1 : Fin 200))).toNat 99999
    rw [h3, toInt_of_le hle]
    simp only [Int.toNat_natCast]
  rw [hrow]

/-- The reference's value is the lookup. The mask is read through its broadcast by the broadcast's index lemma and
    then rewritten to 1, so that the reduction defining it is never opened. -/
theorem refTerm_eq_G (tab : FVec F S100000x128 .f32) : refTerm tok tab = Cert.Spec.G (F := F) tok tab := by
  funext j
  have hm : broadcastInDim S4096x200x128 ![0, 1] bcast_S4096x200_S4096x200x128_0_1 (mask tok) j = 1#1 :=
    (broadcastInDim_apply ![0, 1] bcast_S4096x200_S4096x200x128_0_1 (mask tok) j (ix2 (j 0 : Fin 4096) (j 1 : Fin 200))
      (fun a => match a with | ⟨0, _⟩ => rfl | ⟨1, _⟩ => rfl)).trans (mask_apply tok hin _)
  unfold refTerm
  rw [mulf_at, select_apply, hm, select_one, gather_apply tok hin tab j]
  rfl

end Under

end Cert.RefSide

end
-- ==== Proof.RefRun.lean ====
/-
  The reference program's run.

  The reference's entry function calls one helper (the table lookup), which calls another (a select); then it makes a
  constant, broadcasts it and multiplies. With the two calls opened at their call sites the program is a straight line
  of 26 array operations, each writing a buffer of its own. Such a line always terminates, and afterwards every buffer
  holds what its operation computes from the buffers before it. Reading the last buffer back through the 26 operations
  gives one term of the two argument arrays (RefTerm.lean's refTerm); the arguments are written by no operation and
  keep their contents. Under the precondition (every token at most 99999) that term is the lookup of Spec.lean.

  The read-back is proved with the and-reduction and the gather replaced by arbitrary functions: which buffer feeds
  which operation does not depend on what those two compute, and with them arbitrary no array of full size can be
  evaluated along the way. The program's own line is the instance at the real reduction and gather.
-/
import proofs.«219849_g103079215527_week1_w1_1010_20_alg».proof.Proof.RefTerm
import Idealize.ShloMosaic.Lib.StableHlo.Run

noncomputable section

namespace Cert.RefSide

open Cert.ReferenceIdeal Cert.ReferenceIdeal.Gen Idealize.ShloMosaic Idealize.ShloMosaic.TcCoe Idealize.SL.Sem
  Idealize.ShloMosaic.StableHlo

variable {F : FTy → Type} [FloatOps F]

/-- The entry function's 26 operations in order, the two calls opened: the lookup's 23 (the select of the inner call
    is the seventh) over the call's own buffers, then the constant, its broadcast and the multiply; with the
    and-reduction `red` and the gather `gat` as parameters. -/
abbrev opsOf (red : IVec S4096x200x1 1 → IVec S_ 1 → IVec S4096x200 1)
    (gat : FVec F S100000x128 .f32 → IVec S4096x200x1 32 → FVec F S4096x200x128 .f32) : List (HloOp τ sig (Elt F)) :=
  [ TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 100000#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1),
    TRef.nullary main_call0.c_1 (constantI S1 32 99999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 red,
    TRef.binary (.of main_arg1) main_call0.v5 main_call0.v13 gat,
    TRef.unary main_call0.v12 main_call0.v14 (broadcastInDim S4096x200x128 ![0, 1] bcast_S4096x200_S4096x200x128_0_1),
    TRef.nullary main_call0.cst (constant S_ .f32 0x7FC00000#32),
    TRef.unary main_call0.cst main_call0.v15 (broadcastInDim S4096x200x128 ![] bcast_S_S4096x200x128),
    TRef.ternary main_call0.v14 main_call0.v13 main_call0.v15 main_call0.v16 select,
    nullary main_cst (constant S_ .f32 0x413504F3#32),
    unary main_cst main_v1 (broadcastInDim S4096x200x128 ![] bcast_S_S4096x200x128 : (⟨S_, .f32⟩ : BufTy).Contents (Elt F) → (⟨S4096x200x128, .f32⟩ : BufTy).Contents (Elt F)),
    binary main_v0 main_v1 main_v2 (mulf : (⟨S4096x200x128, .f32⟩ : BufTy).Contents (Elt F) → (⟨S4096x200x128, .f32⟩ : BufTy).Contents (Elt F) → (⟨S4096x200x128, .f32⟩ : BufTy).Contents (Elt F)) ]

/-- The term the 26 operations compose to, with the same two parameters. -/
def termOf (red : IVec S4096x200x1 1 → IVec S_ 1 → IVec S4096x200 1)
    (gat : FVec F S100000x128 .f32 → IVec S4096x200x1 32 → FVec F S4096x200x128 .f32)
    (tok : IVec S4096x200 32) (tab : FVec F S100000x128 .f32) : FVec F S4096x200x128 .f32 :=
  mulf
    (select
      (broadcastInDim S4096x200x128 ![0, 1] bcast_S4096x200_S4096x200x128_0_1
        (red
          (andi (cmpi .sge (idx3 tok) (broadcastInDim S4096x200x1 ![] bcast_S_S4096x200x1 (constantI S_ 32 0#32)))
            (cmpi .sle (idx3 tok) (broadcastInDim S4096x200x1 ![0, 1, 2] bcast_S1x1x1_S4096x200x1_0_1_2
              (broadcastInDim S1x1x1 ![2] bcast_S1_S1x1x1_2 (constantI S1 32 99999#32)))))
          (constantI S_ 1 1#1)))
      (gat tab (idx3 tok))
      (broadcastInDim S4096x200x128 ![] bcast_S_S4096x200x128 (constant S_ .f32 0x7FC00000#32)))
    (broadcastInDim S4096x200x128 ![] bcast_S_S4096x200x128 (constant S_ .f32 0x413504F3#32))

set_option maxRecDepth 8192 in
set_option maxHeartbeats 1000000 in
/-- The last buffer after the 26 operations holds the composed term of the two arguments, whatever the reduction and
    the gather compute: each operation's result at its own buffer is its function of the buffers it reads, at any
    other buffer what was there (the buffers are distinct literals), and what is left is one equation between two
    copies of the same term, up to the identity transports the typed references carry. -/
theorem out_eqG (red : IVec S4096x200x1 1 → IVec S_ 1 → IVec S4096x200 1)
    (gat : FVec F S100000x128 .f32 → IVec S4096x200x1 32 → FVec F S4096x200x128 .f32) (V : Valuation τ sig (Elt F)) :
    after (opsOf red gat) V (main_v2 : DevRef τ sig)
      = termOf red gat (V (main_arg0 : DevRef τ sig)) (V (main_arg1 : DevRef τ sig)) := by
  after_results_simp
  rfl

/-- The program's own line: the and-reduction over the trailing axis and the row gather in the two places. -/
abbrev ops : List (HloOp τ sig (Elt F)) :=
  opsOf (fun x v => Host.reduce IntOp.andi x v reducesTo_S4096x200x1_S4096x200_d2 h_S_)
    (fun x i => Host.gather gather_S100000x128_S4096x200x1_S4096x200x128_2_0_n_n_0_2_1128 x i)

-- twenty-six binds re-associated under the two opened calls
set_option maxRecDepth 4096 in
/-- The entry function is that straight line: the two helpers' definitions opened at their calls, both sides are one
    chain of steps once sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., unary_bufs_sub .., binary_bufs_sub ..⟩

attribute [local irreducible] Host.reduce Host.gather in
/-- The reference's term is the composed term at the real reduction and gather: both sides unfold to the same
    expression, and neither the reduction nor the gather is opened. -/
theorem refTerm_eq_termOf (tok : IVec S4096x200 32) (tab : FVec F S100000x128 .f32) :
    refTerm tok tab
      = termOf (fun x v => Host.reduce IntOp.andi x v reducesTo_S4096x200x1_S4096x200_d2 h_S_)
          (fun x i => Host.gather gather_S100000x128_S4096x200x1_S4096x200x128_2_0_n_n_0_2_1128 x i) tok tab := rfl

/-- The last buffer after the program's 26 operations holds the reference's term of the two arguments. -/
theorem out_eq (V : Valuation τ sig (Elt F)) :
    after ops V (main_v2 : DevRef τ sig) = refTerm (V (main_arg0 : DevRef τ sig)) (V (main_arg1 : DevRef τ sig)) :=
  (out_eqG _ _ V).trans (refTerm_eq_termOf _ _).symm

set_option maxRecDepth 8192 in
theorem arg0_eq (V : Valuation τ sig (Elt F)) : after ops V (main_arg0 : DevRef τ sig) = V (main_arg0 : DevRef τ sig) := by
  simp only [after_cons, after_nil]
  rfl

set_option maxRecDepth 8192 in
theorem arg1_eq (V : Valuation τ sig (Elt F)) : after ops V (main_arg1 : DevRef τ sig) = V (main_arg1 : DevRef τ sig) := by
  simp only [after_cons, after_nil]
  rfl

/-- From any memory with zero counters every weakly fair execution of the reference terminates, with the result buffer
    at the reference's term of the arguments and the arguments unchanged. -/
theorem run_term (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v2)
          = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v2).trans (out_eq _), (h c main_arg0).trans (arg0_eq _), (h c main_arg1).trans (arg1_eq _)⟩)
    (run_seq scopedRefs_eq scopedSems_eq defs main (fun _ => ops) main_eq (fun _ => ops_sub) m ρ)

/-- The reference's run under the precondition: the result buffer holds the lookup of the two arguments, and the
    arguments are unchanged. -/
theorem run (m : (ℓ : Loc Cert.ReferenceIdeal.nD Cert.ReferenceIdeal.τ Cert.ReferenceIdeal.sig) → Buf (Elt Ideal) ℓ)
    (ρ : Dev Cert.ReferenceIdeal.nD → PrngReg)
    (hin : ∀ (c : Dev Cert.ReferenceIdeal.nD) i,
      (m ((c.tc : Thread Cert.ReferenceIdeal.nD Cert.ReferenceIdeal.τ).loc Cert.ReferenceIdeal.main_arg0) i).toNat ≤ 99999) :
    θ_run (Cert.ReferenceIdeal.defs (F := Ideal)) (onTc (τ := Cert.ReferenceIdeal.τ) (Cert.ReferenceIdeal.main (F := Ideal)))
      ⟨m, fun _ => 0, ρ⟩
      (fun r => ∀ c : Dev Cert.ReferenceIdeal.nD,
        r.2.mem ((c.tc : Thread _ Cert.ReferenceIdeal.τ).loc Cert.ReferenceIdeal.main_v2)
            = Cert.Spec.G (F := Ideal) (m ((c.tc : Thread _ Cert.ReferenceIdeal.τ).loc Cert.ReferenceIdeal.main_arg0))
                (m ((c.tc : Thread _ Cert.ReferenceIdeal.τ).loc Cert.ReferenceIdeal.main_arg1))
        ∧ r.2.mem ((c.tc : Thread _ Cert.ReferenceIdeal.τ).loc Cert.ReferenceIdeal.main_arg0)
            = m ((c.tc : Thread _ Cert.ReferenceIdeal.τ).loc Cert.ReferenceIdeal.main_arg0)
        ∧ r.2.mem ((c.tc : Thread _ Cert.ReferenceIdeal.τ).loc Cert.ReferenceIdeal.main_arg1)
            = m ((c.tc : Thread _ Cert.ReferenceIdeal.τ).loc Cert.ReferenceIdeal.main_arg1)) :=
  (θ_run defs _ _).mono (fun _ h c => ⟨(h c).1.trans (refTerm_eq_G _ (hin c) _), (h c).2.1, (h c).2.2⟩) (run_term (F := Ideal) m ρ)

end Cert.RefSide

end
-- ==== Proof.KI.Setup.lean ====
/-
  The idealized kernel as the launch theorem sees it, and what the one SparseCore call hands each vector subcore.

  The device has two SparseCores of sixteen vector subcores; subcore s of SparseCore c is worker w = 2 s + c. The
  819200 output rows are cut into 6400 chunks of 128 rows; worker w writes chunks 200 w … 200 w + 199, and nothing else
  writes them. Every worker reads the whole table and the whole (reshaped) token array, so each is handed a read share
  of both, number w, and gets its 200 output chunks outright. It returns the shares as it got them and the chunks
  holding the flat lookup `Cert.Spec.flat` of the two argument arrays.
-/
import proofs.«219849_g103079215527_week1_w1_1010_20_alg».proof.Defs
import proofs.«219849_g103079215527_week1_w1_1010_20_alg».proof.Proof.Spec
import Idealize.ShloMosaic.Lib.SparseCore.Launch
import Idealize.ShloMosaic.Lib.SparseCore.Stream
import Idealize.ShloMosaic.Lib.StableHlo.Run
import Idealize.ShloMosaic.Lib.Pipeline.Kit
import Idealize.ShloMosaic.Lib.Tactic
import proofs.«219849_g103079215527_week1_w1_1010_20_alg».proof.Proof.Gen.KernelIdeal
import proofs.«219849_g103079215527_week1_w1_1010_20_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The tokens and the table (the arguments), the reshaped tokens, the flat output, the result, as locations of device `d`. -/
abbrev tokLoc (d : Dev nD) : Loc nD τ sig := (SparseCore.T d).loc main_arg0
abbrev tabLoc (d : Dev nD) : Loc nD τ sig := (SparseCore.T d).loc main_arg1
abbrev idxLoc (d : Dev nD) : Loc nD τ sig := (SparseCore.T d).loc main_v0
abbrev outLoc (d : Dev nD) : Loc nD τ sig := (SparseCore.T d).loc main_v1
abbrev resLoc (d : Dev nD) : Loc nD τ sig := (SparseCore.T d).loc main_v2

/-- The reshaped tokens: what the first host operation leaves in the 32 x 200 x 128 array. -/
def idxOf (d : Dev nD) : Buf (Elt F) (idxLoc d) := shapeCast S32x200x128 (m (tokLoc d)) shapeCasts_S4096x200_S32x200x128
/-- The flat lookup of device `d`'s arguments: what the call leaves in the 819200 x 128 array. -/
def flatOf [FloatOps F] (d : Dev nD) : Buf (Elt F) (outLoc d) := Cert.Spec.flat (F := F) (m (tokLoc d)) (m (tabLoc d))

/-- What the proof asks of the launch memory: every token names a row of the table. -/
def PreOK : Prop := ∀ (d : Dev nD) i, (m (tokLoc d) i).toNat ≤ 99999

/-! ## Workers, chunks, shares -/

/-- Worker number of subcore `i` of SparseCore `c`. -/
def widN (c i : ℕ) : ℕ := 2 * i + c

/-- Chunk `n` of the output, as a set of indices: rows 128 n … 128 n + 127, every column. -/
def chunkN (n : ℕ) : Finset S819200x128.Idx := Finset.univ.filter fun j => (j 0).val / 128 = n

/-- Worker `w`'s read share of an array held whole at `fullShare`. -/
abbrev tk (w : ℕ) : PosShare TreeShare := Transfers.shareTokN fullShare w

/-- What worker `w` of device `d` is handed: its read shares and its 200 chunks at the launch contents. -/
def goRes (d : Dev nD) (w : ℕ) : sProp 𝕄 :=
  iprop((idxLoc d ↦{tk w} idxOf m d) ∗ (tabLoc d ↦{tk w} m (tabLoc d))
    ∗ bigSep Finset.univ fun k : Fin 200 => outLoc d ↦[chunkN (200 * w + k.val)]{fullShare} m (outLoc d))
/-- What it hands back: the shares, and its chunks at the flat lookup. -/
def tdRes [FloatOps F] (d : Dev nD) (w : ℕ) : sProp 𝕄 :=
  iprop((idxLoc d ↦{tk w} idxOf m d) ∗ (tabLoc d ↦{tk w} m (tabLoc d))
    ∗ bigSep Finset.univ fun k : Fin 200 => outLoc d ↦[chunkN (200 * w + k.val)]{fullShare} flatOf m d)

instance goRes_storable (d : Dev nD) (w : ℕ) : BI.Storable (upEmb : UEmb _ 𝕄) (goRes m d w) := by
  unfold goRes; infer_instance
instance tdRes_storable [FloatOps F] (d : Dev nD) (w : ℕ) : BI.Storable (upEmb : UEmb _ 𝕄) (tdRes m d w) := by
  unfold tdRes; infer_instance

/-- What SparseCore `c` takes for its sixteen workers, and what it brings back. -/
def stRes (d : Dev nD) (c : ℕ) : sProp 𝕄 := bigSep Finset.univ fun i : Fin 16 => goRes m d (widN c i.val)
def dnRes [FloatOps F] (d : Dev nD) (c : ℕ) : sProp 𝕄 := bigSep Finset.univ fun i : Fin 16 => tdRes m d (widN c i.val)

instance stRes_storable (d : Dev nD) (c : ℕ) : BI.Storable (upEmb : UEmb _ 𝕄) (stRes m d c) := by
  unfold stRes; infer_instance
instance dnRes_storable [FloatOps F] (d : Dev nD) (c : ℕ) : BI.Storable (upEmb : UEmb _ 𝕄) (dnRes m d c) := by
  unfold dnRes; infer_instance

variable [FloatOps F]

/-- The one call: a SparseCore takes its sixteen workers' resources and brings them back. -/
def P : (K (F := F)).Pay (nD := nD) (Val := Elt F) (Name := ℕ) (U := UU) where
  st := fun _ d c => stRes m d c.val
  dn := fun _ d c => dnRes m d c.val
  go := fun _ d c i => goRes m d (widN c.val i.val)
  td := fun _ d c i => tdRes m d (widN c.val i.val)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

theorem P_st (q : Fin 1) (d : Dev nD) (c : Fin ((K (F := F)).nCore q)) : (P (F := F) m).st q d c = stRes m d c.val := rfl
theorem P_dn (q : Fin 1) (d : Dev nD) (c : Fin ((K (F := F)).nCore q)) : (P (F := F) m).dn q d c = dnRes m d c.val := rfl
theorem P_go (q : Fin 1) (d : Dev nD) (c : Fin ((K (F := F)).nCore q)) (i : Fin ((K (F := F)).nSub q)) : (P (F := F) m).go q d c i = goRes m d (widN c.val i.val) := rfl
theorem P_td (q : Fin 1) (d : Dev nD) (c : Fin ((K (F := F)).nCore q)) (i : Fin ((K (F := F)).nSub q)) : (P (F := F) m).td q d c i = tdRes m d (widN c.val i.val) := rfl
theorem P_x (q : Fin 1) (t : Thread nD τ) : (P (F := F) m).x q t = iprop(emp) := rfl

/-! ## A worker's thread and its memrefs -/

abbrev cV (L : grid0.Coords) : Fin τ.nSC := (L 0).castLE hcore0
abbrev jV (L : grid0.Coords) : Fin τ.nSub := (L 1).castLE hsub0
/-- The vector subcore at grid point `L` of device `d`. -/
abbrev thr (d : Dev nD) (L : grid0.Coords) : Thread nD τ := V d (cV L) (jV L)
/-- The worker at grid point `L`. -/
def widL (L : grid0.Coords) : ℕ := widN (L 0).val (L 1).val

abbrev tabV : Memref sig .scVector .hbm S100000x128 .f32 := Memref.whole main_arg1_scv
abbrev idxV : Memref sig .scVector .hbm S32x200x128 .i32 := Memref.whole main_v0_scv
abbrev outV : Memref sig .scVector .hbm S819200x128 .f32 := Memref.whole main_v1_scv
/-- A worker's scratch: the 200 x 128 token rows and five 128 x 128 row buffers. -/
abbrev sI : Memref sig .scVector .vmem S200x128 .i32 := Memref.whole cc0_scratch0
abbrev sB1 : Memref sig .scVector .vmem S128x128 .f32 := Memref.whole cc0_scratch1
abbrev sB2 : Memref sig .scVector .vmem S128x128 .f32 := Memref.whole cc0_scratch2
abbrev sB3 : Memref sig .scVector .vmem S128x128 .f32 := Memref.whole cc0_scratch3
abbrev sB4 : Memref sig .scVector .vmem S128x128 .f32 := Memref.whole cc0_scratch4
abbrev sB5 : Memref sig .scVector .vmem S128x128 .f32 := Memref.whole cc0_scratch5

/-- A row buffer with every entry multiplied by the scale. -/
def scaled (f : S128x128.Idx → Elt F (.f32 : EltTy)) : S128x128.Idx → Elt F (.f32 : EltTy) :=
  fun j => FloatOps.mulf (f j) (Cert.Spec.scale (F := F))

end Cert.Proof.KI

end
-- ==== Proof.KI.Iface.lean ====
/-
  The two statements the kernel's proof is cut along.

  `TileBody m`: one vector subcore's task at a symbolic grid point `L` — from the worker's read shares of the reshaped
  tokens and of the table and its 200 output chunks, the task runs to its end and returns the shares and the chunks
  holding the flat lookup. `QC m`: what the whole program's run leaves — the result array at the lookup `Cert.Spec.G`
  of the two arguments, the arguments unchanged.
-/
import proofs.«219849_g103079215527_week1_w1_1010_20_alg».proof.Proof.KI.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-- One worker's task, at a symbolic grid point. -/
def TileBody : Prop :=
  ∀ (d : Dev nD) (L : grid0.Coords) (O : CellTallies nD τ sig (HIx 1)) (W : Waits sig (HIx 1)), (∀ g, O g none = 0) →
    (iprop(levAts (K (F := F)).L (K (F := F)).lev ∗ emp ∗ goRes m d (widL L)
        ∗ scopedBufs (thr d L) ∗ scopedSems0 (thr d L) ∗ owes (thr d L) O W) : sProp 𝕄)
      ⊢ wp frame (wpE (defs₀ (F := F)) 𝒱₀ (thr d L) none) Set.univ
          (cc0_gather L tabV (Memref.isWhole_whole _) idxV (Memref.isWhole_whole _) outV (Memref.isWhole_whole _)
            sI (Memref.isWhole_whole _) sB1 (Memref.isWhole_whole _) sB2 (Memref.isWhole_whole _) sB3 (Memref.isWhole_whole _)
            sB4 (Memref.isWhole_whole _) sB5 (Memref.isWhole_whole _)
            cc0_scratch6 cc0_scratch7 cc0_scratch8 cc0_scratch9 cc0_scratch10 cc0_scratch11 cc0_scratch12 cc0_scratch13 cc0_scratch14 cc0_scratch15 cc0_scoped0)
          fun _ => iprop(tdRes m d (widL L) ∗ scopedBufs (thr d L) ∗ scopedSems0 (thr d L)
            ∗ ∃ W', ⌜∀ p ∈ W', p ∈ W ∨ p.2 = none⌝ ∗ owes (thr d L) O W')

/-- What the program's run leaves: the result at the lookup of the arguments, the arguments unchanged. -/
def QC : PUnit × MemSt nD τ sig (Elt F) → Prop := fun r => ∀ c : Dev nD,
  r.2.mem (resLoc c) = Cert.Spec.G (F := F) (m (tokLoc c)) (m (tabLoc c))
    ∧ r.2.mem (tokLoc c) = m (tokLoc c) ∧ r.2.mem (tabLoc c) = m (tabLoc c)

end Cert.Proof.KI

end
-- ==== Proof.Reshape.lean ====
/-
  Two facts about reading an array in row-major order under another shape.

  Row-major order lists the entries of an array with the last coordinate running fastest: entry (a, b, q) of a
  4096 x 200 x 128 array is entry number (200 * a + b) * 128 + q, and entry (n, q) of an 819200 x 128 array is
  entry number n * 128 + q. A reshape keeps every entry's number and changes only the coordinates it is read by.

  First fact. The 819200 x 128 array whose row n is the scaled table row of token number n, read as a
  4096 x 200 x 128 array, is the lookup itself: position (a, b, q) has the number of position (200 * a + b, q),
  and token number 200 * a + b is token (a, b) because b < 200.

  Second fact. The 4096 x 200 tokens read as a 32 x 200 x 128 array: position (w, k, r) has number
  (200 * w + k) * 128 + r = 25600 * w + 128 * k + r, and the token with that number is the one at row
  number / 200, column number % 200 of the 4096 x 200 array.
-/
import proofs.«219849_g103079215527_week1_w1_1010_20_alg».proof.Proof.Spec
import Idealize.ShloMosaic.Lib.Pipeline.Value

noncomputable section

namespace Cert.Spec

open Idealize.ShloMosaic Idealize.ShloMosaic.ValueIdx

/-- Token number 200 * a + b, in row-major order, is token (a, b): the quotient by 200 is a and the remainder is b,
    because b < 200. -/
theorem tokAt_mk (tok : IVec STok 32) (a : Fin 4096) (b : Fin 200) (h : a.val * 200 + b.val < 819200) :
    tokAt tok ⟨a.val * 200 + b.val, h⟩ = tok (ix2 a b) := by
  have ha : (a.val * 200 + b.val) / 200 = a.val := by have := b.isLt; omega
  have hb : (a.val * 200 + b.val) % 200 = b.val := by have := b.isLt; omega
  have key : ∀ (x : Fin 4096) (y : Fin 200), x = a → y = b → tok (ix2 x y) = tok (ix2 a b) := by
    rintro _ _ rfl rfl; rfl
  exact key _ _ (Fin.ext ha) (Fin.ext hb)

variable {F : FTy → Type} [FloatOps F]

/-- The flat layout of the lookup, reshaped to 4096 x 200 x 128, is the lookup. -/
theorem G_eq_flat (tok : IVec STok 32) (tab : FVec F STab .f32) (h : SFlat.ShapeCasts SRes) :
    shapeCast SRes (flat tok tab) h = G tok tab := by
  funext j
  have h0 : (j 0).val < 4096 := (j 0).isLt
  have h1 : (j 1).val < 200 := (j 1).isLt
  have hn : (j 0).val * 200 + (j 1).val < 819200 := by omega
  -- the position of the flat array with the same row-major number as j
  refine (shapeCast_apply (flat tok tab) h j
    (ix2 (⟨(j 0).val * 200 + (j 1).val, hn⟩ : Fin 819200) (j 2 : Fin 128)) (by
      rw [Shape.rowMajor_val_two, Shape.rowMajor_val_three]
      show ((j 0).val * 200 + (j 1).val) * 128 + (j 2).val = ((j 0).val * 200 + (j 1).val) * 128 + (j 2).val
      rfl)).trans ?_
  show FloatOps.mulf (tab (ix2 (rowOf (tokAt tok ⟨(j 0).val * 200 + (j 1).val, hn⟩)) (j 2))) scale
    = FloatOps.mulf (tab (ix2 (rowOf (tok (ix2 (j 0) (j 1)))) (j 2))) scale
  rw [tokAt_mk tok (j 0) (j 1) hn]

/-- The tokens reshaped to 32 x 200 x 128: position (w, k, r) holds token number 25600 * w + 128 * k + r. -/
theorem idx_apply (tok : IVec STok 32) (h : STok.ShapeCasts SIdx) (w : Fin 32) (k : Fin 200) (r : Fin 128) :
    shapeCast SIdx tok h (ix3 w k r)
      = tokAt tok ⟨w.val * 25600 + k.val * 128 + r.val, by
          have := w.isLt; have := k.isLt; have := r.isLt; omega⟩ := by
  have hw := w.isLt
  have hk := k.isLt
  have hr := r.isLt
  have hn : w.val * 25600 + k.val * 128 + r.val < 819200 := by omega
  have h4 : (w.val * 25600 + k.val * 128 + r.val) / 200 < 4096 := by omega
  have h2 : (w.val * 25600 + k.val * 128 + r.val) % 200 < 200 := Nat.mod_lt _ (by omega)
  refine (shapeCast_apply tok h (ix3 w k r)
    (ix2 (⟨(w.val * 25600 + k.val * 128 + r.val) / 200, h4⟩ : Fin 4096)
      (⟨(w.val * 25600 + k.val * 128 + r.val) % 200, h2⟩ : Fin 200)) (by
      rw [Shape.rowMajor_val_two, Shape.rowMajor_val_three]
      show (w.val * 25600 + k.val * 128 + r.val) / 200 * 200 + (w.val * 25600 + k.val * 128 + r.val) % 200
        = (w.val * 200 + k.val) * 128 + r.val
      omega)).trans ?_
  rfl

end Cert.Spec

end
-- ==== Proof.KI.Launch.lean ====
/-
  The launch: from one vector subcore's task (TileBody) to the whole program's run.

  The program's main thread reshapes the 4096 x 200 tokens to 32 x 200 x 128, starts the two SparseCores and waits for
  them, and reshapes the 819200 x 128 output to 4096 x 200 x 128. Before the call the reshaped tokens and the table are
  cut into 32 read shares (and a remainder kept aside) and the output into its 6400 chunks of 128 rows; worker w = 2 i + c
  (subcore i of SparseCore c) gets share w of both and chunks 200 w ... 200 w + 199. The numbers 2 i + c with c < 2, i < 16
  are exactly 0 ... 31, and 200 w + k with w < 32, k < 200 exactly 0 ... 6399, so every share and every chunk goes to one
  worker. After the call the pieces come back, the chunks holding the flat lookup, and join to the whole arrays; the
  last reshape of the flat lookup is the lookup itself (Cert.Spec.G_eq_flat).
-/
import proofs.«219849_g103079215527_week1_w1_1010_20_alg».proof.Proof.KI.Iface
import proofs.«219849_g103079215527_week1_w1_1010_20_alg».proof.Proof.Reshape

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 ()
      = SparseCore.onTile hcore0 hsub0 (fun c s => cc0_gather (coordsV c s)
          tabV (Memref.isWhole_whole _) idxV (Memref.isWhole_whole _) outV (Memref.isWhole_whole _)
          sI (Memref.isWhole_whole _) sB1 (Memref.isWhole_whole _) sB2 (Memref.isWhole_whole _) sB3 (Memref.isWhole_whole _)
          sB4 (Memref.isWhole_whole _) sB5 (Memref.isWhole_whole _)
          cc0_scratch6 cc0_scratch7 cc0_scratch8 cc0_scratch9 cc0_scratch10 cc0_scratch11 cc0_scratch12 cc0_scratch13 cc0_scratch14 cc0_scratch15 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable [FloatOps F]

/-- The launch theorem's obligation for a vector subcore's task: the task at the subcore's own grid point. -/
theorem tileObl (hb : TileBody m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hb d (coordsV ⟨_, hc.1⟩ ⟨_, hc.2⟩) O W hO).trans (wp_mono frame _ _ fun _ => obl_post)

/-- A SparseCore's resources are its sixteen workers', both ways. -/
theorem vecSplit : (K (F := F)).VecSplit' (P m) 0 := by
  intro d c
  show stRes m d c.val ⊢ |={Set.univ}=> iprop(stRes m d c.val ∗ (dnRes m d c.val -∗ dnRes m d c.val))
  iintro H; imodintro
  isplitl [H]; · iexact H
  iintro H; iexact H

/-! ## The launch element: the handshakes' rounds; the counters are dropped -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = (iprop(emp) : sProp 𝕄) from by
    rw [bigSep_congr fun thr _ => (bigSep_congr fun q _ => P_x m q thr).trans (bigSep_emp' _), bigSep_emp']]
  iempintro

/-! ## Cutting the arrays: 32 read shares, 6400 chunks -/

/-- What is left of an array held whole after 32 read shares are split off. -/
abbrev rem32 : PosShare TreeShare := Transfers.shareDrop fullShare 32

omit [FloatOps F] in
/-- An array held whole is the remainder and the 32 read shares. -/
theorem shares_eq (ℓ : Loc nD τ sig) (f : Buf (Elt F) ℓ) :
    (ℓ ↦{fullShare} f : sProp 𝕄) = iprop((ℓ ↦{rem32} f) ∗ bigSep (Finset.range 32) fun w => ℓ ↦{tk w} f) :=
  have h : (ℓ ↦{fullShare} f : sProp 𝕄) ⊣⊢ iprop((ℓ ↦{rem32} f) ∗ bigSep (Finset.range 32) fun w => ℓ ↦{tk w} f) :=
    Transfers.pointsTo_toks_range fullShare 32
  equiv_iff.mp ⟨h.1, h.2⟩

/-- Two chunks with different numbers share no index: an index's row, divided by 128, is one number. -/
theorem chunk_disjoint : ∀ n ∈ Finset.range 6400, ∀ n' ∈ Finset.range 6400, n ≠ n' → Disjoint (chunkN n) (chunkN n') := by
  intro n _ n' _ hne
  rw [Finset.disjoint_left]
  intro j hj hj'
  exact hne ((Finset.mem_filter.mp hj).2.symm.trans (Finset.mem_filter.mp hj').2)

/-- Every index is in a chunk: its row is below 819200 = 128 * 6400. -/
theorem chunk_cover : (Finset.range 6400).biUnion chunkN = Finset.univ := by
  ext j
  simp only [Finset.mem_biUnion, Finset.mem_range, Finset.mem_univ, iff_true]
  have h : (j 0).val < 819200 := (j 0).isLt
  exact ⟨(j 0).val / 128, by omega, Finset.mem_filter.mpr ⟨Finset.mem_univ _, rfl⟩⟩

omit [FloatOps F] in
/-- The output held whole is its 6400 chunks. -/
theorem chunks_eq (d : Dev nD) (f : Buf (Elt F) (outLoc d)) :
    (outLoc d ↦{fullShare} f : sProp 𝕄) = bigSep (Finset.range 6400) fun n => outLoc d ↦[chunkN n]{fullShare} f := by
  rw [← pointsTo_biUnion (Finset.range 6400) (ℓ := outLoc d) chunkN chunk_disjoint, chunk_cover]

omit [FloatOps F] in
/-- The numbers 2 i + c with c < 2 and i < 16 are 0 … 31, each once. -/
theorem regroup32 (Φ : ℕ → sProp 𝕄) :
    bigSep (Finset.range 32) Φ
      = bigSep (Finset.univ : Finset (Fin 2)) fun c => bigSep (Finset.univ : Finset (Fin 16)) fun i => Φ (widN c.val i.val) := by
  have hinj : Set.InjOn (fun p : Fin 2 × Fin 16 => widN p.1.val p.2.val) (Finset.univ : Finset (Fin 2 × Fin 16)) := by
    rintro ⟨c, i⟩ _ ⟨c', i'⟩ _ h
    have h' : 2 * i.val + c.val = 2 * i'.val + c'.val := h
    have := c.isLt; have := c'.isLt
    exact Prod.ext (Fin.ext (by show c.val = c'.val; omega)) (Fin.ext (by show i.val = i'.val; omega))
  have hs : Finset.range 32 = (Finset.univ : Finset (Fin 2 × Fin 16)).image (fun p : Fin 2 × Fin 16 => widN p.1.val p.2.val) := by
    ext n
    simp only [Finset.mem_range, Finset.mem_image, Finset.mem_univ, true_and]
    constructor
    · intro h
      exact ⟨(⟨n % 2, Nat.mod_lt _ (by omega)⟩, ⟨n / 2, by omega⟩), by show 2 * (n / 2) + n % 2 = n; omega⟩
    · rintro ⟨⟨c, i⟩, rfl⟩
      have := c.isLt; have := i.isLt
      show 2 * i.val + c.val < 32; omega
  rw [hs, bigSep_image_of_injOn hinj Φ, bigSep_univ_prod]

omit [FloatOps F] in
/-- The numbers 200 w + k with w < 32 and k < 200 are 0 … 6399, each once. -/
theorem regroup6400 (Ψ : ℕ → sProp 𝕄) :
    bigSep (Finset.range 6400) Ψ
      = bigSep (Finset.range 32) fun w => bigSep (Finset.univ : Finset (Fin 200)) fun k => Ψ (200 * w + k.val) := by
  have hinj : Set.InjOn (fun p : ℕ × Fin 200 => 200 * p.1 + p.2.val) (Finset.range 32 ×ˢ (Finset.univ : Finset (Fin 200)) : Finset (ℕ × Fin 200)) := by
    rintro ⟨w, k⟩ _ ⟨w', k'⟩ _ h
    have h' : 200 * w + k.val = 200 * w' + k'.val := h
    have := k.isLt; have := k'.isLt
    exact Prod.ext (by show w = w'; omega) (Fin.ext (by show k.val = k'.val; omega))
  have hs : Finset.range 6400
      = (Finset.range 32 ×ˢ (Finset.univ : Finset (Fin 200))).image (fun p : ℕ × Fin 200 => 200 * p.1 + p.2.val) := by
    ext n
    simp only [Finset.mem_range, Finset.mem_image, Finset.mem_product, Finset.mem_univ, and_true]
    constructor
    · intro h
      exact ⟨(n / 200, ⟨n % 200, Nat.mod_lt _ (by omega)⟩), by show n / 200 < 32; omega, by show 200 * (n / 200) + n % 200 = n; omega⟩
    · rintro ⟨⟨w, k⟩, hw, rfl⟩
      have := k.isLt
      have hw' : w < 32 := hw
      show 200 * w + k.val < 6400; omega
  rw [hs, bigSep_image_of_injOn hinj Ψ, SparseCore.bigSep_product]

/-- Worker w's resources with its output chunks at f: what it is handed (f the launch contents) and what it hands back
    (f the flat lookup). -/
def resN (d : Dev nD) (f : Buf (Elt F) (outLoc d)) (w : ℕ) : sProp 𝕄 :=
  iprop((idxLoc d ↦{tk w} idxOf m d) ∗ (tabLoc d ↦{tk w} m (tabLoc d))
    ∗ bigSep Finset.univ fun k : Fin 200 => outLoc d ↦[chunkN (200 * w + k.val)]{fullShare} f)

omit [FloatOps F] in
theorem goRes_eq (d : Dev nD) (w : ℕ) : goRes m d w = resN m d (m (outLoc d)) w := rfl
theorem tdRes_eq (d : Dev nD) (w : ℕ) : tdRes m d w = resN m d (flatOf m d) w := rfl

omit [FloatOps F] in
/-- The three arrays held whole are the two remainders and the 32 workers' resources. -/
theorem arrays_eq (d : Dev nD) (f : Buf (Elt F) (outLoc d)) :
    (iprop((idxLoc d ↦{fullShare} idxOf m d) ∗ (tabLoc d ↦{fullShare} m (tabLoc d)) ∗ (outLoc d ↦{fullShare} f)) : sProp 𝕄)
      = iprop(((idxLoc d ↦{rem32} idxOf m d) ∗ (tabLoc d ↦{rem32} m (tabLoc d))) ∗ bigSep (Finset.range 32) fun w => resN m d f w) := by
  have e : (bigSep (Finset.range 32) fun w => resN m d f w : sProp 𝕄)
      = iprop((bigSep (Finset.range 32) fun w => idxLoc d ↦{tk w} idxOf m d) ∗ (bigSep (Finset.range 32) fun w => tabLoc d ↦{tk w} m (tabLoc d))
          ∗ bigSep (Finset.range 6400) fun n => outLoc d ↦[chunkN n]{fullShare} f) := by
    unfold resN
    rw [bigSep_sep', bigSep_sep', regroup6400]
  rw [e, shares_eq (idxLoc d), shares_eq (tabLoc d), chunks_eq d f]
  refine equiv_iff.mp ⟨?_, ?_⟩
  · show (_ : sProp 𝕄) ⊢ _
    iintro ⟨⟨A, X⟩, ⟨B, Y⟩, Z⟩
    isplitl [A B]; · isplitl [A] <;> iassumption
    isplitl [X]; · iexact X
    isplitl [Y] <;> iassumption
  · show (_ : sProp 𝕄) ⊢ _
    iintro ⟨⟨A, B⟩, X, Y, Z⟩
    isplitl [A X]; · isplitl [A] <;> iassumption
    isplitl [B Y]; · isplitl [B] <;> iassumption
    iexact Z

/-- What the call takes for the two SparseCores is the 32 workers' resources at the launch contents, -/
theorem st0_eq (d : Dev nD) :
    (bigSep Finset.univ fun c : Fin ((K (F := F)).nCore 0) => (P m).st 0 d c) = bigSep (Finset.range 32) fun w => resN m d (m (outLoc d)) w := by
  rw [regroup32]
  exact bigSep_congr fun c _ => (P_st m 0 d c).trans rfl
/-- and what it brings back is theirs at the flat lookup. -/
theorem dn0_eq (d : Dev nD) :
    (bigSep Finset.univ fun c : Fin ((K (F := F)).nCore 0) => (P m).dn 0 d c) = bigSep (Finset.range 32) fun w => resN m d (flatOf m d) w := by
  rw [regroup32]
  exact bigSep_congr fun c _ => (P_dn m 0 d c).trans rfl

/-! ## The main thread: reshape, the call, reshape -/

abbrev a0' : DevRef τ sig := Proc.devRef .tc (main_arg0 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
/-- The two reshapes. -/
abbrev op1 : HloOp τ sig (Elt F) := StableHlo.reshape main_arg0 main_v0 rfl shapeCasts_S4096x200_S32x200x128
abbrev op2 : HloOp τ sig (Elt F) := StableHlo.reshape main_v1 main_v2 rfl shapeCasts_S819200x128_S4096x200x128
/-- The arrays each reshape touches. -/
abbrev S01 : Finset (DevRef τ sig) := {a0', v0'}
abbrev S12 : Finset (DevRef τ sig) := {v1', v2'}

omit [FloatOps F] in
theorem held_S01 (d : Dev nD) (W : Valuation τ sig (Elt F)) :
    (held (T d) S01 W : sProp 𝕄) = iprop((tokLoc d ↦{fullShare} W a0') ∗ (idxLoc d ↦{fullShare} W v0')) := by
  unfold held S01
  rw [SparseCore.bigSep_insert' (by decide), bigSep_singleton]
omit [FloatOps F] in
theorem held_S12 (d : Dev nD) (W : Valuation τ sig (Elt F)) :
    (held (T d) S12 W : sProp 𝕄) = iprop((outLoc d ↦{fullShare} W v1') ∗ (resLoc d ↦{fullShare} W v2')) := by
  unfold held S12
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((tokLoc d ↦{fullShare} W main_arg0) ∗ (tabLoc d ↦{fullShare} W main_arg1) ∗ (idxLoc d ↦{fullShare} W main_v0)
      ∗ (outLoc d ↦{fullShare} W main_v1) ∗ (resLoc d ↦{fullShare} W main_v2)) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; after the call, the output at the flat lookup. -/
def V0 (d : Dev nD) : Valuation τ sig (Elt F) := fun b => m (d, b)
def V2 (d : Dev nD) : Valuation τ sig (Elt F) := Function.update (V0 m d) v1' (flatOf m d)

omit [FloatOps F] in
theorem V0_tok (d : Dev nD) : V0 m d a0' = m (tokLoc d) := rfl
omit [FloatOps F] in
theorem V0_idx (d : Dev nD) : V0 m d v0' = m (idxLoc d) := rfl
theorem V2_out (d : Dev nD) : V2 m d v1' = flatOf m d := Function.update_self _ _ _
theorem V2_res (d : Dev nD) : V2 m d v2' = m (resLoc d) := Function.update_of_ne (show v2' ≠ v1' by decide) _ _

omit [FloatOps F] in
/-- After the first reshape: the tokens as they were, the 32 x 200 x 128 array at the reshaped tokens. -/
theorem held1_eq (d : Dev nD) :
    (held (T d) S01 ((op1 (F := F)).result (V0 m d)) : sProp 𝕄)
      = iprop((tokLoc d ↦{fullShare} m (tokLoc d)) ∗ (idxLoc d ↦{fullShare} idxOf m d)) := by
  rw [held_S01, (op1 (F := F)).result_of_not_mem (V0 m d) (b := a0') (show a0' ∉ ({v0'} : Finset (DevRef τ sig)) by decide),
    show (op1 (F := F)).result (V0 m d) v0' = idxOf m d from
      (StableHlo.reshape_result main_arg0 main_v0 rfl shapeCasts_S4096x200_S32x200x128 ⟨by decide, rfl⟩ ⟨by decide, rfl⟩ (V0 m d)).trans rfl]
  rfl

/-- After the last reshape the result array holds the lookup: the flat lookup read as 4096 x 200 x 128. -/
theorem held2_eq (d : Dev nD) :
    (held (T d) S12 ((op2 (F := F)).result (V2 m d)) : sProp 𝕄)
      = iprop((outLoc d ↦{fullShare} flatOf m d)
          ∗ (resLoc d ↦{fullShare} (Cert.Spec.G (F := F) (m (tokLoc d)) (m (tabLoc d)) : Buf (Elt F) (resLoc d)))) := by
  rw [held_S12, (op2 (F := F)).result_of_not_mem (V2 m d) (b := v1') (show v1' ∉ ({v2'} : Finset (DevRef τ sig)) by decide), V2_out,
    show (op2 (F := F)).result (V2 m d) v2' = (Cert.Spec.G (F := F) (m (tokLoc d)) (m (tabLoc d)) : Buf (Elt F) (resLoc d)) from by
      refine (StableHlo.reshape_result main_v1 main_v2 rfl shapeCasts_S819200x128_S4096x200x128 ⟨by decide, rfl⟩ ⟨by decide, rfl⟩ (V2 m d)).trans ?_
      rw [V2_out]
      exact Cert.Spec.G_eq_flat (F := F) (m (tokLoc d)) (m (tabLoc d)) shapeCasts_S819200x128_S4096x200x128]

/-- What the main thread leaves the claim: the two arguments as they were, the result at the lookup. -/
abbrev FIN (d : Dev nD) : sProp 𝕄 :=
  iprop((tokLoc d ↦{fullShare} m (tokLoc d)) ∗ (tabLoc d ↦{fullShare} m (tabLoc d))
    ∗ (resLoc d ↦{fullShare} (Cert.Spec.G (F := F) (m (tokLoc d)) (m (tabLoc d)) : Buf (Elt F) (resLoc d))))

/-- The main thread of device d: the first reshape, the cut, the call, the join, the last reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Htok, Htab, Hidx, Hout, Hres⟩, -, -⟩, -⟩
  -- the first reshape: the tokens read as 32 x 200 x 128
  iapply (wp_hlo_within 𝒱 (SparseCore.T d) none Set.univ (op := op1) (S := S01) (Finset.Subset.refl _) (V := V0 m d)) $$ [Hb Htok Hidx]
  · isplitl [Hb]; · iexact Hb
    rw [held_S01]
    isplitl [Htok]; · iexact Htok
    iexact Hidx
  iintro ⟨Hb, Hheld⟩
  ihave Hh := (Entails.of_eq (held1_eq (F := F) m d)) $$ Hheld
  icases Hh with ⟨Htok, Hidx⟩
  rw [wp_ret]; imodintro
  -- the cut: a read share of the reshaped tokens and of the table per worker, the output chunk by chunk
  ihave Hcut := (Entails.of_eq (arrays_eq (F := F) m d (m (outLoc d)))) $$ [Hidx Htab Hout]
  · isplitl [Hidx]; · iexact Hidx
    isplitl [Htab]; · iexact Htab
    iexact Hout
  icases Hcut with ⟨Hrem, Hgo⟩
  -- the call
  iapply ((K (F := F)).wp_run (D (F := F)) 𝒱 (EH := EH) (P := P m) κ d 0) $$ [Hst Hgo Hb Htok Hres Hrem]
  isplitr; · iexact Hctx
  isplitl [Hst]; · iexact Hst
  isplitl [Hgo]
  · rw [st0_eq]; iexact Hgo
  iintro ⟨Hst, Hdn⟩
  ihave Hdn' := (Entails.of_eq (dn0_eq m d)) $$ Hdn
  -- the join: the shares and the chunks back to whole arrays, the output at the flat lookup
  ihave Hj := (Entails.of_eq (arrays_eq (F := F) m d (flatOf m d)).symm) $$ [Hrem Hdn']
  · isplitl [Hrem]; · iexact Hrem
    iexact Hdn'
  icases Hj with ⟨Hidx, Htab, Hout⟩
  -- the last reshape: the flat lookup read as 4096 x 200 x 128
  iapply (wp_hlo_within 𝒱 (SparseCore.T d) none Set.univ (op := op2) (S := S12) (Finset.Subset.refl _) (V := V2 m d)) $$ [Hb Hout Hres]
  · isplitl [Hb]; · iexact Hb
    rw [held_S12, V2_out, V2_res]
    isplitl [Hout]; · iexact Hout
    iexact Hres
  iintro ⟨Hb, Hheld⟩
  ihave Hh := (Entails.of_eq (held2_eq m d)) $$ Hheld
  icases Hh with ⟨-, Hres⟩
  rw [wp_ret]; imodintro; imodintro
  isplitl [Hst]; · iexact Hst
  isplitl [Htok]; · iexact Htok
  isplitl [Htab]; · iexact Htab
  iexact Hres

/-- What the final memory must show, per device. -/
def fq (d : Dev nD) (s' : Phys nD τ sig (Elt F)) : Prop :=
  s'.mem.mem (resLoc d) = Cert.Spec.G (F := F) (m (tokLoc d)) (m (tabLoc d))
    ∧ s'.mem.mem (tokLoc d) = m (tokLoc d) ∧ s'.mem.mem (tabLoc d) = m (tabLoc d)

/-- The three arrays the main thread still holds whole are read off the final memory. -/
theorem hfin (d : Dev nD) (s' : Phys nD τ sig (Elt F)) : iprop(FIN m d ∗ SI s') ⊢ (⌜fq m d s'⌝ : sProp 𝕄) := by
  iintro ⟨⟨Htok, Htab, Hres⟩, HSI⟩
  ihave H := (persistent_entails_right (SI_pointsTo_agree (st := s') (ℓ := tokLoc d) (I := Finset.univ) (q := fullShare) (f := m (tokLoc d)))) $$ [HSI Htok]
  · isplitl [HSI] <;> iassumption
  icases H with ⟨%h1, HSI, -⟩
  ihave H := (persistent_entails_right (SI_pointsTo_agree (st := s') (ℓ := tabLoc d) (I := Finset.univ) (q := fullShare) (f := m (tabLoc d)))) $$ [HSI Htab]
  · isplitl [HSI] <;> iassumption
  icases H with ⟨%h2, HSI, -⟩
  ihave H := (SI_pointsTo_agree (st := s') (ℓ := resLoc d) (I := Finset.univ) (q := fullShare)
    (f := (Cert.Spec.G (F := F) (m (tokLoc d)) (m (tabLoc d)) : Buf (Elt F) (resLoc d)))) $$ [HSI Hres]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- From one vector subcore's task to the run of the whole program: every weakly fair execution of the device's threads
    ends, the result array holding the lookup of the two arguments and the arguments unchanged. -/
theorem run_main [∀ e, Nonempty (Elt F e)] (hb : TileBody m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hb)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.KI.Cells.lean ====
/-
  A worker's own storage, named: of the semaphores it holds at zero, the eleven the task uses (one for the token
  fetch, one per row buffer for the gathers, one per row buffer for the write-outs) and the rest; of its scratch
  buffers, the token rows and the five row buffers, and the rest.
-/
import proofs.«219849_g103079215527_week1_w1_1010_20_alg».proof.Proof.KI.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (d : Dev nD) (L : grid0.Coords)

/-- The semaphores the task does not use. -/
abbrev restCells : Finset (GSem nD τ sig) := ((((((((((((ownCells (thr d L)).erase (thr d L, SemLoc.dma cc0_scoped0.sem)).erase (thr d L, SemLoc.dma cc0_scratch6.sem)).erase (thr d L, SemLoc.dma cc0_scratch7.sem)).erase (thr d L, SemLoc.dma cc0_scratch8.sem)).erase (thr d L, SemLoc.dma cc0_scratch9.sem)).erase (thr d L, SemLoc.dma cc0_scratch10.sem)).erase (thr d L, SemLoc.dma cc0_scratch11.sem)).erase (thr d L, SemLoc.dma cc0_scratch12.sem)).erase (thr d L, SemLoc.dma cc0_scratch13.sem)).erase (thr d L, SemLoc.dma cc0_scratch14.sem)).erase (thr d L, SemLoc.dma cc0_scratch15.sem))

/-- The worker's semaphores at zero: the eleven the task uses, and the rest. -/
theorem ownSems0_V :
    (ownSems0 (thr d L) : sProp 𝕄)
      = iprop(semVal (thr d L, SemLoc.dma cc0_scoped0.sem) 0
          ∗ semVal (thr d L, SemLoc.dma cc0_scratch6.sem) 0
          ∗ semVal (thr d L, SemLoc.dma cc0_scratch7.sem) 0
          ∗ semVal (thr d L, SemLoc.dma cc0_scratch8.sem) 0
          ∗ semVal (thr d L, SemLoc.dma cc0_scratch9.sem) 0
          ∗ semVal (thr d L, SemLoc.dma cc0_scratch10.sem) 0
          ∗ semVal (thr d L, SemLoc.dma cc0_scratch11.sem) 0
          ∗ semVal (thr d L, SemLoc.dma cc0_scratch12.sem) 0
          ∗ semVal (thr d L, SemLoc.dma cc0_scratch13.sem) 0
          ∗ semVal (thr d L, SemLoc.dma cc0_scratch14.sem) 0
          ∗ semVal (thr d L, SemLoc.dma cc0_scratch15.sem) 0
          ∗ bigSep (restCells d L) fun g => semVal g 0) := by
  unfold SparseCore.Cfg.ownSems0
  rw [SparseCore.bigSep_erase' ((mem_ownCells (g := (thr d L, SemLoc.dma cc0_scoped0.sem))).mpr ⟨rfl, by show (SemLoc.dma cc0_scoped0.sem : SemLoc sig).isScoped .scVector = true; decide⟩),
    SparseCore.bigSep_erase' (Finset.mem_erase.mpr ⟨fun e => absurd (Prod.mk.inj e).2 (by decide), (mem_ownCells (g := (thr d L, SemLoc.dma cc0_scratch6.sem))).mpr ⟨rfl, by show (SemLoc.dma cc0_scratch6.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide), (mem_ownCells (g := (thr d L, SemLoc.dma cc0_scratch7.sem))).mpr ⟨rfl, by show (SemLoc.dma cc0_scratch7.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scratch8.sem))).mpr ⟨rfl, by show (SemLoc.dma cc0_scratch8.sem : SemLoc sig).isScoped .scVector = true; decide⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scratch9.sem))).mpr ⟨rfl, by show (SemLoc.dma cc0_scratch9.sem : SemLoc sig).isScoped .scVector = true; decide⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scratch10.sem))).mpr ⟨rfl, by show (SemLoc.dma cc0_scratch10.sem : SemLoc sig).isScoped .scVector = true; decide⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scratch11.sem))).mpr ⟨rfl, by show (SemLoc.dma cc0_scratch11.sem : SemLoc sig).isScoped .scVector = true; decide⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scratch12.sem))).mpr ⟨rfl, by show (SemLoc.dma cc0_scratch12.sem : SemLoc sig).isScoped .scVector = true; decide⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scratch13.sem))).mpr ⟨rfl, by show (SemLoc.dma cc0_scratch13.sem : SemLoc sig).isScoped .scVector = true; decide⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scratch14.sem))).mpr ⟨rfl, by show (SemLoc.dma cc0_scratch14.sem : SemLoc sig).isScoped .scVector = true; decide⟩⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scratch15.sem))).mpr ⟨rfl, by show (SemLoc.dma cc0_scratch15.sem : SemLoc sig).isScoped .scVector = true; decide⟩⟩⟩⟩⟩⟩⟩⟩⟩⟩⟩)]

/-- The scratch buffers the task does not use. -/
abbrev restRefs : Finset (DevRef τ sig) := (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))

/-- The worker's scratch buffers, each at some contents: the six the task uses, and the rest. -/
theorem ownBufs_V :
    (ownBufs (thr d L) : sProp 𝕄)
      = iprop((∃ f, (thr d L).loc cc0_scratch0 ↦{fullShare} f)
          ∗ (∃ f, (thr d L).loc cc0_scratch1 ↦{fullShare} f)
          ∗ (∃ f, (thr d L).loc cc0_scratch2 ↦{fullShare} f)
          ∗ (∃ f, (thr d L).loc cc0_scratch3 ↦{fullShare} f)
          ∗ (∃ f, (thr d L).loc cc0_scratch4 ↦{fullShare} f)
          ∗ (∃ f, (thr d L).loc cc0_scratch5 ↦{fullShare} f)
          ∗ bigSep (restRefs L) fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc0_scratch0)) rfl),
    SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩)]

end Cert.Proof.KI

end
-- ==== Proof.KI.Geom.lean ====
/-
  Where things sit: the arithmetic of one worker's indices.

  Worker w = 2 s + c (subcore s of SparseCore c) first fetches its slab of the reshaped tokens: row w of the
  32 x 200 x 128 array, a 200 x 128 array. The reshape keeps row-major order, so entry (k, r) of that slab is token
  number 25600 w + 128 k + r of the 4096 x 200 tokens; under the precondition every such token is at most 99999, hence
  names a row of the table. Row r of the slab, read as 128 words, is the list of offsets of one gather: every word is
  below 100000, and word x is entry (r, x) of the slab.

  As index sets: row r of the 200 x 128 scratch is the set of indices whose first coordinate is r, and the 128 x 128
  block of the 819200 x 128 output that starts at row 128 n is chunk n, the indices whose row divided by 128 is n. The
  blocks the worker writes start at rows 25600 w + 640 g + 128 r (trip g of 39, r of 5) and 25600 w + 24960 + 128 r, that
  is at chunks 200 w + 5 g + r and 200 w + 195 + r.

  A separating conjunction over the numbers a, a + 1, ... , b - 1 can be taken apart at either end; over the 200 rows of
  the scratch it is the scratch held whole.
-/
import proofs.«219849_g103079215527_week1_w1_1010_20_alg».proof.Proof.KI.Setup
import proofs.«219849_g103079215527_week1_w1_1010_20_alg».proof.Proof.Reshape

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable (m : (ℓ : Loc nD τ sig) → Buf (Elt F) ℓ) (d : Dev nD) (L : grid0.Coords)

/-! ## The fetched slab and the offsets of a gather -/

/-- A worker's number is below 32. -/
theorem widL_lt : widL L < 32 := by
  have h0 : (L 0).val < 2 := (L 0).isLt
  have h1 : (L 1).val < 16 := (L 1).isLt
  show 2 * (L 1).val + (L 0).val < 32
  omega

/-- The slab a worker fetches: its row of the reshaped tokens, read as a 200 x 128 array. -/
def PAY : S200x128.Idx → Elt F .i32 :=
  ReadAs.same.apply (View.read (Elt F) ((idxV.slice (Rect.unit (s := S32x200x128) (k0_off1 L) S1x200x128.size (k0_off1_inb L)) (fun _ => rfl)).squeeze S200x128 squeezes_S1x200x128_S200x128).view (idxOf m d))

/-- Entry (k, r) of the slab sits at (w, k, r) of the 32 x 200 x 128 array. -/
theorem slab_emb (k : Fin 200) (r : Fin 128) :
    ((idxV.slice (Rect.unit (s := S32x200x128) (k0_off1 L) S1x200x128.size (k0_off1_inb L)) (fun _ => rfl)).squeeze S200x128 squeezes_S1x200x128_S200x128).view.emb (ix2 k r)
      = (ix3 (⟨widL L, widL_lt L⟩ : Fin 32) k r : S32x200x128.Idx) := by
  show (Rect.unit (s := S32x200x128) (k0_off1 L) S1x200x128.size (k0_off1_inb L)).emb
      (Shape.reshapeEquiv (s := S1x200x128) (s' := S200x128) squeezes_S1x200x128_S200x128.numel_eq (ix2 k r)) = _
  rw [Shape.reshapeEquiv_eq_of_rowMajor (s := S1x200x128) (s' := S200x128) squeezes_S1x200x128_S200x128.numel_eq
    (x := ix2 k r) (y := (ix3 (⟨0, Nat.one_pos⟩ : Fin 1) k r : S1x200x128.Idx)) (by
      rw [Shape.rowMajor_val_three, Shape.rowMajor_val_two]
      show ((0 * 200 + k.val) * 128 + r.val) = k.val * 128 + r.val
      simp only [Nat.zero_mul, Nat.zero_add])]
  funext a
  apply Fin.ext
  rw [Rect.emb_apply]
  simp only [Rect.off_unit, Rect.stride_unit, Nat.one_mul, k0_off1_eq]
  match a with
  | ⟨0, _⟩ => show 2 * (L 1).val + (L 0).val + 0 = widL L; rfl
  | ⟨1, _⟩ => show 0 + k.val = k.val; omega
  | ⟨2, _⟩ => show 0 + r.val = r.val; omega

/-- Entry (k, r) of the slab is token number 25600 w + 128 k + r. -/
theorem PAY_apply (k : Fin 200) (r : Fin 128) :
    PAY m d L (ix2 k r) = Cert.Spec.tokAt (m (tokLoc d)) ⟨widL L * 25600 + k.val * 128 + r.val, by
      have := widL_lt L; have := k.isLt; have := r.isLt; omega⟩ := by
  unfold PAY
  rw [ReadAs.apply_same, View.read_apply, slab_emb]
  exact Cert.Spec.idx_apply (m (tokLoc d)) shapeCasts_S4096x200_S32x200x128 ⟨widL L, widL_lt L⟩ k r

/-- Every entry of the slab names a row of the table. -/
theorem PAY_le (hpre : PreOK m) (j : S200x128.Idx) : (PAY m d L j).toNat ≤ 99999 := by
  have hk : (j 0).val < 200 := (j 0).isLt
  have hr : (j 1).val < 128 := (j 1).isLt
  have e : j = ix2 (⟨(j 0).val, hk⟩ : Fin 200) (⟨(j 1).val, hr⟩ : Fin 128) := by
    funext a
    match a with
    | ⟨0, _⟩ => rfl
    | ⟨1, _⟩ => rfl
  rw [e, PAY_apply]
  exact hpre d _

/-- The words of a row of the scratch, after the slab is written over the whole scratch, are offsets in range. -/
theorem inb_of_pre (hpre : PreOK m) (g0 : Buf (Elt F) ((sI : Memref sig .scVector .vmem S200x128 .i32).view.loc (thr d L))) (pay : S200x128.Idx → Elt F .i32) (hpay : pay = PAY m d L)
    (row : Fin 2 → Nat) (hk : ∀ a, row a + S1x128.size a ≤ S200x128.size a) (hs : ∀ a, (Rect.unit (s := S200x128) row S1x128.size hk).stride a = 1) (hq : (Rect.unit (s := S200x128) row S1x128.size hk).shape.Squeezes S128) :
    ∀ x, (View.read (Elt F) (((sI : Memref sig .scVector .vmem S200x128 .i32).slice (Rect.unit (s := S200x128) row S1x128.size hk) hs).squeeze S128 hq).view (View.write (Elt F) (sI : Memref sig .scVector .vmem S200x128 .i32).view g0 pay Finset.univ) x).toNat < 100000 := by
  subst hpay; intro x
  have e : View.write (Elt F) (sI : Memref sig .scVector .vmem S200x128 .i32).view g0 (PAY m d L) Finset.univ = PAY m d L :=
    View.write_whole_univ cc0_scratch0 g0 (PAY m d L)
  rw [e, View.read_apply]
  exact Nat.lt_of_le_of_lt (PAY_le m d L hpre _) (by decide)

/-- and word x of row r is entry (r, x) of the slab. -/
theorem row_of_pay (g0 : Buf (Elt F) ((sI : Memref sig .scVector .vmem S200x128 .i32).view.loc (thr d L))) (pay : S200x128.Idx → Elt F .i32) (hpay : pay = PAY m d L)
    (row : Fin 2 → Nat) (hk : ∀ a, row a + S1x128.size a ≤ S200x128.size a) (hs : ∀ a, (Rect.unit (s := S200x128) row S1x128.size hk).stride a = 1) (hq : (Rect.unit (s := S200x128) row S1x128.size hk).shape.Squeezes S128)
    (r : ℕ) (hrow : row = ![r, 0]) (hr : r < 200) :
    ∀ x : S128.Idx, View.read (Elt F) (((sI : Memref sig .scVector .vmem S200x128 .i32).slice (Rect.unit (s := S200x128) row S1x128.size hk) hs).squeeze S128 hq).view (View.write (Elt F) (sI : Memref sig .scVector .vmem S200x128 .i32).view g0 pay Finset.univ) x
      = PAY m d L (ix2 (⟨r, hr⟩ : Fin 200) (x 0 : Fin 128)) := by
  subst hpay; subst hrow; intro x
  have e : View.write (Elt F) (sI : Memref sig .scVector .vmem S200x128 .i32).view g0 (PAY m d L) Finset.univ = PAY m d L :=
    View.write_whole_univ cc0_scratch0 g0 (PAY m d L)
  rw [e, View.read_apply]
  show PAY m d L ((Rect.unit (s := S200x128) ![r, 0] S1x128.size hk).emb
      (Shape.reshapeEquiv (s := S1x128) (s' := S128) hq.numel_eq x)) = _
  congr 1
  rw [Shape.reshapeEquiv_eq_of_rowMajor (s := S1x128) (s' := S128) hq.numel_eq
    (x := x) (y := (ix2 (⟨0, Nat.one_pos⟩ : Fin 1) (x 0 : Fin 128) : S1x128.Idx)) (by
      rw [Shape.rowMajor_val_two, Shape.rowMajor_val_one]
      show 0 * 128 + (x 0).val = (x 0).val
      simp only [Nat.zero_mul, Nat.zero_add])]
  funext a
  apply Fin.ext
  rw [Rect.emb_apply]
  simp only [Rect.off_unit, Rect.stride_unit, Nat.one_mul]
  match a with
  | ⟨0, _⟩ => show r + 0 = r; omega
  | ⟨1, _⟩ => show 0 + (x 0).val = (x 0).val; omega

/-! ## Index sets as arithmetic -/

/-- Row r of the 200 x 128 scratch: the indices whose first coordinate is r. -/
def rowSetN (r : ℕ) : Finset S200x128.Idx := Finset.univ.filter fun j => (j 0).val = r

/-- The one-row slice of the scratch at row r, read as 128 words, covers row r. -/
theorem sIrow_set (row : Fin 2 → Nat) (hk : ∀ a, row a + S1x128.size a ≤ S200x128.size a) (hs : ∀ a, (Rect.unit (s := S200x128) row S1x128.size hk).stride a = 1)
    (hq : (Rect.unit (s := S200x128) row S1x128.size hk).shape.Squeezes S128) (r : ℕ) (hrow : row = ![r, 0]) :
    (((sI : Memref sig .scVector .vmem S200x128 .i32).slice (Rect.unit (s := S200x128) row S1x128.size hk) hs).squeeze S128 hq).view.set = rowSetN r := by
  subst hrow
  refine ((View.set_reshape _ _).trans (View.set_slice_whole cc0_scratch0 _)).trans ?_
  ext j
  rw [Rect.mem_set_unit]
  unfold rowSetN
  simp only [Finset.mem_filter, Finset.mem_univ, true_and]
  have h1 : (j 1).val < 128 := (j 1).isLt
  constructor
  · intro hj
    have h0 : r ≤ (j 0).val ∧ (j 0).val < r + 1 := hj (0 : Fin 2)
    omega
  · intro hj a
    match a with
    | ⟨0, _⟩ => exact (show r ≤ (j 0).val ∧ (j 0).val < r + 1 from by omega)
    | ⟨1, _⟩ => exact (show 0 ≤ (j 1).val ∧ (j 1).val < 0 + 128 from by omega)

/-- The 128 x 128 block of the output that starts at row 128 n is chunk n. -/
theorem outSlice_set (off : Fin 2 → Nat) (h : ∀ a, off a + S128x128.size a ≤ S819200x128.size a)
    (hs : ∀ a, (Rect.unit (s := S819200x128) off S128x128.size h).stride a = 1) (n : ℕ) (hoff : off = ![128 * n, 0]) :
    (outV.slice (Rect.unit (s := S819200x128) off S128x128.size h) hs).view.set = chunkN n := by
  subst hoff
  refine (View.set_slice_whole main_v1_scv _).trans ?_
  ext j
  rw [Rect.mem_set_unit]
  unfold chunkN
  simp only [Finset.mem_filter, Finset.mem_univ, true_and]
  have h1 : (j 1).val < 128 := (j 1).isLt
  constructor
  · intro hj
    have h0 : 128 * n ≤ (j 0).val ∧ (j 0).val < 128 * n + 128 := hj (0 : Fin 2)
    omega
  · intro hj a
    match a with
    | ⟨0, _⟩ => exact (show 128 * n ≤ (j 0).val ∧ (j 0).val < 128 * n + 128 from by omega)
    | ⟨1, _⟩ => exact (show 0 ≤ (j 1).val ∧ (j 1).val < 0 + 128 from by omega)

/-- Trip g's block number r, where it is written: chunk 200 w + 5 g + r. -/
theorem out11_set (g : Fin k0_t1_loop.trips) (r : Fin 5) (h : ∀ a, (k0_off11 L g (BitVec.ofNat 32 r.val)) a + S128x128.size a ≤ S819200x128.size a)
    (hs : ∀ a, (Rect.unit (s := S819200x128) (k0_off11 L g (BitVec.ofNat 32 r.val)) S128x128.size h).stride a = 1) :
    (outV.slice (Rect.unit (s := S819200x128) (k0_off11 L g (BitVec.ofNat 32 r.val)) S128x128.size h) hs).view.set
      = chunkN (200 * widL L + 5 * g.val + r.val) :=
  outSlice_set _ h hs _ (by
    rw [k0_off11_eq]
    exact congrArg (fun t => (![t, 0] : Fin 2 → ℕ)) (by
      show _ = 128 * (200 * (2 * (L 1).val + (L 0).val) + 5 * g.val + r.val); omega))

/-- The same block where its write is waited for. -/
theorem out44_set (g : Fin k0_t1_loop.trips) (r : Fin 5) (h : ∀ a, (k0_off44 L g (BitVec.ofNat 32 r.val)) a + S128x128.size a ≤ S819200x128.size a)
    (hs : ∀ a, (Rect.unit (s := S819200x128) (k0_off44 L g (BitVec.ofNat 32 r.val)) S128x128.size h).stride a = 1) :
    (outV.slice (Rect.unit (s := S819200x128) (k0_off44 L g (BitVec.ofNat 32 r.val)) S128x128.size h) hs).view.set
      = chunkN (200 * widL L + 5 * g.val + r.val) :=
  outSlice_set _ h hs _ (by
    rw [k0_off44_eq]
    exact congrArg (fun t => (![t, 0] : Fin 2 → ℕ)) (by
      show _ = 128 * (200 * (2 * (L 1).val + (L 0).val) + 5 * g.val + r.val); omega))

/-- The last five blocks, waited for after the loop: chunks 200 w + 195 + r. -/
theorem out46_set (r : Fin 5) (h : ∀ a, (k0_off46 L (BitVec.ofNat 32 (24960 + 128 * r.val))) a + S128x128.size a ≤ S819200x128.size a)
    (hs : ∀ a, (Rect.unit (s := S819200x128) (k0_off46 L (BitVec.ofNat 32 (24960 + 128 * r.val))) S128x128.size h).stride a = 1) :
    (outV.slice (Rect.unit (s := S819200x128) (k0_off46 L (BitVec.ofNat 32 (24960 + 128 * r.val))) S128x128.size h) hs).view.set
      = chunkN (200 * widL L + 195 + r.val) :=
  outSlice_set _ h hs _ (by
    rw [k0_off46_eq]
    exact congrArg (fun t => (![t, 0] : Fin 2 → ℕ)) (by
      show _ = 128 * (200 * (2 * (L 1).val + (L 0).val) + 195 + r.val); omega))

/-! ## Separating conjunctions over intervals of numbers -/

/-- The first number apart. -/
theorem bigSep_Ico_left (Φ : ℕ → sProp 𝕄) {a b : ℕ} (h : a < b) :
    bigSep (Finset.Ico a b) Φ = iprop(Φ a ∗ bigSep (Finset.Ico (a + 1) b) Φ) := by
  have e : Finset.Ico a b = insert a (Finset.Ico (a + 1) b) := by
    ext x; simp only [Finset.mem_insert, Finset.mem_Ico]; omega
  rw [e, bigSep_insert (by simp only [Finset.mem_Ico]; omega)]
  rfl

/-- The last number apart. -/
theorem bigSep_Ico_right (Φ : ℕ → sProp 𝕄) {a b : ℕ} (h : a ≤ b) :
    bigSep (Finset.Ico a (b + 1)) Φ = iprop(bigSep (Finset.Ico a b) Φ ∗ Φ b) := by
  have e : Finset.Ico a (b + 1) = insert b (Finset.Ico a b) := by
    ext x; simp only [Finset.mem_insert, Finset.mem_Ico]; omega
  rw [e, bigSep_insert (by simp only [Finset.mem_Ico]; omega)]
  have hc : (iprop(Φ b ∗ bigSep (Finset.Ico a b) Φ) : sProp 𝕄) ⊣⊢ iprop(bigSep (Finset.Ico a b) Φ ∗ Φ b) := sep_comm
  exact equiv_iff.mp ⟨hc.1, hc.2⟩

/-- No number: nothing. -/
theorem bigSep_Ico_empty (Φ : ℕ → sProp 𝕄) (a : ℕ) : bigSep (Finset.Ico a a) Φ = iprop(emp) := by
  rw [Finset.Ico_self, bigSep_empty]
  rfl

/-- Over the 200 numbers below 200, indexed either way. -/
theorem bigSep_fin200 (Φ : ℕ → sProp 𝕄) : (bigSep Finset.univ fun k : Fin 200 => Φ k.val) = bigSep (Finset.Ico 0 200) Φ := by
  have e : Finset.Ico 0 200 = (Finset.univ : Finset (Fin 200)).image (fun k : Fin 200 => k.val) := by
    ext x
    simp only [Finset.mem_Ico, Finset.mem_image, Finset.mem_univ, true_and]
    constructor
    · intro hx; exact ⟨⟨x, hx.2⟩, rfl⟩
    · rintro ⟨k, rfl⟩; exact ⟨Nat.zero_le _, k.isLt⟩
  rw [e, bigSep_image_of_injOn (fun k _ k' _ hk => Fin.ext hk) Φ]

/-- Two different rows of the scratch share no index. -/
theorem rowSet_disjoint : ∀ r ∈ Finset.Ico 0 200, ∀ r' ∈ Finset.Ico 0 200, r ≠ r' → Disjoint (rowSetN r) (rowSetN r') := by
  intro r _ r' _ hne
  rw [Finset.disjoint_left]
  intro j hj hj'
  exact hne ((Finset.mem_filter.mp hj).2.symm.trans (Finset.mem_filter.mp hj').2)

/-- Every index of the scratch is in one of its 200 rows. -/
theorem rowSet_cover : (Finset.Ico 0 200).biUnion rowSetN = Finset.univ := by
  ext j
  simp only [Finset.mem_biUnion, Finset.mem_Ico, Finset.mem_univ, iff_true]
  have h : (j 0).val < 200 := (j 0).isLt
  exact ⟨(j 0).val, ⟨Nat.zero_le _, h⟩, Finset.mem_filter.mpr ⟨Finset.mem_univ _, rfl⟩⟩

/-- The scratch held whole is its 200 rows. -/
theorem sI_rows (f : Buf (Elt F) ((sI : Memref sig .scVector .vmem S200x128 .i32).view.loc (thr d L))) :
    (((sI : Memref sig .scVector .vmem S200x128 .i32).view.loc (thr d L) ↦{fullShare} f) : sProp 𝕄)
      = bigSep (Finset.Ico 0 200) fun r => (sI : Memref sig .scVector .vmem S200x128 .i32).view.loc (thr d L) ↦[rowSetN r]{fullShare} f := by
  rw [← pointsTo_biUnion (Finset.Ico 0 200) (ℓ := (sI : Memref sig .scVector .vmem S200x128 .i32).view.loc (thr d L)) rowSetN rowSet_disjoint, rowSet_cover]

end Cert.Proof.KI

end
-- ==== Proof.KI.Atoms.lean ====
/-
  The pieces a worker's task is stated in.

  After the fetch the index scratch holds the worker's slab of tokens (`cI`). A gather of index row `row` into a row
  buffer writes, at buffer row p, the table row that word p of the index row names (`gpay`). While it is in flight
  the buffer (written whole with that payload), the index row and the read share of the table travel with it
  (`gFlight`); a write-out in flight carries the output chunk, written with the buffer, and the buffer (`wFlight`).
-/
import proofs.«219849_g103079215527_week1_w1_1010_20_alg».proof.Proof.KI.Geom

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (d : Dev nD) (L : grid0.Coords)

abbrev sBty : Type := Memref sig .scVector .vmem S128x128 .f32

variable (fI : Buf (Elt F) ((sI : Memref sig .scVector .vmem S200x128 .i32).view.loc (thr d L)))

/-- The index scratch after the fetch: the worker's slab of tokens, whatever it held before. -/
abbrev cI : Buf (Elt F) ((sI : Memref sig .scVector .vmem S200x128 .i32).view.loc (thr d L)) :=
  View.write (Elt F) (sI : Memref sig .scVector .vmem S200x128 .i32).view fI (PAY m d L) Finset.univ

/-- A row buffer, whole, as a rectangle; the table, whole, as a rectangle. -/
abbrev W0 : Rect S128x128 := Rect.unit (s := S128x128) ![0, 0] S128x128.size inb_S128x128_S128x128_0_0
abbrev T0 : Rect S100000x128 := Rect.unit (s := S100000x128) ![0, 0] S100000x128.size inb_S100000x128_S100000x128_0_0
abbrev tabS : Memref sig .scVector .hbm S100000x128 .f32 := (tabV : Memref sig .scVector .hbm S100000x128 .f32).slice T0 (fun _ => rfl)

/-- The offset list of a gather: the row of the index scratch at offsets `row`, squeezed. -/
abbrev offs (row : Fin 2 → Nat) (hk : ∀ a, row a + S1x128.size a ≤ S200x128.size a) : Memref sig .scVector .vmem S128 .i32 :=
  ((sI : Memref sig .scVector .vmem S200x128 .i32).slice (Rect.unit (s := S200x128) row S1x128.size hk) (fun _ => rfl)).squeeze S128 squeezes_S1x128_S128

/-- Every word of an index row names a table row. -/
abbrev InRange (row : Fin 2 → Nat) (hk : ∀ a, row a + S1x128.size a ≤ S200x128.size a) : Prop :=
  ∀ x, (View.read (Elt F) (offs row hk).view (cI m d L fI) x).toNat < 100000

/-- What the gather of index row `row` writes: buffer row `x 0` is the table row that word `x 0` of the index row names. -/
def gpay (row : Fin 2 → Nat) (hk : ∀ a, row a + S1x128.size a ≤ S200x128.size a) (hin : InRange m d L fI row hk) : S128x128.Idx → Elt F .f32 :=
  SparseCore.gatherPayload gathers_S100000x128_S128x128 (View.read (Elt F) (tabS).view (m (tabLoc d)))
    (SparseCore.rows (View.read (Elt F) (offs row hk).view (cI m d L fI)) rfl hin)

/-- A gather in flight on `sem` into buffer `sB` (prior contents `fp`) of index row `row`, reading the table through token `t`. -/
def gFlight (sem : DmaSems sig S_) (sB : sBty) (t : ℕ) (row : Fin 2 → Nat) (hk : ∀ a, row a + S1x128.size a ≤ S200x128.size a)
    (hin : InRange m d L fI row hk) (fp : Buf (Elt F) (sB.view.loc (thr d L))) : sProp 𝕄 :=
  Transfers.Flight countersEmb (thr d L) (SemLoc.dma sem.sem) default 524288
    iprop(((sB.view.loc (thr d L) ↦[(sB.slice W0 (fun _ => rfl)).view.set]{fullShare} sB.view.writes (Elt F) fp [⟨W0, gpay m d L fI row hk hin⟩])
        ∗ (offs row hk).view.loc (thr d L) ↦[(offs row hk).view.set]{fullShare} cI m d L fI)
      ∗ (tabV : Memref sig .scVector .hbm S100000x128 .f32).view.loc (thr d L) ↦[(tabS).view.set]{Transfers.shareTokN (tk (widL L)) t} m (tabLoc d))

/-- An output chunk as the program slices it, at offsets `off`. -/
abbrev outS (off : Fin 2 → Nat) (h : ∀ a, off a + S128x128.size a ≤ S819200x128.size a) : Memref sig .scVector .hbm S128x128 .f32 :=
  (outV : Memref sig .scVector .hbm S819200x128 .f32).slice (Rect.unit (s := S819200x128) off S128x128.size h) (fun _ => rfl)

end Cert.Proof.KI

end
-- ==== Proof.KI.Vals.lean ====
/-
  What the buffers hold: the values behind a worker's gathers and write-outs.

  A 128 x 128 row buffer sliced at offsets (0, 0) with sizes 128 x 128 is the buffer itself, and the table sliced at
  (0, 0) with its own sizes is the table: as index sets, and for what a write through such a slice leaves and reads back.

  A gather of index row n writes, at buffer entry (p, q), entry q of the table row named by word p of index row n, that is
  by entry (n, p) of the worker's slab of tokens. Entry (n, p) of worker w's slab is token number 25600 w + 128 n + p, at most
  99999 under the precondition, so the row it names is the row the lookup uses; multiplied by the scale, buffer entry (p, q)
  is entry (25600 w + 128 n + p, q) of the flat lookup. Chunk c of the output is rows 128 c ... 128 c + 127, so each of its
  indices is (128 c + p, q) for some p, q below 128.
-/
import proofs.«219849_g103079215527_week1_w1_1010_20_alg».proof.Proof.KI.Atoms

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (d : Dev nD) (L : grid0.Coords)
variable (fI : Buf (Elt F) ((sI : Memref sig .scVector .vmem S200x128 .i32).view.loc (thr d L)))

/-! ## Slices that are the whole array -/

/-- A rectangle at offsets zero with the shape's own sizes covers every index. -/
theorem unit_zero_set {s : Shape} (off : Fin s.rank → ℕ) (h0 : ∀ a, off a = 0) (inb : ∀ a, off a + s.size a ≤ s.size a) :
    (Rect.unit (s := s) off s.size inb).set = Finset.univ := by
  ext i
  simp only [Finset.mem_univ, iff_true]
  rw [Rect.mem_set_unit]
  intro a
  rw [h0 a]
  exact ⟨Nat.zero_le _, by have := (i a).isLt; omega⟩

/-- and sends every index to itself. -/
theorem unit_zero_emb {s : Shape} (off : Fin s.rank → ℕ) (h0 : ∀ a, off a = 0) (inb : ∀ a, off a + s.size a ≤ s.size a)
    (y : s.Idx) : (Rect.unit (s := s) off s.size inb).emb y = y := by
  funext a
  apply Fin.ext
  rw [Rect.emb_apply]
  simp only [Rect.off_unit, Rect.stride_unit, Nat.one_mul, h0 a, Nat.zero_add]

theorem zero2 : ∀ a : Fin 2, (![0, 0] : Fin 2 → ℕ) a = 0 := fun a => by
  match a with
  | ⟨0, _⟩ => rfl
  | ⟨1, _⟩ => rfl

theorem W0_set_univ : (W0 : Rect S128x128).set = Finset.univ := unit_zero_set (s := S128x128) _ zero2 _
theorem T0_set_univ : (T0 : Rect S100000x128).set = Finset.univ := unit_zero_set (s := S100000x128) _ zero2 _
theorem W0_emb (y : S128x128.Idx) : (W0 : Rect S128x128).emb y = y := unit_zero_emb (s := S128x128) _ zero2 _ y
theorem T0_emb (y : S100000x128.Idx) : (T0 : Rect S100000x128).emb y = y := unit_zero_emb (s := S100000x128) _ zero2 _ y

/-- (V1) A row buffer sliced at its whole has the buffer's own elements. -/
theorem W0_set (sB : sBty) (hs : ∀ a, (W0 : Rect S128x128).stride a = 1) : (sB.slice W0 hs).view.set = sB.view.set := by
  show (sB.view.slice W0).set = sB.view.set
  rw [View.set_slice, W0_set_univ]
  rfl

/-- The table sliced at its whole is every index of the table. -/
theorem tabS_set : (tabS).view.set = Finset.univ :=
  (View.set_slice_whole main_arg1_scv T0).trans T0_set_univ

/-- (V2) A whole row buffer held on its whole-slice's elements is held whole. -/
theorem pts_W0 (sB : sBty) (hw : sB.IsWhole) (f : Buf (Elt F) (sB.view.loc (thr d L))) :
    ((sB.view.loc (thr d L) ↦[(sB.slice W0 (fun _ => rfl)).view.set]{fullShare} f) : sProp 𝕄) = (sB.view.loc (thr d L) ↦{fullShare} f) := by
  rw [W0_set sB (fun _ => rfl), hw.set_eq_univ]

/-- The same for a share of the table. -/
theorem pts_T0 (q : PosShare TreeShare) (f : Buf (Elt F) ((tabV : Memref sig .scVector .hbm S100000x128 .f32).view.loc (thr d L))) :
    (((tabV : Memref sig .scVector .hbm S100000x128 .f32).view.loc (thr d L) ↦[(tabS).view.set]{q} f) : sProp 𝕄)
      = ((tabV : Memref sig .scVector .hbm S100000x128 .f32).view.loc (thr d L) ↦{q} f) := by
  rw [tabS_set]

/-- (V3) What is written through the whole-slice of a row buffer is read back. -/
theorem read_writes_W0 (sB : sBty) (fp : Buf (Elt F) (sB.view.loc (thr d L))) (g : S128x128.Idx → Elt F .f32) :
    sB.view.read (Elt F) (sB.view.writes (Elt F) fp [⟨W0, g⟩]) = g := by
  funext y
  have h := View.read_writes_cons_emb sB.view fp W0 g [] y
  rwa [W0_emb] at h

/-- The contents themselves, on the buffer's elements: entry j of the view holds g j. -/
theorem writes_W0_emb (sB : sBty) (fp : Buf (Elt F) (sB.view.loc (thr d L))) (g : S128x128.Idx → Elt F .f32) (j : S128x128.Idx) :
    (sB.view.writes (Elt F) fp [⟨W0, g⟩]) (sB.view.emb j) = _root_.cast (congrArg (Elt F) sB.view.elt_eq.symm) (g j) := by
  have h := View.write_emb_of_mem (v := sB.view.slice W0) fp g (Finset.mem_univ j)
  have e : (sB.view.slice W0).emb j = sB.view.emb j := by
    show sB.view.emb ((W0 : Rect S128x128).emb j) = sB.view.emb j
    rw [W0_emb]
  rw [e] at h
  exact h

/-- For the five row buffers, each a whole scratch array, the contents after the write are the payload. -/
theorem writes_W0_sB1 (fp : Buf (Elt F) ((sB1 : sBty).view.loc (thr d L))) (g : S128x128.Idx → Elt F .f32) :
    (sB1 : sBty).view.writes (Elt F) fp [⟨W0, g⟩] = g := funext fun j => writes_W0_emb d L sB1 fp g j
theorem writes_W0_sB2 (fp : Buf (Elt F) ((sB2 : sBty).view.loc (thr d L))) (g : S128x128.Idx → Elt F .f32) :
    (sB2 : sBty).view.writes (Elt F) fp [⟨W0, g⟩] = g := funext fun j => writes_W0_emb d L sB2 fp g j
theorem writes_W0_sB3 (fp : Buf (Elt F) ((sB3 : sBty).view.loc (thr d L))) (g : S128x128.Idx → Elt F .f32) :
    (sB3 : sBty).view.writes (Elt F) fp [⟨W0, g⟩] = g := funext fun j => writes_W0_emb d L sB3 fp g j
theorem writes_W0_sB4 (fp : Buf (Elt F) ((sB4 : sBty).view.loc (thr d L))) (g : S128x128.Idx → Elt F .f32) :
    (sB4 : sBty).view.writes (Elt F) fp [⟨W0, g⟩] = g := funext fun j => writes_W0_emb d L sB4 fp g j
theorem writes_W0_sB5 (fp : Buf (Elt F) ((sB5 : sBty).view.loc (thr d L))) (g : S128x128.Idx → Elt F .f32) :
    (sB5 : sBty).view.writes (Elt F) fp [⟨W0, g⟩] = g := funext fun j => writes_W0_emb d L sB5 fp g j

/-! ## What a gather delivers -/

/-- Word p of index row n, after the fetch, is entry (n, p) of the slab. -/
theorem word_eq (row : Fin 2 → Nat) (hk : ∀ a, row a + S1x128.size a ≤ S200x128.size a) (n : ℕ) (hrow : row = ![n, 0]) (hn : n < 200) (p : Fin 128) :
    View.read (Elt F) (offs row hk).view (cI m d L fI) (ix1 p) = PAY m d L (ix2 (⟨n, hn⟩ : Fin 200) p) :=
  row_of_pay m d L fI (PAY m d L) rfl row hk (fun _ => rfl) squeezes_S1x128_S128 n hrow hn (ix1 p)

/-- so it is in range whenever the row is. -/
theorem word_lt (row : Fin 2 → Nat) (hk : ∀ a, row a + S1x128.size a ≤ S200x128.size a) (hin : InRange m d L fI row hk)
    (n : ℕ) (hrow : row = ![n, 0]) (hn : n < 200) (p : Fin 128) :
    (PAY m d L (ix2 (⟨n, hn⟩ : Fin 200) p)).toNat < 100000 := by
  have h := hin (ix1 p)
  rw [word_eq m d L fI row hk n hrow hn p] at h
  exact h

/-- The word at place k of a list of 128 words, in row-major order, is its entry k. -/
theorem rowMajor_symm_S128 (k : Fin S128.numel) : S128.rowMajor.symm k = (ix1 (⟨k.val, k.isLt⟩ : Fin 128) : S128.Idx) := by
  rw [Equiv.symm_apply_eq]
  apply Fin.ext
  rw [Shape.rowMajor_val_one]

/-- (V4) Buffer entry (p, q) after the gather of index row n: entry q of the table row that entry (n, p) of the slab names. -/
theorem gpay_apply (row : Fin 2 → Nat) (hk : ∀ a, row a + S1x128.size a ≤ S200x128.size a) (hin : InRange m d L fI row hk)
    (n : ℕ) (hrow : row = ![n, 0]) (hn : n < 200) (p q : Fin 128) :
    gpay m d L fI row hk hin (ix2 p q)
      = m (tabLoc d) (ix2 (⟨(PAY m d L (ix2 (⟨n, hn⟩ : Fin 200) p)).toNat, word_lt m d L fI row hk hin n hrow hn p⟩ : Fin 100000) q) := by
  unfold gpay SparseCore.gatherPayload
  rw [View.read_apply]
  show m (tabLoc d) ((T0 : Rect S100000x128).emb (gathers_S100000x128_S128x128.idx
      (SparseCore.rows (View.read (Elt F) (offs row hk).view (cI m d L fI)) rfl hin) (ix2 p q))) = _
  rw [T0_emb]
  congr 1
  funext a
  apply Fin.ext
  match a with
  | ⟨0, _⟩ =>
    have e := Shape.Gathers.idx_axis gathers_S100000x128_S128x128
      (SparseCore.rows (View.read (Elt F) (offs row hk).view (cI m d L fI)) rfl hin) (ix2 p q)
    have e' := congrArg Fin.val e
    refine e'.trans ?_
    show (View.read (Elt F) (offs row hk).view (cI m d L fI) (S128.rowMajor.symm _)).toNat = _
    rw [rowMajor_symm_S128]
    exact congrArg BitVec.toNat (word_eq m d L fI row hk n hrow hn p)
  | ⟨1, _⟩ =>
    exact Shape.Gathers.idx_of_ne gathers_S100000x128_S128x128 _ (ix2 p q) ⟨1, by decide⟩ (by decide)

/-! ## The flat lookup -/

/-- Entry (n, p) of worker w's slab is token number 25600 w + 128 n + p. -/
theorem PAY_apply' (n : ℕ) (hn : n < 200) (p : Fin 128) :
    PAY m d L (ix2 (⟨n, hn⟩ : Fin 200) p)
      = Cert.Spec.tokAt (m (tokLoc d)) ⟨25600 * widL L + 128 * n + p.val, by have := widL_lt L; have := p.isLt; omega⟩ := by
  rw [PAY_apply]
  congr 1
  apply Fin.ext
  show widL L * 25600 + n * 128 + p.val = 25600 * widL L + 128 * n + p.val
  omega

/-- (V5) Times the scale, buffer entry (p, q) after the gather of index row n is entry (25600 w + 128 n + p, q) of the
    flat lookup: the token is at most 99999, so the row it names is the row the lookup reads. -/
theorem scaled_gpay [FloatOps F] (hpre : PreOK m) (row : Fin 2 → Nat) (hk : ∀ a, row a + S1x128.size a ≤ S200x128.size a)
    (hin : InRange m d L fI row hk) (n : ℕ) (hrow : row = ![n, 0]) (hn : n < 200) (p q : Fin 128) :
    scaled (gpay m d L fI row hk hin) (ix2 p q)
      = flatOf m d (ix2 (⟨25600 * widL L + 128 * n + p.val, by have := widL_lt L; have := p.isLt; omega⟩ : Fin 819200) q) := by
  have hP := PAY_apply' m d L n hn p
  have hle : (Cert.Spec.tokAt (m (tokLoc d)) ⟨25600 * widL L + 128 * n + p.val, by have := widL_lt L; have := p.isLt; omega⟩).toNat ≤ 99999 := by
    rw [← hP]; exact PAY_le m d L hpre _
  unfold scaled
  rw [gpay_apply m d L fI row hk hin n hrow hn p q]
  show FloatOps.mulf (m (tabLoc d) _) (Cert.Spec.scale (F := F)) = FloatOps.mulf (m (tabLoc d) _) (Cert.Spec.scale (F := F))
  refine congrArg (fun t => FloatOps.mulf (m (tabLoc d) t) (Cert.Spec.scale (F := F))) ?_
  funext a
  match a with
  | ⟨0, _⟩ =>
    apply Fin.ext
    show (PAY m d L (ix2 (⟨n, hn⟩ : Fin 200) p)).toNat
      = (Cert.Spec.rowOf (Cert.Spec.tokAt (m (tokLoc d)) ⟨25600 * widL L + 128 * n + p.val, by have := widL_lt L; have := p.isLt; omega⟩)).val
    rw [Cert.Spec.rowOf_val_of_le hle, hP]
  | ⟨1, _⟩ => rfl

/-- Every index of chunk c is (128 c + p, q) for some p, q below 128. -/
theorem chunk_rows (n : ℕ) (hn : n < 6400) (i : S819200x128.Idx) (hi : i ∈ chunkN n) :
    ∃ (p q : Fin 128), i = ix2 (⟨128 * n + p.val, by have := p.isLt; omega⟩ : Fin 819200) q := by
  have h0 : (i 0).val / 128 = n := (Finset.mem_filter.mp hi).2
  have h1 : (i 1).val < 128 := (i 1).isLt
  refine ⟨⟨(i 0).val % 128, Nat.mod_lt _ (by decide)⟩, ⟨(i 1).val, h1⟩, ?_⟩
  funext a
  match a with
  | ⟨0, _⟩ =>
    apply Fin.ext
    show (i 0).val = 128 * n + (i 0).val % 128
    omega
  | ⟨1, _⟩ => rfl

end Cert.Proof.KI

end
-- ==== Proof.KI.Inv.lean ====
/-
  The outer loop's invariant.

  Before trip g (g < 40) the five gathers of index rows 5 g … 5 g + 4 are in flight, one per row buffer, and no
  write-out is; index rows below 5 g have come back and the rows from 5 g + 5 on are still in hand; of the worker's
  200 output chunks those below 5 g hold the flat lookup and the others their launch contents. After the last trip
  the five write-outs of chunks 195 … 199 are in flight instead, every index row and table token is back, and the
  chunks below 195 hold the lookup.
-/
import proofs.«219849_g103079215527_week1_w1_1010_20_alg».proof.Proof.KI.Vals

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]
variable (m : (ℓ : Loc nD τ sig) → Buf (Elt F) ℓ) (d : Dev nD) (L : grid0.Coords)
variable (fI : Buf (Elt F) ((sI : Memref sig .scVector .vmem S200x128 .i32).view.loc (thr d L)))
omit [FloatOps F] in
/-- Under the precondition every word of every index row names a table row. -/
theorem hinAll (hpre : PreOK m) (row : Fin 2 → Nat) (hk : ∀ a, row a + S1x128.size a ≤ S200x128.size a) : InRange m d L fI row hk :=
  inb_of_pre m d L hpre fI (PAY m d L) rfl row hk (fun _ => rfl) squeezes_S1x128_S128

variable (hpre : PreOK m)

/-- Offsets of a row of the index scratch, and of a chunk of the output, with their in-bounds evidence. -/
abbrev RowOff : Type := {row : Fin 2 → Nat // ∀ a, row a + S1x128.size a ≤ S200x128.size a}
abbrev OutOff : Type := {off : Fin 2 → Nat // ∀ a, off a + S128x128.size a ≤ S819200x128.size a}

/-- The gather of index row `n` in flight on `sem` into `sB`, at some offsets spelling that row and some prior contents. -/
def gAtom (sem : DmaSems sig S_) (sB : sBty) (t n : ℕ) : sProp 𝕄 :=
  iprop(∃ ro : RowOff, ∃ fp : Buf (Elt F) (sB.view.loc (thr d L)), ⌜ro.1 = ![n, 0]⌝
    ∗ gFlight m d L fI sem sB t ro.1 ro.2 (hinAll m d L fI hpre ro.1 ro.2) fp)

/-- The write-out of row buffer 1 in flight: the output chunk at `off`, written with the buffer, which holds the scaled gather of index row `row`. -/
def wFlight1 (off : Fin 2 → Nat) (h : ∀ a, off a + S128x128.size a ≤ S819200x128.size a) (row : Fin 2 → Nat) (hk : ∀ a, row a + S1x128.size a ≤ S200x128.size a)
    (hin : InRange m d L fI row hk) (fp : Buf (Elt F) ((sB1 : sBty).view.loc (thr d L))) : sProp 𝕄 :=
  Transfers.Flight countersEmb (thr d L) (SemLoc.dma cc0_scratch11.sem) default 524288
    iprop(((outS off h).view.loc (thr d L) ↦[(outS off h).view.set]{fullShare} (outS off h).view.writes (Elt F) (m (outLoc d))
          [⟨Rect.whole S128x128, ReadAs.same.apply (View.read (Elt F) (sB1 : sBty).view (scaled ((sB1 : sBty).view.writes (Elt F) fp [⟨W0, gpay m d L fI row hk hin⟩])))⟩])
      ∗ (sB1 : sBty).view.loc (thr d L) ↦[(sB1 : sBty).view.set]{fullShare} scaled ((sB1 : sBty).view.writes (Elt F) fp [⟨W0, gpay m d L fI row hk hin⟩]))
/-- The same, of output chunk number `c` of the whole array and index row `n`, at some offsets and prior contents. -/
def wAtom1 (c n : ℕ) : sProp 𝕄 :=
  iprop(∃ oo : OutOff, ∃ ro : RowOff, ∃ fp : Buf (Elt F) ((sB1 : sBty).view.loc (thr d L)), ⌜oo.1 = ![128 * c, 0]⌝ ∗ ⌜ro.1 = ![n, 0]⌝
    ∗ wFlight1 m d L fI oo.1 oo.2 ro.1 ro.2 (hinAll m d L fI hpre ro.1 ro.2) fp)

/-- The write-out of row buffer 2 in flight: the output chunk at `off`, written with the buffer, which holds the scaled gather of index row `row`. -/
def wFlight2 (off : Fin 2 → Nat) (h : ∀ a, off a + S128x128.size a ≤ S819200x128.size a) (row : Fin 2 → Nat) (hk : ∀ a, row a + S1x128.size a ≤ S200x128.size a)
    (hin : InRange m d L fI row hk) (fp : Buf (Elt F) ((sB2 : sBty).view.loc (thr d L))) : sProp 𝕄 :=
  Transfers.Flight countersEmb (thr d L) (SemLoc.dma cc0_scratch12.sem) default 524288
    iprop(((outS off h).view.loc (thr d L) ↦[(outS off h).view.set]{fullShare} (outS off h).view.writes (Elt F) (m (outLoc d))
          [⟨Rect.whole S128x128, ReadAs.same.apply (View.read (Elt F) (sB2 : sBty).view (scaled ((sB2 : sBty).view.writes (Elt F) fp [⟨W0, gpay m d L fI row hk hin⟩])))⟩])
      ∗ (sB2 : sBty).view.loc (thr d L) ↦[(sB2 : sBty).view.set]{fullShare} scaled ((sB2 : sBty).view.writes (Elt F) fp [⟨W0, gpay m d L fI row hk hin⟩]))
/-- The same, of output chunk number `c` of the whole array and index row `n`, at some offsets and prior contents. -/
def wAtom2 (c n : ℕ) : sProp 𝕄 :=
  iprop(∃ oo : OutOff, ∃ ro : RowOff, ∃ fp : Buf (Elt F) ((sB2 : sBty).view.loc (thr d L)), ⌜oo.1 = ![128 * c, 0]⌝ ∗ ⌜ro.1 = ![n, 0]⌝
    ∗ wFlight2 m d L fI oo.1 oo.2 ro.1 ro.2 (hinAll m d L fI hpre ro.1 ro.2) fp)

/-- The write-out of row buffer 3 in flight: the output chunk at `off`, written with the buffer, which holds the scaled gather of index row `row`. -/
def wFlight3 (off : Fin 2 → Nat) (h : ∀ a, off a + S128x128.size a ≤ S819200x128.size a) (row : Fin 2 → Nat) (hk : ∀ a, row a + S1x128.size a ≤ S200x128.size a)
    (hin : InRange m d L fI row hk) (fp : Buf (Elt F) ((sB3 : sBty).view.loc (thr d L))) : sProp 𝕄 :=
  Transfers.Flight countersEmb (thr d L) (SemLoc.dma cc0_scratch13.sem) default 524288
    iprop(((outS off h).view.loc (thr d L) ↦[(outS off h).view.set]{fullShare} (outS off h).view.writes (Elt F) (m (outLoc d))
          [⟨Rect.whole S128x128, ReadAs.same.apply (View.read (Elt F) (sB3 : sBty).view (scaled ((sB3 : sBty).view.writes (Elt F) fp [⟨W0, gpay m d L fI row hk hin⟩])))⟩])
      ∗ (sB3 : sBty).view.loc (thr d L) ↦[(sB3 : sBty).view.set]{fullShare} scaled ((sB3 : sBty).view.writes (Elt F) fp [⟨W0, gpay m d L fI row hk hin⟩]))
/-- The same, of output chunk number `c` of the whole array and index row `n`, at some offsets and prior contents. -/
def wAtom3 (c n : ℕ) : sProp 𝕄 :=
  iprop(∃ oo : OutOff, ∃ ro : RowOff, ∃ fp : Buf (Elt F) ((sB3 : sBty).view.loc (thr d L)), ⌜oo.1 = ![128 * c, 0]⌝ ∗ ⌜ro.1 = ![n, 0]⌝
    ∗ wFlight3 m d L fI oo.1 oo.2 ro.1 ro.2 (hinAll m d L fI hpre ro.1 ro.2) fp)

/-- The write-out of row buffer 4 in flight: the output chunk at `off`, written with the buffer, which holds the scaled gather of index row `row`. -/
def wFlight4 (off : Fin 2 → Nat) (h : ∀ a, off a + S128x128.size a ≤ S819200x128.size a) (row : Fin 2 → Nat) (hk : ∀ a, row a + S1x128.size a ≤ S200x128.size a)
    (hin : InRange m d L fI row hk) (fp : Buf (Elt F) ((sB4 : sBty).view.loc (thr d L))) : sProp 𝕄 :=
  Transfers.Flight countersEmb (thr d L) (SemLoc.dma cc0_scratch14.sem) default 524288
    iprop(((outS off h).view.loc (thr d L) ↦[(outS off h).view.set]{fullShare} (outS off h).view.writes (Elt F) (m (outLoc d))
          [⟨Rect.whole S128x128, ReadAs.same.apply (View.read (Elt F) (sB4 : sBty).view (scaled ((sB4 : sBty).view.writes (Elt F) fp [⟨W0, gpay m d L fI row hk hin⟩])))⟩])
      ∗ (sB4 : sBty).view.loc (thr d L) ↦[(sB4 : sBty).view.set]{fullShare} scaled ((sB4 : sBty).view.writes (Elt F) fp [⟨W0, gpay m d L fI row hk hin⟩]))
/-- The same, of output chunk number `c` of the whole array and index row `n`, at some offsets and prior contents. -/
def wAtom4 (c n : ℕ) : sProp 𝕄 :=
  iprop(∃ oo : OutOff, ∃ ro : RowOff, ∃ fp : Buf (Elt F) ((sB4 : sBty).view.loc (thr d L)), ⌜oo.1 = ![128 * c, 0]⌝ ∗ ⌜ro.1 = ![n, 0]⌝
    ∗ wFlight4 m d L fI oo.1 oo.2 ro.1 ro.2 (hinAll m d L fI hpre ro.1 ro.2) fp)

/-- The write-out of row buffer 5 in flight: the output chunk at `off`, written with the buffer, which holds the scaled gather of index row `row`. -/
def wFlight5 (off : Fin 2 → Nat) (h : ∀ a, off a + S128x128.size a ≤ S819200x128.size a) (row : Fin 2 → Nat) (hk : ∀ a, row a + S1x128.size a ≤ S200x128.size a)
    (hin : InRange m d L fI row hk) (fp : Buf (Elt F) ((sB5 : sBty).view.loc (thr d L))) : sProp 𝕄 :=
  Transfers.Flight countersEmb (thr d L) (SemLoc.dma cc0_scratch15.sem) default 524288
    iprop(((outS off h).view.loc (thr d L) ↦[(outS off h).view.set]{fullShare} (outS off h).view.writes (Elt F) (m (outLoc d))
          [⟨Rect.whole S128x128, ReadAs.same.apply (View.read (Elt F) (sB5 : sBty).view (scaled ((sB5 : sBty).view.writes (Elt F) fp [⟨W0, gpay m d L fI row hk hin⟩])))⟩])
      ∗ (sB5 : sBty).view.loc (thr d L) ↦[(sB5 : sBty).view.set]{fullShare} scaled ((sB5 : sBty).view.writes (Elt F) fp [⟨W0, gpay m d L fI row hk hin⟩]))
/-- The same, of output chunk number `c` of the whole array and index row `n`, at some offsets and prior contents. -/
def wAtom5 (c n : ℕ) : sProp 𝕄 :=
  iprop(∃ oo : OutOff, ∃ ro : RowOff, ∃ fp : Buf (Elt F) ((sB5 : sBty).view.loc (thr d L)), ⌜oo.1 = ![128 * c, 0]⌝ ∗ ⌜ro.1 = ![n, 0]⌝
    ∗ wFlight5 m d L fI oo.1 oo.2 ro.1 ro.2 (hinAll m d L fI hpre ro.1 ro.2) fp)

/-- The index rows in [a, b), each held on its own elements. -/
def rowsI (a b : ℕ) : sProp 𝕄 :=
  bigSep (Finset.Ico a b) fun r => (sI : Memref sig .scVector .vmem S200x128 .i32).view.loc (thr d L) ↦[rowSetN r]{fullShare} cI m d L fI
/-- The worker's output chunks in [a, b), at contents `f`. -/
def chunksO (a b : ℕ) (f : Buf (Elt F) (outLoc d)) : sProp 𝕄 :=
  bigSep (Finset.Ico a b) fun n => outLoc d ↦[chunkN (200 * widL L + n)]{fullShare} f

variable (O : CellTallies nD τ sig (HIx 1)) (W : Waits sig (HIx 1))

/-- What the worker owes, with the waits recorded so far all at the kernel's own index. -/
def owesI : sProp 𝕄 := iprop(∃ W', ⌜∀ p ∈ W', p ∈ W ∨ p.2 = none⌝ ∗ owes (thr d L) O W')

/-- Before trip `g`, gathers in flight. -/
def invA (g : ℕ) : sProp 𝕄 :=
  iprop(□ Transfers.MayWaits (thr d L) (none : HIx 1) O
    ∗ gAtom m d L fI hpre cc0_scratch6 sB1 0 (5 * g + 0)
    ∗ gAtom m d L fI hpre cc0_scratch7 sB2 1 (5 * g + 1)
    ∗ gAtom m d L fI hpre cc0_scratch8 sB3 2 (5 * g + 2)
    ∗ gAtom m d L fI hpre cc0_scratch9 sB4 3 (5 * g + 3)
    ∗ gAtom m d L fI hpre cc0_scratch10 sB5 4 (5 * g + 4)
    ∗ semVal (thr d L, SemLoc.dma cc0_scratch11.sem) 0
    ∗ semVal (thr d L, SemLoc.dma cc0_scratch12.sem) 0
    ∗ semVal (thr d L, SemLoc.dma cc0_scratch13.sem) 0
    ∗ semVal (thr d L, SemLoc.dma cc0_scratch14.sem) 0
    ∗ semVal (thr d L, SemLoc.dma cc0_scratch15.sem) 0
    ∗ rowsI m d L fI 0 (5 * g) ∗ rowsI m d L fI (5 * g + 5) 200
    ∗ chunksO d L 0 (5 * g) (flatOf m d) ∗ chunksO d L (5 * g) 200 (m (outLoc d))
    ∗ owesI d L O W)

/-- After the last trip, write-outs in flight. -/
def invB : sProp 𝕄 :=
  iprop(□ Transfers.MayWaits (thr d L) (none : HIx 1) O
    ∗ wAtom1 m d L fI hpre (200 * widL L + 195) 195
    ∗ wAtom2 m d L fI hpre (200 * widL L + 196) 196
    ∗ wAtom3 m d L fI hpre (200 * widL L + 197) 197
    ∗ wAtom4 m d L fI hpre (200 * widL L + 198) 198
    ∗ wAtom5 m d L fI hpre (200 * widL L + 199) 199
    ∗ semVal (thr d L, SemLoc.dma cc0_scratch6.sem) 0
    ∗ semVal (thr d L, SemLoc.dma cc0_scratch7.sem) 0
    ∗ semVal (thr d L, SemLoc.dma cc0_scratch8.sem) 0
    ∗ semVal (thr d L, SemLoc.dma cc0_scratch9.sem) 0
    ∗ semVal (thr d L, SemLoc.dma cc0_scratch10.sem) 0
    ∗ ((tabV : Memref sig .scVector .hbm S100000x128 .f32).view.loc (thr d L) ↦{Transfers.shareTokN (tk (widL L)) 0} m (tabLoc d))
    ∗ ((tabV : Memref sig .scVector .hbm S100000x128 .f32).view.loc (thr d L) ↦{Transfers.shareTokN (tk (widL L)) 1} m (tabLoc d))
    ∗ ((tabV : Memref sig .scVector .hbm S100000x128 .f32).view.loc (thr d L) ↦{Transfers.shareTokN (tk (widL L)) 2} m (tabLoc d))
    ∗ ((tabV : Memref sig .scVector .hbm S100000x128 .f32).view.loc (thr d L) ↦{Transfers.shareTokN (tk (widL L)) 3} m (tabLoc d))
    ∗ ((tabV : Memref sig .scVector .hbm S100000x128 .f32).view.loc (thr d L) ↦{Transfers.shareTokN (tk (widL L)) 4} m (tabLoc d))
    ∗ rowsI m d L fI 0 200
    ∗ chunksO d L 0 195 (flatOf m d)
    ∗ owesI d L O W)

/-- The invariant of the outer loop. -/
def inv (g : ℕ) (_ : PUnit) : sProp 𝕄 := if g < 40 then invA m d L fI hpre O W g else invB m d L fI hpre O W

end Cert.Proof.KI

end
-- ==== Proof.KI.Conv.lean ====
/-
  Between the program's spelling of a piece of an array and the arithmetic one.

  The 128 x 128 slice of the output at offsets (128 c, 0), as a set of indices, is chunk c; the one-row slice of the index
  scratch at row n, read as 128 words, is row n. Held on those sets, the slices are the arrays' pieces.

  After the write-out of a row buffer that holds the gather of index row n times the scale, the slice of the output at
  chunk 200 w + n holds the buffer's entries: entry (p, q) of the slice, index (128 (200 w + n) + p, q) of the output, is
  entry (25600 w + 128 n + p, q) of the flat lookup, and 128 (200 w + n) = 25600 w + 128 n. So the chunk holds the flat lookup.
-/
import proofs.«219849_g103079215527_week1_w1_1010_20_alg».proof.Proof.KI.Vals

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (d : Dev nD) (L : grid0.Coords)
variable (fI : Buf (Elt F) ((sI : Memref sig .scVector .vmem S200x128 .i32).view.loc (thr d L)))

/-! ## Slices held on their own elements -/

/-- (C1) The slice of the output at chunk c, held on its own elements, is chunk c of the output. -/
theorem pts_out (off : Fin 2 → Nat) (h : ∀ a, off a + S128x128.size a ≤ S819200x128.size a) (c : ℕ) (hoff : off = ![128 * c, 0]) (f : Buf (Elt F) (outLoc d)) :
    (((outS off h).view.loc (thr d L) ↦[(outS off h).view.set]{fullShare} f) : sProp 𝕄) = (outLoc d ↦[chunkN c]{fullShare} f) := by
  rw [outSlice_set off h (fun _ => rfl) c hoff]

/-- (C2) Row n of the index scratch, as the offset list of a gather, held on its own elements, is row n of the scratch. -/
theorem pts_row (row : Fin 2 → Nat) (hk : ∀ a, row a + S1x128.size a ≤ S200x128.size a) (n : ℕ) (hrow : row = ![n, 0])
    (c : Buf (Elt F) ((sI : Memref sig .scVector .vmem S200x128 .i32).view.loc (thr d L))) :
    (((offs row hk).view.loc (thr d L) ↦[(offs row hk).view.set]{fullShare} c) : sProp 𝕄)
      = ((sI : Memref sig .scVector .vmem S200x128 .i32).view.loc (thr d L) ↦[rowSetN n]{fullShare} c) := by
  rw [sIrow_set row hk (fun _ => rfl) squeezes_S1x128_S128 n hrow]

/-! ## The written chunk is the flat lookup -/

/-- Entry (p, q) of the slice of the output at chunk c sits at (128 c + p, q). -/
theorem outS_emb (off : Fin 2 → Nat) (h : ∀ a, off a + S128x128.size a ≤ S819200x128.size a) (c : ℕ) (hc : c < 6400) (hoff : off = ![128 * c, 0]) (p q : Fin 128) :
    (outS off h).view.emb (ix2 p q) = (ix2 (⟨128 * c + p.val, by have := p.isLt; omega⟩ : Fin 819200) q : S819200x128.Idx) := by
  subst hoff
  show (Rect.unit (s := S819200x128) ![128 * c, 0] S128x128.size h).emb (ix2 p q) = _
  funext a
  apply Fin.ext
  rw [Rect.emb_apply]
  simp only [Rect.off_unit, Rect.stride_unit, Nat.one_mul]
  match a with
  | ⟨0, _⟩ => rfl
  | ⟨1, _⟩ => show 0 + q.val = q.val; omega

/-- The slice of the output at chunk 200 w + n, written whole with a payload whose entry (p, q) is entry
    (25600 w + 128 n + p, q) of the flat lookup, holds the flat lookup on chunk 200 w + n. -/
theorem pts_chunk_core [FloatOps F] (off : Fin 2 → Nat) (h : ∀ a, off a + S128x128.size a ≤ S819200x128.size a)
    (n : ℕ) (hn : n < 200) (hoff : off = ![128 * (200 * widL L + n), 0]) (pay : S128x128.Idx → Elt F .f32)
    (hpay : ∀ p q : Fin 128, pay (ix2 p q)
      = flatOf m d (ix2 (⟨25600 * widL L + 128 * n + p.val, by have := widL_lt L; have := p.isLt; omega⟩ : Fin 819200) q)) :
    (((outS off h).view.loc (thr d L) ↦[(outS off h).view.set]{fullShare} (outS off h).view.writes (Elt F) (m (outLoc d)) [⟨Rect.whole S128x128, pay⟩]) : sProp 𝕄)
      = (outLoc d ↦[chunkN (200 * widL L + n)]{fullShare} flatOf m d) := by
  have hc : 200 * widL L + n < 6400 := by have := widL_lt L; omega
  refine (pts_out d L off h (200 * widL L + n) hoff _).trans (pointsTo_congr ?_)
  intro i hi
  obtain ⟨p, q, rfl⟩ := chunk_rows (200 * widL L + n) hc i hi
  have hr := congrFun (View.read_writes_whole (outS off h).view (m (outLoc d)) pay) (ix2 p q)
  rw [View.read_apply, outS_emb off h (200 * widL L + n) hc hoff p q] at hr
  refine (show _ = pay (ix2 p q) from hr).trans ?_
  rw [hpay p q]
  congr 2
  apply Fin.ext
  show 25600 * widL L + 128 * n + p.val = 128 * (200 * widL L + n) + p.val
  omega

/-- The same with the payload as it is read off row buffer 1. -/
theorem pts_chunk_sB1 [FloatOps F] (hpre : PreOK m) (off : Fin 2 → Nat) (h : ∀ a, off a + S128x128.size a ≤ S819200x128.size a)
    (n : ℕ) (hn : n < 200) (hoff : off = ![128 * (200 * widL L + n), 0])
    (row : Fin 2 → Nat) (hk : ∀ a, row a + S1x128.size a ≤ S200x128.size a) (hin : InRange m d L fI row hk) (hrow : row = ![n, 0])
    (fp : Buf (Elt F) ((sB1 : sBty).view.loc (thr d L)))
    (pay : S128x128.Idx → Elt F .f32)
    (hpay : pay = ReadAs.same.apply (View.read (Elt F) (sB1 : sBty).view (scaled ((sB1 : sBty).view.writes (Elt F) fp [⟨W0, gpay m d L fI row hk hin⟩])))) :
    (((outS off h).view.loc (thr d L) ↦[(outS off h).view.set]{fullShare} (outS off h).view.writes (Elt F) (m (outLoc d)) [⟨Rect.whole S128x128, pay⟩]) : sProp 𝕄)
      = (outLoc d ↦[chunkN (200 * widL L + n)]{fullShare} flatOf m d) := by
  subst hpay
  refine pts_chunk_core m d L off h n hn hoff _ (fun p q => ?_)
  show scaled ((sB1 : sBty).view.writes (Elt F) fp [⟨W0, gpay m d L fI row hk hin⟩]) (ix2 p q) = _
  rw [writes_W0_sB1]
  exact scaled_gpay m d L fI hpre row hk hin n hrow hn p q

/-- The same with the payload as it is read off row buffer 2. -/
theorem pts_chunk_sB2 [FloatOps F] (hpre : PreOK m) (off : Fin 2 → Nat) (h : ∀ a, off a + S128x128.size a ≤ S819200x128.size a)
    (n : ℕ) (hn : n < 200) (hoff : off = ![128 * (200 * widL L + n), 0])
    (row : Fin 2 → Nat) (hk : ∀ a, row a + S1x128.size a ≤ S200x128.size a) (hin : InRange m d L fI row hk) (hrow : row = ![n, 0])
    (fp : Buf (Elt F) ((sB2 : sBty).view.loc (thr d L)))
    (pay : S128x128.Idx → Elt F .f32)
    (hpay : pay = ReadAs.same.apply (View.read (Elt F) (sB2 : sBty).view (scaled ((sB2 : sBty).view.writes (Elt F) fp [⟨W0, gpay m d L fI row hk hin⟩])))) :
    (((outS off h).view.loc (thr d L) ↦[(outS off h).view.set]{fullShare} (outS off h).view.writes (Elt F) (m (outLoc d)) [⟨Rect.whole S128x128, pay⟩]) : sProp 𝕄)
      = (outLoc d ↦[chunkN (200 * widL L + n)]{fullShare} flatOf m d) := by
  subst hpay
  refine pts_chunk_core m d L off h n hn hoff _ (fun p q => ?_)
  show scaled ((sB2 : sBty).view.writes (Elt F) fp [⟨W0, gpay m d L fI row hk hin⟩]) (ix2 p q) = _
  rw [writes_W0_sB2]
  exact scaled_gpay m d L fI hpre row hk hin n hrow hn p q

/-- The same with the payload as it is read off row buffer 3. -/
theorem pts_chunk_sB3 [FloatOps F] (hpre : PreOK m) (off : Fin 2 → Nat) (h : ∀ a, off a + S128x128.size a ≤ S819200x128.size a)
    (n : ℕ) (hn : n < 200) (hoff : off = ![128 * (200 * widL L + n), 0])
    (row : Fin 2 → Nat) (hk : ∀ a, row a + S1x128.size a ≤ S200x128.size a) (hin : InRange m d L fI row hk) (hrow : row = ![n, 0])
    (fp : Buf (Elt F) ((sB3 : sBty).view.loc (thr d L)))
    (pay : S128x128.Idx → Elt F .f32)
    (hpay : pay = ReadAs.same.apply (View.read (Elt F) (sB3 : sBty).view (scaled ((sB3 : sBty).view.writes (Elt F) fp [⟨W0, gpay m d L fI row hk hin⟩])))) :
    (((outS off h).view.loc (thr d L) ↦[(outS off h).view.set]{fullShare} (outS off h).view.writes (Elt F) (m (outLoc d)) [⟨Rect.whole S128x128, pay⟩]) : sProp 𝕄)
      = (outLoc d ↦[chunkN (200 * widL L + n)]{fullShare} flatOf m d) := by
  subst hpay
  refine pts_chunk_core m d L off h n hn hoff _ (fun p q => ?_)
  show scaled ((sB3 : sBty).view.writes (Elt F) fp [⟨W0, gpay m d L fI row hk hin⟩]) (ix2 p q) = _
  rw [writes_W0_sB3]
  exact scaled_gpay m d L fI hpre row hk hin n hrow hn p q

/-- The same with the payload as it is read off row buffer 4. -/
theorem pts_chunk_sB4 [FloatOps F] (hpre : PreOK m) (off : Fin 2 → Nat) (h : ∀ a, off a + S128x128.size a ≤ S819200x128.size a)
    (n : ℕ) (hn : n < 200) (hoff : off = ![128 * (200 * widL L + n), 0])
    (row : Fin 2 → Nat) (hk : ∀ a, row a + S1x128.size a ≤ S200x128.size a) (hin : InRange m d L fI row hk) (hrow : row = ![n, 0])
    (fp : Buf (Elt F) ((sB4 : sBty).view.loc (thr d L)))
    (pay : S128x128.Idx → Elt F .f32)
    (hpay : pay = ReadAs.same.apply (View.read (Elt F) (sB4 : sBty).view (scaled ((sB4 : sBty).view.writes (Elt F) fp [⟨W0, gpay m d L fI row hk hin⟩])))) :
    (((outS off h).view.loc (thr d L) ↦[(outS off h).view.set]{fullShare} (outS off h).view.writes (Elt F) (m (outLoc d)) [⟨Rect.whole S128x128, pay⟩]) : sProp 𝕄)
      = (outLoc d ↦[chunkN (200 * widL L + n)]{fullShare} flatOf m d) := by
  subst hpay
  refine pts_chunk_core m d L off h n hn hoff _ (fun p q => ?_)
  show scaled ((sB4 : sBty).view.writes (Elt F) fp [⟨W0, gpay m d L fI row hk hin⟩]) (ix2 p q) = _
  rw [writes_W0_sB4]
  exact scaled_gpay m d L fI hpre row hk hin n hrow hn p q

/-- The same with the payload as it is read off row buffer 5. -/
theorem pts_chunk_sB5 [FloatOps F] (hpre : PreOK m) (off : Fin 2 → Nat) (h : ∀ a, off a + S128x128.size a ≤ S819200x128.size a)
    (n : ℕ) (hn : n < 200) (hoff : off = ![128 * (200 * widL L + n), 0])
    (row : Fin 2 → Nat) (hk : ∀ a, row a + S1x128.size a ≤ S200x128.size a) (hin : InRange m d L fI row hk) (hrow : row = ![n, 0])
    (fp : Buf (Elt F) ((sB5 : sBty).view.loc (thr d L)))
    (pay : S128x128.Idx → Elt F .f32)
    (hpay : pay = ReadAs.same.apply (View.read (Elt F) (sB5 : sBty).view (scaled ((sB5 : sBty).view.writes (Elt F) fp [⟨W0, gpay m d L fI row hk hin⟩])))) :
    (((outS off h).view.loc (thr d L) ↦[(outS off h).view.set]{fullShare} (outS off h).view.writes (Elt F) (m (outLoc d)) [⟨Rect.whole S128x128, pay⟩]) : sProp 𝕄)
      = (outLoc d ↦[chunkN (200 * widL L + n)]{fullShare} flatOf m d) := by
  subst hpay
  refine pts_chunk_core m d L off h n hn hoff _ (fun p q => ?_)
  show scaled ((sB5 : sBty).view.writes (Elt F) fp [⟨W0, gpay m d L fI row hk hin⟩]) (ix2 p q) = _
  rw [writes_W0_sB5]
  exact scaled_gpay m d L fI hpre row hk hin n hrow hn p q

end Cert.Proof.KI

end
-- ==== Proof.KI.RowLib.lean ====
/-
  One trip of a row loop, as sixteen stores read back as one function.

  The kernel multiplies a 128 x 128 row buffer by one fixed float in a loop of sixty-four trips. Trip `k` rewrites rows
  `2 k` and `2 k + 1` in sixteen pieces of sixteen lanes, piece `n` at row `2 k + n / 8`, columns `16 (n % 8)` to
  `16 (n % 8) + 15`: it loads the piece, multiplies every lane by the scale and stores it back. Every piece is loaded
  before anything is stored into it, so each load reads the contents the trip started from. This module holds what the
  five loops share: the contents before trip `k` (`upTo`), the contents after the trip's first `n` stores (`Done`), and
  the step from `n` stores to `n + 1`.
-/
import proofs.«219849_g103079215527_week1_w1_1010_20_alg».proof.Proof.KI.Setup

noncomputable section

namespace Cert.Proof.KI.Row

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Rows below `2 k` scaled, the others as they were. -/
def upTo (f : S128x128.Idx → Elt F (.f32 : EltTy)) (k : ℕ) : S128x128.Idx → Elt F (.f32 : EltTy) :=
  fun j => if (j 0).val < 2 * k then scaled f j else f j

theorem upTo_of_le {f : S128x128.Idx → Elt F (.f32 : EltTy)} {k : ℕ} {j : S128x128.Idx} (h : 2 * k ≤ (j 0).val) :
    upTo f k j = f j := by
  unfold upTo; rw [if_neg (by omega)]

theorem upTo_zero (f : S128x128.Idx → Elt F (.f32 : EltTy)) : upTo f 0 = f := by
  funext j; exact upTo_of_le (Nat.zero_le _)

/-- After the sixty-four trips every row is scaled. -/
theorem upTo_last (f : S128x128.Idx → Elt F (.f32 : EltTy)) : upTo f 64 = scaled f := by
  funext j
  have hj0 : (j 0).val < 128 := (j 0).isLt
  unfold upTo; rw [if_pos (by omega)]

/-- One lane of a stored piece: the loaded lane times the scale (the two shape casts, 1 x 16 to 16 and back, cancel;
    the splat is constant; the product is lane by lane). -/
theorem pay_apply (u : FVec F S1x16 .f32) (h1 : S1x16.ShapeCasts S16) (h2 : S16.ShapeCasts S1x16) (x : S1x16.Idx) :
    shapeCast S1x16 (mulf (shapeCast S16 u h1) (broadcast S16 (Scalar.ofBits .f32 0x413504F3#32))) h2 x
      = FloatOps.mulf (u x) (Cert.Spec.scale (F := F)) := by
  show FloatOps.mulf (u (Shape.reshapeEquiv _ (Shape.reshapeEquiv _ x))) _ = FloatOps.mulf (u x) _
  rw [Shape.reshapeEquiv_reshapeEquiv, Shape.reshapeEquiv_self]; rfl

section Lib
variable {sg : RefSig} {κ : Kind} {sp : Space} (v : View sg κ sp S128x128 (.f32 : EltTy))

/-- The buffer after the first `n` pieces of trip `k`: scaled below row `2 k` and on those pieces, `f` elsewhere. -/
def Done (f : S128x128.Idx → Elt F (.f32 : EltTy)) (k n : ℕ) (g : v.ty.Contents (Elt F)) : Prop :=
  ∀ j : S128x128.Idx, v.read (Elt F) g j =
    if (j 0).val < 2 * k ∨ ((j 0).val < 2 * k + 2 ∧ ((j 0).val - 2 * k) * 128 + (j 1).val < 16 * n) then scaled f j else f j

/-- Before the trip's first store. -/
theorem Done.zero {f : S128x128.Idx → Elt F (.f32 : EltTy)} {k : ℕ} {g : v.ty.Contents (Elt F)}
    (h : ∀ j, v.read (Elt F) g j = upTo f k j) : Done v f k 0 g := by
  intro j
  rw [h j]; unfold upTo
  exact if_congr (by omega) rfl rfl

/-- After its last: rows below `2 (k + 1)` are scaled. -/
theorem Done.last {f : S128x128.Idx → Elt F (.f32 : EltTy)} {k : ℕ} {g : v.ty.Contents (Elt F)}
    (h : Done v f k 16 g) : ∀ j, v.read (Elt F) g j = upTo f (k + 1) j := by
  intro j
  have hj1 : (j 1).val < 128 := (j 1).isLt
  rw [h j]; unfold upTo
  exact if_congr (by omega) rfl rfl

/-- One store: piece `n`, loaded from contents `g0` that are `f` from row `2 k` on, scaled and written back. -/
theorem Done.step {f : S128x128.Idx → Elt F (.f32 : EltTy)} {k n : ℕ} {g g0 : v.ty.Contents (Elt F)} (h : Done v f k n g) (hn : n < 16)
    (hg0 : ∀ j : S128x128.Idx, 2 * k ≤ (j 0).val → v.read (Elt F) g0 j = f j)
    {off : Fin 2 → ℕ} (inb : ∀ a, off a + S1x16.size a ≤ S128x128.size a) (hoff : off = ![2 * k + n / 8, 16 * (n % 8)])
    (w : (Rect.unit (s := S128x128) off S1x16.size inb).shape.Idx → Elt F (.f32 : EltTy))
    (hw : ∀ x, w x = FloatOps.mulf (v.readAt (Elt F) (Rect.unit (s := S128x128) off S1x16.size inb).toLoadRect g0 x) (Cert.Spec.scale (F := F))) :
    Done v f k (n + 1) ((v.slice (Rect.unit (s := S128x128) off S1x16.size inb)).write (Elt F) g w Finset.univ) := by
  subst hoff
  intro j
  have hj0 : (j 0).val < 128 := (j 0).isLt
  have hj1 : (j 1).val < 128 := (j 1).isLt
  by_cases hj : j ∈ (Rect.unit (s := S128x128) ![2 * k + n / 8, 16 * (n % 8)] S1x16.size inb).set
  · obtain ⟨x, hx⟩ := LoadRect.exists_idx_of_mem _ hj
    have hx' : (Rect.unit (s := S128x128) ![2 * k + n / 8, 16 * (n % 8)] S1x16.size inb).emb x = j := hx
    have e : v.read (Elt F) ((v.slice (Rect.unit (s := S128x128) ![2 * k + n / 8, 16 * (n % 8)] S1x16.size inb)).write (Elt F) g w Finset.univ) j = w x := by
      rw [← hx']; exact View.read_slice_write_emb _ _ _ (Finset.mem_univ x)
    rw [Rect.mem_set_unit] at hj
    have h0 : 2 * k + n / 8 ≤ (j 0).val ∧ (j 0).val < 2 * k + n / 8 + 1 := hj 0
    have h1 : 16 * (n % 8) ≤ (j 1).val ∧ (j 1).val < 16 * (n % 8) + 16 := hj 1
    rw [e, hw, View.readAt_apply, hx, hg0 j (by omega), if_pos (by omega)]
    rfl
  · rw [View.read_slice_write_of_not_mem _ _ _ _ (by rwa [Rect.map_emb_univ]), h j]
    rw [Rect.mem_set_unit] at hj
    have hj' : ¬ ((2 * k + n / 8 ≤ (j 0).val ∧ (j 0).val < 2 * k + n / 8 + 1) ∧ (16 * (n % 8) ≤ (j 1).val ∧ (j 1).val < 16 * (n % 8) + 16)) := by
      intro hc
      apply hj
      intro a
      fin_cases a
      · exact hc.1
      · exact hc.2
    have hiff : ((j 0).val < 2 * k ∨ ((j 0).val < 2 * k + 2 ∧ ((j 0).val - 2 * k) * 128 + (j 1).val < 16 * n))
        ↔ ((j 0).val < 2 * k ∨ ((j 0).val < 2 * k + 2 ∧ ((j 0).val - 2 * k) * 128 + (j 1).val < 16 * (n + 1))) := by omega
    rw [if_congr hiff rfl rfl]

end Lib

omit [FloatOps F] in
/-- A buffer held at contents equal to others is held at those. -/
theorem pts_of_eq {ℓ : Loc nD τ sig} {q : PosShare TreeShare} {g g' : Buf (Elt F) ℓ} (h : g = g') :
    ((ℓ ↦{q} g) : sProp 𝕄) ⊢ ℓ ↦{q} g' := by
  subst h; exact Entails.refl _

end Cert.Proof.KI.Row

end
-- ==== Proof.KI.RowLoop1.lean ====
/-
  Row loop 1 of the kernel: the 128 x 128 row buffer number 1 multiplied, entry by entry, by the scale.

  The loop runs sixty-four trips; trip `k` rewrites rows `2 k` and `2 k + 1`. Its invariant: before trip `k` the buffer
  holds the contents the loop started from with the rows below `2 k` scaled. One trip is sixteen loads of the contents
  it started with and sixteen stores, read back as one function by the shared lemmas on the trip's pieces; after the
  last trip `2 * 64 = 128` rows are scaled, that is all of them.
-/
import proofs.«219849_g103079215527_week1_w1_1010_20_alg».proof.Proof.KI.RowLib

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.KI.Row

variable {F : FTy → Type} [FloatOps F]

local notation "𝕄" => MT nD τ sig (HIx 1) (Elt F) ℕ UU ℕ

/-- The loop's invariant: before trip `k` the buffer holds `f` with the rows below `2 k` scaled. -/
def Row.inv1 (d : Dev nD) (L : grid0.Coords) (f : S128x128.Idx → Elt F (.f32 : EltTy)) (k : ℕ) (_ : Unit) : sProp 𝕄 :=
  (sB1 : Memref sig .scVector .vmem S128x128 .f32).view.loc (thr d L) ↦{fullShare} upTo f k

omit [FloatOps F] in
/-- Through the whole buffer, contents that read alike are equal. -/
private theorem Row.ext1 {g g' : (sB1 : Memref sig .scVector .vmem S128x128 .f32).view.ty.Contents (Elt F)}
    (h : ∀ j, (sB1 : Memref sig .scVector .vmem S128x128 .f32).view.read (Elt F) g j = g' j) : g = g' := funext h

/-- Row loop 1: every entry of the buffer is multiplied by the scale. Trip `k` rewrites rows `2 k` and `2 k + 1`
    in sixteen pieces, each loaded from the contents the trip started with and stored back scaled. -/
theorem rowLoop1 (d : Dev nD) (L : grid0.Coords) (f : Buf (Elt F) ((sB1 : Memref sig .scVector .vmem S128x128 .f32).view.loc (thr d L))) (v2 c0 c1 : BitVec 32) (k0_t1 : Fin k0_t1_loop.trips) :
      (((sB1 : Memref sig .scVector .vmem S128x128 .f32).view.loc (thr d L) ↦{fullShare} f) : sProp 𝕄)
        ⊢ wp frame (wpE (defs₀ (F := F)) 𝒱₀ (thr d L) none) Set.univ
            (Scf.Loop.for k0_t2_loop k0_t2_ok ⟨⟩ (k0_t2_body L tabV (Memref.isWhole_whole _) idxV (Memref.isWhole_whole _) outV (Memref.isWhole_whole _) sI (Memref.isWhole_whole _)
              sB1 (Memref.isWhole_whole _) sB2 (Memref.isWhole_whole _) sB3 (Memref.isWhole_whole _) sB4 (Memref.isWhole_whole _) sB5 (Memref.isWhole_whole _)
              cc0_scratch6 cc0_scratch7 cc0_scratch8 cc0_scratch9 cc0_scratch10 cc0_scratch11 cc0_scratch12 cc0_scratch13 cc0_scratch14 cc0_scratch15 cc0_scoped0 v2 c0 c1 k0_t1))
            fun _ => ((sB1 : Memref sig .scVector .vmem S128x128 .f32).view.loc (thr d L) ↦{fullShare} scaled f) := by
  iintro H
  sl_for (inv1 d L f) $$ [H]
  case region =>
    intro k a
    unfold inv1
    iintro H
    sl_exec
    sl_step
    have hg0 : ∀ j : S128x128.Idx, 2 * k.val ≤ (j 0).val →
        (sB1 : Memref sig .scVector .vmem S128x128 .f32).view.read (Elt F) (upTo f k.val) j = f j := fun j hj => upTo_of_le hj
    iapply (pts_of_eq ?heq) $$ H
    case heq =>
      sl_unfold_run_names
      -- the stored pieces as plain terms over the loaded lanes
      simp only [k0_pay1, k0_pay2, k0_pay3, k0_pay4, k0_pay5, k0_pay6, k0_pay7, k0_pay8, k0_pay9, k0_pay10,
        k0_pay11, k0_pay12, k0_pay13, k0_pay14, k0_pay15, k0_pay16, k0_pay17, k0_pay18, k0_pay19, k0_pay20,
        k0_pay21, k0_pay22, k0_pay23, k0_pay24, k0_pay25, k0_pay26, k0_pay27, k0_pay28, k0_pay29, k0_pay30,
        k0_pay31, k0_pay32, k0_pay33, k0_pay34, k0_pay35, k0_pay36, k0_pay37, k0_pay38, k0_pay39, k0_pay40,
        k0_pay41, k0_pay42, k0_pay43, k0_pay44, k0_pay45, k0_pay46, k0_pay47, k0_pay48, k0_pay49, k0_pay50,
        k0_pay51, k0_pay52, k0_pay53, k0_pay54, k0_pay55, k0_pay56, k0_pay57, k0_pay58, k0_pay59, k0_pay60,
        k0_pay61, k0_pay62, k0_pay63, k0_pay64, k0_pay65, k0_pay66, k0_pay67, k0_pay68, k0_pay69, k0_pay70,
        k0_pay71, k0_pay72, k0_pay73, k0_pay74, k0_pay75, k0_pay76, k0_pay77, k0_pay78, k0_pay79, k0_pay80,
        k0_pay81, k0_pay82, k0_pay83, k0_pay84, k0_pay85, k0_pay86, k0_pay87, k0_pay88, k0_pay89, k0_pay90,
        k0_pay91, k0_pay92, k0_pay93, k0_pay94, k0_pay95, k0_pay96, k0_pay97, k0_pay98, k0_pay99, k0_pay100]
      refine ext1 (Done.last _ ?_)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      exact Done.zero _ (fun j => rfl)
  · isplitl [H]
    · unfold inv1
      iapply (pts_of_eq (upTo_zero f).symm) $$ H
    · iintro %acc HI
      unfold inv1
      iapply (pts_of_eq ?heq) $$ HI
      case heq =>
        have ht : Scf.trips k0_t2_loop.lb k0_t2_loop.ub k0_t2_loop.st = 64 := by decide
        rw [ht]; exact upTo_last f

end Cert.Proof.KI

end
-- ==== Proof.KI.RowLoop2.lean ====
/-
  Row loop 2 of the kernel: the 128 x 128 row buffer number 2 multiplied, entry by entry, by the scale.

  The loop runs sixty-four trips; trip `k` rewrites rows `2 k` and `2 k + 1`. Its invariant: before trip `k` the buffer
  holds the contents the loop started from with the rows below `2 k` scaled. One trip is sixteen loads of the contents
  it started with and sixteen stores, read back as one function by the shared lemmas on the trip's pieces; after the
  last trip `2 * 64 = 128` rows are scaled, that is all of them.
-/
import proofs.«219849_g103079215527_week1_w1_1010_20_alg».proof.Proof.KI.RowLib

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.KI.Row

variable {F : FTy → Type} [FloatOps F]

local notation "𝕄" => MT nD τ sig (HIx 1) (Elt F) ℕ UU ℕ

/-- The loop's invariant: before trip `k` the buffer holds `f` with the rows below `2 k` scaled. -/
def Row.inv2 (d : Dev nD) (L : grid0.Coords) (f : S128x128.Idx → Elt F (.f32 : EltTy)) (k : ℕ) (_ : Unit) : sProp 𝕄 :=
  (sB2 : Memref sig .scVector .vmem S128x128 .f32).view.loc (thr d L) ↦{fullShare} upTo f k

omit [FloatOps F] in
/-- Through the whole buffer, contents that read alike are equal. -/
private theorem Row.ext2 {g g' : (sB2 : Memref sig .scVector .vmem S128x128 .f32).view.ty.Contents (Elt F)}
    (h : ∀ j, (sB2 : Memref sig .scVector .vmem S128x128 .f32).view.read (Elt F) g j = g' j) : g = g' := funext h

/-- Row loop 2: every entry of the buffer is multiplied by the scale. Trip `k` rewrites rows `2 k` and `2 k + 1`
    in sixteen pieces, each loaded from the contents the trip started with and stored back scaled. -/
theorem rowLoop2 (d : Dev nD) (L : grid0.Coords) (f : Buf (Elt F) ((sB2 : Memref sig .scVector .vmem S128x128 .f32).view.loc (thr d L))) (v2 c0 c1 : BitVec 32) (k0_t1 : Fin k0_t1_loop.trips) :
      (((sB2 : Memref sig .scVector .vmem S128x128 .f32).view.loc (thr d L) ↦{fullShare} f) : sProp 𝕄)
        ⊢ wp frame (wpE (defs₀ (F := F)) 𝒱₀ (thr d L) none) Set.univ
            (Scf.Loop.for k0_t3_loop k0_t3_ok ⟨⟩ (k0_t3_body L tabV (Memref.isWhole_whole _) idxV (Memref.isWhole_whole _) outV (Memref.isWhole_whole _) sI (Memref.isWhole_whole _)
              sB1 (Memref.isWhole_whole _) sB2 (Memref.isWhole_whole _) sB3 (Memref.isWhole_whole _) sB4 (Memref.isWhole_whole _) sB5 (Memref.isWhole_whole _)
              cc0_scratch6 cc0_scratch7 cc0_scratch8 cc0_scratch9 cc0_scratch10 cc0_scratch11 cc0_scratch12 cc0_scratch13 cc0_scratch14 cc0_scratch15 cc0_scoped0 v2 c0 c1 k0_t1))
            fun _ => ((sB2 : Memref sig .scVector .vmem S128x128 .f32).view.loc (thr d L) ↦{fullShare} scaled f) := by
  iintro H
  sl_for (inv2 d L f) $$ [H]
  case region =>
    intro k a
    unfold inv2
    iintro H
    sl_exec
    sl_step
    have hg0 : ∀ j : S128x128.Idx, 2 * k.val ≤ (j 0).val →
        (sB2 : Memref sig .scVector .vmem S128x128 .f32).view.read (Elt F) (upTo f k.val) j = f j := fun j hj => upTo_of_le hj
    iapply (pts_of_eq ?heq) $$ H
    case heq =>
      sl_unfold_run_names
      -- the stored pieces as plain terms over the loaded lanes
      simp only [k0_pay1, k0_pay2, k0_pay3, k0_pay4, k0_pay5, k0_pay6, k0_pay7, k0_pay8, k0_pay9, k0_pay10,
        k0_pay11, k0_pay12, k0_pay13, k0_pay14, k0_pay15, k0_pay16, k0_pay17, k0_pay18, k0_pay19, k0_pay20,
        k0_pay21, k0_pay22, k0_pay23, k0_pay24, k0_pay25, k0_pay26, k0_pay27, k0_pay28, k0_pay29, k0_pay30,
        k0_pay31, k0_pay32, k0_pay33, k0_pay34, k0_pay35, k0_pay36, k0_pay37, k0_pay38, k0_pay39, k0_pay40,
        k0_pay41, k0_pay42, k0_pay43, k0_pay44, k0_pay45, k0_pay46, k0_pay47, k0_pay48, k0_pay49, k0_pay50,
        k0_pay51, k0_pay52, k0_pay53, k0_pay54, k0_pay55, k0_pay56, k0_pay57, k0_pay58, k0_pay59, k0_pay60,
        k0_pay61, k0_pay62, k0_pay63, k0_pay64, k0_pay65, k0_pay66, k0_pay67, k0_pay68, k0_pay69, k0_pay70,
        k0_pay71, k0_pay72, k0_pay73, k0_pay74, k0_pay75, k0_pay76, k0_pay77, k0_pay78, k0_pay79, k0_pay80,
        k0_pay81, k0_pay82, k0_pay83, k0_pay84, k0_pay85, k0_pay86, k0_pay87, k0_pay88, k0_pay89, k0_pay90,
        k0_pay91, k0_pay92, k0_pay93, k0_pay94, k0_pay95, k0_pay96, k0_pay97, k0_pay98, k0_pay99, k0_pay100]
      refine ext2 (Done.last _ ?_)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      exact Done.zero _ (fun j => rfl)
  · isplitl [H]
    · unfold inv2
      iapply (pts_of_eq (upTo_zero f).symm) $$ H
    · iintro %acc HI
      unfold inv2
      iapply (pts_of_eq ?heq) $$ HI
      case heq =>
        have ht : Scf.trips k0_t3_loop.lb k0_t3_loop.ub k0_t3_loop.st = 64 := by decide
        rw [ht]; exact upTo_last f

end Cert.Proof.KI

end
-- ==== Proof.KI.RowLoop3.lean ====
/-
  Row loop 3 of the kernel: the 128 x 128 row buffer number 3 multiplied, entry by entry, by the scale.

  The loop runs sixty-four trips; trip `k` rewrites rows `2 k` and `2 k + 1`. Its invariant: before trip `k` the buffer
  holds the contents the loop started from with the rows below `2 k` scaled. One trip is sixteen loads of the contents
  it started with and sixteen stores, read back as one function by the shared lemmas on the trip's pieces; after the
  last trip `2 * 64 = 128` rows are scaled, that is all of them.
-/
import proofs.«219849_g103079215527_week1_w1_1010_20_alg».proof.Proof.KI.RowLib

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.KI.Row

variable {F : FTy → Type} [FloatOps F]

local notation "𝕄" => MT nD τ sig (HIx 1) (Elt F) ℕ UU ℕ

/-- The loop's invariant: before trip `k` the buffer holds `f` with the rows below `2 k` scaled. -/
def Row.inv3 (d : Dev nD) (L : grid0.Coords) (f : S128x128.Idx → Elt F (.f32 : EltTy)) (k : ℕ) (_ : Unit) : sProp 𝕄 :=
  (sB3 : Memref sig .scVector .vmem S128x128 .f32).view.loc (thr d L) ↦{fullShare} upTo f k

omit [FloatOps F] in
/-- Through the whole buffer, contents that read alike are equal. -/
private theorem Row.ext3 {g g' : (sB3 : Memref sig .scVector .vmem S128x128 .f32).view.ty.Contents (Elt F)}
    (h : ∀ j, (sB3 : Memref sig .scVector .vmem S128x128 .f32).view.read (Elt F) g j = g' j) : g = g' := funext h

/-- Row loop 3: every entry of the buffer is multiplied by the scale. Trip `k` rewrites rows `2 k` and `2 k + 1`
    in sixteen pieces, each loaded from the contents the trip started with and stored back scaled. -/
theorem rowLoop3 (d : Dev nD) (L : grid0.Coords) (f : Buf (Elt F) ((sB3 : Memref sig .scVector .vmem S128x128 .f32).view.loc (thr d L))) (v2 : BitVec 32) (k0_t1 : Fin k0_t1_loop.trips) (v39 c1 : BitVec 32) :
      (((sB3 : Memref sig .scVector .vmem S128x128 .f32).view.loc (thr d L) ↦{fullShare} f) : sProp 𝕄)
        ⊢ wp frame (wpE (defs₀ (F := F)) 𝒱₀ (thr d L) none) Set.univ
            (Scf.Loop.for k0_t4_loop k0_t4_ok ⟨⟩ (k0_t4_body L tabV (Memref.isWhole_whole _) idxV (Memref.isWhole_whole _) outV (Memref.isWhole_whole _) sI (Memref.isWhole_whole _)
              sB1 (Memref.isWhole_whole _) sB2 (Memref.isWhole_whole _) sB3 (Memref.isWhole_whole _) sB4 (Memref.isWhole_whole _) sB5 (Memref.isWhole_whole _)
              cc0_scratch6 cc0_scratch7 cc0_scratch8 cc0_scratch9 cc0_scratch10 cc0_scratch11 cc0_scratch12 cc0_scratch13 cc0_scratch14 cc0_scratch15 cc0_scoped0 v2 k0_t1 v39 c1))
            fun _ => ((sB3 : Memref sig .scVector .vmem S128x128 .f32).view.loc (thr d L) ↦{fullShare} scaled f) := by
  iintro H
  sl_for (inv3 d L f) $$ [H]
  case region =>
    intro k a
    unfold inv3
    iintro H
    sl_exec
    sl_step
    have hg0 : ∀ j : S128x128.Idx, 2 * k.val ≤ (j 0).val →
        (sB3 : Memref sig .scVector .vmem S128x128 .f32).view.read (Elt F) (upTo f k.val) j = f j := fun j hj => upTo_of_le hj
    iapply (pts_of_eq ?heq) $$ H
    case heq =>
      sl_unfold_run_names
      -- the stored pieces as plain terms over the loaded lanes
      simp only [k0_pay1, k0_pay2, k0_pay3, k0_pay4, k0_pay5, k0_pay6, k0_pay7, k0_pay8, k0_pay9, k0_pay10,
        k0_pay11, k0_pay12, k0_pay13, k0_pay14, k0_pay15, k0_pay16, k0_pay17, k0_pay18, k0_pay19, k0_pay20,
        k0_pay21, k0_pay22, k0_pay23, k0_pay24, k0_pay25, k0_pay26, k0_pay27, k0_pay28, k0_pay29, k0_pay30,
        k0_pay31, k0_pay32, k0_pay33, k0_pay34, k0_pay35, k0_pay36, k0_pay37, k0_pay38, k0_pay39, k0_pay40,
        k0_pay41, k0_pay42, k0_pay43, k0_pay44, k0_pay45, k0_pay46, k0_pay47, k0_pay48, k0_pay49, k0_pay50,
        k0_pay51, k0_pay52, k0_pay53, k0_pay54, k0_pay55, k0_pay56, k0_pay57, k0_pay58, k0_pay59, k0_pay60,
        k0_pay61, k0_pay62, k0_pay63, k0_pay64, k0_pay65, k0_pay66, k0_pay67, k0_pay68, k0_pay69, k0_pay70,
        k0_pay71, k0_pay72, k0_pay73, k0_pay74, k0_pay75, k0_pay76, k0_pay77, k0_pay78, k0_pay79, k0_pay80,
        k0_pay81, k0_pay82, k0_pay83, k0_pay84, k0_pay85, k0_pay86, k0_pay87, k0_pay88, k0_pay89, k0_pay90,
        k0_pay91, k0_pay92, k0_pay93, k0_pay94, k0_pay95, k0_pay96, k0_pay97, k0_pay98, k0_pay99, k0_pay100]
      refine ext3 (Done.last _ ?_)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      exact Done.zero _ (fun j => rfl)
  · isplitl [H]
    · unfold inv3
      iapply (pts_of_eq (upTo_zero f).symm) $$ H
    · iintro %acc HI
      unfold inv3
      iapply (pts_of_eq ?heq) $$ HI
      case heq =>
        have ht : Scf.trips k0_t4_loop.lb k0_t4_loop.ub k0_t4_loop.st = 64 := by decide
        rw [ht]; exact upTo_last f

end Cert.Proof.KI

end
-- ==== Proof.KI.RowLoop4.lean ====
/-
  Row loop 4 of the kernel: the 128 x 128 row buffer number 4 multiplied, entry by entry, by the scale.

  The loop runs sixty-four trips; trip `k` rewrites rows `2 k` and `2 k + 1`. Its invariant: before trip `k` the buffer
  holds the contents the loop started from with the rows below `2 k` scaled. One trip is sixteen loads of the contents
  it started with and sixteen stores, read back as one function by the shared lemmas on the trip's pieces; after the
  last trip `2 * 64 = 128` rows are scaled, that is all of them.
-/
import proofs.«219849_g103079215527_week1_w1_1010_20_alg».proof.Proof.KI.RowLib

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.KI.Row

variable {F : FTy → Type} [FloatOps F]

local notation "𝕄" => MT nD τ sig (HIx 1) (Elt F) ℕ UU ℕ

/-- The loop's invariant: before trip `k` the buffer holds `f` with the rows below `2 k` scaled. -/
def Row.inv4 (d : Dev nD) (L : grid0.Coords) (f : S128x128.Idx → Elt F (.f32 : EltTy)) (k : ℕ) (_ : Unit) : sProp 𝕄 :=
  (sB4 : Memref sig .scVector .vmem S128x128 .f32).view.loc (thr d L) ↦{fullShare} upTo f k

omit [FloatOps F] in
/-- Through the whole buffer, contents that read alike are equal. -/
private theorem Row.ext4 {g g' : (sB4 : Memref sig .scVector .vmem S128x128 .f32).view.ty.Contents (Elt F)}
    (h : ∀ j, (sB4 : Memref sig .scVector .vmem S128x128 .f32).view.read (Elt F) g j = g' j) : g = g' := funext h

/-- Row loop 4: every entry of the buffer is multiplied by the scale. Trip `k` rewrites rows `2 k` and `2 k + 1`
    in sixteen pieces, each loaded from the contents the trip started with and stored back scaled. -/
theorem rowLoop4 (d : Dev nD) (L : grid0.Coords) (f : Buf (Elt F) ((sB4 : Memref sig .scVector .vmem S128x128 .f32).view.loc (thr d L))) (v2 c0 : BitVec 32) :
      (((sB4 : Memref sig .scVector .vmem S128x128 .f32).view.loc (thr d L) ↦{fullShare} f) : sProp 𝕄)
        ⊢ wp frame (wpE (defs₀ (F := F)) 𝒱₀ (thr d L) none) Set.univ
            (Scf.Loop.for k0_t5_loop k0_t5_ok ⟨⟩ (k0_t5_body L tabV (Memref.isWhole_whole _) idxV (Memref.isWhole_whole _) outV (Memref.isWhole_whole _) sI (Memref.isWhole_whole _)
              sB1 (Memref.isWhole_whole _) sB2 (Memref.isWhole_whole _) sB3 (Memref.isWhole_whole _) sB4 (Memref.isWhole_whole _) sB5 (Memref.isWhole_whole _)
              cc0_scratch6 cc0_scratch7 cc0_scratch8 cc0_scratch9 cc0_scratch10 cc0_scratch11 cc0_scratch12 cc0_scratch13 cc0_scratch14 cc0_scratch15 cc0_scoped0 v2 c0))
            fun _ => ((sB4 : Memref sig .scVector .vmem S128x128 .f32).view.loc (thr d L) ↦{fullShare} scaled f) := by
  iintro H
  sl_for (inv4 d L f) $$ [H]
  case region =>
    intro k a
    unfold inv4
    iintro H
    sl_exec
    sl_step
    have hg0 : ∀ j : S128x128.Idx, 2 * k.val ≤ (j 0).val →
        (sB4 : Memref sig .scVector .vmem S128x128 .f32).view.read (Elt F) (upTo f k.val) j = f j := fun j hj => upTo_of_le hj
    iapply (pts_of_eq ?heq) $$ H
    case heq =>
      sl_unfold_run_names
      -- the stored pieces as plain terms over the loaded lanes
      simp only [k0_pay1, k0_pay2, k0_pay3, k0_pay4, k0_pay5, k0_pay6, k0_pay7, k0_pay8, k0_pay9, k0_pay10,
        k0_pay11, k0_pay12, k0_pay13, k0_pay14, k0_pay15, k0_pay16, k0_pay17, k0_pay18, k0_pay19, k0_pay20,
        k0_pay21, k0_pay22, k0_pay23, k0_pay24, k0_pay25, k0_pay26, k0_pay27, k0_pay28, k0_pay29, k0_pay30,
        k0_pay31, k0_pay32, k0_pay33, k0_pay34, k0_pay35, k0_pay36, k0_pay37, k0_pay38, k0_pay39, k0_pay40,
        k0_pay41, k0_pay42, k0_pay43, k0_pay44, k0_pay45, k0_pay46, k0_pay47, k0_pay48, k0_pay49, k0_pay50,
        k0_pay51, k0_pay52, k0_pay53, k0_pay54, k0_pay55, k0_pay56, k0_pay57, k0_pay58, k0_pay59, k0_pay60,
        k0_pay61, k0_pay62, k0_pay63, k0_pay64, k0_pay65, k0_pay66, k0_pay67, k0_pay68, k0_pay69, k0_pay70,
        k0_pay71, k0_pay72, k0_pay73, k0_pay74, k0_pay75, k0_pay76, k0_pay77, k0_pay78, k0_pay79, k0_pay80,
        k0_pay81, k0_pay82, k0_pay83, k0_pay84, k0_pay85, k0_pay86, k0_pay87, k0_pay88, k0_pay89, k0_pay90,
        k0_pay91, k0_pay92, k0_pay93, k0_pay94, k0_pay95, k0_pay96, k0_pay97, k0_pay98, k0_pay99, k0_pay100]
      refine ext4 (Done.last _ ?_)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      exact Done.zero _ (fun j => rfl)
  · isplitl [H]
    · unfold inv4
      iapply (pts_of_eq (upTo_zero f).symm) $$ H
    · iintro %acc HI
      unfold inv4
      iapply (pts_of_eq ?heq) $$ HI
      case heq =>
        have ht : Scf.trips k0_t5_loop.lb k0_t5_loop.ub k0_t5_loop.st = 64 := by decide
        rw [ht]; exact upTo_last f

end Cert.Proof.KI

end
-- ==== Proof.KI.RowLoop5.lean ====
/-
  Row loop 5 of the kernel: the 128 x 128 row buffer number 5 multiplied, entry by entry, by the scale.

  The loop runs sixty-four trips; trip `k` rewrites rows `2 k` and `2 k + 1`. Its invariant: before trip `k` the buffer
  holds the contents the loop started from with the rows below `2 k` scaled. One trip is sixteen loads of the contents
  it started with and sixteen stores, read back as one function by the shared lemmas on the trip's pieces; after the
  last trip `2 * 64 = 128` rows are scaled, that is all of them.
-/
import proofs.«219849_g103079215527_week1_w1_1010_20_alg».proof.Proof.KI.RowLib

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.KI.Row

variable {F : FTy → Type} [FloatOps F]

local notation "𝕄" => MT nD τ sig (HIx 1) (Elt F) ℕ UU ℕ

/-- The loop's invariant: before trip `k` the buffer holds `f` with the rows below `2 k` scaled. -/
def Row.inv5 (d : Dev nD) (L : grid0.Coords) (f : S128x128.Idx → Elt F (.f32 : EltTy)) (k : ℕ) (_ : Unit) : sProp 𝕄 :=
  (sB5 : Memref sig .scVector .vmem S128x128 .f32).view.loc (thr d L) ↦{fullShare} upTo f k

omit [FloatOps F] in
/-- Through the whole buffer, contents that read alike are equal. -/
private theorem Row.ext5 {g g' : (sB5 : Memref sig .scVector .vmem S128x128 .f32).view.ty.Contents (Elt F)}
    (h : ∀ j, (sB5 : Memref sig .scVector .vmem S128x128 .f32).view.read (Elt F) g j = g' j) : g = g' := funext h

/-- Row loop 5: every entry of the buffer is multiplied by the scale. Trip `k` rewrites rows `2 k` and `2 k + 1`
    in sixteen pieces, each loaded from the contents the trip started with and stored back scaled. -/
theorem rowLoop5 (d : Dev nD) (L : grid0.Coords) (f : Buf (Elt F) ((sB5 : Memref sig .scVector .vmem S128x128 .f32).view.loc (thr d L))) (v2 : BitVec 32) :
      (((sB5 : Memref sig .scVector .vmem S128x128 .f32).view.loc (thr d L) ↦{fullShare} f) : sProp 𝕄)
        ⊢ wp frame (wpE (defs₀ (F := F)) 𝒱₀ (thr d L) none) Set.univ
            (Scf.Loop.for k0_t6_loop k0_t6_ok ⟨⟩ (k0_t6_body L tabV (Memref.isWhole_whole _) idxV (Memref.isWhole_whole _) outV (Memref.isWhole_whole _) sI (Memref.isWhole_whole _)
              sB1 (Memref.isWhole_whole _) sB2 (Memref.isWhole_whole _) sB3 (Memref.isWhole_whole _) sB4 (Memref.isWhole_whole _) sB5 (Memref.isWhole_whole _)
              cc0_scratch6 cc0_scratch7 cc0_scratch8 cc0_scratch9 cc0_scratch10 cc0_scratch11 cc0_scratch12 cc0_scratch13 cc0_scratch14 cc0_scratch15 cc0_scoped0 v2))
            fun _ => ((sB5 : Memref sig .scVector .vmem S128x128 .f32).view.loc (thr d L) ↦{fullShare} scaled f) := by
  iintro H
  sl_for (inv5 d L f) $$ [H]
  case region =>
    intro k a
    unfold inv5
    iintro H
    sl_exec
    sl_step
    have hg0 : ∀ j : S128x128.Idx, 2 * k.val ≤ (j 0).val →
        (sB5 : Memref sig .scVector .vmem S128x128 .f32).view.read (Elt F) (upTo f k.val) j = f j := fun j hj => upTo_of_le hj
    iapply (pts_of_eq ?heq) $$ H
    case heq =>
      sl_unfold_run_names
      -- the stored pieces as plain terms over the loaded lanes
      simp only [k0_pay1, k0_pay2, k0_pay3, k0_pay4, k0_pay5, k0_pay6, k0_pay7, k0_pay8, k0_pay9, k0_pay10,
        k0_pay11, k0_pay12, k0_pay13, k0_pay14, k0_pay15, k0_pay16, k0_pay17, k0_pay18, k0_pay19, k0_pay20,
        k0_pay21, k0_pay22, k0_pay23, k0_pay24, k0_pay25, k0_pay26, k0_pay27, k0_pay28, k0_pay29, k0_pay30,
        k0_pay31, k0_pay32, k0_pay33, k0_pay34, k0_pay35, k0_pay36, k0_pay37, k0_pay38, k0_pay39, k0_pay40,
        k0_pay41, k0_pay42, k0_pay43, k0_pay44, k0_pay45, k0_pay46, k0_pay47, k0_pay48, k0_pay49, k0_pay50,
        k0_pay51, k0_pay52, k0_pay53, k0_pay54, k0_pay55, k0_pay56, k0_pay57, k0_pay58, k0_pay59, k0_pay60,
        k0_pay61, k0_pay62, k0_pay63, k0_pay64, k0_pay65, k0_pay66, k0_pay67, k0_pay68, k0_pay69, k0_pay70,
        k0_pay71, k0_pay72, k0_pay73, k0_pay74, k0_pay75, k0_pay76, k0_pay77, k0_pay78, k0_pay79, k0_pay80,
        k0_pay81, k0_pay82, k0_pay83, k0_pay84, k0_pay85, k0_pay86, k0_pay87, k0_pay88, k0_pay89, k0_pay90,
        k0_pay91, k0_pay92, k0_pay93, k0_pay94, k0_pay95, k0_pay96, k0_pay97, k0_pay98, k0_pay99, k0_pay100]
      refine ext5 (Done.last _ ?_)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      exact Done.zero _ (fun j => rfl)
  · isplitl [H]
    · unfold inv5
      iapply (pts_of_eq (upTo_zero f).symm) $$ H
    · iintro %acc HI
      unfold inv5
      iapply (pts_of_eq ?heq) $$ HI
      case heq =>
        have ht : Scf.trips k0_t6_loop.lb k0_t6_loop.ub k0_t6_loop.st = 64 := by decide
        rw [ht]; exact upTo_last f

end Cert.Proof.KI

end
-- ==== Proof.KI.TripA.lean ====
/-
  One trip of the outer loop, the conditional taken (trip k, k < 39).

  Per row buffer: the gather of index row 5 k + b lands; the buffer is scaled; its write-out into output chunk
  5 k + b starts. Then, per row buffer again: the write-out lands, so the chunk holds the flat lookup, and the gather
  of index row 5 k + 5 + b is fired into the buffer. The trip gives back the five index rows it waited for and the
  five chunks at the lookup, and leaves the five new gathers in flight.
-/
import proofs.«219849_g103079215527_week1_w1_1010_20_alg».proof.Proof.KI.Inv
import proofs.«219849_g103079215527_week1_w1_1010_20_alg».proof.Proof.KI.Conv
import proofs.«219849_g103079215527_week1_w1_1010_20_alg».proof.Proof.KI.RowLoop1
import proofs.«219849_g103079215527_week1_w1_1010_20_alg».proof.Proof.KI.RowLoop2
import proofs.«219849_g103079215527_week1_w1_1010_20_alg».proof.Proof.KI.RowLoop3
import proofs.«219849_g103079215527_week1_w1_1010_20_alg».proof.Proof.KI.RowLoop4
import proofs.«219849_g103079215527_week1_w1_1010_20_alg».proof.Proof.KI.RowLoop5

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]
variable (m : (ℓ : Loc nD τ sig) → Buf (Elt F) ℓ) (d : Dev nD) (L : grid0.Coords)
variable (fI : Buf (Elt F) ((sI : Memref sig .scVector .vmem S200x128 .i32).view.loc (thr d L)))

omit [FloatOps F] in
/-- The trip's output offsets: chunk 5 k + r of the worker. -/
theorem off11_closed (k : Fin k0_t1_loop.trips) (r : Fin 5) :
    k0_off11 L k (BitVec.ofNat 32 r.val) = ![128 * (200 * widL L + (5 * k.val + r.val)), 0] := by
  rw [k0_off11_eq]; unfold widL widN; congr 1; omega
omit [FloatOps F] in
/-- The offsets of the index rows the trip fires: row 5 k + 5 + r. -/
theorem off45_closed (k : Fin k0_t1_loop.trips) (r : Fin 5) : k0_off45 k (BitVec.ofNat 32 r.val) = ![5 * k.val + 5 + r.val, 0] := by
  rw [k0_off45_eq]; congr 1; omega

theorem tripA (hpre : PreOK m) (O : CellTallies nD τ sig (HIx 1)) (W : Waits sig (HIx 1)) (v2 : BitVec 32) (k : Fin k0_t1_loop.trips) (hk39 : k.val < 39) (hc : k0_cond1 k = 1#1)
    (row1 : Fin 2 → Nat) (hk1 : ∀ a, row1 a + S1x128.size a ≤ S200x128.size a) (hrow1 : row1 = ![5 * k.val, 0]) (fp1 : Buf (Elt F) ((sB1 : sBty).view.loc (thr d L)))
    (row2 : Fin 2 → Nat) (hk2 : ∀ a, row2 a + S1x128.size a ≤ S200x128.size a) (hrow2 : row2 = ![5 * k.val + 1, 0]) (fp2 : Buf (Elt F) ((sB2 : sBty).view.loc (thr d L)))
    (row3 : Fin 2 → Nat) (hk3 : ∀ a, row3 a + S1x128.size a ≤ S200x128.size a) (hrow3 : row3 = ![5 * k.val + 2, 0]) (fp3 : Buf (Elt F) ((sB3 : sBty).view.loc (thr d L)))
    (row4 : Fin 2 → Nat) (hk4 : ∀ a, row4 a + S1x128.size a ≤ S200x128.size a) (hrow4 : row4 = ![5 * k.val + 3, 0]) (fp4 : Buf (Elt F) ((sB4 : sBty).view.loc (thr d L)))
    (row5 : Fin 2 → Nat) (hk5 : ∀ a, row5 a + S1x128.size a ≤ S200x128.size a) (hrow5 : row5 = ![5 * k.val + 4, 0]) (fp5 : Buf (Elt F) ((sB5 : sBty).view.loc (thr d L))) :
    iprop(□ Transfers.MayWaits (thr d L) (none : HIx 1) O
      ∗ gFlight m d L fI cc0_scratch6 sB1 0 row1 hk1 (hinAll m d L fI hpre row1 hk1) fp1
      ∗ gFlight m d L fI cc0_scratch7 sB2 1 row2 hk2 (hinAll m d L fI hpre row2 hk2) fp2
      ∗ gFlight m d L fI cc0_scratch8 sB3 2 row3 hk3 (hinAll m d L fI hpre row3 hk3) fp3
      ∗ gFlight m d L fI cc0_scratch9 sB4 3 row4 hk4 (hinAll m d L fI hpre row4 hk4) fp4
      ∗ gFlight m d L fI cc0_scratch10 sB5 4 row5 hk5 (hinAll m d L fI hpre row5 hk5) fp5
      ∗ semVal (thr d L, SemLoc.dma cc0_scratch11.sem) 0
      ∗ semVal (thr d L, SemLoc.dma cc0_scratch12.sem) 0
      ∗ semVal (thr d L, SemLoc.dma cc0_scratch13.sem) 0
      ∗ semVal (thr d L, SemLoc.dma cc0_scratch14.sem) 0
      ∗ semVal (thr d L, SemLoc.dma cc0_scratch15.sem) 0
      ∗ (outLoc d ↦[chunkN (200 * widL L + (5 * k.val))]{fullShare} m (outLoc d))
      ∗ (outLoc d ↦[chunkN (200 * widL L + (5 * k.val + 1))]{fullShare} m (outLoc d))
      ∗ (outLoc d ↦[chunkN (200 * widL L + (5 * k.val + 2))]{fullShare} m (outLoc d))
      ∗ (outLoc d ↦[chunkN (200 * widL L + (5 * k.val + 3))]{fullShare} m (outLoc d))
      ∗ (outLoc d ↦[chunkN (200 * widL L + (5 * k.val + 4))]{fullShare} m (outLoc d))
      ∗ ((sI : Memref sig .scVector .vmem S200x128 .i32).view.loc (thr d L) ↦[rowSetN (5 * k.val + 5)]{fullShare} cI m d L fI)
      ∗ ((sI : Memref sig .scVector .vmem S200x128 .i32).view.loc (thr d L) ↦[rowSetN (5 * k.val + 5 + 1)]{fullShare} cI m d L fI)
      ∗ ((sI : Memref sig .scVector .vmem S200x128 .i32).view.loc (thr d L) ↦[rowSetN (5 * k.val + 5 + 2)]{fullShare} cI m d L fI)
      ∗ ((sI : Memref sig .scVector .vmem S200x128 .i32).view.loc (thr d L) ↦[rowSetN (5 * k.val + 5 + 3)]{fullShare} cI m d L fI)
      ∗ ((sI : Memref sig .scVector .vmem S200x128 .i32).view.loc (thr d L) ↦[rowSetN (5 * k.val + 5 + 4)]{fullShare} cI m d L fI)
      ∗ owes (thr d L) O W)
    ⊢ wp frame (wpE (defs₀ (F := F)) 𝒱₀ (thr d L) none) Set.univ
        (k0_t1_body L tabV (Memref.isWhole_whole _) idxV (Memref.isWhole_whole _) outV (Memref.isWhole_whole _) sI (Memref.isWhole_whole _)
            sB1 (Memref.isWhole_whole _) sB2 (Memref.isWhole_whole _) sB3 (Memref.isWhole_whole _) sB4 (Memref.isWhole_whole _) sB5 (Memref.isWhole_whole _)
            cc0_scratch6 cc0_scratch7 cc0_scratch8 cc0_scratch9 cc0_scratch10 cc0_scratch11 cc0_scratch12 cc0_scratch13 cc0_scratch14 cc0_scratch15 cc0_scoped0 v2 k ⟨⟩)
        fun _ => iprop(
          gAtom m d L fI hpre cc0_scratch6 sB1 0 (5 * k.val + 5)
          ∗ gAtom m d L fI hpre cc0_scratch7 sB2 1 (5 * k.val + 5 + 1)
          ∗ gAtom m d L fI hpre cc0_scratch8 sB3 2 (5 * k.val + 5 + 2)
          ∗ gAtom m d L fI hpre cc0_scratch9 sB4 3 (5 * k.val + 5 + 3)
          ∗ gAtom m d L fI hpre cc0_scratch10 sB5 4 (5 * k.val + 5 + 4)
          ∗ semVal (thr d L, SemLoc.dma cc0_scratch11.sem) 0
          ∗ semVal (thr d L, SemLoc.dma cc0_scratch12.sem) 0
          ∗ semVal (thr d L, SemLoc.dma cc0_scratch13.sem) 0
          ∗ semVal (thr d L, SemLoc.dma cc0_scratch14.sem) 0
          ∗ semVal (thr d L, SemLoc.dma cc0_scratch15.sem) 0
          ∗ (outLoc d ↦[chunkN (200 * widL L + (5 * k.val))]{fullShare} flatOf m d)
          ∗ (outLoc d ↦[chunkN (200 * widL L + (5 * k.val + 1))]{fullShare} flatOf m d)
          ∗ (outLoc d ↦[chunkN (200 * widL L + (5 * k.val + 2))]{fullShare} flatOf m d)
          ∗ (outLoc d ↦[chunkN (200 * widL L + (5 * k.val + 3))]{fullShare} flatOf m d)
          ∗ (outLoc d ↦[chunkN (200 * widL L + (5 * k.val + 4))]{fullShare} flatOf m d)
          ∗ ((sI : Memref sig .scVector .vmem S200x128 .i32).view.loc (thr d L) ↦[rowSetN (5 * k.val)]{fullShare} cI m d L fI)
          ∗ ((sI : Memref sig .scVector .vmem S200x128 .i32).view.loc (thr d L) ↦[rowSetN (5 * k.val + 1)]{fullShare} cI m d L fI)
          ∗ ((sI : Memref sig .scVector .vmem S200x128 .i32).view.loc (thr d L) ↦[rowSetN (5 * k.val + 2)]{fullShare} cI m d L fI)
          ∗ ((sI : Memref sig .scVector .vmem S200x128 .i32).view.loc (thr d L) ↦[rowSetN (5 * k.val + 3)]{fullShare} cI m d L fI)
          ∗ ((sI : Memref sig .scVector .vmem S200x128 .i32).view.loc (thr d L) ↦[rowSetN (5 * k.val + 4)]{fullShare} cI m d L fI)
          ∗ owesI d L O W) := by
  unfold gFlight
  iintro ⟨#Hmw, Hf1, Hf2, Hf3, Hf4, Hf5, Hw1, Hw2, Hw3, Hw4, Hw5, Ho0, Ho1, Ho2, Ho3, Ho4, Hn0, Hn1, Hn2, Hn3, Hn4, HO⟩
  ihave Ho0' := (Entails.of_eq (pts_out (F := F) d L (k0_off11 L k (BitVec.ofNat 32 0)) (k0_off11_inb L k 0) (200 * widL L + (5 * k.val)) (off11_closed L k 0) _).symm) $$ Ho0
  ihave Ho1' := (Entails.of_eq (pts_out (F := F) d L (k0_off11 L k (BitVec.ofNat 32 1)) (k0_off11_inb L k 1) (200 * widL L + (5 * k.val + 1)) (off11_closed L k 1) _).symm) $$ Ho1
  ihave Ho2' := (Entails.of_eq (pts_out (F := F) d L (k0_off11 L k (BitVec.ofNat 32 2)) (k0_off11_inb L k 2) (200 * widL L + (5 * k.val + 2)) (off11_closed L k 2) _).symm) $$ Ho2
  ihave Ho3' := (Entails.of_eq (pts_out (F := F) d L (k0_off11 L k (BitVec.ofNat 32 3)) (k0_off11_inb L k 3) (200 * widL L + (5 * k.val + 3)) (off11_closed L k 3) _).symm) $$ Ho3
  ihave Ho4' := (Entails.of_eq (pts_out (F := F) d L (k0_off11 L k (BitVec.ofNat 32 4)) (k0_off11_inb L k 4) (200 * widL L + (5 * k.val + 4)) (off11_closed L k 4) _).symm) $$ Ho4
  ihave Hn0' := (Entails.of_eq (pts_row (F := F) d L (k0_off45 k (BitVec.ofNat 32 0)) (k0_off45_inb k hc 0) (5 * k.val + 5) (off45_closed k 0) _).symm) $$ Hn0
  ihave Hn1' := (Entails.of_eq (pts_row (F := F) d L (k0_off45 k (BitVec.ofNat 32 1)) (k0_off45_inb k hc 1) (5 * k.val + 5 + 1) (off45_closed k 1) _).symm) $$ Hn1
  ihave Hn2' := (Entails.of_eq (pts_row (F := F) d L (k0_off45 k (BitVec.ofNat 32 2)) (k0_off45_inb k hc 2) (5 * k.val + 5 + 2) (off45_closed k 2) _).symm) $$ Hn2
  ihave Hn3' := (Entails.of_eq (pts_row (F := F) d L (k0_off45 k (BitVec.ofNat 32 3)) (k0_off45_inb k hc 3) (5 * k.val + 5 + 3) (off45_closed k 3) _).symm) $$ Hn3
  ihave Hn4' := (Entails.of_eq (pts_row (F := F) d L (k0_off45 k (BitVec.ofNat 32 4)) (k0_off45_inb k hc 4) (5 * k.val + 5 + 4) (off45_closed k 4) _).symm) $$ Hn4
  have hidx := fun (g0 : Buf (Elt F) ((sI : Memref sig .scVector .vmem S200x128 .i32).view.loc (thr d L))) row hk hs hq => inb_of_pre m d L hpre g0 (PAY m d L) rfl row hk hs hq
  unfold k0_t1_body
  sl_exec
  icases Hf1_dst with ⟨Hb1, Hrw1⟩
  ihave Hb1w := (Entails.of_eq (pts_W0 (F := F) d L sB1 (Memref.isWhole_whole _) _)) $$ Hb1
  rw [wp_bind]
  iapply (wp_wand_r Idealize.ShloMosaic.frame (wpE (defs₀ (F := F)) 𝒱₀ (thr d L) none) Set.univ)
  isplitl [Hb1w]
  · iapply (rowLoop1 (F := F) d L _ v2 0#32 1#32 k); iexact Hb1w
  iintro %_ Hb1s
  sl_exec
  icases Hf2_dst with ⟨Hb2, Hrw2⟩
  ihave Hb2w := (Entails.of_eq (pts_W0 (F := F) d L sB2 (Memref.isWhole_whole _) _)) $$ Hb2
  rw [wp_bind]
  iapply (wp_wand_r Idealize.ShloMosaic.frame (wpE (defs₀ (F := F)) 𝒱₀ (thr d L) none) Set.univ)
  isplitl [Hb2w]
  · iapply (rowLoop2 (F := F) d L _ v2 0#32 1#32 k); iexact Hb2w
  iintro %_ Hb2s
  sl_exec
  icases Hf3_dst with ⟨Hb3, Hrw3⟩
  ihave Hb3w := (Entails.of_eq (pts_W0 (F := F) d L sB3 (Memref.isWhole_whole _) _)) $$ Hb3
  rw [wp_bind]
  iapply (wp_wand_r Idealize.ShloMosaic.frame (wpE (defs₀ (F := F)) 𝒱₀ (thr d L) none) Set.univ)
  isplitl [Hb3w]
  · iapply (rowLoop3 (F := F) d L _ v2 k _ _); iexact Hb3w
  iintro %_ Hb3s
  sl_exec
  icases Hf4_dst with ⟨Hb4, Hrw4⟩
  ihave Hb4w := (Entails.of_eq (pts_W0 (F := F) d L sB4 (Memref.isWhole_whole _) _)) $$ Hb4
  rw [wp_bind]
  iapply (wp_wand_r Idealize.ShloMosaic.frame (wpE (defs₀ (F := F)) 𝒱₀ (thr d L) none) Set.univ)
  isplitl [Hb4w]
  · iapply (rowLoop4 (F := F) d L _ v2 _); iexact Hb4w
  iintro %_ Hb4s
  sl_exec
  icases Hf5_dst with ⟨Hb5, Hrw5⟩
  ihave Hb5w := (Entails.of_eq (pts_W0 (F := F) d L sB5 (Memref.isWhole_whole _) _)) $$ Hb5
  rw [wp_bind]
  iapply (wp_wand_r Idealize.ShloMosaic.frame (wpE (defs₀ (F := F)) 𝒱₀ (thr d L) none) Set.univ)
  isplitl [Hb5w]
  · iapply (rowLoop5 (F := F) d L _ v2); iexact Hb5w
  iintro %_ Hb5s
  ihave Ht1 := (Entails.of_eq (pts_T0 (F := F) d L _ _)) $$ Hf1_src
  ihave Ht2 := (Entails.of_eq (pts_T0 (F := F) d L _ _)) $$ Hf2_src
  ihave Ht3 := (Entails.of_eq (pts_T0 (F := F) d L _ _)) $$ Hf3_src
  ihave Ht4 := (Entails.of_eq (pts_T0 (F := F) d L _ _)) $$ Hf4_src
  ihave Ht5 := (Entails.of_eq (pts_T0 (F := F) d L _ _)) $$ Hf5_src
  sl_exec
  sl_step
  -- the five gathers fired
  isplitl [Hf1]
  · unfold gAtom
    iexists (⟨k0_off45 k (BitVec.ofNat 32 0), k0_off45_inb k hc 0⟩ : RowOff); iexists _; isplitr
    · ipureintro; exact off45_closed k 0
    · unfold gFlight; iexact Hf1
  isplitl [Hf2]
  · unfold gAtom
    iexists (⟨k0_off45 k (BitVec.ofNat 32 1), k0_off45_inb k hc 1⟩ : RowOff); iexists _; isplitr
    · ipureintro; exact off45_closed k 1
    · unfold gFlight; iexact Hf2
  isplitl [Hf3]
  · unfold gAtom
    iexists (⟨k0_off45 k (BitVec.ofNat 32 2), k0_off45_inb k hc 2⟩ : RowOff); iexists _; isplitr
    · ipureintro; exact off45_closed k 2
    · unfold gFlight; iexact Hf3
  isplitl [Hf4]
  · unfold gAtom
    iexists (⟨k0_off45 k (BitVec.ofNat 32 3), k0_off45_inb k hc 3⟩ : RowOff); iexists _; isplitr
    · ipureintro; exact off45_closed k 3
    · unfold gFlight; iexact Hf4
  isplitl [Hf5]
  · unfold gAtom
    iexists (⟨k0_off45 k (BitVec.ofNat 32 4), k0_off45_inb k hc 4⟩ : RowOff); iexists _; isplitr
    · ipureintro; exact off45_closed k 4
    · unfold gFlight; iexact Hf5
  -- the write-out semaphores, back at zero
  isplitl [Hw1]; · iexact Hw1
  isplitl [Hw2]; · iexact Hw2
  isplitl [Hw3]; · iexact Hw3
  isplitl [Hw4]; · iexact Hw4
  isplitl [Hw5]; · iexact Hw5
  -- the five chunks, at the flat lookup
  isplitl [Ho0']
  · iapply (Entails.of_eq (pts_chunk_sB1 m d L fI hpre _ _ (5 * k.val) (by omega) (off11_closed L k 0) row1 hk1 (hinAll m d L fI hpre row1 hk1) hrow1 fp1 _ rfl)); iexact Ho0'
  isplitl [Ho1']
  · iapply (Entails.of_eq (pts_chunk_sB2 m d L fI hpre _ _ (5 * k.val + 1) (by omega) (off11_closed L k 1) row2 hk2 (hinAll m d L fI hpre row2 hk2) hrow2 fp2 _ rfl)); iexact Ho1'
  isplitl [Ho2']
  · iapply (Entails.of_eq (pts_chunk_sB3 m d L fI hpre _ _ (5 * k.val + 2) (by omega) (off11_closed L k 2) row3 hk3 (hinAll m d L fI hpre row3 hk3) hrow3 fp3 _ rfl)); iexact Ho2'
  isplitl [Ho3']
  · iapply (Entails.of_eq (pts_chunk_sB4 m d L fI hpre _ _ (5 * k.val + 3) (by omega) (off11_closed L k 3) row4 hk4 (hinAll m d L fI hpre row4 hk4) hrow4 fp4 _ rfl)); iexact Ho3'
  isplitl [Ho4']
  · iapply (Entails.of_eq (pts_chunk_sB5 m d L fI hpre _ _ (5 * k.val + 4) (by omega) (off11_closed L k 4) row5 hk5 (hinAll m d L fI hpre row5 hk5) hrow5 fp5 _ rfl)); iexact Ho4'
  -- the five index rows the gathers held
  isplitl [Hrw1]
  · iapply (Entails.of_eq (pts_row (F := F) d L row1 hk1 (5 * k.val) hrow1 _)); iexact Hrw1
  isplitl [Hrw2]
  · iapply (Entails.of_eq (pts_row (F := F) d L row2 hk2 (5 * k.val + 1) hrow2 _)); iexact Hrw2
  isplitl [Hrw3]
  · iapply (Entails.of_eq (pts_row (F := F) d L row3 hk3 (5 * k.val + 2) hrow3 _)); iexact Hrw3
  isplitl [Hrw4]
  · iapply (Entails.of_eq (pts_row (F := F) d L row4 hk4 (5 * k.val + 3) hrow4 _)); iexact Hrw4
  isplitl [Hrw5]
  · iapply (Entails.of_eq (pts_row (F := F) d L row5 hk5 (5 * k.val + 4) hrow5 _)); iexact Hrw5
  unfold owesI
  iexists _; isplitr
  rotate_left
  · iexact HO
  · ipureintro; intro p hp
    simp only [Finset.mem_insert] at hp
    rcases hp with rfl | rfl | rfl | rfl | rfl | rfl | rfl | rfl | rfl | rfl | hp
    all_goals first | exact .inr rfl | exact .inl hp

end Cert.Proof.KI

end
-- ==== Proof.KI.TripLast.lean ====
/-
  The last trip of a worker's outer loop.

  A worker handles its 200 index rows five at a time, in 40 trips. Trip g works on rows 5 g, ..., 5 g + 4, one per row
  buffer. When a trip starts, the five gathers for its rows are in flight, one per buffer, each on its own semaphore; the
  five write-out semaphores are at zero; and the worker holds the five output chunks 200 w + 5 g, ..., 200 w + 5 g + 4 at
  their launch contents.

  For each buffer in turn the trip waits for the buffer's gather, which brings back the buffer (now holding, at row p, the
  table row that word p of the index row names), the index row, and the worker's read share of the table; it multiplies
  every entry of the buffer by the scale (the inner loop, proved on its own); and it starts the copy of the buffer into
  the buffer's output chunk. A copy in flight carries its source and its destination, so after the fifth buffer the
  worker holds five write-outs in flight, each carrying a chunk written with the scaled buffer and the buffer itself,
  together with the five gather semaphores at zero, the five read shares of the table and the five index rows.

  On every trip but the last the worker then waits for each write-out and starts the gather of the next trip's row into
  the freed buffer. The test for that is "g < 39": on trip 39 it fails, nothing more is done, and the state just
  described is the state after the trip: the write-outs of chunks 200 w + 195, ..., 200 w + 199, holding the scaled
  gathers of index rows 195, ..., 199. That is the statement below. The five waits taken on the way are recorded among
  the waits the worker has made; none of them is a wait on another thread's signal.
-/
import proofs.«219849_g103079215527_week1_w1_1010_20_alg».proof.Proof.KI.Inv
import proofs.«219849_g103079215527_week1_w1_1010_20_alg».proof.Proof.KI.Conv
import proofs.«219849_g103079215527_week1_w1_1010_20_alg».proof.Proof.KI.RowLoop1
import proofs.«219849_g103079215527_week1_w1_1010_20_alg».proof.Proof.KI.RowLoop2
import proofs.«219849_g103079215527_week1_w1_1010_20_alg».proof.Proof.KI.RowLoop3
import proofs.«219849_g103079215527_week1_w1_1010_20_alg».proof.Proof.KI.RowLoop4
import proofs.«219849_g103079215527_week1_w1_1010_20_alg».proof.Proof.KI.RowLoop5

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]
variable (m : (ℓ : Loc nD τ sig) → Buf (Elt F) ℓ) (d : Dev nD) (L : grid0.Coords)
variable (fI : Buf (Elt F) ((sI : Memref sig .scVector .vmem S200x128 .i32).view.loc (thr d L)))

/-- Where block r of trip g is written: the offsets of chunk 200 w + (5 g + r) of the output. -/
theorem off11_at (g : Fin k0_t1_loop.trips) (r : Fin 5) :
    k0_off11 L g (BitVec.ofNat 32 r.val) = ![128 * (200 * widL L + (5 * g.val + r.val)), 0] := by
  rw [k0_off11_eq]
  exact congrArg (fun t => (![t, 0] : Fin 2 → ℕ)) (by
    show _ = 128 * (200 * (2 * (L 1).val + (L 0).val) + (5 * g.val + r.val)); omega)

theorem tripLast (hpre : PreOK m) (O : CellTallies nD τ sig (HIx 1)) (W : Waits sig (HIx 1)) (v2 : BitVec 32) (k : Fin k0_t1_loop.trips) (hk : k.val = 39)
    (row1 : Fin 2 → Nat) (hk1 : ∀ a, row1 a + S1x128.size a ≤ S200x128.size a) (hrow1 : row1 = ![5 * k.val, 0]) (fp1 : Buf (Elt F) ((sB1 : sBty).view.loc (thr d L)))
    (row2 : Fin 2 → Nat) (hk2 : ∀ a, row2 a + S1x128.size a ≤ S200x128.size a) (hrow2 : row2 = ![5 * k.val + 1, 0]) (fp2 : Buf (Elt F) ((sB2 : sBty).view.loc (thr d L)))
    (row3 : Fin 2 → Nat) (hk3 : ∀ a, row3 a + S1x128.size a ≤ S200x128.size a) (hrow3 : row3 = ![5 * k.val + 2, 0]) (fp3 : Buf (Elt F) ((sB3 : sBty).view.loc (thr d L)))
    (row4 : Fin 2 → Nat) (hk4 : ∀ a, row4 a + S1x128.size a ≤ S200x128.size a) (hrow4 : row4 = ![5 * k.val + 3, 0]) (fp4 : Buf (Elt F) ((sB4 : sBty).view.loc (thr d L)))
    (row5 : Fin 2 → Nat) (hk5 : ∀ a, row5 a + S1x128.size a ≤ S200x128.size a) (hrow5 : row5 = ![5 * k.val + 4, 0]) (fp5 : Buf (Elt F) ((sB5 : sBty).view.loc (thr d L))) :
    iprop(□ Transfers.MayWaits (thr d L) (none : HIx 1) O
      ∗ gFlight m d L fI cc0_scratch6 sB1 0 row1 hk1 (hinAll m d L fI hpre row1 hk1) fp1
      ∗ gFlight m d L fI cc0_scratch7 sB2 1 row2 hk2 (hinAll m d L fI hpre row2 hk2) fp2
      ∗ gFlight m d L fI cc0_scratch8 sB3 2 row3 hk3 (hinAll m d L fI hpre row3 hk3) fp3
      ∗ gFlight m d L fI cc0_scratch9 sB4 3 row4 hk4 (hinAll m d L fI hpre row4 hk4) fp4
      ∗ gFlight m d L fI cc0_scratch10 sB5 4 row5 hk5 (hinAll m d L fI hpre row5 hk5) fp5
      ∗ semVal (thr d L, SemLoc.dma cc0_scratch11.sem) 0
      ∗ semVal (thr d L, SemLoc.dma cc0_scratch12.sem) 0
      ∗ semVal (thr d L, SemLoc.dma cc0_scratch13.sem) 0
      ∗ semVal (thr d L, SemLoc.dma cc0_scratch14.sem) 0
      ∗ semVal (thr d L, SemLoc.dma cc0_scratch15.sem) 0
      ∗ (outLoc d ↦[chunkN (200 * widL L + (5 * k.val))]{fullShare} m (outLoc d))
      ∗ (outLoc d ↦[chunkN (200 * widL L + (5 * k.val + 1))]{fullShare} m (outLoc d))
      ∗ (outLoc d ↦[chunkN (200 * widL L + (5 * k.val + 2))]{fullShare} m (outLoc d))
      ∗ (outLoc d ↦[chunkN (200 * widL L + (5 * k.val + 3))]{fullShare} m (outLoc d))
      ∗ (outLoc d ↦[chunkN (200 * widL L + (5 * k.val + 4))]{fullShare} m (outLoc d))
      ∗ owes (thr d L) O W)
    ⊢ wp frame (wpE (defs₀ (F := F)) 𝒱₀ (thr d L) none) Set.univ
        (k0_t1_body L tabV (Memref.isWhole_whole _) idxV (Memref.isWhole_whole _) outV (Memref.isWhole_whole _) sI (Memref.isWhole_whole _)
            sB1 (Memref.isWhole_whole _) sB2 (Memref.isWhole_whole _) sB3 (Memref.isWhole_whole _) sB4 (Memref.isWhole_whole _) sB5 (Memref.isWhole_whole _)
            cc0_scratch6 cc0_scratch7 cc0_scratch8 cc0_scratch9 cc0_scratch10 cc0_scratch11 cc0_scratch12 cc0_scratch13 cc0_scratch14 cc0_scratch15 cc0_scoped0 v2 k ⟨⟩)
        fun _ => iprop(
          wAtom1 m d L fI hpre (200 * widL L + 195) 195
          ∗ wAtom2 m d L fI hpre (200 * widL L + 196) 196
          ∗ wAtom3 m d L fI hpre (200 * widL L + 197) 197
          ∗ wAtom4 m d L fI hpre (200 * widL L + 198) 198
          ∗ wAtom5 m d L fI hpre (200 * widL L + 199) 199
          ∗ semVal (thr d L, SemLoc.dma cc0_scratch6.sem) 0
          ∗ semVal (thr d L, SemLoc.dma cc0_scratch7.sem) 0
          ∗ semVal (thr d L, SemLoc.dma cc0_scratch8.sem) 0
          ∗ semVal (thr d L, SemLoc.dma cc0_scratch9.sem) 0
          ∗ semVal (thr d L, SemLoc.dma cc0_scratch10.sem) 0
          ∗ ((tabV : Memref sig .scVector .hbm S100000x128 .f32).view.loc (thr d L) ↦{Transfers.shareTokN (tk (widL L)) 0} m (tabLoc d))
          ∗ ((tabV : Memref sig .scVector .hbm S100000x128 .f32).view.loc (thr d L) ↦{Transfers.shareTokN (tk (widL L)) 1} m (tabLoc d))
          ∗ ((tabV : Memref sig .scVector .hbm S100000x128 .f32).view.loc (thr d L) ↦{Transfers.shareTokN (tk (widL L)) 2} m (tabLoc d))
          ∗ ((tabV : Memref sig .scVector .hbm S100000x128 .f32).view.loc (thr d L) ↦{Transfers.shareTokN (tk (widL L)) 3} m (tabLoc d))
          ∗ ((tabV : Memref sig .scVector .hbm S100000x128 .f32).view.loc (thr d L) ↦{Transfers.shareTokN (tk (widL L)) 4} m (tabLoc d))
          ∗ ((sI : Memref sig .scVector .vmem S200x128 .i32).view.loc (thr d L) ↦[rowSetN (5 * k.val)]{fullShare} cI m d L fI)
          ∗ ((sI : Memref sig .scVector .vmem S200x128 .i32).view.loc (thr d L) ↦[rowSetN (5 * k.val + 1)]{fullShare} cI m d L fI)
          ∗ ((sI : Memref sig .scVector .vmem S200x128 .i32).view.loc (thr d L) ↦[rowSetN (5 * k.val + 2)]{fullShare} cI m d L fI)
          ∗ ((sI : Memref sig .scVector .vmem S200x128 .i32).view.loc (thr d L) ↦[rowSetN (5 * k.val + 3)]{fullShare} cI m d L fI)
          ∗ ((sI : Memref sig .scVector .vmem S200x128 .i32).view.loc (thr d L) ↦[rowSetN (5 * k.val + 4)]{fullShare} cI m d L fI)
          ∗ owesI d L O W) := by
  -- trip 39 fails the test "g < 39"
  have hc : ¬ k0_cond1 k = 1#1 := by
    have e : k = (⟨39, by decide⟩ : Fin k0_t1_loop.trips) := Fin.ext hk
    rw [e]; decide
  unfold gFlight
  iintro ⟨#Hmw, Hf1, Hf2, Hf3, Hf4, Hf5, Hw1, Hw2, Hw3, Hw4, Hw5, Ho0, Ho1, Ho2, Ho3, Ho4, HO⟩
  ihave Ho0' := (Entails.of_eq (pts_out (F := F) d L (k0_off11 L k (BitVec.ofNat 32 0)) (k0_off11_inb L k 0) (200 * widL L + (5 * k.val)) (off11_at L k 0) _).symm) $$ Ho0
  ihave Ho1' := (Entails.of_eq (pts_out (F := F) d L (k0_off11 L k (BitVec.ofNat 32 1)) (k0_off11_inb L k 1) (200 * widL L + (5 * k.val + 1)) (off11_at L k 1) _).symm) $$ Ho1
  ihave Ho2' := (Entails.of_eq (pts_out (F := F) d L (k0_off11 L k (BitVec.ofNat 32 2)) (k0_off11_inb L k 2) (200 * widL L + (5 * k.val + 2)) (off11_at L k 2) _).symm) $$ Ho2
  ihave Ho3' := (Entails.of_eq (pts_out (F := F) d L (k0_off11 L k (BitVec.ofNat 32 3)) (k0_off11_inb L k 3) (200 * widL L + (5 * k.val + 3)) (off11_at L k 3) _).symm) $$ Ho3
  ihave Ho4' := (Entails.of_eq (pts_out (F := F) d L (k0_off11 L k (BitVec.ofNat 32 4)) (k0_off11_inb L k 4) (200 * widL L + (5 * k.val + 4)) (off11_at L k 4) _).symm) $$ Ho4
  unfold k0_t1_body
  sl_exec
  -- buffer 1: its gather has landed; scale it; then its copy to its chunk starts, and the wait for buffer 2's gather is taken
  icases Hf1_dst with ⟨Hb1, Hrw1⟩
  ihave Hb1w := (Entails.of_eq (pts_W0 (F := F) d L sB1 (Memref.isWhole_whole _) _)) $$ Hb1
  rw [wp_bind]
  iapply (wp_wand_r Idealize.ShloMosaic.frame (wpE (defs₀ (F := F)) 𝒱₀ (thr d L) none) Set.univ)
  isplitl [Hb1w]
  · iapply (rowLoop1 (F := F) d L _ v2 0#32 1#32 k); iexact Hb1w
  iintro %_ Hb1s
  sl_exec
  -- buffer 2: its gather has landed; scale it; then its copy to its chunk starts, and the wait for buffer 3's gather is taken
  icases Hf2_dst with ⟨Hb2, Hrw2⟩
  ihave Hb2w := (Entails.of_eq (pts_W0 (F := F) d L sB2 (Memref.isWhole_whole _) _)) $$ Hb2
  rw [wp_bind]
  iapply (wp_wand_r Idealize.ShloMosaic.frame (wpE (defs₀ (F := F)) 𝒱₀ (thr d L) none) Set.univ)
  isplitl [Hb2w]
  · iapply (rowLoop2 (F := F) d L _ v2 0#32 1#32 k); iexact Hb2w
  iintro %_ Hb2s
  sl_exec
  -- buffer 3: its gather has landed; scale it; then its copy to its chunk starts, and the wait for buffer 4's gather is taken
  icases Hf3_dst with ⟨Hb3, Hrw3⟩
  ihave Hb3w := (Entails.of_eq (pts_W0 (F := F) d L sB3 (Memref.isWhole_whole _) _)) $$ Hb3
  rw [wp_bind]
  iapply (wp_wand_r Idealize.ShloMosaic.frame (wpE (defs₀ (F := F)) 𝒱₀ (thr d L) none) Set.univ)
  isplitl [Hb3w]
  · iapply (rowLoop3 (F := F) d L _ v2 k _ _); iexact Hb3w
  iintro %_ Hb3s
  sl_exec
  -- buffer 4: its gather has landed; scale it; then its copy to its chunk starts, and the wait for buffer 5's gather is taken
  icases Hf4_dst with ⟨Hb4, Hrw4⟩
  ihave Hb4w := (Entails.of_eq (pts_W0 (F := F) d L sB4 (Memref.isWhole_whole _) _)) $$ Hb4
  rw [wp_bind]
  iapply (wp_wand_r Idealize.ShloMosaic.frame (wpE (defs₀ (F := F)) 𝒱₀ (thr d L) none) Set.univ)
  isplitl [Hb4w]
  · iapply (rowLoop4 (F := F) d L _ v2 _); iexact Hb4w
  iintro %_ Hb4s
  sl_exec
  -- buffer 5: its gather has landed; scale it; then its copy to its chunk starts
  icases Hf5_dst with ⟨Hb5, Hrw5⟩
  ihave Hb5w := (Entails.of_eq (pts_W0 (F := F) d L sB5 (Memref.isWhole_whole _) _)) $$ Hb5
  rw [wp_bind]
  iapply (wp_wand_r Idealize.ShloMosaic.frame (wpE (defs₀ (F := F)) 𝒱₀ (thr d L) none) Set.univ)
  isplitl [Hb5w]
  · iapply (rowLoop5 (F := F) d L _ v2); iexact Hb5w
  iintro %_ Hb5s
  sl_exec
  -- the branch is not taken; what is left is the return
  sl_step
  -- the five write-outs in flight: chunks 200 w + 195 ... 199, holding the scaled gathers of index rows 195 ... 199
  isplitl [Hw1]
  · unfold wAtom1
    iexists (⟨k0_off11 L k (BitVec.ofNat 32 0), k0_off11_inb L k 0⟩ : OutOff); iexists (⟨row1, hk1⟩ : RowOff); iexists fp1
    isplitr
    · ipureintro
      exact (off11_at L k 0).trans (congrArg (fun t : ℕ => (![128 * (200 * widL L + t), 0] : Fin 2 → ℕ)) (show 5 * k.val + 0 = 195 by omega))
    isplitr
    · ipureintro
      exact hrow1.trans (congrArg (fun t : ℕ => (![t, 0] : Fin 2 → ℕ)) (show 5 * k.val = 195 by omega))
    · unfold wFlight1; iexact Hw1
  isplitl [Hw2]
  · unfold wAtom2
    iexists (⟨k0_off11 L k (BitVec.ofNat 32 1), k0_off11_inb L k 1⟩ : OutOff); iexists (⟨row2, hk2⟩ : RowOff); iexists fp2
    isplitr
    · ipureintro
      exact (off11_at L k 1).trans (congrArg (fun t : ℕ => (![128 * (200 * widL L + t), 0] : Fin 2 → ℕ)) (show 5 * k.val + 1 = 196 by omega))
    isplitr
    · ipureintro
      exact hrow2.trans (congrArg (fun t : ℕ => (![t, 0] : Fin 2 → ℕ)) (show 5 * k.val + 1 = 196 by omega))
    · unfold wFlight2; iexact Hw2
  isplitl [Hw3]
  · unfold wAtom3
    iexists (⟨k0_off11 L k (BitVec.ofNat 32 2), k0_off11_inb L k 2⟩ : OutOff); iexists (⟨row3, hk3⟩ : RowOff); iexists fp3
    isplitr
    · ipureintro
      exact (off11_at L k 2).trans (congrArg (fun t : ℕ => (![128 * (200 * widL L + t), 0] : Fin 2 → ℕ)) (show 5 * k.val + 2 = 197 by omega))
    isplitr
    · ipureintro
      exact hrow3.trans (congrArg (fun t : ℕ => (![t, 0] : Fin 2 → ℕ)) (show 5 * k.val + 2 = 197 by omega))
    · unfold wFlight3; iexact Hw3
  isplitl [Hw4]
  · unfold wAtom4
    iexists (⟨k0_off11 L k (BitVec.ofNat 32 3), k0_off11_inb L k 3⟩ : OutOff); iexists (⟨row4, hk4⟩ : RowOff); iexists fp4
    isplitr
    · ipureintro
      exact (off11_at L k 3).trans (congrArg (fun t : ℕ => (![128 * (200 * widL L + t), 0] : Fin 2 → ℕ)) (show 5 * k.val + 3 = 198 by omega))
    isplitr
    · ipureintro
      exact hrow4.trans (congrArg (fun t : ℕ => (![t, 0] : Fin 2 → ℕ)) (show 5 * k.val + 3 = 198 by omega))
    · unfold wFlight4; iexact Hw4
  isplitl [Hw5]
  · unfold wAtom5
    iexists (⟨k0_off11 L k (BitVec.ofNat 32 4), k0_off11_inb L k 4⟩ : OutOff); iexists (⟨row5, hk5⟩ : RowOff); iexists fp5
    isplitr
    · ipureintro
      exact (off11_at L k 4).trans (congrArg (fun t : ℕ => (![128 * (200 * widL L + t), 0] : Fin 2 → ℕ)) (show 5 * k.val + 4 = 199 by omega))
    isplitr
    · ipureintro
      exact hrow5.trans (congrArg (fun t : ℕ => (![t, 0] : Fin 2 → ℕ)) (show 5 * k.val + 4 = 199 by omega))
    · unfold wFlight5; iexact Hw5
  -- the gather semaphores, back at zero
  isplitl [Hf1]; · iexact Hf1
  isplitl [Hf2]; · iexact Hf2
  isplitl [Hf3]; · iexact Hf3
  isplitl [Hf4]; · iexact Hf4
  isplitl [Hf5]; · iexact Hf5
  -- the five read shares of the table
  isplitl [Hf1_src]; · iapply (Entails.of_eq (pts_T0 (F := F) d L _ _)); iexact Hf1_src
  isplitl [Hf2_src]; · iapply (Entails.of_eq (pts_T0 (F := F) d L _ _)); iexact Hf2_src
  isplitl [Hf3_src]; · iapply (Entails.of_eq (pts_T0 (F := F) d L _ _)); iexact Hf3_src
  isplitl [Hf4_src]; · iapply (Entails.of_eq (pts_T0 (F := F) d L _ _)); iexact Hf4_src
  isplitl [Hf5_src]; · iapply (Entails.of_eq (pts_T0 (F := F) d L _ _)); iexact Hf5_src
  -- the five index rows the gathers held
  isplitl [Hrw1]; · iapply (Entails.of_eq (pts_row (F := F) d L row1 hk1 (5 * k.val) hrow1 _)); iexact Hrw1
  isplitl [Hrw2]; · iapply (Entails.of_eq (pts_row (F := F) d L row2 hk2 (5 * k.val + 1) hrow2 _)); iexact Hrw2
  isplitl [Hrw3]; · iapply (Entails.of_eq (pts_row (F := F) d L row3 hk3 (5 * k.val + 2) hrow3 _)); iexact Hrw3
  isplitl [Hrw4]; · iapply (Entails.of_eq (pts_row (F := F) d L row4 hk4 (5 * k.val + 3) hrow4 _)); iexact Hrw4
  isplitl [Hrw5]; · iapply (Entails.of_eq (pts_row (F := F) d L row5 hk5 (5 * k.val + 4) hrow5 _)); iexact Hrw5
  -- the five waits taken are recorded at the index none
  unfold owesI
  iexists (insert (SemLoc.dma cc0_scratch10.sem, (default : HIx 1)) (insert (SemLoc.dma cc0_scratch9.sem, (default : HIx 1)) (insert (SemLoc.dma cc0_scratch8.sem, (default : HIx 1)) (insert (SemLoc.dma cc0_scratch7.sem, (default : HIx 1)) (insert (SemLoc.dma cc0_scratch6.sem, (default : HIx 1)) W))))); isplitr
  · ipureintro; intro p hp
    simp only [Finset.mem_insert] at hp
    rcases hp with rfl | rfl | rfl | rfl | rfl | hp
    all_goals first | exact .inr rfl | exact .inl hp
  · iexact HO

end Cert.Proof.KI

end
-- ==== Proof.KI.Peel.lean ====
/-
  Taking the intervals of the outer loop's invariant apart, five at a time.

  The index rows and the output chunks a worker holds are kept as separating conjunctions over intervals of numbers.
  One trip of the outer loop handles five consecutive rows and chunks: the rows (chunks) from a on are the five numbered
  a ... a + 4 and those from a + 5 on, and the rows (chunks) below a together with those five are the ones below a + 5.
  An empty interval holds nothing; all 200 rows are the index scratch held whole; the 200 chunks over the interval are the
  200 chunks indexed by the numbers below 200.

  The outer loop makes 40 trips; its inner condition (the trip number is below 39) holds on every trip but the last.
-/
import proofs.«219849_g103079215527_week1_w1_1010_20_alg».proof.Proof.KI.Inv

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]
variable (m : (ℓ : Loc nD τ sig) → Buf (Elt F) ℓ) (d : Dev nD) (L : grid0.Coords)
variable (fI : Buf (Elt F) ((sI : Memref sig .scVector .vmem S200x128 .i32).view.loc (thr d L)))

/-! ## Five numbers off either end of an interval -/

omit [FloatOps F] in
theorem sep_assoc_eq (P Q R : sProp 𝕄) : (iprop((P ∗ Q) ∗ R) : sProp 𝕄) = iprop(P ∗ Q ∗ R) := by
  have h : (iprop((P ∗ Q) ∗ R) : sProp 𝕄) ⊣⊢ iprop(P ∗ Q ∗ R) := sep_assoc
  exact equiv_iff.mp ⟨h.1, h.2⟩

omit [FloatOps F] in
/-- The numbers from a on are a, a + 1, a + 2, a + 3, a + 4 and those from a + 5 on. -/
theorem bigSep_Ico_peel5 (Φ : ℕ → sProp 𝕄) (a b : ℕ) (h : a + 5 ≤ b) :
    bigSep (Finset.Ico a b) Φ = iprop(Φ a ∗ Φ (a + 1) ∗ Φ (a + 2) ∗ Φ (a + 3) ∗ Φ (a + 4) ∗ bigSep (Finset.Ico (a + 5) b) Φ) := by
  show _ = iprop(Φ a ∗ Φ (a + 1) ∗ Φ (a + 1 + 1) ∗ Φ (a + 1 + 1 + 1) ∗ Φ (a + 1 + 1 + 1 + 1) ∗ bigSep (Finset.Ico (a + 1 + 1 + 1 + 1 + 1) b) Φ)
  rw [bigSep_Ico_left Φ (show a < b by omega), bigSep_Ico_left Φ (show a + 1 < b by omega), bigSep_Ico_left Φ (show a + 1 + 1 < b by omega),
    bigSep_Ico_left Φ (show a + 1 + 1 + 1 < b by omega), bigSep_Ico_left Φ (show a + 1 + 1 + 1 + 1 < b by omega)]

omit [FloatOps F] in
/-- The numbers below a with a, a + 1, a + 2, a + 3, a + 4 are the numbers below a + 5. -/
theorem bigSep_Ico_push5 (Φ : ℕ → sProp 𝕄) (a : ℕ) :
    (iprop(bigSep (Finset.Ico 0 a) Φ ∗ Φ a ∗ Φ (a + 1) ∗ Φ (a + 2) ∗ Φ (a + 3) ∗ Φ (a + 4)) : sProp 𝕄) = bigSep (Finset.Ico 0 (a + 5)) Φ := by
  show (iprop(bigSep (Finset.Ico 0 a) Φ ∗ Φ a ∗ Φ (a + 1) ∗ Φ (a + 1 + 1) ∗ Φ (a + 1 + 1 + 1) ∗ Φ (a + 1 + 1 + 1 + 1)) : sProp 𝕄)
    = bigSep (Finset.Ico 0 (a + 1 + 1 + 1 + 1 + 1)) Φ
  rw [bigSep_Ico_right Φ (Nat.zero_le (a + 1 + 1 + 1 + 1)), bigSep_Ico_right Φ (Nat.zero_le (a + 1 + 1 + 1)), bigSep_Ico_right Φ (Nat.zero_le (a + 1 + 1)),
    bigSep_Ico_right Φ (Nat.zero_le (a + 1)), bigSep_Ico_right Φ (Nat.zero_le a),
    sep_assoc_eq, sep_assoc_eq, sep_assoc_eq, sep_assoc_eq]

/-! ## The index rows -/

theorem rowsI_peel5 (a : ℕ) (h : a + 5 ≤ 200) :
    rowsI m d L fI a 200 = iprop(((sI : Memref sig .scVector .vmem S200x128 .i32).view.loc (thr d L) ↦[rowSetN a]{fullShare} cI m d L fI) ∗ ((sI : Memref sig .scVector .vmem S200x128 .i32).view.loc (thr d L) ↦[rowSetN (a + 1)]{fullShare} cI m d L fI) ∗ ((sI : Memref sig .scVector .vmem S200x128 .i32).view.loc (thr d L) ↦[rowSetN (a + 2)]{fullShare} cI m d L fI) ∗ ((sI : Memref sig .scVector .vmem S200x128 .i32).view.loc (thr d L) ↦[rowSetN (a + 3)]{fullShare} cI m d L fI) ∗ ((sI : Memref sig .scVector .vmem S200x128 .i32).view.loc (thr d L) ↦[rowSetN (a + 4)]{fullShare} cI m d L fI) ∗ rowsI m d L fI (a + 5) 200) :=
  bigSep_Ico_peel5 (fun r => ((sI : Memref sig .scVector .vmem S200x128 .i32).view.loc (thr d L) ↦[rowSetN r]{fullShare} cI m d L fI)) a 200 h

theorem rowsI_push5 (a : ℕ) :
    (iprop(rowsI m d L fI 0 a ∗ ((sI : Memref sig .scVector .vmem S200x128 .i32).view.loc (thr d L) ↦[rowSetN a]{fullShare} cI m d L fI) ∗ ((sI : Memref sig .scVector .vmem S200x128 .i32).view.loc (thr d L) ↦[rowSetN (a + 1)]{fullShare} cI m d L fI) ∗ ((sI : Memref sig .scVector .vmem S200x128 .i32).view.loc (thr d L) ↦[rowSetN (a + 2)]{fullShare} cI m d L fI) ∗ ((sI : Memref sig .scVector .vmem S200x128 .i32).view.loc (thr d L) ↦[rowSetN (a + 3)]{fullShare} cI m d L fI) ∗ ((sI : Memref sig .scVector .vmem S200x128 .i32).view.loc (thr d L) ↦[rowSetN (a + 4)]{fullShare} cI m d L fI)) : sProp 𝕄) = rowsI m d L fI 0 (a + 5) :=
  bigSep_Ico_push5 (fun r => ((sI : Memref sig .scVector .vmem S200x128 .i32).view.loc (thr d L) ↦[rowSetN r]{fullShare} cI m d L fI)) a

theorem rowsI_zero : rowsI m d L fI 0 0 = iprop(emp) := bigSep_Ico_empty _ 0
theorem rowsI_end : rowsI m d L fI 200 200 = iprop(emp) := bigSep_Ico_empty _ 200

/-- All 200 rows are the index scratch held whole. -/
theorem rowsI_whole : rowsI m d L fI 0 200 = ((sI : Memref sig .scVector .vmem S200x128 .i32).view.loc (thr d L) ↦{fullShare} cI m d L fI) :=
  (sI_rows d L (cI m d L fI)).symm

/-! ## The output chunks -/

theorem chunksO_peel5 (a : ℕ) (h : a + 5 ≤ 200) (f : Buf (Elt F) (outLoc d)) :
    chunksO d L a 200 f = iprop((outLoc d ↦[chunkN (200 * widL L + a)]{fullShare} f) ∗ (outLoc d ↦[chunkN (200 * widL L + (a + 1))]{fullShare} f) ∗ (outLoc d ↦[chunkN (200 * widL L + (a + 2))]{fullShare} f) ∗ (outLoc d ↦[chunkN (200 * widL L + (a + 3))]{fullShare} f) ∗ (outLoc d ↦[chunkN (200 * widL L + (a + 4))]{fullShare} f) ∗ chunksO d L (a + 5) 200 f) :=
  bigSep_Ico_peel5 (fun n => (outLoc d ↦[chunkN (200 * widL L + n)]{fullShare} f)) a 200 h

theorem chunksO_push5 (a : ℕ) (f : Buf (Elt F) (outLoc d)) :
    (iprop(chunksO d L 0 a f ∗ (outLoc d ↦[chunkN (200 * widL L + a)]{fullShare} f) ∗ (outLoc d ↦[chunkN (200 * widL L + (a + 1))]{fullShare} f) ∗ (outLoc d ↦[chunkN (200 * widL L + (a + 2))]{fullShare} f) ∗ (outLoc d ↦[chunkN (200 * widL L + (a + 3))]{fullShare} f) ∗ (outLoc d ↦[chunkN (200 * widL L + (a + 4))]{fullShare} f)) : sProp 𝕄) = chunksO d L 0 (a + 5) f :=
  bigSep_Ico_push5 (fun n => (outLoc d ↦[chunkN (200 * widL L + n)]{fullShare} f)) a

theorem chunksO_zero (f : Buf (Elt F) (outLoc d)) : chunksO d L 0 0 f = iprop(emp) := bigSep_Ico_empty _ 0
theorem chunksO_end (f : Buf (Elt F) (outLoc d)) : chunksO d L 200 200 f = iprop(emp) := bigSep_Ico_empty _ 200

/-- The 200 chunks a worker is handed, and the 200 it hands back. -/
theorem chunks_go :
    (bigSep Finset.univ fun k : Fin 200 => outLoc d ↦[chunkN (200 * widL L + k.val)]{fullShare} m (outLoc d)) = chunksO d L 0 200 (m (outLoc d)) :=
  bigSep_fin200 (fun n => (outLoc d ↦[chunkN (200 * widL L + n)]{fullShare} m (outLoc d)))
theorem chunks_td :
    chunksO d L 0 200 (flatOf m d) = (bigSep Finset.univ fun k : Fin 200 => outLoc d ↦[chunkN (200 * widL L + k.val)]{fullShare} flatOf m d) :=
  (bigSep_fin200 (fun n => (outLoc d ↦[chunkN (200 * widL L + n)]{fullShare} flatOf m d))).symm

/-! ## The outer loop's trips -/

omit [FloatOps F] in
theorem trips40 : k0_t1_loop.trips = 40 := by decide

omit [FloatOps F] in
theorem cond_all : ∀ k : Fin k0_t1_loop.trips, (k.val < 39 → k0_cond1 k = 1#1) ∧ (k.val = 39 → ¬ k0_cond1 k = 1#1) := by decide +kernel

omit [FloatOps F] in
/-- The inner condition holds on every trip but the last, -/
theorem cond_lt (k : Fin k0_t1_loop.trips) (h : k.val < 39) : k0_cond1 k = 1#1 := (cond_all k).1 h
omit [FloatOps F] in
/-- and fails on the last. -/
theorem cond_last (k : Fin k0_t1_loop.trips) (h : k.val = 39) : ¬ k0_cond1 k = 1#1 := (cond_all k).2 h

end Cert.Proof.KI

end
-- ==== Proof.KI.Body.lean ====
/-
  One worker's task, whole: it fetches its slab of tokens, fires the first five gathers, runs the forty trips of
  the outer loop at the invariant of Inv.lean, waits for the last five write-outs, and returns its read shares as it
  got them and its 200 output chunks holding the flat lookup.
-/
import proofs.«219849_g103079215527_week1_w1_1010_20_alg».proof.Proof.KI.Iface
import proofs.«219849_g103079215527_week1_w1_1010_20_alg».proof.Proof.KI.Cells
import proofs.«219849_g103079215527_week1_w1_1010_20_alg».proof.Proof.KI.TripA
import proofs.«219849_g103079215527_week1_w1_1010_20_alg».proof.Proof.KI.TripLast
import proofs.«219849_g103079215527_week1_w1_1010_20_alg».proof.Proof.KI.Peel

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]
variable (m : (ℓ : Loc nD τ sig) → Buf (Elt F) ℓ)

section
variable (d : Dev nD) (L : grid0.Coords)

omit [FloatOps F] in
theorem pts_idx (q : PosShare TreeShare) (f : Buf (Elt F) (idxLoc d)) :
    ((idxV : Memref sig .scVector .hbm S32x200x128 .i32).view.loc (thr d L) ↦{q} f : sProp 𝕄) = idxLoc d ↦{q} f := by
  simp only [Memref.view_whole, View.set_whole]
omit [FloatOps F] in
theorem pts_tab (q : PosShare TreeShare) (f : Buf (Elt F) (tabLoc d)) :
    ((tabV : Memref sig .scVector .hbm S100000x128 .f32).view.loc (thr d L) ↦{q} f : sProp 𝕄) = tabLoc d ↦{q} f := by
  simp only [Memref.view_whole, View.set_whole]
omit [FloatOps F] in
theorem pts_sB (b : Ref sig .scVector) (f : Buf (Elt F) ((thr d L).loc b)) :
    ((Memref.whole b).view.loc (thr d L) ↦{fullShare} f : sProp 𝕄) = (thr d L).loc b ↦{fullShare} f := rfl
omit [FloatOps F] in
theorem pts_sBset (b : Ref sig .scVector) (f : Buf (Elt F) ((thr d L).loc b)) :
    ((Memref.whole b).view.loc (thr d L) ↦[(Memref.whole b : Memref sig .scVector _ _ _).view.set]{fullShare} f : sProp 𝕄) = (thr d L).loc b ↦{fullShare} f := by
  simp only [Memref.view_whole, View.set_whole]

omit [FloatOps F] in
/-- A share of an array is five read tokens of it and a remainder. -/
theorem toks5_split {ℓ : Loc nD τ sig} (q : PosShare TreeShare) (f : Buf (Elt F) ℓ) :
    (ℓ ↦{q} f : sProp 𝕄) ⊢ iprop((ℓ ↦{Transfers.shareDrop q 5} f) ∗ (ℓ ↦{Transfers.shareTokN q 0} f) ∗ (ℓ ↦{Transfers.shareTokN q 1} f)
      ∗ (ℓ ↦{Transfers.shareTokN q 2} f) ∗ (ℓ ↦{Transfers.shareTokN q 3} f) ∗ (ℓ ↦{Transfers.shareTokN q 4} f)) := by
  refine (Transfers.pointsTo_toks_range q 5).1.trans ?_
  rw [show Finset.range 5 = {0, 1, 2, 3, 4} by decide, SparseCore.bigSep_insert' (by decide), SparseCore.bigSep_insert' (by decide),
    SparseCore.bigSep_insert' (by decide), SparseCore.bigSep_insert' (by decide), bigSep_singleton]
  try exact BI.Entails.refl _
omit [FloatOps F] in
theorem toks5_join {ℓ : Loc nD τ sig} (q : PosShare TreeShare) (f : Buf (Elt F) ℓ) :
    iprop((ℓ ↦{Transfers.shareDrop q 5} f) ∗ (ℓ ↦{Transfers.shareTokN q 0} f) ∗ (ℓ ↦{Transfers.shareTokN q 1} f)
      ∗ (ℓ ↦{Transfers.shareTokN q 2} f) ∗ (ℓ ↦{Transfers.shareTokN q 3} f) ∗ (ℓ ↦{Transfers.shareTokN q 4} f)) ⊢ (ℓ ↦{q} f : sProp 𝕄) := by
  refine BI.Entails.trans ?_ (Transfers.pointsTo_toks_range q 5).2
  rw [show Finset.range 5 = {0, 1, 2, 3, 4} by decide, SparseCore.bigSep_insert' (by decide), SparseCore.bigSep_insert' (by decide),
    SparseCore.bigSep_insert' (by decide), SparseCore.bigSep_insert' (by decide), bigSep_singleton]
  try exact BI.Entails.refl _
end

section
variable (d : Dev nD) (L : grid0.Coords) (fI : Buf (Elt F) ((sI : Memref sig .scVector .vmem S200x128 .i32).view.loc (thr d L))) (hpre : PreOK m)
variable (O : CellTallies nD τ sig (HIx 1)) (W : Waits sig (HIx 1))

theorem gAtom_eq (sem : DmaSems sig S_) (sB : sBty) (t n : ℕ) :
    gAtom m d L fI hpre sem sB t n = iprop(∃ ro : RowOff, ∃ fp : Buf (Elt F) (sB.view.loc (thr d L)), ⌜ro.1 = ![n, 0]⌝
      ∗ gFlight m d L fI sem sB t ro.1 ro.2 (hinAll m d L fI hpre ro.1 ro.2) fp) := rfl

/-- After the fortieth trip the invariant is its second form. -/
theorem inv_last (acc : PUnit) : inv m d L fI hpre O W (Scf.trips k0_t1_loop.lb k0_t1_loop.ub k0_t1_loop.st) acc = invB m d L fI hpre O W := by
  have h : Scf.trips k0_t1_loop.lb k0_t1_loop.ub k0_t1_loop.st = 40 := trips40
  unfold inv; rw [h, if_neg (by omega)]
end

set_option maxHeartbeats 4000000 in
/-- The worker's task. -/
theorem tile_body (hF : (K (F := F)).Facts) (hpre : PreOK m) : TileBody m := by
  intro d L O W hO
  simp only [cc0_gather_eq_skeleton]; unfold cc0_gather_skel
  rw [(K (F := F)).scopedBufs_V hF d (cV L) (jV L), SparseCore.Cfg.scopedSems0_V (Val := Elt F) d (cV L) (jV L), ownSems0_V, ownBufs_V]
  unfold goRes
  iintro ⟨#Hlv, -, ⟨Hidx, Htab, Hout⟩, ⟨⟨%fI, HsI⟩, ⟨%f1, Hb1⟩, ⟨%f2, Hb2⟩, ⟨%f3, Hb3⟩, ⟨%f4, Hb4⟩, ⟨%f5, Hb5⟩, Hbufs⟩,
    ⟨Hs0, Hg1, Hg2, Hg3, Hg4, Hg5, Hw1, Hw2, Hw3, Hw4, Hw5, Hsems⟩, HO⟩
  ihave Hmw := ((K (F := F)).mayWaits_none (thr := thr d L) hO) $$ Hlv
  ihave Hidx' := (Entails.of_eq (pts_idx (F := F) d L _ _).symm) $$ Hidx
  ihave Htab' := (Entails.of_eq (pts_tab (F := F) d L _ _).symm) $$ Htab
  ihave HsI' := (Entails.of_eq (pts_sB (F := F) d L cc0_scratch0 _).symm) $$ HsI
  ihave Hb1' := (Entails.of_eq (pts_sB (F := F) d L cc0_scratch1 _).symm) $$ Hb1
  ihave Hb2' := (Entails.of_eq (pts_sB (F := F) d L cc0_scratch2 _).symm) $$ Hb2
  ihave Hb3' := (Entails.of_eq (pts_sB (F := F) d L cc0_scratch3 _).symm) $$ Hb3
  ihave Hb4' := (Entails.of_eq (pts_sB (F := F) d L cc0_scratch4 _).symm) $$ Hb4
  ihave Hb5' := (Entails.of_eq (pts_sB (F := F) d L cc0_scratch5 _).symm) $$ Hb5
  ihave Ht := (toks5_split (F := F) _ _) $$ Htab'
  icases Ht with ⟨Htr, Ht0, Ht1, Ht2, Ht3, Ht4⟩
  ihave Hch := (Entails.of_eq (chunks_go (F := F) m d L)) $$ Hout
  -- the fetch of the worker's slab of tokens, and its wait
  sl_exec
  have hidx := fun (g0 : Buf (Elt F) ((sI : Memref sig .scVector .vmem S200x128 .i32).view.loc (thr d L))) row hk hs hq => inb_of_pre m d L hpre g0 (PAY m d L) rfl row hk hs hq
  -- the index scratch by rows; the first five go with the first five gathers
  have hcI : (((sI : Memref sig .scVector .vmem S200x128 .i32).view.loc (thr d L) ↦{fullShare}
      View.write (Elt F) (sI : Memref sig .scVector .vmem S200x128 .i32).view fI (tile_body.sl.dma0 m d L) Finset.univ) : sProp 𝕄)
        = ((sI : Memref sig .scVector .vmem S200x128 .i32).view.loc (thr d L) ↦{fullShare} cI m d L fI) := rfl
  ihave HsI'' := (Entails.of_eq hcI) $$ HsI'
  ihave Hrows := (Entails.of_eq ((rowsI_whole (F := F) m d L fI).symm.trans (rowsI_peel5 (F := F) m d L fI 0 (by omega)))) $$ HsI''
  icases Hrows with ⟨Hr0, Hr1, Hr2, Hr3, Hr4, Hrest⟩
  ihave Hr0' := (Entails.of_eq (pts_row (F := F) d L ![0, 0] inb_S200x128_S1x128_0_0 0 rfl _).symm) $$ Hr0
  ihave Hr1' := (Entails.of_eq (pts_row (F := F) d L ![1, 0] inb_S200x128_S1x128_1_0 (0 + 1) rfl _).symm) $$ Hr1
  ihave Hr2' := (Entails.of_eq (pts_row (F := F) d L ![2, 0] inb_S200x128_S1x128_2_0 (0 + 2) rfl _).symm) $$ Hr2
  ihave Hr3' := (Entails.of_eq (pts_row (F := F) d L ![3, 0] inb_S200x128_S1x128_3_0 (0 + 3) rfl _).symm) $$ Hr3
  ihave Hr4' := (Entails.of_eq (pts_row (F := F) d L ![4, 0] inb_S200x128_S1x128_4_0 (0 + 4) rfl _).symm) $$ Hr4
  sl_exec
  -- the outer loop, at its invariant
  sl_for (inv m d L fI hpre O W) $$ [Hmw Hg1 Hg2 Hg3 Hg4 Hg5 Hw1 Hw2 Hw3 Hw4 Hw5 Hrest Hch HO]
  case region =>
    intro k _
    have hk40 : k.val < 40 := lt_of_lt_of_le k.isLt (le_of_eq trips40)
    have e5 : 5 * (k.val + 1) = 5 * k.val + 5 := by ring
    by_cases h39 : k.val < 39
    · have hc := cond_lt k h39
      unfold inv
      rw [if_pos hk40, if_pos (show k.val + 1 < 40 by omega)]
      unfold invA
      rw [e5]
      simp only [Nat.add_zero]
      rw [rowsI_peel5 (F := F) m d L fI (5 * k.val + 5) (by omega), chunksO_peel5 (F := F) d L (5 * k.val) (by omega) (m (outLoc d)),
        ← rowsI_push5 (F := F) m d L fI (5 * k.val), ← chunksO_push5 (F := F) d L (5 * k.val) (flatOf m d),
        gAtom_eq m d L fI hpre cc0_scratch6 sB1 0 (5 * k.val),
        gAtom_eq m d L fI hpre cc0_scratch7 sB2 1 (5 * k.val + 1),
        gAtom_eq m d L fI hpre cc0_scratch8 sB3 2 (5 * k.val + 2),
        gAtom_eq m d L fI hpre cc0_scratch9 sB4 3 (5 * k.val + 3),
        gAtom_eq m d L fI hpre cc0_scratch10 sB5 4 (5 * k.val + 4)]
      unfold owesI
      iintro ⟨#Hmw, ⟨%ro1, %fp1, %e1, Hf1⟩, ⟨%ro2, %fp2, %e2, Hf2⟩, ⟨%ro3, %fp3, %e3, Hf3⟩, ⟨%ro4, %fp4, %e4, Hf4⟩, ⟨%ro5, %fp5, %e5', Hf5⟩,
        Hw1, Hw2, Hw3, Hw4, Hw5, Hret, ⟨Hn0, Hn1, Hn2, Hn3, Hn4, Hfut⟩, Hdone, ⟨Ho0, Ho1, Ho2, Ho3, Ho4, Htodo⟩, ⟨%W', %hW', HO⟩⟩
      iapply (wp_wand_r Idealize.ShloMosaic.frame (wpE (defs₀ (F := F)) 𝒱₀ (thr d L) none) Set.univ)
      isplitl [Hf1 Hf2 Hf3 Hf4 Hf5 Hw1 Hw2 Hw3 Hw4 Hw5 Ho0 Ho1 Ho2 Ho3 Ho4 Hn0 Hn1 Hn2 Hn3 Hn4 HO]
      · iapply (tripA m d L fI hpre O W' _ k h39 hc ro1.1 ro1.2 e1 fp1 ro2.1 ro2.2 e2 fp2 ro3.1 ro3.2 e3 fp3 ro4.1 ro4.2 e4 fp4 ro5.1 ro5.2 e5' fp5)
        isplitr; · iexact Hmw
        isplitl [Hf1]; · iexact Hf1
        isplitl [Hf2]; · iexact Hf2
        isplitl [Hf3]; · iexact Hf3
        isplitl [Hf4]; · iexact Hf4
        isplitl [Hf5]; · iexact Hf5
        isplitl [Hw1]; · iexact Hw1
        isplitl [Hw2]; · iexact Hw2
        isplitl [Hw3]; · iexact Hw3
        isplitl [Hw4]; · iexact Hw4
        isplitl [Hw5]; · iexact Hw5
        isplitl [Ho0]; · iexact Ho0
        isplitl [Ho1]; · iexact Ho1
        isplitl [Ho2]; · iexact Ho2
        isplitl [Ho3]; · iexact Ho3
        isplitl [Ho4]; · iexact Ho4
        isplitl [Hn0]; · iexact Hn0
        isplitl [Hn1]; · iexact Hn1
        isplitl [Hn2]; · iexact Hn2
        isplitl [Hn3]; · iexact Hn3
        isplitl [Hn4]; · iexact Hn4
        iexact HO
      unfold owesI
      iintro %_ ⟨Hg1, Hg2, Hg3, Hg4, Hg5, Hw1, Hw2, Hw3, Hw4, Hw5, Hc0, Hc1, Hc2, Hc3, Hc4, Hq0, Hq1, Hq2, Hq3, Hq4, ⟨%W'', %hW'', HO⟩⟩
      isplitr; · iexact Hmw
      isplitl [Hg1]; · iexact Hg1
      isplitl [Hg2]; · iexact Hg2
      isplitl [Hg3]; · iexact Hg3
      isplitl [Hg4]; · iexact Hg4
      isplitl [Hg5]; · iexact Hg5
      isplitl [Hw1]; · iexact Hw1
      isplitl [Hw2]; · iexact Hw2
      isplitl [Hw3]; · iexact Hw3
      isplitl [Hw4]; · iexact Hw4
      isplitl [Hw5]; · iexact Hw5
      isplitl [Hret Hq0 Hq1 Hq2 Hq3 Hq4]
      · isplitl [Hret]; · iexact Hret
        isplitl [Hq0]; · iexact Hq0
        isplitl [Hq1]; · iexact Hq1
        isplitl [Hq2]; · iexact Hq2
        isplitl [Hq3]; · iexact Hq3
        iexact Hq4
      isplitl [Hfut]; · iexact Hfut
      isplitl [Hdone Hc0 Hc1 Hc2 Hc3 Hc4]
      · isplitl [Hdone]; · iexact Hdone
        isplitl [Hc0]; · iexact Hc0
        isplitl [Hc1]; · iexact Hc1
        isplitl [Hc2]; · iexact Hc2
        isplitl [Hc3]; · iexact Hc3
        iexact Hc4
      isplitl [Htodo]; · iexact Htodo
      iexists W''; isplitr
      · ipureintro; intro p hp
        rcases hW'' p hp with h | h
        · exact hW' p h
        · exact .inr h
      · iexact HO
    · have h39' : k.val = 39 := by omega
      unfold inv
      rw [if_pos hk40, if_neg (show ¬ k.val + 1 < 40 by omega)]
      unfold invA invB
      rw [chunksO_peel5 (F := F) d L (5 * k.val) (by omega) (m (outLoc d)),
        congrArg (fun n => rowsI m d L fI 0 n) (show 200 = 5 * k.val + 5 by omega), ← rowsI_push5 (F := F) m d L fI (5 * k.val),
        congrArg (fun n => chunksO d L 0 n (flatOf m d)) (show 195 = 5 * k.val by omega)]
      simp only [Nat.add_zero]
      rw [gAtom_eq m d L fI hpre cc0_scratch6 sB1 0 (5 * k.val),
        gAtom_eq m d L fI hpre cc0_scratch7 sB2 1 (5 * k.val + 1),
        gAtom_eq m d L fI hpre cc0_scratch8 sB3 2 (5 * k.val + 2),
        gAtom_eq m d L fI hpre cc0_scratch9 sB4 3 (5 * k.val + 3),
        gAtom_eq m d L fI hpre cc0_scratch10 sB5 4 (5 * k.val + 4)]
      unfold owesI
      iintro ⟨#Hmw, ⟨%ro1, %fp1, %e1, Hf1⟩, ⟨%ro2, %fp2, %e2, Hf2⟩, ⟨%ro3, %fp3, %e3, Hf3⟩, ⟨%ro4, %fp4, %e4, Hf4⟩, ⟨%ro5, %fp5, %e5', Hf5⟩,
        Hw1, Hw2, Hw3, Hw4, Hw5, Hret, -, Hdone, ⟨Ho0, Ho1, Ho2, Ho3, Ho4, -⟩, ⟨%W', %hW', HO⟩⟩
      iapply (wp_wand_r Idealize.ShloMosaic.frame (wpE (defs₀ (F := F)) 𝒱₀ (thr d L) none) Set.univ)
      isplitl [Hf1 Hf2 Hf3 Hf4 Hf5 Hw1 Hw2 Hw3 Hw4 Hw5 Ho0 Ho1 Ho2 Ho3 Ho4 HO]
      · iapply (tripLast m d L fI hpre O W' _ k h39' ro1.1 ro1.2 e1 fp1 ro2.1 ro2.2 e2 fp2 ro3.1 ro3.2 e3 fp3 ro4.1 ro4.2 e4 fp4 ro5.1 ro5.2 e5' fp5)
        isplitr; · iexact Hmw
        isplitl [Hf1]; · iexact Hf1
        isplitl [Hf2]; · iexact Hf2
        isplitl [Hf3]; · iexact Hf3
        isplitl [Hf4]; · iexact Hf4
        isplitl [Hf5]; · iexact Hf5
        isplitl [Hw1]; · iexact Hw1
        isplitl [Hw2]; · iexact Hw2
        isplitl [Hw3]; · iexact Hw3
        isplitl [Hw4]; · iexact Hw4
        isplitl [Hw5]; · iexact Hw5
        isplitl [Ho0]; · iexact Ho0
        isplitl [Ho1]; · iexact Ho1
        isplitl [Ho2]; · iexact Ho2
        isplitl [Ho3]; · iexact Ho3
        isplitl [Ho4]; · iexact Ho4
        iexact HO
      unfold owesI
      iintro %_ ⟨Hv1, Hv2, Hv3, Hv4, Hv5, Hg1, Hg2, Hg3, Hg4, Hg5, Ht0, Ht1, Ht2, Ht3, Ht4, Hq0, Hq1, Hq2, Hq3, Hq4, ⟨%W'', %hW'', HO⟩⟩
      isplitr; · iexact Hmw
      isplitl [Hv1]; · iexact Hv1
      isplitl [Hv2]; · iexact Hv2
      isplitl [Hv3]; · iexact Hv3
      isplitl [Hv4]; · iexact Hv4
      isplitl [Hv5]; · iexact Hv5
      isplitl [Hg1]; · iexact Hg1
      isplitl [Hg2]; · iexact Hg2
      isplitl [Hg3]; · iexact Hg3
      isplitl [Hg4]; · iexact Hg4
      isplitl [Hg5]; · iexact Hg5
      isplitl [Ht0]; · iexact Ht0
      isplitl [Ht1]; · iexact Ht1
      isplitl [Ht2]; · iexact Ht2
      isplitl [Ht3]; · iexact Ht3
      isplitl [Ht4]; · iexact Ht4
      isplitl [Hret Hq0 Hq1 Hq2 Hq3 Hq4]
      · isplitl [Hret]; · iexact Hret
        isplitl [Hq0]; · iexact Hq0
        isplitl [Hq1]; · iexact Hq1
        isplitl [Hq2]; · iexact Hq2
        isplitl [Hq3]; · iexact Hq3
        iexact Hq4
      isplitl [Hdone]; · iexact Hdone
      iexists W''; isplitr
      · ipureintro; intro p hp
        rcases hW'' p hp with h | h
        · exact hW' p h
        · exact .inr h
      · iexact HO
  · -- the invariant before the first trip: the five gathers of index rows 0 … 4 are in flight
    unfold inv
    rw [if_pos (show 0 < 40 by omega)]
    unfold invA
    simp only [Nat.mul_zero, Nat.zero_add]
    rw [rowsI_zero, chunksO_zero]
    isplitr; · iexact Hmw
    isplitl [Hg1]
    · unfold gAtom
      iexists (⟨![0, 0], inb_S200x128_S1x128_0_0⟩ : RowOff); iexists f1; isplitr
      · ipureintro; rfl
      · unfold gFlight; iexact Hg1
    isplitl [Hg2]
    · unfold gAtom
      iexists (⟨![1, 0], inb_S200x128_S1x128_1_0⟩ : RowOff); iexists f2; isplitr
      · ipureintro; rfl
      · unfold gFlight; iexact Hg2
    isplitl [Hg3]
    · unfold gAtom
      iexists (⟨![2, 0], inb_S200x128_S1x128_2_0⟩ : RowOff); iexists f3; isplitr
      · ipureintro; rfl
      · unfold gFlight; iexact Hg3
    isplitl [Hg4]
    · unfold gAtom
      iexists (⟨![3, 0], inb_S200x128_S1x128_3_0⟩ : RowOff); iexists f4; isplitr
      · ipureintro; rfl
      · unfold gFlight; iexact Hg4
    isplitl [Hg5]
    · unfold gAtom
      iexists (⟨![4, 0], inb_S200x128_S1x128_4_0⟩ : RowOff); iexists f5; isplitr
      · ipureintro; rfl
      · unfold gFlight; iexact Hg5
    isplitl [Hw1]; · iexact Hw1
    isplitl [Hw2]; · iexact Hw2
    isplitl [Hw3]; · iexact Hw3
    isplitl [Hw4]; · iexact Hw4
    isplitl [Hw5]; · iexact Hw5
    isplitr; · iempintro
    isplitl [Hrest]; · iexact Hrest
    isplitr; · iempintro
    isplitl [Hch]; · iexact Hch
    unfold owesI
    iexists _; isplitr
    rotate_left
    · iexact HO
    · ipureintro; intro p hp
      simp only [Finset.mem_insert] at hp
      rcases hp with rfl | hp
      · exact .inr rfl
      · exact .inl hp
  iintro %_ HI
  ihave HB := (Entails.of_eq (inv_last m d L fI hpre O W _)) $$ HI
  unfold invB wAtom1 wAtom2 wAtom3 wAtom4 wAtom5 owesI
  icases HB with ⟨#Hmw2, ⟨%oo1, %rq1, %fq1, %eo1, %er1, Hv1⟩, ⟨%oo2, %rq2, %fq2, %eo2, %er2, Hv2⟩, ⟨%oo3, %rq3, %fq3, %eo3, %er3, Hv3⟩,
    ⟨%oo4, %rq4, %fq4, %eo4, %er4, Hv4⟩, ⟨%oo5, %rq5, %fq5, %eo5, %er5, Hv5⟩, Hg1, Hg2, Hg3, Hg4, Hg5, Hk0, Hk1, Hk2, Hk3, Hk4, Hrows, Hdone, ⟨%W', %hW', HO⟩⟩
  unfold wFlight1 wFlight2 wFlight3 wFlight4 wFlight5
  sl_exec
  sl_step
  -- what the task hands back
  have hpush : (iprop(chunksO d L 0 195 (flatOf m d) ∗ (outLoc d ↦[chunkN (200 * widL L + 195)]{fullShare} flatOf m d) ∗ (outLoc d ↦[chunkN (200 * widL L + 196)]{fullShare} flatOf m d) ∗ (outLoc d ↦[chunkN (200 * widL L + 197)]{fullShare} flatOf m d) ∗ (outLoc d ↦[chunkN (200 * widL L + 198)]{fullShare} flatOf m d) ∗ (outLoc d ↦[chunkN (200 * widL L + 199)]{fullShare} flatOf m d)) : sProp 𝕄)
      = chunksO d L 0 200 (flatOf m d) := chunksO_push5 (F := F) d L 195 (flatOf m d)
  unfold tdRes
  isplitl [Hidx' Htr Hk0 Hk1 Hk2 Hk3 Hk4 Hdone Hv1_dst Hv2_dst Hv3_dst Hv4_dst Hv5_dst]
  · isplitl [Hidx']; · iapply (Entails.of_eq (pts_idx (F := F) d L _ _)); iexact Hidx'
    isplitl [Htr Hk0 Hk1 Hk2 Hk3 Hk4]
    · iapply (Entails.of_eq (pts_tab (F := F) d L _ _))
      iapply (toks5_join (F := F) _ _)
      isplitl [Htr]; · iexact Htr
      isplitl [Hk0]; · iexact Hk0
      isplitl [Hk1]; · iexact Hk1
      isplitl [Hk2]; · iexact Hk2
      isplitl [Hk3]; · iexact Hk3
      iexact Hk4
    · iapply (Entails.of_eq (chunks_td (F := F) m d L))
      iapply (Entails.of_eq hpush)
      isplitl [Hdone]; · iexact Hdone
      isplitl [Hv1_dst]; · iapply (Entails.of_eq (pts_chunk_sB1 m d L fI hpre _ _ 195 (by omega) eo1 rq1.1 rq1.2 (hinAll m d L fI hpre rq1.1 rq1.2) er1 fq1 _ rfl)); iexact Hv1_dst
      isplitl [Hv2_dst]; · iapply (Entails.of_eq (pts_chunk_sB2 m d L fI hpre _ _ 196 (by omega) eo2 rq2.1 rq2.2 (hinAll m d L fI hpre rq2.1 rq2.2) er2 fq2 _ rfl)); iexact Hv2_dst
      isplitl [Hv3_dst]; · iapply (Entails.of_eq (pts_chunk_sB3 m d L fI hpre _ _ 197 (by omega) eo3 rq3.1 rq3.2 (hinAll m d L fI hpre rq3.1 rq3.2) er3 fq3 _ rfl)); iexact Hv3_dst
      isplitl [Hv4_dst]; · iapply (Entails.of_eq (pts_chunk_sB4 m d L fI hpre _ _ 198 (by omega) eo4 rq4.1 rq4.2 (hinAll m d L fI hpre rq4.1 rq4.2) er4 fq4 _ rfl)); iexact Hv4_dst
      iapply (Entails.of_eq (pts_chunk_sB5 m d L fI hpre _ _ 199 (by omega) eo5 rq5.1 rq5.2 (hinAll m d L fI hpre rq5.1 rq5.2) er5 fq5 _ rfl)); iexact Hv5_dst
  isplitl [Hrows Hv1_src Hv2_src Hv3_src Hv4_src Hv5_src Hbufs]
  · isplitl [Hrows]
    · iexists _; iapply (Entails.of_eq (pts_sB (F := F) d L cc0_scratch0 _)); iapply (Entails.of_eq (rowsI_whole (F := F) m d L fI)); iexact Hrows
    isplitl [Hv1_src]; · iexists _; iapply (Entails.of_eq (pts_sBset (F := F) d L cc0_scratch1 _)); iexact Hv1_src
    isplitl [Hv2_src]; · iexists _; iapply (Entails.of_eq (pts_sBset (F := F) d L cc0_scratch2 _)); iexact Hv2_src
    isplitl [Hv3_src]; · iexists _; iapply (Entails.of_eq (pts_sBset (F := F) d L cc0_scratch3 _)); iexact Hv3_src
    isplitl [Hv4_src]; · iexists _; iapply (Entails.of_eq (pts_sBset (F := F) d L cc0_scratch4 _)); iexact Hv4_src
    isplitl [Hv5_src]; · iexists _; iapply (Entails.of_eq (pts_sBset (F := F) d L cc0_scratch5 _)); iexact Hv5_src
    iexact Hbufs
  isplitl [Hs0 Hg1 Hg2 Hg3 Hg4 Hg5 Hv1 Hv2 Hv3 Hv4 Hv5 Hsems]
  · isplitl [Hs0]; · iexact Hs0
    isplitl [Hg1]; · iexact Hg1
    isplitl [Hg2]; · iexact Hg2
    isplitl [Hg3]; · iexact Hg3
    isplitl [Hg4]; · iexact Hg4
    isplitl [Hg5]; · iexact Hg5
    isplitl [Hv1]; · iexact Hv1
    isplitl [Hv2]; · iexact Hv2
    isplitl [Hv3]; · iexact Hv3
    isplitl [Hv4]; · iexact Hv4
    isplitl [Hv5]; · iexact Hv5
    iexact Hsems
  iexists _; isplitr
  rotate_left
  · iexact HO
  · ipureintro; intro p hp
    simp only [Finset.mem_insert] at hp
    rcases hp with rfl | rfl | rfl | rfl | rfl | hp
    all_goals first | exact .inr rfl | exact hW' p hp

end Cert.Proof.KI

end
-- ==== Proof.KB.Setup.lean ====
/-
  The kernel, read at the word level, as the launch theorem sees it, and what the one SparseCore call hands each vector subcore.

  The device has two SparseCores of sixteen vector subcores; subcore s of SparseCore c is worker w = 2 s + c. The
  819200 output rows are cut into 6400 chunks of 128 rows; worker w writes chunks 200 w … 200 w + 199, and nothing else
  writes them. Every worker reads the whole table and the whole (reshaped) token array, so each is handed a read share
  of both, number w, and gets its 200 output chunks outright. It returns the shares as it got them and the chunks
  holding the flat lookup `Cert.Spec.flat` of the two argument arrays.
-/
import proofs.«219849_g103079215527_week1_w1_1010_20_alg».proof.Defs
import proofs.«219849_g103079215527_week1_w1_1010_20_alg».proof.Proof.Spec
import Idealize.ShloMosaic.Lib.SparseCore.Launch
import Idealize.ShloMosaic.Lib.SparseCore.Stream
import Idealize.ShloMosaic.Lib.StableHlo.Run
import Idealize.ShloMosaic.Lib.Pipeline.Kit
import Idealize.ShloMosaic.Lib.Tactic
import proofs.«219849_g103079215527_week1_w1_1010_20_alg».proof.Proof.Gen.Kernel
import proofs.«219849_g103079215527_week1_w1_1010_20_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The tokens and the table (the arguments), the reshaped tokens, the flat output, the result, as locations of device `d`. -/
abbrev tokLoc (d : Dev nD) : Loc nD τ sig := (SparseCore.T d).loc main_arg0
abbrev tabLoc (d : Dev nD) : Loc nD τ sig := (SparseCore.T d).loc main_arg1
abbrev idxLoc (d : Dev nD) : Loc nD τ sig := (SparseCore.T d).loc main_v0
abbrev outLoc (d : Dev nD) : Loc nD τ sig := (SparseCore.T d).loc main_v1
abbrev resLoc (d : Dev nD) : Loc nD τ sig := (SparseCore.T d).loc main_v2

/-- The reshaped tokens: what the first host operation leaves in the 32 x 200 x 128 array. -/
def idxOf (d : Dev nD) : Buf (Elt F) (idxLoc d) := shapeCast S32x200x128 (m (tokLoc d)) shapeCasts_S4096x200_S32x200x128
/-- The flat lookup of device `d`'s arguments: what the call leaves in the 819200 x 128 array. -/
def flatOf [FloatOps F] (d : Dev nD) : Buf (Elt F) (outLoc d) := Cert.Spec.flat (F := F) (m (tokLoc d)) (m (tabLoc d))

/-- What the proof asks of the launch memory: every token names a row of the table. -/
def PreOK : Prop := ∀ (d : Dev nD) i, (m (tokLoc d) i).toNat ≤ 99999

/-! ## Workers, chunks, shares -/

/-- Worker number of subcore `i` of SparseCore `c`. -/
def widN (c i : ℕ) : ℕ := 2 * i + c

/-- Chunk `n` of the output, as a set of indices: rows 128 n … 128 n + 127, every column. -/
def chunkN (n : ℕ) : Finset S819200x128.Idx := Finset.univ.filter fun j => (j 0).val / 128 = n

/-- Worker `w`'s read share of an array held whole at `fullShare`. -/
abbrev tk (w : ℕ) : PosShare TreeShare := Transfers.shareTokN fullShare w

/-- What worker `w` of device `d` is handed: its read shares and its 200 chunks at the launch contents. -/
def goRes (d : Dev nD) (w : ℕ) : sProp 𝕄 :=
  iprop((idxLoc d ↦{tk w} idxOf m d) ∗ (tabLoc d ↦{tk w} m (tabLoc d))
    ∗ bigSep Finset.univ fun k : Fin 200 => outLoc d ↦[chunkN (200 * w + k.val)]{fullShare} m (outLoc d))
/-- What it hands back: the shares, and its chunks at the flat lookup. -/
def tdRes [FloatOps F] (d : Dev nD) (w : ℕ) : sProp 𝕄 :=
  iprop((idxLoc d ↦{tk w} idxOf m d) ∗ (tabLoc d ↦{tk w} m (tabLoc d))
    ∗ bigSep Finset.univ fun k : Fin 200 => outLoc d ↦[chunkN (200 * w + k.val)]{fullShare} flatOf m d)

instance goRes_storable (d : Dev nD) (w : ℕ) : BI.Storable (upEmb : UEmb _ 𝕄) (goRes m d w) := by
  unfold goRes; infer_instance
instance tdRes_storable [FloatOps F] (d : Dev nD) (w : ℕ) : BI.Storable (upEmb : UEmb _ 𝕄) (tdRes m d w) := by
  unfold tdRes; infer_instance

/-- What SparseCore `c` takes for its sixteen workers, and what it brings back. -/
def stRes (d : Dev nD) (c : ℕ) : sProp 𝕄 := bigSep Finset.univ fun i : Fin 16 => goRes m d (widN c i.val)
def dnRes [FloatOps F] (d : Dev nD) (c : ℕ) : sProp 𝕄 := bigSep Finset.univ fun i : Fin 16 => tdRes m d (widN c i.val)

instance stRes_storable (d : Dev nD) (c : ℕ) : BI.Storable (upEmb : UEmb _ 𝕄) (stRes m d c) := by
  unfold stRes; infer_instance
instance dnRes_storable [FloatOps F] (d : Dev nD) (c : ℕ) : BI.Storable (upEmb : UEmb _ 𝕄) (dnRes m d c) := by
  unfold dnRes; infer_instance

variable [FloatOps F]

/-- The one call: a SparseCore takes its sixteen workers' resources and brings them back. -/
def P : (K (F := F)).Pay (nD := nD) (Val := Elt F) (Name := ℕ) (U := UU) where
  st := fun _ d c => stRes m d c.val
  dn := fun _ d c => dnRes m d c.val
  go := fun _ d c i => goRes m d (widN c.val i.val)
  td := fun _ d c i => tdRes m d (widN c.val i.val)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

theorem P_st (q : Fin 1) (d : Dev nD) (c : Fin ((K (F := F)).nCore q)) : (P (F := F) m).st q d c = stRes m d c.val := rfl
theorem P_dn (q : Fin 1) (d : Dev nD) (c : Fin ((K (F := F)).nCore q)) : (P (F := F) m).dn q d c = dnRes m d c.val := rfl
theorem P_go (q : Fin 1) (d : Dev nD) (c : Fin ((K (F := F)).nCore q)) (i : Fin ((K (F := F)).nSub q)) : (P (F := F) m).go q d c i = goRes m d (widN c.val i.val) := rfl
theorem P_td (q : Fin 1) (d : Dev nD) (c : Fin ((K (F := F)).nCore q)) (i : Fin ((K (F := F)).nSub q)) : (P (F := F) m).td q d c i = tdRes m d (widN c.val i.val) := rfl
theorem P_x (q : Fin 1) (t : Thread nD τ) : (P (F := F) m).x q t = iprop(emp) := rfl

/-! ## A worker's thread and its memrefs -/

abbrev cV (L : grid0.Coords) : Fin τ.nSC := (L 0).castLE hcore0
abbrev jV (L : grid0.Coords) : Fin τ.nSub := (L 1).castLE hsub0
/-- The vector subcore at grid point `L` of device `d`. -/
abbrev thr (d : Dev nD) (L : grid0.Coords) : Thread nD τ := V d (cV L) (jV L)
/-- The worker at grid point `L`. -/
def widL (L : grid0.Coords) : ℕ := widN (L 0).val (L 1).val

abbrev tabV : Memref sig .scVector .hbm S100000x128 .f32 := Memref.whole main_arg1_scv
abbrev idxV : Memref sig .scVector .hbm S32x200x128 .i32 := Memref.whole main_v0_scv
abbrev outV : Memref sig .scVector .hbm S819200x128 .f32 := Memref.whole main_v1_scv
/-- A worker's scratch: the 200 x 128 token rows and five 128 x 128 row buffers. -/
abbrev sI : Memref sig .scVector .vmem S200x128 .i32 := Memref.whole cc0_scratch0
abbrev sB1 : Memref sig .scVector .vmem S128x128 .f32 := Memref.whole cc0_scratch1
abbrev sB2 : Memref sig .scVector .vmem S128x128 .f32 := Memref.whole cc0_scratch2
abbrev sB3 : Memref sig .scVector .vmem S128x128 .f32 := Memref.whole cc0_scratch3
abbrev sB4 : Memref sig .scVector .vmem S128x128 .f32 := Memref.whole cc0_scratch4
abbrev sB5 : Memref sig .scVector .vmem S128x128 .f32 := Memref.whole cc0_scratch5

/-- A row buffer with every entry multiplied by the scale. -/
def scaled (f : S128x128.Idx → Elt F (.f32 : EltTy)) : S128x128.Idx → Elt F (.f32 : EltTy) :=
  fun j => FloatOps.mulf (f j) (Cert.Spec.scale (F := F))

end Cert.Proof.KB

end
-- ==== Proof.KB.Iface.lean ====
/-
  The two statements the kernel's proof is cut along.

  `TileBody m`: one vector subcore's task at a symbolic grid point `L` — from the worker's read shares of the reshaped
  tokens and of the table and its 200 output chunks, the task runs to its end and returns the shares and the chunks
  holding the flat lookup. `QC m`: what the whole program's run leaves — the result array at the lookup `Cert.Spec.G`
  of the two arguments, the arguments unchanged.
-/
import proofs.«219849_g103079215527_week1_w1_1010_20_alg».proof.Proof.KB.Setup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-- One worker's task, at a symbolic grid point. -/
def TileBody : Prop :=
  ∀ (d : Dev nD) (L : grid0.Coords) (O : CellTallies nD τ sig (HIx 1)) (W : Waits sig (HIx 1)), (∀ g, O g none = 0) →
    (iprop(levAts (K (F := F)).L (K (F := F)).lev ∗ emp ∗ goRes m d (widL L)
        ∗ scopedBufs (thr d L) ∗ scopedSems0 (thr d L) ∗ owes (thr d L) O W) : sProp 𝕄)
      ⊢ wp frame (wpE (defs₀ (F := F)) 𝒱₀ (thr d L) none) Set.univ
          (cc0_gather L tabV (Memref.isWhole_whole _) idxV (Memref.isWhole_whole _) outV (Memref.isWhole_whole _)
            sI (Memref.isWhole_whole _) sB1 (Memref.isWhole_whole _) sB2 (Memref.isWhole_whole _) sB3 (Memref.isWhole_whole _)
            sB4 (Memref.isWhole_whole _) sB5 (Memref.isWhole_whole _)
            cc0_scratch6 cc0_scratch7 cc0_scratch8 cc0_scratch9 cc0_scratch10 cc0_scratch11 cc0_scratch12 cc0_scratch13 cc0_scratch14 cc0_scratch15 cc0_scoped0)
          fun _ => iprop(tdRes m d (widL L) ∗ scopedBufs (thr d L) ∗ scopedSems0 (thr d L)
            ∗ ∃ W', ⌜∀ p ∈ W', p ∈ W ∨ p.2 = none⌝ ∗ owes (thr d L) O W')

/-- What the program's run leaves: the result at the lookup of the arguments, the arguments unchanged. -/
def QC : PUnit × MemSt nD τ sig (Elt F) → Prop := fun r => ∀ c : Dev nD,
  r.2.mem (resLoc c) = Cert.Spec.G (F := F) (m (tokLoc c)) (m (tabLoc c))
    ∧ r.2.mem (tokLoc c) = m (tokLoc c) ∧ r.2.mem (tabLoc c) = m (tabLoc c)

end Cert.Proof.KB

end
-- ==== Proof.KB.Launch.lean ====
/-
  The launch: from one vector subcore's task (TileBody) to the whole program's run.

  The program's main thread reshapes the 4096 x 200 tokens to 32 x 200 x 128, starts the two SparseCores and waits for
  them, and reshapes the 819200 x 128 output to 4096 x 200 x 128. Before the call the reshaped tokens and the table are
  cut into 32 read shares (and a remainder kept aside) and the output into its 6400 chunks of 128 rows; worker w = 2 i + c
  (subcore i of SparseCore c) gets share w of both and chunks 200 w ... 200 w + 199. The numbers 2 i + c with c < 2, i < 16
  are exactly 0 ... 31, and 200 w + k with w < 32, k < 200 exactly 0 ... 6399, so every share and every chunk goes to one
  worker. After the call the pieces come back, the chunks holding the flat lookup, and join to the whole arrays; the
  last reshape of the flat lookup is the lookup itself (Cert.Spec.G_eq_flat).
-/
import proofs.«219849_g103079215527_week1_w1_1010_20_alg».proof.Proof.KB.Iface
import proofs.«219849_g103079215527_week1_w1_1010_20_alg».proof.Proof.Reshape

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 ()
      = SparseCore.onTile hcore0 hsub0 (fun c s => cc0_gather (coordsV c s)
          tabV (Memref.isWhole_whole _) idxV (Memref.isWhole_whole _) outV (Memref.isWhole_whole _)
          sI (Memref.isWhole_whole _) sB1 (Memref.isWhole_whole _) sB2 (Memref.isWhole_whole _) sB3 (Memref.isWhole_whole _)
          sB4 (Memref.isWhole_whole _) sB5 (Memref.isWhole_whole _)
          cc0_scratch6 cc0_scratch7 cc0_scratch8 cc0_scratch9 cc0_scratch10 cc0_scratch11 cc0_scratch12 cc0_scratch13 cc0_scratch14 cc0_scratch15 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable [FloatOps F]

/-- The launch theorem's obligation for a vector subcore's task: the task at the subcore's own grid point. -/
theorem tileObl (hb : TileBody m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hb d (coordsV ⟨_, hc.1⟩ ⟨_, hc.2⟩) O W hO).trans (wp_mono frame _ _ fun _ => obl_post)

/-- A SparseCore's resources are its sixteen workers', both ways. -/
theorem vecSplit : (K (F := F)).VecSplit' (P m) 0 := by
  intro d c
  show stRes m d c.val ⊢ |={Set.univ}=> iprop(stRes m d c.val ∗ (dnRes m d c.val -∗ dnRes m d c.val))
  iintro H; imodintro
  isplitl [H]; · iexact H
  iintro H; iexact H

/-! ## The launch element: the handshakes' rounds; the counters are dropped -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = (iprop(emp) : sProp 𝕄) from by
    rw [bigSep_congr fun thr _ => (bigSep_congr fun q _ => P_x m q thr).trans (bigSep_emp' _), bigSep_emp']]
  iempintro

/-! ## Cutting the arrays: 32 read shares, 6400 chunks -/

/-- What is left of an array held whole after 32 read shares are split off. -/
abbrev rem32 : PosShare TreeShare := Transfers.shareDrop fullShare 32

omit [FloatOps F] in
/-- An array held whole is the remainder and the 32 read shares. -/
theorem shares_eq (ℓ : Loc nD τ sig) (f : Buf (Elt F) ℓ) :
    (ℓ ↦{fullShare} f : sProp 𝕄) = iprop((ℓ ↦{rem32} f) ∗ bigSep (Finset.range 32) fun w => ℓ ↦{tk w} f) :=
  have h : (ℓ ↦{fullShare} f : sProp 𝕄) ⊣⊢ iprop((ℓ ↦{rem32} f) ∗ bigSep (Finset.range 32) fun w => ℓ ↦{tk w} f) :=
    Transfers.pointsTo_toks_range fullShare 32
  equiv_iff.mp ⟨h.1, h.2⟩

/-- Two chunks with different numbers share no index: an index's row, divided by 128, is one number. -/
theorem chunk_disjoint : ∀ n ∈ Finset.range 6400, ∀ n' ∈ Finset.range 6400, n ≠ n' → Disjoint (chunkN n) (chunkN n') := by
  intro n _ n' _ hne
  rw [Finset.disjoint_left]
  intro j hj hj'
  exact hne ((Finset.mem_filter.mp hj).2.symm.trans (Finset.mem_filter.mp hj').2)

/-- Every index is in a chunk: its row is below 819200 = 128 * 6400. -/
theorem chunk_cover : (Finset.range 6400).biUnion chunkN = Finset.univ := by
  ext j
  simp only [Finset.mem_biUnion, Finset.mem_range, Finset.mem_univ, iff_true]
  have h : (j 0).val < 819200 := (j 0).isLt
  exact ⟨(j 0).val / 128, by omega, Finset.mem_filter.mpr ⟨Finset.mem_univ _, rfl⟩⟩

omit [FloatOps F] in
/-- The output held whole is its 6400 chunks. -/
theorem chunks_eq (d : Dev nD) (f : Buf (Elt F) (outLoc d)) :
    (outLoc d ↦{fullShare} f : sProp 𝕄) = bigSep (Finset.range 6400) fun n => outLoc d ↦[chunkN n]{fullShare} f := by
  rw [← pointsTo_biUnion (Finset.range 6400) (ℓ := outLoc d) chunkN chunk_disjoint, chunk_cover]

omit [FloatOps F] in
/-- The numbers 2 i + c with c < 2 and i < 16 are 0 … 31, each once. -/
theorem regroup32 (Φ : ℕ → sProp 𝕄) :
    bigSep (Finset.range 32) Φ
      = bigSep (Finset.univ : Finset (Fin 2)) fun c => bigSep (Finset.univ : Finset (Fin 16)) fun i => Φ (widN c.val i.val) := by
  have hinj : Set.InjOn (fun p : Fin 2 × Fin 16 => widN p.1.val p.2.val) (Finset.univ : Finset (Fin 2 × Fin 16)) := by
    rintro ⟨c, i⟩ _ ⟨c', i'⟩ _ h
    have h' : 2 * i.val + c.val = 2 * i'.val + c'.val := h
    have := c.isLt; have := c'.isLt
    exact Prod.ext (Fin.ext (by show c.val = c'.val; omega)) (Fin.ext (by show i.val = i'.val; omega))
  have hs : Finset.range 32 = (Finset.univ : Finset (Fin 2 × Fin 16)).image (fun p : Fin 2 × Fin 16 => widN p.1.val p.2.val) := by
    ext n
    simp only [Finset.mem_range, Finset.mem_image, Finset.mem_univ, true_and]
    constructor
    · intro h
      exact ⟨(⟨n % 2, Nat.mod_lt _ (by omega)⟩, ⟨n / 2, by omega⟩), by show 2 * (n / 2) + n % 2 = n; omega⟩
    · rintro ⟨⟨c, i⟩, rfl⟩
      have := c.isLt; have := i.isLt
      show 2 * i.val + c.val < 32; omega
  rw [hs, bigSep_image_of_injOn hinj Φ, bigSep_univ_prod]

omit [FloatOps F] in
/-- The numbers 200 w + k with w < 32 and k < 200 are 0 … 6399, each once. -/
theorem regroup6400 (Ψ : ℕ → sProp 𝕄) :
    bigSep (Finset.range 6400) Ψ
      = bigSep (Finset.range 32) fun w => bigSep (Finset.univ : Finset (Fin 200)) fun k => Ψ (200 * w + k.val) := by
  have hinj : Set.InjOn (fun p : ℕ × Fin 200 => 200 * p.1 + p.2.val) (Finset.range 32 ×ˢ (Finset.univ : Finset (Fin 200)) : Finset (ℕ × Fin 200)) := by
    rintro ⟨w, k⟩ _ ⟨w', k'⟩ _ h
    have h' : 200 * w + k.val = 200 * w' + k'.val := h
    have := k.isLt; have := k'.isLt
    exact Prod.ext (by show w = w'; omega) (Fin.ext (by show k.val = k'.val; omega))
  have hs : Finset.range 6400
      = (Finset.range 32 ×ˢ (Finset.univ : Finset (Fin 200))).image (fun p : ℕ × Fin 200 => 200 * p.1 + p.2.val) := by
    ext n
    simp only [Finset.mem_range, Finset.mem_image, Finset.mem_product, Finset.mem_univ, and_true]
    constructor
    · intro h
      exact ⟨(n / 200, ⟨n % 200, Nat.mod_lt _ (by omega)⟩), by show n / 200 < 32; omega, by show 200 * (n / 200) + n % 200 = n; omega⟩
    · rintro ⟨⟨w, k⟩, hw, rfl⟩
      have := k.isLt
      have hw' : w < 32 := hw
      show 200 * w + k.val < 6400; omega
  rw [hs, bigSep_image_of_injOn hinj Ψ, SparseCore.bigSep_product]

/-- Worker w's resources with its output chunks at f: what it is handed (f the launch contents) and what it hands back
    (f the flat lookup). -/
def resN (d : Dev nD) (f : Buf (Elt F) (outLoc d)) (w : ℕ) : sProp 𝕄 :=
  iprop((idxLoc d ↦{tk w} idxOf m d) ∗ (tabLoc d ↦{tk w} m (tabLoc d))
    ∗ bigSep Finset.univ fun k : Fin 200 => outLoc d ↦[chunkN (200 * w + k.val)]{fullShare} f)

omit [FloatOps F] in
theorem goRes_eq (d : Dev nD) (w : ℕ) : goRes m d w = resN m d (m (outLoc d)) w := rfl
theorem tdRes_eq (d : Dev nD) (w : ℕ) : tdRes m d w = resN m d (flatOf m d) w := rfl

omit [FloatOps F] in
/-- The three arrays held whole are the two remainders and the 32 workers' resources. -/
theorem arrays_eq (d : Dev nD) (f : Buf (Elt F) (outLoc d)) :
    (iprop((idxLoc d ↦{fullShare} idxOf m d) ∗ (tabLoc d ↦{fullShare} m (tabLoc d)) ∗ (outLoc d ↦{fullShare} f)) : sProp 𝕄)
      = iprop(((idxLoc d ↦{rem32} idxOf m d) ∗ (tabLoc d ↦{rem32} m (tabLoc d))) ∗ bigSep (Finset.range 32) fun w => resN m d f w) := by
  have e : (bigSep (Finset.range 32) fun w => resN m d f w : sProp 𝕄)
      = iprop((bigSep (Finset.range 32) fun w => idxLoc d ↦{tk w} idxOf m d) ∗ (bigSep (Finset.range 32) fun w => tabLoc d ↦{tk w} m (tabLoc d))
          ∗ bigSep (Finset.range 6400) fun n => outLoc d ↦[chunkN n]{fullShare} f) := by
    unfold resN
    rw [bigSep_sep', bigSep_sep', regroup6400]
  rw [e, shares_eq (idxLoc d), shares_eq (tabLoc d), chunks_eq d f]
  refine equiv_iff.mp ⟨?_, ?_⟩
  · show (_ : sProp 𝕄) ⊢ _
    iintro ⟨⟨A, X⟩, ⟨B, Y⟩, Z⟩
    isplitl [A B]; · isplitl [A] <;> iassumption
    isplitl [X]; · iexact X
    isplitl [Y] <;> iassumption
  · show (_ : sProp 𝕄) ⊢ _
    iintro ⟨⟨A, B⟩, X, Y, Z⟩
    isplitl [A X]; · isplitl [A] <;> iassumption
    isplitl [B Y]; · isplitl [B] <;> iassumption
    iexact Z

/-- What the call takes for the two SparseCores is the 32 workers' resources at the launch contents, -/
theorem st0_eq (d : Dev nD) :
    (bigSep Finset.univ fun c : Fin ((K (F := F)).nCore 0) => (P m).st 0 d c) = bigSep (Finset.range 32) fun w => resN m d (m (outLoc d)) w := by
  rw [regroup32]
  exact bigSep_congr fun c _ => (P_st m 0 d c).trans rfl
/-- and what it brings back is theirs at the flat lookup. -/
theorem dn0_eq (d : Dev nD) :
    (bigSep Finset.univ fun c : Fin ((K (F := F)).nCore 0) => (P m).dn 0 d c) = bigSep (Finset.range 32) fun w => resN m d (flatOf m d) w := by
  rw [regroup32]
  exact bigSep_congr fun c _ => (P_dn m 0 d c).trans rfl

/-! ## The main thread: reshape, the call, reshape -/

abbrev a0' : DevRef τ sig := Proc.devRef .tc (main_arg0 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
/-- The two reshapes. -/
abbrev op1 : HloOp τ sig (Elt F) := StableHlo.reshape main_arg0 main_v0 rfl shapeCasts_S4096x200_S32x200x128
abbrev op2 : HloOp τ sig (Elt F) := StableHlo.reshape main_v1 main_v2 rfl shapeCasts_S819200x128_S4096x200x128
/-- The arrays each reshape touches. -/
abbrev S01 : Finset (DevRef τ sig) := {a0', v0'}
abbrev S12 : Finset (DevRef τ sig) := {v1', v2'}

omit [FloatOps F] in
theorem held_S01 (d : Dev nD) (W : Valuation τ sig (Elt F)) :
    (held (T d) S01 W : sProp 𝕄) = iprop((tokLoc d ↦{fullShare} W a0') ∗ (idxLoc d ↦{fullShare} W v0')) := by
  unfold held S01
  rw [SparseCore.bigSep_insert' (by decide), bigSep_singleton]
omit [FloatOps F] in
theorem held_S12 (d : Dev nD) (W : Valuation τ sig (Elt F)) :
    (held (T d) S12 W : sProp 𝕄) = iprop((outLoc d ↦{fullShare} W v1') ∗ (resLoc d ↦{fullShare} W v2')) := by
  unfold held S12
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((tokLoc d ↦{fullShare} W main_arg0) ∗ (tabLoc d ↦{fullShare} W main_arg1) ∗ (idxLoc d ↦{fullShare} W main_v0)
      ∗ (outLoc d ↦{fullShare} W main_v1) ∗ (resLoc d ↦{fullShare} W main_v2)) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; after the call, the output at the flat lookup. -/
def V0 (d : Dev nD) : Valuation τ sig (Elt F) := fun b => m (d, b)
def V2 (d : Dev nD) : Valuation τ sig (Elt F) := Function.update (V0 m d) v1' (flatOf m d)

omit [FloatOps F] in
theorem V0_tok (d : Dev nD) : V0 m d a0' = m (tokLoc d) := rfl
omit [FloatOps F] in
theorem V0_idx (d : Dev nD) : V0 m d v0' = m (idxLoc d) := rfl
theorem V2_out (d : Dev nD) : V2 m d v1' = flatOf m d := Function.update_self _ _ _
theorem V2_res (d : Dev nD) : V2 m d v2' = m (resLoc d) := Function.update_of_ne (show v2' ≠ v1' by decide) _ _

omit [FloatOps F] in
/-- After the first reshape: the tokens as they were, the 32 x 200 x 128 array at the reshaped tokens. -/
theorem held1_eq (d : Dev nD) :
    (held (T d) S01 ((op1 (F := F)).result (V0 m d)) : sProp 𝕄)
      = iprop((tokLoc d ↦{fullShare} m (tokLoc d)) ∗ (idxLoc d ↦{fullShare} idxOf m d)) := by
  rw [held_S01, (op1 (F := F)).result_of_not_mem (V0 m d) (b := a0') (show a0' ∉ ({v0'} : Finset (DevRef τ sig)) by decide),
    show (op1 (F := F)).result (V0 m d) v0' = idxOf m d from
      (StableHlo.reshape_result main_arg0 main_v0 rfl shapeCasts_S4096x200_S32x200x128 ⟨by decide, rfl⟩ ⟨by decide, rfl⟩ (V0 m d)).trans rfl]
  rfl

/-- After the last reshape the result array holds the lookup: the flat lookup read as 4096 x 200 x 128. -/
theorem held2_eq (d : Dev nD) :
    (held (T d) S12 ((op2 (F := F)).result (V2 m d)) : sProp 𝕄)
      = iprop((outLoc d ↦{fullShare} flatOf m d)
          ∗ (resLoc d ↦{fullShare} (Cert.Spec.G (F := F) (m (tokLoc d)) (m (tabLoc d)) : Buf (Elt F) (resLoc d)))) := by
  rw [held_S12, (op2 (F := F)).result_of_not_mem (V2 m d) (b := v1') (show v1' ∉ ({v2'} : Finset (DevRef τ sig)) by decide), V2_out,
    show (op2 (F := F)).result (V2 m d) v2' = (Cert.Spec.G (F := F) (m (tokLoc d)) (m (tabLoc d)) : Buf (Elt F) (resLoc d)) from by
      refine (StableHlo.reshape_result main_v1 main_v2 rfl shapeCasts_S819200x128_S4096x200x128 ⟨by decide, rfl⟩ ⟨by decide, rfl⟩ (V2 m d)).trans ?_
      rw [V2_out]
      exact Cert.Spec.G_eq_flat (F := F) (m (tokLoc d)) (m (tabLoc d)) shapeCasts_S819200x128_S4096x200x128]

/-- What the main thread leaves the claim: the two arguments as they were, the result at the lookup. -/
abbrev FIN (d : Dev nD) : sProp 𝕄 :=
  iprop((tokLoc d ↦{fullShare} m (tokLoc d)) ∗ (tabLoc d ↦{fullShare} m (tabLoc d))
    ∗ (resLoc d ↦{fullShare} (Cert.Spec.G (F := F) (m (tokLoc d)) (m (tabLoc d)) : Buf (Elt F) (resLoc d))))

/-- The main thread of device d: the first reshape, the cut, the call, the join, the last reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Htok, Htab, Hidx, Hout, Hres⟩, -, -⟩, -⟩
  -- the first reshape: the tokens read as 32 x 200 x 128
  iapply (wp_hlo_within 𝒱 (SparseCore.T d) none Set.univ (op := op1) (S := S01) (Finset.Subset.refl _) (V := V0 m d)) $$ [Hb Htok Hidx]
  · isplitl [Hb]; · iexact Hb
    rw [held_S01]
    isplitl [Htok]; · iexact Htok
    iexact Hidx
  iintro ⟨Hb, Hheld⟩
  ihave Hh := (Entails.of_eq (held1_eq (F := F) m d)) $$ Hheld
  icases Hh with ⟨Htok, Hidx⟩
  rw [wp_ret]; imodintro
  -- the cut: a read share of the reshaped tokens and of the table per worker, the output chunk by chunk
  ihave Hcut := (Entails.of_eq (arrays_eq (F := F) m d (m (outLoc d)))) $$ [Hidx Htab Hout]
  · isplitl [Hidx]; · iexact Hidx
    isplitl [Htab]; · iexact Htab
    iexact Hout
  icases Hcut with ⟨Hrem, Hgo⟩
  -- the call
  iapply ((K (F := F)).wp_run (D (F := F)) 𝒱 (EH := EH) (P := P m) κ d 0) $$ [Hst Hgo Hb Htok Hres Hrem]
  isplitr; · iexact Hctx
  isplitl [Hst]; · iexact Hst
  isplitl [Hgo]
  · rw [st0_eq]; iexact Hgo
  iintro ⟨Hst, Hdn⟩
  ihave Hdn' := (Entails.of_eq (dn0_eq m d)) $$ Hdn
  -- the join: the shares and the chunks back to whole arrays, the output at the flat lookup
  ihave Hj := (Entails.of_eq (arrays_eq (F := F) m d (flatOf m d)).symm) $$ [Hrem Hdn']
  · isplitl [Hrem]; · iexact Hrem
    iexact Hdn'
  icases Hj with ⟨Hidx, Htab, Hout⟩
  -- the last reshape: the flat lookup read as 4096 x 200 x 128
  iapply (wp_hlo_within 𝒱 (SparseCore.T d) none Set.univ (op := op2) (S := S12) (Finset.Subset.refl _) (V := V2 m d)) $$ [Hb Hout Hres]
  · isplitl [Hb]; · iexact Hb
    rw [held_S12, V2_out, V2_res]
    isplitl [Hout]; · iexact Hout
    iexact Hres
  iintro ⟨Hb, Hheld⟩
  ihave Hh := (Entails.of_eq (held2_eq m d)) $$ Hheld
  icases Hh with ⟨-, Hres⟩
  rw [wp_ret]; imodintro; imodintro
  isplitl [Hst]; · iexact Hst
  isplitl [Htok]; · iexact Htok
  isplitl [Htab]; · iexact Htab
  iexact Hres

/-- What the final memory must show, per device. -/
def fq (d : Dev nD) (s' : Phys nD τ sig (Elt F)) : Prop :=
  s'.mem.mem (resLoc d) = Cert.Spec.G (F := F) (m (tokLoc d)) (m (tabLoc d))
    ∧ s'.mem.mem (tokLoc d) = m (tokLoc d) ∧ s'.mem.mem (tabLoc d) = m (tabLoc d)

/-- The three arrays the main thread still holds whole are read off the final memory. -/
theorem hfin (d : Dev nD) (s' : Phys nD τ sig (Elt F)) : iprop(FIN m d ∗ SI s') ⊢ (⌜fq m d s'⌝ : sProp 𝕄) := by
  iintro ⟨⟨Htok, Htab, Hres⟩, HSI⟩
  ihave H := (persistent_entails_right (SI_pointsTo_agree (st := s') (ℓ := tokLoc d) (I := Finset.univ) (q := fullShare) (f := m (tokLoc d)))) $$ [HSI Htok]
  · isplitl [HSI] <;> iassumption
  icases H with ⟨%h1, HSI, -⟩
  ihave H := (persistent_entails_right (SI_pointsTo_agree (st := s') (ℓ := tabLoc d) (I := Finset.univ) (q := fullShare) (f := m (tabLoc d)))) $$ [HSI Htab]
  · isplitl [HSI] <;> iassumption
  icases H with ⟨%h2, HSI, -⟩
  ihave H := (SI_pointsTo_agree (st := s') (ℓ := resLoc d) (I := Finset.univ) (q := fullShare)
    (f := (Cert.Spec.G (F := F) (m (tokLoc d)) (m (tabLoc d)) : Buf (Elt F) (resLoc d)))) $$ [HSI Hres]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- From one vector subcore's task to the run of the whole program: every weakly fair execution of the device's threads
    ends, the result array holding the lookup of the two arguments and the arguments unchanged. -/
theorem run_main [∀ e, Nonempty (Elt F e)] (hb : TileBody m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hb)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.KB.Cells.lean ====
/-
  A worker's own storage, named: of the semaphores it holds at zero, the eleven the task uses (one for the token
  fetch, one per row buffer for the gathers, one per row buffer for the write-outs) and the rest; of its scratch
  buffers, the token rows and the five row buffers, and the rest.
-/
import proofs.«219849_g103079215527_week1_w1_1010_20_alg».proof.Proof.KB.Setup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (d : Dev nD) (L : grid0.Coords)

/-- The semaphores the task does not use. -/
abbrev restCells : Finset (GSem nD τ sig) := ((((((((((((ownCells (thr d L)).erase (thr d L, SemLoc.dma cc0_scoped0.sem)).erase (thr d L, SemLoc.dma cc0_scratch6.sem)).erase (thr d L, SemLoc.dma cc0_scratch7.sem)).erase (thr d L, SemLoc.dma cc0_scratch8.sem)).erase (thr d L, SemLoc.dma cc0_scratch9.sem)).erase (thr d L, SemLoc.dma cc0_scratch10.sem)).erase (thr d L, SemLoc.dma cc0_scratch11.sem)).erase (thr d L, SemLoc.dma cc0_scratch12.sem)).erase (thr d L, SemLoc.dma cc0_scratch13.sem)).erase (thr d L, SemLoc.dma cc0_scratch14.sem)).erase (thr d L, SemLoc.dma cc0_scratch15.sem))

/-- The worker's semaphores at zero: the eleven the task uses, and the rest. -/
theorem ownSems0_V :
    (ownSems0 (thr d L) : sProp 𝕄)
      = iprop(semVal (thr d L, SemLoc.dma cc0_scoped0.sem) 0
          ∗ semVal (thr d L, SemLoc.dma cc0_scratch6.sem) 0
          ∗ semVal (thr d L, SemLoc.dma cc0_scratch7.sem) 0
          ∗ semVal (thr d L, SemLoc.dma cc0_scratch8.sem) 0
          ∗ semVal (thr d L, SemLoc.dma cc0_scratch9.sem) 0
          ∗ semVal (thr d L, SemLoc.dma cc0_scratch10.sem) 0
          ∗ semVal (thr d L, SemLoc.dma cc0_scratch11.sem) 0
          ∗ semVal (thr d L, SemLoc.dma cc0_scratch12.sem) 0
          ∗ semVal (thr d L, SemLoc.dma cc0_scratch13.sem) 0
          ∗ semVal (thr d L, SemLoc.dma cc0_scratch14.sem) 0
          ∗ semVal (thr d L, SemLoc.dma cc0_scratch15.sem) 0
          ∗ bigSep (restCells d L) fun g => semVal g 0) := by
  unfold SparseCore.Cfg.ownSems0
  rw [SparseCore.bigSep_erase' ((mem_ownCells (g := (thr d L, SemLoc.dma cc0_scoped0.sem))).mpr ⟨rfl, by show (SemLoc.dma cc0_scoped0.sem : SemLoc sig).isScoped .scVector = true; decide⟩),
    SparseCore.bigSep_erase' (Finset.mem_erase.mpr ⟨fun e => absurd (Prod.mk.inj e).2 (by decide), (mem_ownCells (g := (thr d L, SemLoc.dma cc0_scratch6.sem))).mpr ⟨rfl, by show (SemLoc.dma cc0_scratch6.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide), (mem_ownCells (g := (thr d L, SemLoc.dma cc0_scratch7.sem))).mpr ⟨rfl, by show (SemLoc.dma cc0_scratch7.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scratch8.sem))).mpr ⟨rfl, by show (SemLoc.dma cc0_scratch8.sem : SemLoc sig).isScoped .scVector = true; decide⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scratch9.sem))).mpr ⟨rfl, by show (SemLoc.dma cc0_scratch9.sem : SemLoc sig).isScoped .scVector = true; decide⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scratch10.sem))).mpr ⟨rfl, by show (SemLoc.dma cc0_scratch10.sem : SemLoc sig).isScoped .scVector = true; decide⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scratch11.sem))).mpr ⟨rfl, by show (SemLoc.dma cc0_scratch11.sem : SemLoc sig).isScoped .scVector = true; decide⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scratch12.sem))).mpr ⟨rfl, by show (SemLoc.dma cc0_scratch12.sem : SemLoc sig).isScoped .scVector = true; decide⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scratch13.sem))).mpr ⟨rfl, by show (SemLoc.dma cc0_scratch13.sem : SemLoc sig).isScoped .scVector = true; decide⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scratch14.sem))).mpr ⟨rfl, by show (SemLoc.dma cc0_scratch14.sem : SemLoc sig).isScoped .scVector = true; decide⟩⟩⟩⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (thr d L, SemLoc.dma cc0_scratch15.sem))).mpr ⟨rfl, by show (SemLoc.dma cc0_scratch15.sem : SemLoc sig).isScoped .scVector = true; decide⟩⟩⟩⟩⟩⟩⟩⟩⟩⟩⟩)]

/-- The scratch buffers the task does not use. -/
abbrev restRefs : Finset (DevRef τ sig) := (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))

/-- The worker's scratch buffers, each at some contents: the six the task uses, and the rest. -/
theorem ownBufs_V :
    (ownBufs (thr d L) : sProp 𝕄)
      = iprop((∃ f, (thr d L).loc cc0_scratch0 ↦{fullShare} f)
          ∗ (∃ f, (thr d L).loc cc0_scratch1 ↦{fullShare} f)
          ∗ (∃ f, (thr d L).loc cc0_scratch2 ↦{fullShare} f)
          ∗ (∃ f, (thr d L).loc cc0_scratch3 ↦{fullShare} f)
          ∗ (∃ f, (thr d L).loc cc0_scratch4 ↦{fullShare} f)
          ∗ (∃ f, (thr d L).loc cc0_scratch5 ↦{fullShare} f)
          ∗ bigSep (restRefs L) fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc0_scratch0)) rfl),
    SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩)]

end Cert.Proof.KB

end
-- ==== Proof.KB.Geom.lean ====
/-
  Where things sit: the arithmetic of one worker's indices.

  Worker w = 2 s + c (subcore s of SparseCore c) first fetches its slab of the reshaped tokens: row w of the
  32 x 200 x 128 array, a 200 x 128 array. The reshape keeps row-major order, so entry (k, r) of that slab is token
  number 25600 w + 128 k + r of the 4096 x 200 tokens; under the precondition every such token is at most 99999, hence
  names a row of the table. Row r of the slab, read as 128 words, is the list of offsets of one gather: every word is
  below 100000, and word x is entry (r, x) of the slab.

  As index sets: row r of the 200 x 128 scratch is the set of indices whose first coordinate is r, and the 128 x 128
  block of the 819200 x 128 output that starts at row 128 n is chunk n, the indices whose row divided by 128 is n. The
  blocks the worker writes start at rows 25600 w + 640 g + 128 r (trip g of 39, r of 5) and 25600 w + 24960 + 128 r, that
  is at chunks 200 w + 5 g + r and 200 w + 195 + r.

  A separating conjunction over the numbers a, a + 1, ... , b - 1 can be taken apart at either end; over the 200 rows of
  the scratch it is the scratch held whole.
-/
import proofs.«219849_g103079215527_week1_w1_1010_20_alg».proof.Proof.KB.Setup
import proofs.«219849_g103079215527_week1_w1_1010_20_alg».proof.Proof.Reshape

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable (m : (ℓ : Loc nD τ sig) → Buf (Elt F) ℓ) (d : Dev nD) (L : grid0.Coords)

/-! ## The fetched slab and the offsets of a gather -/

/-- A worker's number is below 32. -/
theorem widL_lt : widL L < 32 := by
  have h0 : (L 0).val < 2 := (L 0).isLt
  have h1 : (L 1).val < 16 := (L 1).isLt
  show 2 * (L 1).val + (L 0).val < 32
  omega

/-- The slab a worker fetches: its row of the reshaped tokens, read as a 200 x 128 array. -/
def PAY : S200x128.Idx → Elt F .i32 :=
  ReadAs.same.apply (View.read (Elt F) ((idxV.slice (Rect.unit (s := S32x200x128) (k0_off1 L) S1x200x128.size (k0_off1_inb L)) (fun _ => rfl)).squeeze S200x128 squeezes_S1x200x128_S200x128).view (idxOf m d))

/-- Entry (k, r) of the slab sits at (w, k, r) of the 32 x 200 x 128 array. -/
theorem slab_emb (k : Fin 200) (r : Fin 128) :
    ((idxV.slice (Rect.unit (s := S32x200x128) (k0_off1 L) S1x200x128.size (k0_off1_inb L)) (fun _ => rfl)).squeeze S200x128 squeezes_S1x200x128_S200x128).view.emb (ix2 k r)
      = (ix3 (⟨widL L, widL_lt L⟩ : Fin 32) k r : S32x200x128.Idx) := by
  show (Rect.unit (s := S32x200x128) (k0_off1 L) S1x200x128.size (k0_off1_inb L)).emb
      (Shape.reshapeEquiv (s := S1x200x128) (s' := S200x128) squeezes_S1x200x128_S200x128.numel_eq (ix2 k r)) = _
  rw [Shape.reshapeEquiv_eq_of_rowMajor (s := S1x200x128) (s' := S200x128) squeezes_S1x200x128_S200x128.numel_eq
    (x := ix2 k r) (y := (ix3 (⟨0, Nat.one_pos⟩ : Fin 1) k r : S1x200x128.Idx)) (by
      rw [Shape.rowMajor_val_three, Shape.rowMajor_val_two]
      show ((0 * 200 + k.val) * 128 + r.val) = k.val * 128 + r.val
      simp only [Nat.zero_mul, Nat.zero_add])]
  funext a
  apply Fin.ext
  rw [Rect.emb_apply]
  simp only [Rect.off_unit, Rect.stride_unit, Nat.one_mul, k0_off1_eq]
  match a with
  | ⟨0, _⟩ => show 2 * (L 1).val + (L 0).val + 0 = widL L; rfl
  | ⟨1, _⟩ => show 0 + k.val = k.val; omega
  | ⟨2, _⟩ => show 0 + r.val = r.val; omega

/-- Entry (k, r) of the slab is token number 25600 w + 128 k + r. -/
theorem PAY_apply (k : Fin 200) (r : Fin 128) :
    PAY m d L (ix2 k r) = Cert.Spec.tokAt (m (tokLoc d)) ⟨widL L * 25600 + k.val * 128 + r.val, by
      have := widL_lt L; have := k.isLt; have := r.isLt; omega⟩ := by
  unfold PAY
  rw [ReadAs.apply_same, View.read_apply, slab_emb]
  exact Cert.Spec.idx_apply (m (tokLoc d)) shapeCasts_S4096x200_S32x200x128 ⟨widL L, widL_lt L⟩ k r

/-- Every entry of the slab names a row of the table. -/
theorem PAY_le (hpre : PreOK m) (j : S200x128.Idx) : (PAY m d L j).toNat ≤ 99999 := by
  have hk : (j 0).val < 200 := (j 0).isLt
  have hr : (j 1).val < 128 := (j 1).isLt
  have e : j = ix2 (⟨(j 0).val, hk⟩ : Fin 200) (⟨(j 1).val, hr⟩ : Fin 128) := by
    funext a
    match a with
    | ⟨0, _⟩ => rfl
    | ⟨1, _⟩ => rfl
  rw [e, PAY_apply]
  exact hpre d _

/-- The words of a row of the scratch, after the slab is written over the whole scratch, are offsets in range. -/
theorem inb_of_pre (hpre : PreOK m) (g0 : Buf (Elt F) ((sI : Memref sig .scVector .vmem S200x128 .i32).view.loc (thr d L))) (pay : S200x128.Idx → Elt F .i32) (hpay : pay = PAY m d L)
    (row : Fin 2 → Nat) (hk : ∀ a, row a + S1x128.size a ≤ S200x128.size a) (hs : ∀ a, (Rect.unit (s := S200x128) row S1x128.size hk).stride a = 1) (hq : (Rect.unit (s := S200x128) row S1x128.size hk).shape.Squeezes S128) :
    ∀ x, (View.read (Elt F) (((sI : Memref sig .scVector .vmem S200x128 .i32).slice (Rect.unit (s := S200x128) row S1x128.size hk) hs).squeeze S128 hq).view (View.write (Elt F) (sI : Memref sig .scVector .vmem S200x128 .i32).view g0 pay Finset.univ) x).toNat < 100000 := by
  subst hpay; intro x
  have e : View.write (Elt F) (sI : Memref sig .scVector .vmem S200x128 .i32).view g0 (PAY m d L) Finset.univ = PAY m d L :=
    View.write_whole_univ cc0_scratch0 g0 (PAY m d L)
  rw [e, View.read_apply]
  exact Nat.lt_of_le_of_lt (PAY_le m d L hpre _) (by decide)

/-- and word x of row r is entry (r, x) of the slab. -/
theorem row_of_pay (g0 : Buf (Elt F) ((sI : Memref sig .scVector .vmem S200x128 .i32).view.loc (thr d L))) (pay : S200x128.Idx → Elt F .i32) (hpay : pay = PAY m d L)
    (row : Fin 2 → Nat) (hk : ∀ a, row a + S1x128.size a ≤ S200x128.size a) (hs : ∀ a, (Rect.unit (s := S200x128) row S1x128.size hk).stride a = 1) (hq : (Rect.unit (s := S200x128) row S1x128.size hk).shape.Squeezes S128)
    (r : ℕ) (hrow : row = ![r, 0]) (hr : r < 200) :
    ∀ x : S128.Idx, View.read (Elt F) (((sI : Memref sig .scVector .vmem S200x128 .i32).slice (Rect.unit (s := S200x128) row S1x128.size hk) hs).squeeze S128 hq).view (View.write (Elt F) (sI : Memref sig .scVector .vmem S200x128 .i32).view g0 pay Finset.univ) x
      = PAY m d L (ix2 (⟨r, hr⟩ : Fin 200) (x 0 : Fin 128)) := by
  subst hpay; subst hrow; intro x
  have e : View.write (Elt F) (sI : Memref sig .scVector .vmem S200x128 .i32).view g0 (PAY m d L) Finset.univ = PAY m d L :=
    View.write_whole_univ cc0_scratch0 g0 (PAY m d L)
  rw [e, View.read_apply]
  show PAY m d L ((Rect.unit (s := S200x128) ![r, 0] S1x128.size hk).emb
      (Shape.reshapeEquiv (s := S1x128) (s' := S128) hq.numel_eq x)) = _
  congr 1
  rw [Shape.reshapeEquiv_eq_of_rowMajor (s := S1x128) (s' := S128) hq.numel_eq
    (x := x) (y := (ix2 (⟨0, Nat.one_pos⟩ : Fin 1) (x 0 : Fin 128) : S1x128.Idx)) (by
      rw [Shape.rowMajor_val_two, Shape.rowMajor_val_one]
      show 0 * 128 + (x 0).val = (x 0).val
      simp only [Nat.zero_mul, Nat.zero_add])]
  funext a
  apply Fin.ext
  rw [Rect.emb_apply]
  simp only [Rect.off_unit, Rect.stride_unit, Nat.one_mul]
  match a with
  | ⟨0, _⟩ => show r + 0 = r; omega
  | ⟨1, _⟩ => show 0 + (x 0).val = (x 0).val; omega

/-! ## Index sets as arithmetic -/

/-- Row r of the 200 x 128 scratch: the indices whose first coordinate is r. -/
def rowSetN (r : ℕ) : Finset S200x128.Idx := Finset.univ.filter fun j => (j 0).val = r

/-- The one-row slice of the scratch at row r, read as 128 words, covers row r. -/
theorem sIrow_set (row : Fin 2 → Nat) (hk : ∀ a, row a + S1x128.size a ≤ S200x128.size a) (hs : ∀ a, (Rect.unit (s := S200x128) row S1x128.size hk).stride a = 1)
    (hq : (Rect.unit (s := S200x128) row S1x128.size hk).shape.Squeezes S128) (r : ℕ) (hrow : row = ![r, 0]) :
    (((sI : Memref sig .scVector .vmem S200x128 .i32).slice (Rect.unit (s := S200x128) row S1x128.size hk) hs).squeeze S128 hq).view.set = rowSetN r := by
  subst hrow
  refine ((View.set_reshape _ _).trans (View.set_slice_whole cc0_scratch0 _)).trans ?_
  ext j
  rw [Rect.mem_set_unit]
  unfold rowSetN
  simp only [Finset.mem_filter, Finset.mem_univ, true_and]
  have h1 : (j 1).val < 128 := (j 1).isLt
  constructor
  · intro hj
    have h0 : r ≤ (j 0).val ∧ (j 0).val < r + 1 := hj (0 : Fin 2)
    omega
  · intro hj a
    match a with
    | ⟨0, _⟩ => exact (show r ≤ (j 0).val ∧ (j 0).val < r + 1 from by omega)
    | ⟨1, _⟩ => exact (show 0 ≤ (j 1).val ∧ (j 1).val < 0 + 128 from by omega)

/-- The 128 x 128 block of the output that starts at row 128 n is chunk n. -/
theorem outSlice_set (off : Fin 2 → Nat) (h : ∀ a, off a + S128x128.size a ≤ S819200x128.size a)
    (hs : ∀ a, (Rect.unit (s := S819200x128) off S128x128.size h).stride a = 1) (n : ℕ) (hoff : off = ![128 * n, 0]) :
    (outV.slice (Rect.unit (s := S819200x128) off S128x128.size h) hs).view.set = chunkN n := by
  subst hoff
  refine (View.set_slice_whole main_v1_scv _).trans ?_
  ext j
  rw [Rect.mem_set_unit]
  unfold chunkN
  simp only [Finset.mem_filter, Finset.mem_univ, true_and]
  have h1 : (j 1).val < 128 := (j 1).isLt
  constructor
  · intro hj
    have h0 : 128 * n ≤ (j 0).val ∧ (j 0).val < 128 * n + 128 := hj (0 : Fin 2)
    omega
  · intro hj a
    match a with
    | ⟨0, _⟩ => exact (show 128 * n ≤ (j 0).val ∧ (j 0).val < 128 * n + 128 from by omega)
    | ⟨1, _⟩ => exact (show 0 ≤ (j 1).val ∧ (j 1).val < 0 + 128 from by omega)

/-- Trip g's block number r, where it is written: chunk 200 w + 5 g + r. -/
theorem out11_set (g : Fin k0_t1_loop.trips) (r : Fin 5) (h : ∀ a, (k0_off11 L g (BitVec.ofNat 32 r.val)) a + S128x128.size a ≤ S819200x128.size a)
    (hs : ∀ a, (Rect.unit (s := S819200x128) (k0_off11 L g (BitVec.ofNat 32 r.val)) S128x128.size h).stride a = 1) :
    (outV.slice (Rect.unit (s := S819200x128) (k0_off11 L g (BitVec.ofNat 32 r.val)) S128x128.size h) hs).view.set
      = chunkN (200 * widL L + 5 * g.val + r.val) :=
  outSlice_set _ h hs _ (by
    rw [k0_off11_eq]
    exact congrArg (fun t => (![t, 0] : Fin 2 → ℕ)) (by
      show _ = 128 * (200 * (2 * (L 1).val + (L 0).val) + 5 * g.val + r.val); omega))

/-- The same block where its write is waited for. -/
theorem out44_set (g : Fin k0_t1_loop.trips) (r : Fin 5) (h : ∀ a, (k0_off44 L g (BitVec.ofNat 32 r.val)) a + S128x128.size a ≤ S819200x128.size a)
    (hs : ∀ a, (Rect.unit (s := S819200x128) (k0_off44 L g (BitVec.ofNat 32 r.val)) S128x128.size h).stride a = 1) :
    (outV.slice (Rect.unit (s := S819200x128) (k0_off44 L g (BitVec.ofNat 32 r.val)) S128x128.size h) hs).view.set
      = chunkN (200 * widL L + 5 * g.val + r.val) :=
  outSlice_set _ h hs _ (by
    rw [k0_off44_eq]
    exact congrArg (fun t => (![t, 0] : Fin 2 → ℕ)) (by
      show _ = 128 * (200 * (2 * (L 1).val + (L 0).val) + 5 * g.val + r.val); omega))

/-- The last five blocks, waited for after the loop: chunks 200 w + 195 + r. -/
theorem out46_set (r : Fin 5) (h : ∀ a, (k0_off46 L (BitVec.ofNat 32 (24960 + 128 * r.val))) a + S128x128.size a ≤ S819200x128.size a)
    (hs : ∀ a, (Rect.unit (s := S819200x128) (k0_off46 L (BitVec.ofNat 32 (24960 + 128 * r.val))) S128x128.size h).stride a = 1) :
    (outV.slice (Rect.unit (s := S819200x128) (k0_off46 L (BitVec.ofNat 32 (24960 + 128 * r.val))) S128x128.size h) hs).view.set
      = chunkN (200 * widL L + 195 + r.val) :=
  outSlice_set _ h hs _ (by
    rw [k0_off46_eq]
    exact congrArg (fun t => (![t, 0] : Fin 2 → ℕ)) (by
      show _ = 128 * (200 * (2 * (L 1).val + (L 0).val) + 195 + r.val); omega))

/-! ## Separating conjunctions over intervals of numbers -/

/-- The first number apart. -/
theorem bigSep_Ico_left (Φ : ℕ → sProp 𝕄) {a b : ℕ} (h : a < b) :
    bigSep (Finset.Ico a b) Φ = iprop(Φ a ∗ bigSep (Finset.Ico (a + 1) b) Φ) := by
  have e : Finset.Ico a b = insert a (Finset.Ico (a + 1) b) := by
    ext x; simp only [Finset.mem_insert, Finset.mem_Ico]; omega
  rw [e, bigSep_insert (by simp only [Finset.mem_Ico]; omega)]
  rfl

/-- The last number apart. -/
theorem bigSep_Ico_right (Φ : ℕ → sProp 𝕄) {a b : ℕ} (h : a ≤ b) :
    bigSep (Finset.Ico a (b + 1)) Φ = iprop(bigSep (Finset.Ico a b) Φ ∗ Φ b) := by
  have e : Finset.Ico a (b + 1) = insert b (Finset.Ico a b) := by
    ext x; simp only [Finset.mem_insert, Finset.mem_Ico]; omega
  rw [e, bigSep_insert (by simp only [Finset.mem_Ico]; omega)]
  have hc : (iprop(Φ b ∗ bigSep (Finset.Ico a b) Φ) : sProp 𝕄) ⊣⊢ iprop(bigSep (Finset.Ico a b) Φ ∗ Φ b) := sep_comm
  exact equiv_iff.mp ⟨hc.1, hc.2⟩

/-- No number: nothing. -/
theorem bigSep_Ico_empty (Φ : ℕ → sProp 𝕄) (a : ℕ) : bigSep (Finset.Ico a a) Φ = iprop(emp) := by
  rw [Finset.Ico_self, bigSep_empty]
  rfl

/-- Over the 200 numbers below 200, indexed either way. -/
theorem bigSep_fin200 (Φ : ℕ → sProp 𝕄) : (bigSep Finset.univ fun k : Fin 200 => Φ k.val) = bigSep (Finset.Ico 0 200) Φ := by
  have e : Finset.Ico 0 200 = (Finset.univ : Finset (Fin 200)).image (fun k : Fin 200 => k.val) := by
    ext x
    simp only [Finset.mem_Ico, Finset.mem_image, Finset.mem_univ, true_and]
    constructor
    · intro hx; exact ⟨⟨x, hx.2⟩, rfl⟩
    · rintro ⟨k, rfl⟩; exact ⟨Nat.zero_le _, k.isLt⟩
  rw [e, bigSep_image_of_injOn (fun k _ k' _ hk => Fin.ext hk) Φ]

/-- Two different rows of the scratch share no index. -/
theorem rowSet_disjoint : ∀ r ∈ Finset.Ico 0 200, ∀ r' ∈ Finset.Ico 0 200, r ≠ r' → Disjoint (rowSetN r) (rowSetN r') := by
  intro r _ r' _ hne
  rw [Finset.disjoint_left]
  intro j hj hj'
  exact hne ((Finset.mem_filter.mp hj).2.symm.trans (Finset.mem_filter.mp hj').2)

/-- Every index of the scratch is in one of its 200 rows. -/
theorem rowSet_cover : (Finset.Ico 0 200).biUnion rowSetN = Finset.univ := by
  ext j
  simp only [Finset.mem_biUnion, Finset.mem_Ico, Finset.mem_univ, iff_true]
  have h : (j 0).val < 200 := (j 0).isLt
  exact ⟨(j 0).val, ⟨Nat.zero_le _, h⟩, Finset.mem_filter.mpr ⟨Finset.mem_univ _, rfl⟩⟩

/-- The scratch held whole is its 200 rows. -/
theorem sI_rows (f : Buf (Elt F) ((sI : Memref sig .scVector .vmem S200x128 .i32).view.loc (thr d L))) :
    (((sI : Memref sig .scVector .vmem S200x128 .i32).view.loc (thr d L) ↦{fullShare} f) : sProp 𝕄)
      = bigSep (Finset.Ico 0 200) fun r => (sI : Memref sig .scVector .vmem S200x128 .i32).view.loc (thr d L) ↦[rowSetN r]{fullShare} f := by
  rw [← pointsTo_biUnion (Finset.Ico 0 200) (ℓ := (sI : Memref sig .scVector .vmem S200x128 .i32).view.loc (thr d L)) rowSetN rowSet_disjoint, rowSet_cover]

end Cert.Proof.KB

end
-- ==== Proof.KB.Atoms.lean ====
/-
  The pieces a worker's task is stated in.

  After the fetch the index scratch holds the worker's slab of tokens (`cI`). A gather of index row `row` into a row
  buffer writes, at buffer row p, the table row that word p of the index row names (`gpay`). While it is in flight
  the buffer (written whole with that payload), the index row and the read share of the table travel with it
  (`gFlight`); a write-out in flight carries the output chunk, written with the buffer, and the buffer (`wFlight`).
-/
import proofs.«219849_g103079215527_week1_w1_1010_20_alg».proof.Proof.KB.Geom

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (d : Dev nD) (L : grid0.Coords)

abbrev sBty : Type := Memref sig .scVector .vmem S128x128 .f32

variable (fI : Buf (Elt F) ((sI : Memref sig .scVector .vmem S200x128 .i32).view.loc (thr d L)))

/-- The index scratch after the fetch: the worker's slab of tokens, whatever it held before. -/
abbrev cI : Buf (Elt F) ((sI : Memref sig .scVector .vmem S200x128 .i32).view.loc (thr d L)) :=
  View.write (Elt F) (sI : Memref sig .scVector .vmem S200x128 .i32).view fI (PAY m d L) Finset.univ

/-- A row buffer, whole, as a rectangle; the table, whole, as a rectangle. -/
abbrev W0 : Rect S128x128 := Rect.unit (s := S128x128) ![0, 0] S128x128.size inb_S128x128_S128x128_0_0
abbrev T0 : Rect S100000x128 := Rect.unit (s := S100000x128) ![0, 0] S100000x128.size inb_S100000x128_S100000x128_0_0
abbrev tabS : Memref sig .scVector .hbm S100000x128 .f32 := (tabV : Memref sig .scVector .hbm S100000x128 .f32).slice T0 (fun _ => rfl)

/-- The offset list of a gather: the row of the index scratch at offsets `row`, squeezed. -/
abbrev offs (row : Fin 2 → Nat) (hk : ∀ a, row a + S1x128.size a ≤ S200x128.size a) : Memref sig .scVector .vmem S128 .i32 :=
  ((sI : Memref sig .scVector .vmem S200x128 .i32).slice (Rect.unit (s := S200x128) row S1x128.size hk) (fun _ => rfl)).squeeze S128 squeezes_S1x128_S128

/-- Every word of an index row names a table row. -/
abbrev InRange (row : Fin 2 → Nat) (hk : ∀ a, row a + S1x128.size a ≤ S200x128.size a) : Prop :=
  ∀ x, (View.read (Elt F) (offs row hk).view (cI m d L fI) x).toNat < 100000

/-- What the gather of index row `row` writes: buffer row `x 0` is the table row that word `x 0` of the index row names. -/
def gpay (row : Fin 2 → Nat) (hk : ∀ a, row a + S1x128.size a ≤ S200x128.size a) (hin : InRange m d L fI row hk) : S128x128.Idx → Elt F .f32 :=
  SparseCore.gatherPayload gathers_S100000x128_S128x128 (View.read (Elt F) (tabS).view (m (tabLoc d)))
    (SparseCore.rows (View.read (Elt F) (offs row hk).view (cI m d L fI)) rfl hin)

/-- A gather in flight on `sem` into buffer `sB` (prior contents `fp`) of index row `row`, reading the table through token `t`. -/
def gFlight (sem : DmaSems sig S_) (sB : sBty) (t : ℕ) (row : Fin 2 → Nat) (hk : ∀ a, row a + S1x128.size a ≤ S200x128.size a)
    (hin : InRange m d L fI row hk) (fp : Buf (Elt F) (sB.view.loc (thr d L))) : sProp 𝕄 :=
  Transfers.Flight countersEmb (thr d L) (SemLoc.dma sem.sem) default 524288
    iprop(((sB.view.loc (thr d L) ↦[(sB.slice W0 (fun _ => rfl)).view.set]{fullShare} sB.view.writes (Elt F) fp [⟨W0, gpay m d L fI row hk hin⟩])
        ∗ (offs row hk).view.loc (thr d L) ↦[(offs row hk).view.set]{fullShare} cI m d L fI)
      ∗ (tabV : Memref sig .scVector .hbm S100000x128 .f32).view.loc (thr d L) ↦[(tabS).view.set]{Transfers.shareTokN (tk (widL L)) t} m (tabLoc d))

/-- An output chunk as the program slices it, at offsets `off`. -/
abbrev outS (off : Fin 2 → Nat) (h : ∀ a, off a + S128x128.size a ≤ S819200x128.size a) : Memref sig .scVector .hbm S128x128 .f32 :=
  (outV : Memref sig .scVector .hbm S819200x128 .f32).slice (Rect.unit (s := S819200x128) off S128x128.size h) (fun _ => rfl)

end Cert.Proof.KB

end
-- ==== Proof.KB.Vals.lean ====
/-
  What the buffers hold: the values behind a worker's gathers and write-outs.

  A 128 x 128 row buffer sliced at offsets (0, 0) with sizes 128 x 128 is the buffer itself, and the table sliced at
  (0, 0) with its own sizes is the table: as index sets, and for what a write through such a slice leaves and reads back.

  A gather of index row n writes, at buffer entry (p, q), entry q of the table row named by word p of index row n, that is
  by entry (n, p) of the worker's slab of tokens. Entry (n, p) of worker w's slab is token number 25600 w + 128 n + p, at most
  99999 under the precondition, so the row it names is the row the lookup uses; multiplied by the scale, buffer entry (p, q)
  is entry (25600 w + 128 n + p, q) of the flat lookup. Chunk c of the output is rows 128 c ... 128 c + 127, so each of its
  indices is (128 c + p, q) for some p, q below 128.
-/
import proofs.«219849_g103079215527_week1_w1_1010_20_alg».proof.Proof.KB.Atoms

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (d : Dev nD) (L : grid0.Coords)
variable (fI : Buf (Elt F) ((sI : Memref sig .scVector .vmem S200x128 .i32).view.loc (thr d L)))

/-! ## Slices that are the whole array -/

/-- A rectangle at offsets zero with the shape's own sizes covers every index. -/
theorem unit_zero_set {s : Shape} (off : Fin s.rank → ℕ) (h0 : ∀ a, off a = 0) (inb : ∀ a, off a + s.size a ≤ s.size a) :
    (Rect.unit (s := s) off s.size inb).set = Finset.univ := by
  ext i
  simp only [Finset.mem_univ, iff_true]
  rw [Rect.mem_set_unit]
  intro a
  rw [h0 a]
  exact ⟨Nat.zero_le _, by have := (i a).isLt; omega⟩

/-- and sends every index to itself. -/
theorem unit_zero_emb {s : Shape} (off : Fin s.rank → ℕ) (h0 : ∀ a, off a = 0) (inb : ∀ a, off a + s.size a ≤ s.size a)
    (y : s.Idx) : (Rect.unit (s := s) off s.size inb).emb y = y := by
  funext a
  apply Fin.ext
  rw [Rect.emb_apply]
  simp only [Rect.off_unit, Rect.stride_unit, Nat.one_mul, h0 a, Nat.zero_add]

theorem zero2 : ∀ a : Fin 2, (![0, 0] : Fin 2 → ℕ) a = 0 := fun a => by
  match a with
  | ⟨0, _⟩ => rfl
  | ⟨1, _⟩ => rfl

theorem W0_set_univ : (W0 : Rect S128x128).set = Finset.univ := unit_zero_set (s := S128x128) _ zero2 _
theorem T0_set_univ : (T0 : Rect S100000x128).set = Finset.univ := unit_zero_set (s := S100000x128) _ zero2 _
theorem W0_emb (y : S128x128.Idx) : (W0 : Rect S128x128).emb y = y := unit_zero_emb (s := S128x128) _ zero2 _ y
theorem T0_emb (y : S100000x128.Idx) : (T0 : Rect S100000x128).emb y = y := unit_zero_emb (s := S100000x128) _ zero2 _ y

/-- (V1) A row buffer sliced at its whole has the buffer's own elements. -/
theorem W0_set (sB : sBty) (hs : ∀ a, (W0 : Rect S128x128).stride a = 1) : (sB.slice W0 hs).view.set = sB.view.set := by
  show (sB.view.slice W0).set = sB.view.set
  rw [View.set_slice, W0_set_univ]
  rfl

/-- The table sliced at its whole is every index of the table. -/
theorem tabS_set : (tabS).view.set = Finset.univ :=
  (View.set_slice_whole main_arg1_scv T0).trans T0_set_univ

/-- (V2) A whole row buffer held on its whole-slice's elements is held whole. -/
theorem pts_W0 (sB : sBty) (hw : sB.IsWhole) (f : Buf (Elt F) (sB.view.loc (thr d L))) :
    ((sB.view.loc (thr d L) ↦[(sB.slice W0 (fun _ => rfl)).view.set]{fullShare} f) : sProp 𝕄) = (sB.view.loc (thr d L) ↦{fullShare} f) := by
  rw [W0_set sB (fun _ => rfl), hw.set_eq_univ]

/-- The same for a share of the table. -/
theorem pts_T0 (q : PosShare TreeShare) (f : Buf (Elt F) ((tabV : Memref sig .scVector .hbm S100000x128 .f32).view.loc (thr d L))) :
    (((tabV : Memref sig .scVector .hbm S100000x128 .f32).view.loc (thr d L) ↦[(tabS).view.set]{q} f) : sProp 𝕄)
      = ((tabV : Memref sig .scVector .hbm S100000x128 .f32).view.loc (thr d L) ↦{q} f) := by
  rw [tabS_set]

/-- (V3) What is written through the whole-slice of a row buffer is read back. -/
theorem read_writes_W0 (sB : sBty) (fp : Buf (Elt F) (sB.view.loc (thr d L))) (g : S128x128.Idx → Elt F .f32) :
    sB.view.read (Elt F) (sB.view.writes (Elt F) fp [⟨W0, g⟩]) = g := by
  funext y
  have h := View.read_writes_cons_emb sB.view fp W0 g [] y
  rwa [W0_emb] at h

/-- The contents themselves, on the buffer's elements: entry j of the view holds g j. -/
theorem writes_W0_emb (sB : sBty) (fp : Buf (Elt F) (sB.view.loc (thr d L))) (g : S128x128.Idx → Elt F .f32) (j : S128x128.Idx) :
    (sB.view.writes (Elt F) fp [⟨W0, g⟩]) (sB.view.emb j) = _root_.cast (congrArg (Elt F) sB.view.elt_eq.symm) (g j) := by
  have h := View.write_emb_of_mem (v := sB.view.slice W0) fp g (Finset.mem_univ j)
  have e : (sB.view.slice W0).emb j = sB.view.emb j := by
    show sB.view.emb ((W0 : Rect S128x128).emb j) = sB.view.emb j
    rw [W0_emb]
  rw [e] at h
  exact h

/-- For the five row buffers, each a whole scratch array, the contents after the write are the payload. -/
theorem writes_W0_sB1 (fp : Buf (Elt F) ((sB1 : sBty).view.loc (thr d L))) (g : S128x128.Idx → Elt F .f32) :
    (sB1 : sBty).view.writes (Elt F) fp [⟨W0, g⟩] = g := funext fun j => writes_W0_emb d L sB1 fp g j
theorem writes_W0_sB2 (fp : Buf (Elt F) ((sB2 : sBty).view.loc (thr d L))) (g : S128x128.Idx → Elt F .f32) :
    (sB2 : sBty).view.writes (Elt F) fp [⟨W0, g⟩] = g := funext fun j => writes_W0_emb d L sB2 fp g j
theorem writes_W0_sB3 (fp : Buf (Elt F) ((sB3 : sBty).view.loc (thr d L))) (g : S128x128.Idx → Elt F .f32) :
    (sB3 : sBty).view.writes (Elt F) fp [⟨W0, g⟩] = g := funext fun j => writes_W0_emb d L sB3 fp g j
theorem writes_W0_sB4 (fp : Buf (Elt F) ((sB4 : sBty).view.loc (thr d L))) (g : S128x128.Idx → Elt F .f32) :
    (sB4 : sBty).view.writes (Elt F) fp [⟨W0, g⟩] = g := funext fun j => writes_W0_emb d L sB4 fp g j
theorem writes_W0_sB5 (fp : Buf (Elt F) ((sB5 : sBty).view.loc (thr d L))) (g : S128x128.Idx → Elt F .f32) :
    (sB5 : sBty).view.writes (Elt F) fp [⟨W0, g⟩] = g := funext fun j => writes_W0_emb d L sB5 fp g j

/-! ## What a gather delivers -/

/-- Word p of index row n, after the fetch, is entry (n, p) of the slab. -/
theorem word_eq (row : Fin 2 → Nat) (hk : ∀ a, row a + S1x128.size a ≤ S200x128.size a) (n : ℕ) (hrow : row = ![n, 0]) (hn : n < 200) (p : Fin 128) :
    View.read (Elt F) (offs row hk).view (cI m d L fI) (ix1 p) = PAY m d L (ix2 (⟨n, hn⟩ : Fin 200) p) :=
  row_of_pay m d L fI (PAY m d L) rfl row hk (fun _ => rfl) squeezes_S1x128_S128 n hrow hn (ix1 p)

/-- so it is in range whenever the row is. -/
theorem word_lt (row : Fin 2 → Nat) (hk : ∀ a, row a + S1x128.size a ≤ S200x128.size a) (hin : InRange m d L fI row hk)
    (n : ℕ) (hrow : row = ![n, 0]) (hn : n < 200) (p : Fin 128) :
    (PAY m d L (ix2 (⟨n, hn⟩ : Fin 200) p)).toNat < 100000 := by
  have h := hin (ix1 p)
  rw [word_eq m d L fI row hk n hrow hn p] at h
  exact h

/-- The word at place k of a list of 128 words, in row-major order, is its entry k. -/
theorem rowMajor_symm_S128 (k : Fin S128.numel) : S128.rowMajor.symm k = (ix1 (⟨k.val, k.isLt⟩ : Fin 128) : S128.Idx) := by
  rw [Equiv.symm_apply_eq]
  apply Fin.ext
  rw [Shape.rowMajor_val_one]

/-- (V4) Buffer entry (p, q) after the gather of index row n: entry q of the table row that entry (n, p) of the slab names. -/
theorem gpay_apply (row : Fin 2 → Nat) (hk : ∀ a, row a + S1x128.size a ≤ S200x128.size a) (hin : InRange m d L fI row hk)
    (n : ℕ) (hrow : row = ![n, 0]) (hn : n < 200) (p q : Fin 128) :
    gpay m d L fI row hk hin (ix2 p q)
      = m (tabLoc d) (ix2 (⟨(PAY m d L (ix2 (⟨n, hn⟩ : Fin 200) p)).toNat, word_lt m d L fI row hk hin n hrow hn p⟩ : Fin 100000) q) := by
  unfold gpay SparseCore.gatherPayload
  rw [View.read_apply]
  show m (tabLoc d) ((T0 : Rect S100000x128).emb (gathers_S100000x128_S128x128.idx
      (SparseCore.rows (View.read (Elt F) (offs row hk).view (cI m d L fI)) rfl hin) (ix2 p q))) = _
  rw [T0_emb]
  congr 1
  funext a
  apply Fin.ext
  match a with
  | ⟨0, _⟩ =>
    have e := Shape.Gathers.idx_axis gathers_S100000x128_S128x128
      (SparseCore.rows (View.read (Elt F) (offs row hk).view (cI m d L fI)) rfl hin) (ix2 p q)
    have e' := congrArg Fin.val e
    refine e'.trans ?_
    show (View.read (Elt F) (offs row hk).view (cI m d L fI) (S128.rowMajor.symm _)).toNat = _
    rw [rowMajor_symm_S128]
    exact congrArg BitVec.toNat (word_eq m d L fI row hk n hrow hn p)
  | ⟨1, _⟩ =>
    exact Shape.Gathers.idx_of_ne gathers_S100000x128_S128x128 _ (ix2 p q) ⟨1, by decide⟩ (by decide)

/-! ## The flat lookup -/

/-- Entry (n, p) of worker w's slab is token number 25600 w + 128 n + p. -/
theorem PAY_apply' (n : ℕ) (hn : n < 200) (p : Fin 128) :
    PAY m d L (ix2 (⟨n, hn⟩ : Fin 200) p)
      = Cert.Spec.tokAt (m (tokLoc d)) ⟨25600 * widL L + 128 * n + p.val, by have := widL_lt L; have := p.isLt; omega⟩ := by
  rw [PAY_apply]
  congr 1
  apply Fin.ext
  show widL L * 25600 + n * 128 + p.val = 25600 * widL L + 128 * n + p.val
  omega

/-- (V5) Times the scale, buffer entry (p, q) after the gather of index row n is entry (25600 w + 128 n + p, q) of the
    flat lookup: the token is at most 99999, so the row it names is the row the lookup reads. -/
theorem scaled_gpay [FloatOps F] (hpre : PreOK m) (row : Fin 2 → Nat) (hk : ∀ a, row a + S1x128.size a ≤ S200x128.size a)
    (hin : InRange m d L fI row hk) (n : ℕ) (hrow : row = ![n, 0]) (hn : n < 200) (p q : Fin 128) :
    scaled (gpay m d L fI row hk hin) (ix2 p q)
      = flatOf m d (ix2 (⟨25600 * widL L + 128 * n + p.val, by have := widL_lt L; have := p.isLt; omega⟩ : Fin 819200) q) := by
  have hP := PAY_apply' m d L n hn p
  have hle : (Cert.Spec.tokAt (m (tokLoc d)) ⟨25600 * widL L + 128 * n + p.val, by have := widL_lt L; have := p.isLt; omega⟩).toNat ≤ 99999 := by
    rw [← hP]; exact PAY_le m d L hpre _
  unfold scaled
  rw [gpay_apply m d L fI row hk hin n hrow hn p q]
  show FloatOps.mulf (m (tabLoc d) _) (Cert.Spec.scale (F := F)) = FloatOps.mulf (m (tabLoc d) _) (Cert.Spec.scale (F := F))
  refine congrArg (fun t => FloatOps.mulf (m (tabLoc d) t) (Cert.Spec.scale (F := F))) ?_
  funext a
  match a with
  | ⟨0, _⟩ =>
    apply Fin.ext
    show (PAY m d L (ix2 (⟨n, hn⟩ : Fin 200) p)).toNat
      = (Cert.Spec.rowOf (Cert.Spec.tokAt (m (tokLoc d)) ⟨25600 * widL L + 128 * n + p.val, by have := widL_lt L; have := p.isLt; omega⟩)).val
    rw [Cert.Spec.rowOf_val_of_le hle, hP]
  | ⟨1, _⟩ => rfl

/-- Every index of chunk c is (128 c + p, q) for some p, q below 128. -/
theorem chunk_rows (n : ℕ) (hn : n < 6400) (i : S819200x128.Idx) (hi : i ∈ chunkN n) :
    ∃ (p q : Fin 128), i = ix2 (⟨128 * n + p.val, by have := p.isLt; omega⟩ : Fin 819200) q := by
  have h0 : (i 0).val / 128 = n := (Finset.mem_filter.mp hi).2
  have h1 : (i 1).val < 128 := (i 1).isLt
  refine ⟨⟨(i 0).val % 128, Nat.mod_lt _ (by decide)⟩, ⟨(i 1).val, h1⟩, ?_⟩
  funext a
  match a with
  | ⟨0, _⟩ =>
    apply Fin.ext
    show (i 0).val = 128 * n + (i 0).val % 128
    omega
  | ⟨1, _⟩ => rfl

end Cert.Proof.KB

end
-- ==== Proof.KB.Inv.lean ====
/-
  The outer loop's invariant.

  Before trip g (g < 40) the five gathers of index rows 5 g … 5 g + 4 are in flight, one per row buffer, and no
  write-out is; index rows below 5 g have come back and the rows from 5 g + 5 on are still in hand; of the worker's
  200 output chunks those below 5 g hold the flat lookup and the others their launch contents. After the last trip
  the five write-outs of chunks 195 … 199 are in flight instead, every index row and table token is back, and the
  chunks below 195 hold the lookup.
-/
import proofs.«219849_g103079215527_week1_w1_1010_20_alg».proof.Proof.KB.Vals

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]
variable (m : (ℓ : Loc nD τ sig) → Buf (Elt F) ℓ) (d : Dev nD) (L : grid0.Coords)
variable (fI : Buf (Elt F) ((sI : Memref sig .scVector .vmem S200x128 .i32).view.loc (thr d L)))
omit [FloatOps F] in
/-- Under the precondition every word of every index row names a table row. -/
theorem hinAll (hpre : PreOK m) (row : Fin 2 → Nat) (hk : ∀ a, row a + S1x128.size a ≤ S200x128.size a) : InRange m d L fI row hk :=
  inb_of_pre m d L hpre fI (PAY m d L) rfl row hk (fun _ => rfl) squeezes_S1x128_S128

variable (hpre : PreOK m)

/-- Offsets of a row of the index scratch, and of a chunk of the output, with their in-bounds evidence. -/
abbrev RowOff : Type := {row : Fin 2 → Nat // ∀ a, row a + S1x128.size a ≤ S200x128.size a}
abbrev OutOff : Type := {off : Fin 2 → Nat // ∀ a, off a + S128x128.size a ≤ S819200x128.size a}

/-- The gather of index row `n` in flight on `sem` into `sB`, at some offsets spelling that row and some prior contents. -/
def gAtom (sem : DmaSems sig S_) (sB : sBty) (t n : ℕ) : sProp 𝕄 :=
  iprop(∃ ro : RowOff, ∃ fp : Buf (Elt F) (sB.view.loc (thr d L)), ⌜ro.1 = ![n, 0]⌝
    ∗ gFlight m d L fI sem sB t ro.1 ro.2 (hinAll m d L fI hpre ro.1 ro.2) fp)

/-- The write-out of row buffer 1 in flight: the output chunk at `off`, written with the buffer, which holds the scaled gather of index row `row`. -/
def wFlight1 (off : Fin 2 → Nat) (h : ∀ a, off a + S128x128.size a ≤ S819200x128.size a) (row : Fin 2 → Nat) (hk : ∀ a, row a + S1x128.size a ≤ S200x128.size a)
    (hin : InRange m d L fI row hk) (fp : Buf (Elt F) ((sB1 : sBty).view.loc (thr d L))) : sProp 𝕄 :=
  Transfers.Flight countersEmb (thr d L) (SemLoc.dma cc0_scratch11.sem) default 524288
    iprop(((outS off h).view.loc (thr d L) ↦[(outS off h).view.set]{fullShare} (outS off h).view.writes (Elt F) (m (outLoc d))
          [⟨Rect.whole S128x128, ReadAs.same.apply (View.read (Elt F) (sB1 : sBty).view (scaled ((sB1 : sBty).view.writes (Elt F) fp [⟨W0, gpay m d L fI row hk hin⟩])))⟩])
      ∗ (sB1 : sBty).view.loc (thr d L) ↦[(sB1 : sBty).view.set]{fullShare} scaled ((sB1 : sBty).view.writes (Elt F) fp [⟨W0, gpay m d L fI row hk hin⟩]))
/-- The same, of output chunk number `c` of the whole array and index row `n`, at some offsets and prior contents. -/
def wAtom1 (c n : ℕ) : sProp 𝕄 :=
  iprop(∃ oo : OutOff, ∃ ro : RowOff, ∃ fp : Buf (Elt F) ((sB1 : sBty).view.loc (thr d L)), ⌜oo.1 = ![128 * c, 0]⌝ ∗ ⌜ro.1 = ![n, 0]⌝
    ∗ wFlight1 m d L fI oo.1 oo.2 ro.1 ro.2 (hinAll m d L fI hpre ro.1 ro.2) fp)

/-- The write-out of row buffer 2 in flight: the output chunk at `off`, written with the buffer, which holds the scaled gather of index row `row`. -/
def wFlight2 (off : Fin 2 → Nat) (h : ∀ a, off a + S128x128.size a ≤ S819200x128.size a) (row : Fin 2 → Nat) (hk : ∀ a, row a + S1x128.size a ≤ S200x128.size a)
    (hin : InRange m d L fI row hk) (fp : Buf (Elt F) ((sB2 : sBty).view.loc (thr d L))) : sProp 𝕄 :=
  Transfers.Flight countersEmb (thr d L) (SemLoc.dma cc0_scratch12.sem) default 524288
    iprop(((outS off h).view.loc (thr d L) ↦[(outS off h).view.set]{fullShare} (outS off h).view.writes (Elt F) (m (outLoc d))
          [⟨Rect.whole S128x128, ReadAs.same.apply (View.read (Elt F) (sB2 : sBty).view (scaled ((sB2 : sBty).view.writes (Elt F) fp [⟨W0, gpay m d L fI row hk hin⟩])))⟩])
      ∗ (sB2 : sBty).view.loc (thr d L) ↦[(sB2 : sBty).view.set]{fullShare} scaled ((sB2 : sBty).view.writes (Elt F) fp [⟨W0, gpay m d L fI row hk hin⟩]))
/-- The same, of output chunk number `c` of the whole array and index row `n`, at some offsets and prior contents. -/
def wAtom2 (c n : ℕ) : sProp 𝕄 :=
  iprop(∃ oo : OutOff, ∃ ro : RowOff, ∃ fp : Buf (Elt F) ((sB2 : sBty).view.loc (thr d L)), ⌜oo.1 = ![128 * c, 0]⌝ ∗ ⌜ro.1 = ![n, 0]⌝
    ∗ wFlight2 m d L fI oo.1 oo.2 ro.1 ro.2 (hinAll m d L fI hpre ro.1 ro.2) fp)

/-- The write-out of row buffer 3 in flight: the output chunk at `off`, written with the buffer, which holds the scaled gather of index row `row`. -/
def wFlight3 (off : Fin 2 → Nat) (h : ∀ a, off a + S128x128.size a ≤ S819200x128.size a) (row : Fin 2 → Nat) (hk : ∀ a, row a + S1x128.size a ≤ S200x128.size a)
    (hin : InRange m d L fI row hk) (fp : Buf (Elt F) ((sB3 : sBty).view.loc (thr d L))) : sProp 𝕄 :=
  Transfers.Flight countersEmb (thr d L) (SemLoc.dma cc0_scratch13.sem) default 524288
    iprop(((outS off h).view.loc (thr d L) ↦[(outS off h).view.set]{fullShare} (outS off h).view.writes (Elt F) (m (outLoc d))
          [⟨Rect.whole S128x128, ReadAs.same.apply (View.read (Elt F) (sB3 : sBty).view (scaled ((sB3 : sBty).view.writes (Elt F) fp [⟨W0, gpay m d L fI row hk hin⟩])))⟩])
      ∗ (sB3 : sBty).view.loc (thr d L) ↦[(sB3 : sBty).view.set]{fullShare} scaled ((sB3 : sBty).view.writes (Elt F) fp [⟨W0, gpay m d L fI row hk hin⟩]))
/-- The same, of output chunk number `c` of the whole array and index row `n`, at some offsets and prior contents. -/
def wAtom3 (c n : ℕ) : sProp 𝕄 :=
  iprop(∃ oo : OutOff, ∃ ro : RowOff, ∃ fp : Buf (Elt F) ((sB3 : sBty).view.loc (thr d L)), ⌜oo.1 = ![128 * c, 0]⌝ ∗ ⌜ro.1 = ![n, 0]⌝
    ∗ wFlight3 m d L fI oo.1 oo.2 ro.1 ro.2 (hinAll m d L fI hpre ro.1 ro.2) fp)

/-- The write-out of row buffer 4 in flight: the output chunk at `off`, written with the buffer, which holds the scaled gather of index row `row`. -/
def wFlight4 (off : Fin 2 → Nat) (h : ∀ a, off a + S128x128.size a ≤ S819200x128.size a) (row : Fin 2 → Nat) (hk : ∀ a, row a + S1x128.size a ≤ S200x128.size a)
    (hin : InRange m d L fI row hk) (fp : Buf (Elt F) ((sB4 : sBty).view.loc (thr d L))) : sProp 𝕄 :=
  Transfers.Flight countersEmb (thr d L) (SemLoc.dma cc0_scratch14.sem) default 524288
    iprop(((outS off h).view.loc (thr d L) ↦[(outS off h).view.set]{fullShare} (outS off h).view.writes (Elt F) (m (outLoc d))
          [⟨Rect.whole S128x128, ReadAs.same.apply (View.read (Elt F) (sB4 : sBty).view (scaled ((sB4 : sBty).view.writes (Elt F) fp [⟨W0, gpay m d L fI row hk hin⟩])))⟩])
      ∗ (sB4 : sBty).view.loc (thr d L) ↦[(sB4 : sBty).view.set]{fullShare} scaled ((sB4 : sBty).view.writes (Elt F) fp [⟨W0, gpay m d L fI row hk hin⟩]))
/-- The same, of output chunk number `c` of the whole array and index row `n`, at some offsets and prior contents. -/
def wAtom4 (c n : ℕ) : sProp 𝕄 :=
  iprop(∃ oo : OutOff, ∃ ro : RowOff, ∃ fp : Buf (Elt F) ((sB4 : sBty).view.loc (thr d L)), ⌜oo.1 = ![128 * c, 0]⌝ ∗ ⌜ro.1 = ![n, 0]⌝
    ∗ wFlight4 m d L fI oo.1 oo.2 ro.1 ro.2 (hinAll m d L fI hpre ro.1 ro.2) fp)

/-- The write-out of row buffer 5 in flight: the output chunk at `off`, written with the buffer, which holds the scaled gather of index row `row`. -/
def wFlight5 (off : Fin 2 → Nat) (h : ∀ a, off a + S128x128.size a ≤ S819200x128.size a) (row : Fin 2 → Nat) (hk : ∀ a, row a + S1x128.size a ≤ S200x128.size a)
    (hin : InRange m d L fI row hk) (fp : Buf (Elt F) ((sB5 : sBty).view.loc (thr d L))) : sProp 𝕄 :=
  Transfers.Flight countersEmb (thr d L) (SemLoc.dma cc0_scratch15.sem) default 524288
    iprop(((outS off h).view.loc (thr d L) ↦[(outS off h).view.set]{fullShare} (outS off h).view.writes (Elt F) (m (outLoc d))
          [⟨Rect.whole S128x128, ReadAs.same.apply (View.read (Elt F) (sB5 : sBty).view (scaled ((sB5 : sBty).view.writes (Elt F) fp [⟨W0, gpay m d L fI row hk hin⟩])))⟩])
      ∗ (sB5 : sBty).view.loc (thr d L) ↦[(sB5 : sBty).view.set]{fullShare} scaled ((sB5 : sBty).view.writes (Elt F) fp [⟨W0, gpay m d L fI row hk hin⟩]))
/-- The same, of output chunk number `c` of the whole array and index row `n`, at some offsets and prior contents. -/
def wAtom5 (c n : ℕ) : sProp 𝕄 :=
  iprop(∃ oo : OutOff, ∃ ro : RowOff, ∃ fp : Buf (Elt F) ((sB5 : sBty).view.loc (thr d L)), ⌜oo.1 = ![128 * c, 0]⌝ ∗ ⌜ro.1 = ![n, 0]⌝
    ∗ wFlight5 m d L fI oo.1 oo.2 ro.1 ro.2 (hinAll m d L fI hpre ro.1 ro.2) fp)

/-- The index rows in [a, b), each held on its own elements. -/
def rowsI (a b : ℕ) : sProp 𝕄 :=
  bigSep (Finset.Ico a b) fun r => (sI : Memref sig .scVector .vmem S200x128 .i32).view.loc (thr d L) ↦[rowSetN r]{fullShare} cI m d L fI
/-- The worker's output chunks in [a, b), at contents `f`. -/
def chunksO (a b : ℕ) (f : Buf (Elt F) (outLoc d)) : sProp 𝕄 :=
  bigSep (Finset.Ico a b) fun n => outLoc d ↦[chunkN (200 * widL L + n)]{fullShare} f

variable (O : CellTallies nD τ sig (HIx 1)) (W : Waits sig (HIx 1))

/-- What the worker owes, with the waits recorded so far all at the kernel's own index. -/
def owesI : sProp 𝕄 := iprop(∃ W', ⌜∀ p ∈ W', p ∈ W ∨ p.2 = none⌝ ∗ owes (thr d L) O W')

/-- Before trip `g`, gathers in flight. -/
def invA (g : ℕ) : sProp 𝕄 :=
  iprop(□ Transfers.MayWaits (thr d L) (none : HIx 1) O
    ∗ gAtom m d L fI hpre cc0_scratch6 sB1 0 (5 * g + 0)
    ∗ gAtom m d L fI hpre cc0_scratch7 sB2 1 (5 * g + 1)
    ∗ gAtom m d L fI hpre cc0_scratch8 sB3 2 (5 * g + 2)
    ∗ gAtom m d L fI hpre cc0_scratch9 sB4 3 (5 * g + 3)
    ∗ gAtom m d L fI hpre cc0_scratch10 sB5 4 (5 * g + 4)
    ∗ semVal (thr d L, SemLoc.dma cc0_scratch11.sem) 0
    ∗ semVal (thr d L, SemLoc.dma cc0_scratch12.sem) 0
    ∗ semVal (thr d L, SemLoc.dma cc0_scratch13.sem) 0
    ∗ semVal (thr d L, SemLoc.dma cc0_scratch14.sem) 0
    ∗ semVal (thr d L, SemLoc.dma cc0_scratch15.sem) 0
    ∗ rowsI m d L fI 0 (5 * g) ∗ rowsI m d L fI (5 * g + 5) 200
    ∗ chunksO d L 0 (5 * g) (flatOf m d) ∗ chunksO d L (5 * g) 200 (m (outLoc d))
    ∗ owesI d L O W)

/-- After the last trip, write-outs in flight. -/
def invB : sProp 𝕄 :=
  iprop(□ Transfers.MayWaits (thr d L) (none : HIx 1) O
    ∗ wAtom1 m d L fI hpre (200 * widL L + 195) 195
    ∗ wAtom2 m d L fI hpre (200 * widL L + 196) 196
    ∗ wAtom3 m d L fI hpre (200 * widL L + 197) 197
    ∗ wAtom4 m d L fI hpre (200 * widL L + 198) 198
    ∗ wAtom5 m d L fI hpre (200 * widL L + 199) 199
    ∗ semVal (thr d L, SemLoc.dma cc0_scratch6.sem) 0
    ∗ semVal (thr d L, SemLoc.dma cc0_scratch7.sem) 0
    ∗ semVal (thr d L, SemLoc.dma cc0_scratch8.sem) 0
    ∗ semVal (thr d L, SemLoc.dma cc0_scratch9.sem) 0
    ∗ semVal (thr d L, SemLoc.dma cc0_scratch10.sem) 0
    ∗ ((tabV : Memref sig .scVector .hbm S100000x128 .f32).view.loc (thr d L) ↦{Transfers.shareTokN (tk (widL L)) 0} m (tabLoc d))
    ∗ ((tabV : Memref sig .scVector .hbm S100000x128 .f32).view.loc (thr d L) ↦{Transfers.shareTokN (tk (widL L)) 1} m (tabLoc d))
    ∗ ((tabV : Memref sig .scVector .hbm S100000x128 .f32).view.loc (thr d L) ↦{Transfers.shareTokN (tk (widL L)) 2} m (tabLoc d))
    ∗ ((tabV : Memref sig .scVector .hbm S100000x128 .f32).view.loc (thr d L) ↦{Transfers.shareTokN (tk (widL L)) 3} m (tabLoc d))
    ∗ ((tabV : Memref sig .scVector .hbm S100000x128 .f32).view.loc (thr d L) ↦{Transfers.shareTokN (tk (widL L)) 4} m (tabLoc d))
    ∗ rowsI m d L fI 0 200
    ∗ chunksO d L 0 195 (flatOf m d)
    ∗ owesI d L O W)

/-- The invariant of the outer loop. -/
def inv (g : ℕ) (_ : PUnit) : sProp 𝕄 := if g < 40 then invA m d L fI hpre O W g else invB m d L fI hpre O W

end Cert.Proof.KB

end
-- ==== Proof.KB.Conv.lean ====
/-
  Between the program's spelling of a piece of an array and the arithmetic one.

  The 128 x 128 slice of the output at offsets (128 c, 0), as a set of indices, is chunk c; the one-row slice of the index
  scratch at row n, read as 128 words, is row n. Held on those sets, the slices are the arrays' pieces.

  After the write-out of a row buffer that holds the gather of index row n times the scale, the slice of the output at
  chunk 200 w + n holds the buffer's entries: entry (p, q) of the slice, index (128 (200 w + n) + p, q) of the output, is
  entry (25600 w + 128 n + p, q) of the flat lookup, and 128 (200 w + n) = 25600 w + 128 n. So the chunk holds the flat lookup.
-/
import proofs.«219849_g103079215527_week1_w1_1010_20_alg».proof.Proof.KB.Vals

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (d : Dev nD) (L : grid0.Coords)
variable (fI : Buf (Elt F) ((sI : Memref sig .scVector .vmem S200x128 .i32).view.loc (thr d L)))

/-! ## Slices held on their own elements -/

/-- (C1) The slice of the output at chunk c, held on its own elements, is chunk c of the output. -/
theorem pts_out (off : Fin 2 → Nat) (h : ∀ a, off a + S128x128.size a ≤ S819200x128.size a) (c : ℕ) (hoff : off = ![128 * c, 0]) (f : Buf (Elt F) (outLoc d)) :
    (((outS off h).view.loc (thr d L) ↦[(outS off h).view.set]{fullShare} f) : sProp 𝕄) = (outLoc d ↦[chunkN c]{fullShare} f) := by
  rw [outSlice_set off h (fun _ => rfl) c hoff]

/-- (C2) Row n of the index scratch, as the offset list of a gather, held on its own elements, is row n of the scratch. -/
theorem pts_row (row : Fin 2 → Nat) (hk : ∀ a, row a + S1x128.size a ≤ S200x128.size a) (n : ℕ) (hrow : row = ![n, 0])
    (c : Buf (Elt F) ((sI : Memref sig .scVector .vmem S200x128 .i32).view.loc (thr d L))) :
    (((offs row hk).view.loc (thr d L) ↦[(offs row hk).view.set]{fullShare} c) : sProp 𝕄)
      = ((sI : Memref sig .scVector .vmem S200x128 .i32).view.loc (thr d L) ↦[rowSetN n]{fullShare} c) := by
  rw [sIrow_set row hk (fun _ => rfl) squeezes_S1x128_S128 n hrow]

/-! ## The written chunk is the flat lookup -/

/-- Entry (p, q) of the slice of the output at chunk c sits at (128 c + p, q). -/
theorem outS_emb (off : Fin 2 → Nat) (h : ∀ a, off a + S128x128.size a ≤ S819200x128.size a) (c : ℕ) (hc : c < 6400) (hoff : off = ![128 * c, 0]) (p q : Fin 128) :
    (outS off h).view.emb (ix2 p q) = (ix2 (⟨128 * c + p.val, by have := p.isLt; omega⟩ : Fin 819200) q : S819200x128.Idx) := by
  subst hoff
  show (Rect.unit (s := S819200x128) ![128 * c, 0] S128x128.size h).emb (ix2 p q) = _
  funext a
  apply Fin.ext
  rw [Rect.emb_apply]
  simp only [Rect.off_unit, Rect.stride_unit, Nat.one_mul]
  match a with
  | ⟨0, _⟩ => rfl
  | ⟨1, _⟩ => show 0 + q.val = q.val; omega

/-- The slice of the output at chunk 200 w + n, written whole with a payload whose entry (p, q) is entry
    (25600 w + 128 n + p, q) of the flat lookup, holds the flat lookup on chunk 200 w + n. -/
theorem pts_chunk_core [FloatOps F] (off : Fin 2 → Nat) (h : ∀ a, off a + S128x128.size a ≤ S819200x128.size a)
    (n : ℕ) (hn : n < 200) (hoff : off = ![128 * (200 * widL L + n), 0]) (pay : S128x128.Idx → Elt F .f32)
    (hpay : ∀ p q : Fin 128, pay (ix2 p q)
      = flatOf m d (ix2 (⟨25600 * widL L + 128 * n + p.val, by have := widL_lt L; have := p.isLt; omega⟩ : Fin 819200) q)) :
    (((outS off h).view.loc (thr d L) ↦[(outS off h).view.set]{fullShare} (outS off h).view.writes (Elt F) (m (outLoc d)) [⟨Rect.whole S128x128, pay⟩]) : sProp 𝕄)
      = (outLoc d ↦[chunkN (200 * widL L + n)]{fullShare} flatOf m d) := by
  have hc : 200 * widL L + n < 6400 := by have := widL_lt L; omega
  refine (pts_out d L off h (200 * widL L + n) hoff _).trans (pointsTo_congr ?_)
  intro i hi
  obtain ⟨p, q, rfl⟩ := chunk_rows (200 * widL L + n) hc i hi
  have hr := congrFun (View.read_writes_whole (outS off h).view (m (outLoc d)) pay) (ix2 p q)
  rw [View.read_apply, outS_emb off h (200 * widL L + n) hc hoff p q] at hr
  refine (show _ = pay (ix2 p q) from hr).trans ?_
  rw [hpay p q]
  congr 2
  apply Fin.ext
  show 25600 * widL L + 128 * n + p.val = 128 * (200 * widL L + n) + p.val
  omega

/-- The same with the payload as it is read off row buffer 1. -/
theorem pts_chunk_sB1 [FloatOps F] (hpre : PreOK m) (off : Fin 2 → Nat) (h : ∀ a, off a + S128x128.size a ≤ S819200x128.size a)
    (n : ℕ) (hn : n < 200) (hoff : off = ![128 * (200 * widL L + n), 0])
    (row : Fin 2 → Nat) (hk : ∀ a, row a + S1x128.size a ≤ S200x128.size a) (hin : InRange m d L fI row hk) (hrow : row = ![n, 0])
    (fp : Buf (Elt F) ((sB1 : sBty).view.loc (thr d L)))
    (pay : S128x128.Idx → Elt F .f32)
    (hpay : pay = ReadAs.same.apply (View.read (Elt F) (sB1 : sBty).view (scaled ((sB1 : sBty).view.writes (Elt F) fp [⟨W0, gpay m d L fI row hk hin⟩])))) :
    (((outS off h).view.loc (thr d L) ↦[(outS off h).view.set]{fullShare} (outS off h).view.writes (Elt F) (m (outLoc d)) [⟨Rect.whole S128x128, pay⟩]) : sProp 𝕄)
      = (outLoc d ↦[chunkN (200 * widL L + n)]{fullShare} flatOf m d) := by
  subst hpay
  refine pts_chunk_core m d L off h n hn hoff _ (fun p q => ?_)
  show scaled ((sB1 : sBty).view.writes (Elt F) fp [⟨W0, gpay m d L fI row hk hin⟩]) (ix2 p q) = _
  rw [writes_W0_sB1]
  exact scaled_gpay m d L fI hpre row hk hin n hrow hn p q

/-- The same with the payload as it is read off row buffer 2. -/
theorem pts_chunk_sB2 [FloatOps F] (hpre : PreOK m) (off : Fin 2 → Nat) (h : ∀ a, off a + S128x128.size a ≤ S819200x128.size a)
    (n : ℕ) (hn : n < 200) (hoff : off = ![128 * (200 * widL L + n), 0])
    (row : Fin 2 → Nat) (hk : ∀ a, row a + S1x128.size a ≤ S200x128.size a) (hin : InRange m d L fI row hk) (hrow : row = ![n, 0])
    (fp : Buf (Elt F) ((sB2 : sBty).view.loc (thr d L)))
    (pay : S128x128.Idx → Elt F .f32)
    (hpay : pay = ReadAs.same.apply (View.read (Elt F) (sB2 : sBty).view (scaled ((sB2 : sBty).view.writes (Elt F) fp [⟨W0, gpay m d L fI row hk hin⟩])))) :
    (((outS off h).view.loc (thr d L) ↦[(outS off h).view.set]{fullShare} (outS off h).view.writes (Elt F) (m (outLoc d)) [⟨Rect.whole S128x128, pay⟩]) : sProp 𝕄)
      = (outLoc d ↦[chunkN (200 * widL L + n)]{fullShare} flatOf m d) := by
  subst hpay
  refine pts_chunk_core m d L off h n hn hoff _ (fun p q => ?_)
  show scaled ((sB2 : sBty).view.writes (Elt F) fp [⟨W0, gpay m d L fI row hk hin⟩]) (ix2 p q) = _
  rw [writes_W0_sB2]
  exact scaled_gpay m d L fI hpre row hk hin n hrow hn p q

/-- The same with the payload as it is read off row buffer 3. -/
theorem pts_chunk_sB3 [FloatOps F] (hpre : PreOK m) (off : Fin 2 → Nat) (h : ∀ a, off a + S128x128.size a ≤ S819200x128.size a)
    (n : ℕ) (hn : n < 200) (hoff : off = ![128 * (200 * widL L + n), 0])
    (row : Fin 2 → Nat) (hk : ∀ a, row a + S1x128.size a ≤ S200x128.size a) (hin : InRange m d L fI row hk) (hrow : row = ![n, 0])
    (fp : Buf (Elt F) ((sB3 : sBty).view.loc (thr d L)))
    (pay : S128x128.Idx → Elt F .f32)
    (hpay : pay = ReadAs.same.apply (View.read (Elt F) (sB3 : sBty).view (scaled ((sB3 : sBty).view.writes (Elt F) fp [⟨W0, gpay m d L fI row hk hin⟩])))) :
    (((outS off h).view.loc (thr d L) ↦[(outS off h).view.set]{fullShare} (outS off h).view.writes (Elt F) (m (outLoc d)) [⟨Rect.whole S128x128, pay⟩]) : sProp 𝕄)
      = (outLoc d ↦[chunkN (200 * widL L + n)]{fullShare} flatOf m d) := by
  subst hpay
  refine pts_chunk_core m d L off h n hn hoff _ (fun p q => ?_)
  show scaled ((sB3 : sBty).view.writes (Elt F) fp [⟨W0, gpay m d L fI row hk hin⟩]) (ix2 p q) = _
  rw [writes_W0_sB3]
  exact scaled_gpay m d L fI hpre row hk hin n hrow hn p q

/-- The same with the payload as it is read off row buffer 4. -/
theorem pts_chunk_sB4 [FloatOps F] (hpre : PreOK m) (off : Fin 2 → Nat) (h : ∀ a, off a + S128x128.size a ≤ S819200x128.size a)
    (n : ℕ) (hn : n < 200) (hoff : off = ![128 * (200 * widL L + n), 0])
    (row : Fin 2 → Nat) (hk : ∀ a, row a + S1x128.size a ≤ S200x128.size a) (hin : InRange m d L fI row hk) (hrow : row = ![n, 0])
    (fp : Buf (Elt F) ((sB4 : sBty).view.loc (thr d L)))
    (pay : S128x128.Idx → Elt F .f32)
    (hpay : pay = ReadAs.same.apply (View.read (Elt F) (sB4 : sBty).view (scaled ((sB4 : sBty).view.writes (Elt F) fp [⟨W0, gpay m d L fI row hk hin⟩])))) :
    (((outS off h).view.loc (thr d L) ↦[(outS off h).view.set]{fullShare} (outS off h).view.writes (Elt F) (m (outLoc d)) [⟨Rect.whole S128x128, pay⟩]) : sProp 𝕄)
      = (outLoc d ↦[chunkN (200 * widL L + n)]{fullShare} flatOf m d) := by
  subst hpay
  refine pts_chunk_core m d L off h n hn hoff _ (fun p q => ?_)
  show scaled ((sB4 : sBty).view.writes (Elt F) fp [⟨W0, gpay m d L fI row hk hin⟩]) (ix2 p q) = _
  rw [writes_W0_sB4]
  exact scaled_gpay m d L fI hpre row hk hin n hrow hn p q

/-- The same with the payload as it is read off row buffer 5. -/
theorem pts_chunk_sB5 [FloatOps F] (hpre : PreOK m) (off : Fin 2 → Nat) (h : ∀ a, off a + S128x128.size a ≤ S819200x128.size a)
    (n : ℕ) (hn : n < 200) (hoff : off = ![128 * (200 * widL L + n), 0])
    (row : Fin 2 → Nat) (hk : ∀ a, row a + S1x128.size a ≤ S200x128.size a) (hin : InRange m d L fI row hk) (hrow : row = ![n, 0])
    (fp : Buf (Elt F) ((sB5 : sBty).view.loc (thr d L)))
    (pay : S128x128.Idx → Elt F .f32)
    (hpay : pay = ReadAs.same.apply (View.read (Elt F) (sB5 : sBty).view (scaled ((sB5 : sBty).view.writes (Elt F) fp [⟨W0, gpay m d L fI row hk hin⟩])))) :
    (((outS off h).view.loc (thr d L) ↦[(outS off h).view.set]{fullShare} (outS off h).view.writes (Elt F) (m (outLoc d)) [⟨Rect.whole S128x128, pay⟩]) : sProp 𝕄)
      = (outLoc d ↦[chunkN (200 * widL L + n)]{fullShare} flatOf m d) := by
  subst hpay
  refine pts_chunk_core m d L off h n hn hoff _ (fun p q => ?_)
  show scaled ((sB5 : sBty).view.writes (Elt F) fp [⟨W0, gpay m d L fI row hk hin⟩]) (ix2 p q) = _
  rw [writes_W0_sB5]
  exact scaled_gpay m d L fI hpre row hk hin n hrow hn p q

end Cert.Proof.KB

end
-- ==== Proof.KB.RowLib.lean ====
/-
  One trip of a row loop, as sixteen stores read back as one function.

  The kernel multiplies a 128 x 128 row buffer by one fixed float in a loop of sixty-four trips. Trip `k` rewrites rows
  `2 k` and `2 k + 1` in sixteen pieces of sixteen lanes, piece `n` at row `2 k + n / 8`, columns `16 (n % 8)` to
  `16 (n % 8) + 15`: it loads the piece, multiplies every lane by the scale and stores it back. Every piece is loaded
  before anything is stored into it, so each load reads the contents the trip started from. This module holds what the
  five loops share: the contents before trip `k` (`upTo`), the contents after the trip's first `n` stores (`Done`), and
  the step from `n` stores to `n + 1`.
-/
import proofs.«219849_g103079215527_week1_w1_1010_20_alg».proof.Proof.KB.Setup

noncomputable section

namespace Cert.Proof.KB.Row

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Rows below `2 k` scaled, the others as they were. -/
def upTo (f : S128x128.Idx → Elt F (.f32 : EltTy)) (k : ℕ) : S128x128.Idx → Elt F (.f32 : EltTy) :=
  fun j => if (j 0).val < 2 * k then scaled f j else f j

theorem upTo_of_le {f : S128x128.Idx → Elt F (.f32 : EltTy)} {k : ℕ} {j : S128x128.Idx} (h : 2 * k ≤ (j 0).val) :
    upTo f k j = f j := by
  unfold upTo; rw [if_neg (by omega)]

theorem upTo_zero (f : S128x128.Idx → Elt F (.f32 : EltTy)) : upTo f 0 = f := by
  funext j; exact upTo_of_le (Nat.zero_le _)

/-- After the sixty-four trips every row is scaled. -/
theorem upTo_last (f : S128x128.Idx → Elt F (.f32 : EltTy)) : upTo f 64 = scaled f := by
  funext j
  have hj0 : (j 0).val < 128 := (j 0).isLt
  unfold upTo; rw [if_pos (by omega)]

/-- One lane of a stored piece: the loaded lane times the scale (the two shape casts, 1 x 16 to 16 and back, cancel;
    the splat is constant; the product is lane by lane). -/
theorem pay_apply (u : FVec F S1x16 .f32) (h1 : S1x16.ShapeCasts S16) (h2 : S16.ShapeCasts S1x16) (x : S1x16.Idx) :
    shapeCast S1x16 (mulf (shapeCast S16 u h1) (broadcast S16 (Scalar.ofBits .f32 0x413504F3#32))) h2 x
      = FloatOps.mulf (u x) (Cert.Spec.scale (F := F)) := by
  show FloatOps.mulf (u (Shape.reshapeEquiv _ (Shape.reshapeEquiv _ x))) _ = FloatOps.mulf (u x) _
  rw [Shape.reshapeEquiv_reshapeEquiv, Shape.reshapeEquiv_self]; rfl

section Lib
variable {sg : RefSig} {κ : Kind} {sp : Space} (v : View sg κ sp S128x128 (.f32 : EltTy))

/-- The buffer after the first `n` pieces of trip `k`: scaled below row `2 k` and on those pieces, `f` elsewhere. -/
def Done (f : S128x128.Idx → Elt F (.f32 : EltTy)) (k n : ℕ) (g : v.ty.Contents (Elt F)) : Prop :=
  ∀ j : S128x128.Idx, v.read (Elt F) g j =
    if (j 0).val < 2 * k ∨ ((j 0).val < 2 * k + 2 ∧ ((j 0).val - 2 * k) * 128 + (j 1).val < 16 * n) then scaled f j else f j

/-- Before the trip's first store. -/
theorem Done.zero {f : S128x128.Idx → Elt F (.f32 : EltTy)} {k : ℕ} {g : v.ty.Contents (Elt F)}
    (h : ∀ j, v.read (Elt F) g j = upTo f k j) : Done v f k 0 g := by
  intro j
  rw [h j]; unfold upTo
  exact if_congr (by omega) rfl rfl

/-- After its last: rows below `2 (k + 1)` are scaled. -/
theorem Done.last {f : S128x128.Idx → Elt F (.f32 : EltTy)} {k : ℕ} {g : v.ty.Contents (Elt F)}
    (h : Done v f k 16 g) : ∀ j, v.read (Elt F) g j = upTo f (k + 1) j := by
  intro j
  have hj1 : (j 1).val < 128 := (j 1).isLt
  rw [h j]; unfold upTo
  exact if_congr (by omega) rfl rfl

/-- One store: piece `n`, loaded from contents `g0` that are `f` from row `2 k` on, scaled and written back. -/
theorem Done.step {f : S128x128.Idx → Elt F (.f32 : EltTy)} {k n : ℕ} {g g0 : v.ty.Contents (Elt F)} (h : Done v f k n g) (hn : n < 16)
    (hg0 : ∀ j : S128x128.Idx, 2 * k ≤ (j 0).val → v.read (Elt F) g0 j = f j)
    {off : Fin 2 → ℕ} (inb : ∀ a, off a + S1x16.size a ≤ S128x128.size a) (hoff : off = ![2 * k + n / 8, 16 * (n % 8)])
    (w : (Rect.unit (s := S128x128) off S1x16.size inb).shape.Idx → Elt F (.f32 : EltTy))
    (hw : ∀ x, w x = FloatOps.mulf (v.readAt (Elt F) (Rect.unit (s := S128x128) off S1x16.size inb).toLoadRect g0 x) (Cert.Spec.scale (F := F))) :
    Done v f k (n + 1) ((v.slice (Rect.unit (s := S128x128) off S1x16.size inb)).write (Elt F) g w Finset.univ) := by
  subst hoff
  intro j
  have hj0 : (j 0).val < 128 := (j 0).isLt
  have hj1 : (j 1).val < 128 := (j 1).isLt
  by_cases hj : j ∈ (Rect.unit (s := S128x128) ![2 * k + n / 8, 16 * (n % 8)] S1x16.size inb).set
  · obtain ⟨x, hx⟩ := LoadRect.exists_idx_of_mem _ hj
    have hx' : (Rect.unit (s := S128x128) ![2 * k + n / 8, 16 * (n % 8)] S1x16.size inb).emb x = j := hx
    have e : v.read (Elt F) ((v.slice (Rect.unit (s := S128x128) ![2 * k + n / 8, 16 * (n % 8)] S1x16.size inb)).write (Elt F) g w Finset.univ) j = w x := by
      rw [← hx']; exact View.read_slice_write_emb _ _ _ (Finset.mem_univ x)
    rw [Rect.mem_set_unit] at hj
    have h0 : 2 * k + n / 8 ≤ (j 0).val ∧ (j 0).val < 2 * k + n / 8 + 1 := hj 0
    have h1 : 16 * (n % 8) ≤ (j 1).val ∧ (j 1).val < 16 * (n % 8) + 16 := hj 1
    rw [e, hw, View.readAt_apply, hx, hg0 j (by omega), if_pos (by omega)]
    rfl
  · rw [View.read_slice_write_of_not_mem _ _ _ _ (by rwa [Rect.map_emb_univ]), h j]
    rw [Rect.mem_set_unit] at hj
    have hj' : ¬ ((2 * k + n / 8 ≤ (j 0).val ∧ (j 0).val < 2 * k + n / 8 + 1) ∧ (16 * (n % 8) ≤ (j 1).val ∧ (j 1).val < 16 * (n % 8) + 16)) := by
      intro hc
      apply hj
      intro a
      fin_cases a
      · exact hc.1
      · exact hc.2
    have hiff : ((j 0).val < 2 * k ∨ ((j 0).val < 2 * k + 2 ∧ ((j 0).val - 2 * k) * 128 + (j 1).val < 16 * n))
        ↔ ((j 0).val < 2 * k ∨ ((j 0).val < 2 * k + 2 ∧ ((j 0).val - 2 * k) * 128 + (j 1).val < 16 * (n + 1))) := by omega
    rw [if_congr hiff rfl rfl]

end Lib

omit [FloatOps F] in
/-- A buffer held at contents equal to others is held at those. -/
theorem pts_of_eq {ℓ : Loc nD τ sig} {q : PosShare TreeShare} {g g' : Buf (Elt F) ℓ} (h : g = g') :
    ((ℓ ↦{q} g) : sProp 𝕄) ⊢ ℓ ↦{q} g' := by
  subst h; exact Entails.refl _

end Cert.Proof.KB.Row

end
-- ==== Proof.KB.RowLoop1.lean ====
/-
  Row loop 1 of the kernel: the 128 x 128 row buffer number 1 multiplied, entry by entry, by the scale.

  The loop runs sixty-four trips; trip `k` rewrites rows `2 k` and `2 k + 1`. Its invariant: before trip `k` the buffer
  holds the contents the loop started from with the rows below `2 k` scaled. One trip is sixteen loads of the contents
  it started with and sixteen stores, read back as one function by the shared lemmas on the trip's pieces; after the
  last trip `2 * 64 = 128` rows are scaled, that is all of them.
-/
import proofs.«219849_g103079215527_week1_w1_1010_20_alg».proof.Proof.KB.RowLib

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.KB.Row

variable {F : FTy → Type} [FloatOps F]

local notation "𝕄" => MT nD τ sig (HIx 1) (Elt F) ℕ UU ℕ

/-- The loop's invariant: before trip `k` the buffer holds `f` with the rows below `2 k` scaled. -/
def Row.inv1 (d : Dev nD) (L : grid0.Coords) (f : S128x128.Idx → Elt F (.f32 : EltTy)) (k : ℕ) (_ : Unit) : sProp 𝕄 :=
  (sB1 : Memref sig .scVector .vmem S128x128 .f32).view.loc (thr d L) ↦{fullShare} upTo f k

omit [FloatOps F] in
/-- Through the whole buffer, contents that read alike are equal. -/
private theorem Row.ext1 {g g' : (sB1 : Memref sig .scVector .vmem S128x128 .f32).view.ty.Contents (Elt F)}
    (h : ∀ j, (sB1 : Memref sig .scVector .vmem S128x128 .f32).view.read (Elt F) g j = g' j) : g = g' := funext h

/-- Row loop 1: every entry of the buffer is multiplied by the scale. Trip `k` rewrites rows `2 k` and `2 k + 1`
    in sixteen pieces, each loaded from the contents the trip started with and stored back scaled. -/
theorem rowLoop1 (d : Dev nD) (L : grid0.Coords) (f : Buf (Elt F) ((sB1 : Memref sig .scVector .vmem S128x128 .f32).view.loc (thr d L))) (v2 c0 c1 : BitVec 32) (k0_t1 : Fin k0_t1_loop.trips) :
      (((sB1 : Memref sig .scVector .vmem S128x128 .f32).view.loc (thr d L) ↦{fullShare} f) : sProp 𝕄)
        ⊢ wp frame (wpE (defs₀ (F := F)) 𝒱₀ (thr d L) none) Set.univ
            (Scf.Loop.for k0_t2_loop k0_t2_ok ⟨⟩ (k0_t2_body L tabV (Memref.isWhole_whole _) idxV (Memref.isWhole_whole _) outV (Memref.isWhole_whole _) sI (Memref.isWhole_whole _)
              sB1 (Memref.isWhole_whole _) sB2 (Memref.isWhole_whole _) sB3 (Memref.isWhole_whole _) sB4 (Memref.isWhole_whole _) sB5 (Memref.isWhole_whole _)
              cc0_scratch6 cc0_scratch7 cc0_scratch8 cc0_scratch9 cc0_scratch10 cc0_scratch11 cc0_scratch12 cc0_scratch13 cc0_scratch14 cc0_scratch15 cc0_scoped0 v2 c0 c1 k0_t1))
            fun _ => ((sB1 : Memref sig .scVector .vmem S128x128 .f32).view.loc (thr d L) ↦{fullShare} scaled f) := by
  iintro H
  sl_for (inv1 d L f) $$ [H]
  case region =>
    intro k a
    unfold inv1
    iintro H
    sl_exec
    sl_step
    have hg0 : ∀ j : S128x128.Idx, 2 * k.val ≤ (j 0).val →
        (sB1 : Memref sig .scVector .vmem S128x128 .f32).view.read (Elt F) (upTo f k.val) j = f j := fun j hj => upTo_of_le hj
    iapply (pts_of_eq ?heq) $$ H
    case heq =>
      sl_unfold_run_names
      -- the stored pieces as plain terms over the loaded lanes
      simp only [k0_pay1, k0_pay2, k0_pay3, k0_pay4, k0_pay5, k0_pay6, k0_pay7, k0_pay8, k0_pay9, k0_pay10,
        k0_pay11, k0_pay12, k0_pay13, k0_pay14, k0_pay15, k0_pay16, k0_pay17, k0_pay18, k0_pay19, k0_pay20,
        k0_pay21, k0_pay22, k0_pay23, k0_pay24, k0_pay25, k0_pay26, k0_pay27, k0_pay28, k0_pay29, k0_pay30,
        k0_pay31, k0_pay32, k0_pay33, k0_pay34, k0_pay35, k0_pay36, k0_pay37, k0_pay38, k0_pay39, k0_pay40,
        k0_pay41, k0_pay42, k0_pay43, k0_pay44, k0_pay45, k0_pay46, k0_pay47, k0_pay48, k0_pay49, k0_pay50,
        k0_pay51, k0_pay52, k0_pay53, k0_pay54, k0_pay55, k0_pay56, k0_pay57, k0_pay58, k0_pay59, k0_pay60,
        k0_pay61, k0_pay62, k0_pay63, k0_pay64, k0_pay65, k0_pay66, k0_pay67, k0_pay68, k0_pay69, k0_pay70,
        k0_pay71, k0_pay72, k0_pay73, k0_pay74, k0_pay75, k0_pay76, k0_pay77, k0_pay78, k0_pay79, k0_pay80,
        k0_pay81, k0_pay82, k0_pay83, k0_pay84, k0_pay85, k0_pay86, k0_pay87, k0_pay88, k0_pay89, k0_pay90,
        k0_pay91, k0_pay92, k0_pay93, k0_pay94, k0_pay95, k0_pay96, k0_pay97, k0_pay98, k0_pay99, k0_pay100]
      refine ext1 (Done.last _ ?_)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      exact Done.zero _ (fun j => rfl)
  · isplitl [H]
    · unfold inv1
      iapply (pts_of_eq (upTo_zero f).symm) $$ H
    · iintro %acc HI
      unfold inv1
      iapply (pts_of_eq ?heq) $$ HI
      case heq =>
        have ht : Scf.trips k0_t2_loop.lb k0_t2_loop.ub k0_t2_loop.st = 64 := by decide
        rw [ht]; exact upTo_last f

end Cert.Proof.KB

end
-- ==== Proof.KB.RowLoop2.lean ====
/-
  Row loop 2 of the kernel: the 128 x 128 row buffer number 2 multiplied, entry by entry, by the scale.

  The loop runs sixty-four trips; trip `k` rewrites rows `2 k` and `2 k + 1`. Its invariant: before trip `k` the buffer
  holds the contents the loop started from with the rows below `2 k` scaled. One trip is sixteen loads of the contents
  it started with and sixteen stores, read back as one function by the shared lemmas on the trip's pieces; after the
  last trip `2 * 64 = 128` rows are scaled, that is all of them.
-/
import proofs.«219849_g103079215527_week1_w1_1010_20_alg».proof.Proof.KB.RowLib

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.KB.Row

variable {F : FTy → Type} [FloatOps F]

local notation "𝕄" => MT nD τ sig (HIx 1) (Elt F) ℕ UU ℕ

/-- The loop's invariant: before trip `k` the buffer holds `f` with the rows below `2 k` scaled. -/
def Row.inv2 (d : Dev nD) (L : grid0.Coords) (f : S128x128.Idx → Elt F (.f32 : EltTy)) (k : ℕ) (_ : Unit) : sProp 𝕄 :=
  (sB2 : Memref sig .scVector .vmem S128x128 .f32).view.loc (thr d L) ↦{fullShare} upTo f k

omit [FloatOps F] in
/-- Through the whole buffer, contents that read alike are equal. -/
private theorem Row.ext2 {g g' : (sB2 : Memref sig .scVector .vmem S128x128 .f32).view.ty.Contents (Elt F)}
    (h : ∀ j, (sB2 : Memref sig .scVector .vmem S128x128 .f32).view.read (Elt F) g j = g' j) : g = g' := funext h

/-- Row loop 2: every entry of the buffer is multiplied by the scale. Trip `k` rewrites rows `2 k` and `2 k + 1`
    in sixteen pieces, each loaded from the contents the trip started with and stored back scaled. -/
theorem rowLoop2 (d : Dev nD) (L : grid0.Coords) (f : Buf (Elt F) ((sB2 : Memref sig .scVector .vmem S128x128 .f32).view.loc (thr d L))) (v2 c0 c1 : BitVec 32) (k0_t1 : Fin k0_t1_loop.trips) :
      (((sB2 : Memref sig .scVector .vmem S128x128 .f32).view.loc (thr d L) ↦{fullShare} f) : sProp 𝕄)
        ⊢ wp frame (wpE (defs₀ (F := F)) 𝒱₀ (thr d L) none) Set.univ
            (Scf.Loop.for k0_t3_loop k0_t3_ok ⟨⟩ (k0_t3_body L tabV (Memref.isWhole_whole _) idxV (Memref.isWhole_whole _) outV (Memref.isWhole_whole _) sI (Memref.isWhole_whole _)
              sB1 (Memref.isWhole_whole _) sB2 (Memref.isWhole_whole _) sB3 (Memref.isWhole_whole _) sB4 (Memref.isWhole_whole _) sB5 (Memref.isWhole_whole _)
              cc0_scratch6 cc0_scratch7 cc0_scratch8 cc0_scratch9 cc0_scratch10 cc0_scratch11 cc0_scratch12 cc0_scratch13 cc0_scratch14 cc0_scratch15 cc0_scoped0 v2 c0 c1 k0_t1))
            fun _ => ((sB2 : Memref sig .scVector .vmem S128x128 .f32).view.loc (thr d L) ↦{fullShare} scaled f) := by
  iintro H
  sl_for (inv2 d L f) $$ [H]
  case region =>
    intro k a
    unfold inv2
    iintro H
    sl_exec
    sl_step
    have hg0 : ∀ j : S128x128.Idx, 2 * k.val ≤ (j 0).val →
        (sB2 : Memref sig .scVector .vmem S128x128 .f32).view.read (Elt F) (upTo f k.val) j = f j := fun j hj => upTo_of_le hj
    iapply (pts_of_eq ?heq) $$ H
    case heq =>
      sl_unfold_run_names
      -- the stored pieces as plain terms over the loaded lanes
      simp only [k0_pay1, k0_pay2, k0_pay3, k0_pay4, k0_pay5, k0_pay6, k0_pay7, k0_pay8, k0_pay9, k0_pay10,
        k0_pay11, k0_pay12, k0_pay13, k0_pay14, k0_pay15, k0_pay16, k0_pay17, k0_pay18, k0_pay19, k0_pay20,
        k0_pay21, k0_pay22, k0_pay23, k0_pay24, k0_pay25, k0_pay26, k0_pay27, k0_pay28, k0_pay29, k0_pay30,
        k0_pay31, k0_pay32, k0_pay33, k0_pay34, k0_pay35, k0_pay36, k0_pay37, k0_pay38, k0_pay39, k0_pay40,
        k0_pay41, k0_pay42, k0_pay43, k0_pay44, k0_pay45, k0_pay46, k0_pay47, k0_pay48, k0_pay49, k0_pay50,
        k0_pay51, k0_pay52, k0_pay53, k0_pay54, k0_pay55, k0_pay56, k0_pay57, k0_pay58, k0_pay59, k0_pay60,
        k0_pay61, k0_pay62, k0_pay63, k0_pay64, k0_pay65, k0_pay66, k0_pay67, k0_pay68, k0_pay69, k0_pay70,
        k0_pay71, k0_pay72, k0_pay73, k0_pay74, k0_pay75, k0_pay76, k0_pay77, k0_pay78, k0_pay79, k0_pay80,
        k0_pay81, k0_pay82, k0_pay83, k0_pay84, k0_pay85, k0_pay86, k0_pay87, k0_pay88, k0_pay89, k0_pay90,
        k0_pay91, k0_pay92, k0_pay93, k0_pay94, k0_pay95, k0_pay96, k0_pay97, k0_pay98, k0_pay99, k0_pay100]
      refine ext2 (Done.last _ ?_)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      exact Done.zero _ (fun j => rfl)
  · isplitl [H]
    · unfold inv2
      iapply (pts_of_eq (upTo_zero f).symm) $$ H
    · iintro %acc HI
      unfold inv2
      iapply (pts_of_eq ?heq) $$ HI
      case heq =>
        have ht : Scf.trips k0_t3_loop.lb k0_t3_loop.ub k0_t3_loop.st = 64 := by decide
        rw [ht]; exact upTo_last f

end Cert.Proof.KB

end
-- ==== Proof.KB.RowLoop3.lean ====
/-
  Row loop 3 of the kernel: the 128 x 128 row buffer number 3 multiplied, entry by entry, by the scale.

  The loop runs sixty-four trips; trip `k` rewrites rows `2 k` and `2 k + 1`. Its invariant: before trip `k` the buffer
  holds the contents the loop started from with the rows below `2 k` scaled. One trip is sixteen loads of the contents
  it started with and sixteen stores, read back as one function by the shared lemmas on the trip's pieces; after the
  last trip `2 * 64 = 128` rows are scaled, that is all of them.
-/
import proofs.«219849_g103079215527_week1_w1_1010_20_alg».proof.Proof.KB.RowLib

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.KB.Row

variable {F : FTy → Type} [FloatOps F]

local notation "𝕄" => MT nD τ sig (HIx 1) (Elt F) ℕ UU ℕ

/-- The loop's invariant: before trip `k` the buffer holds `f` with the rows below `2 k` scaled. -/
def Row.inv3 (d : Dev nD) (L : grid0.Coords) (f : S128x128.Idx → Elt F (.f32 : EltTy)) (k : ℕ) (_ : Unit) : sProp 𝕄 :=
  (sB3 : Memref sig .scVector .vmem S128x128 .f32).view.loc (thr d L) ↦{fullShare} upTo f k

omit [FloatOps F] in
/-- Through the whole buffer, contents that read alike are equal. -/
private theorem Row.ext3 {g g' : (sB3 : Memref sig .scVector .vmem S128x128 .f32).view.ty.Contents (Elt F)}
    (h : ∀ j, (sB3 : Memref sig .scVector .vmem S128x128 .f32).view.read (Elt F) g j = g' j) : g = g' := funext h

/-- Row loop 3: every entry of the buffer is multiplied by the scale. Trip `k` rewrites rows `2 k` and `2 k + 1`
    in sixteen pieces, each loaded from the contents the trip started with and stored back scaled. -/
theorem rowLoop3 (d : Dev nD) (L : grid0.Coords) (f : Buf (Elt F) ((sB3 : Memref sig .scVector .vmem S128x128 .f32).view.loc (thr d L))) (v2 : BitVec 32) (k0_t1 : Fin k0_t1_loop.trips) (v39 c1 : BitVec 32) :
      (((sB3 : Memref sig .scVector .vmem S128x128 .f32).view.loc (thr d L) ↦{fullShare} f) : sProp 𝕄)
        ⊢ wp frame (wpE (defs₀ (F := F)) 𝒱₀ (thr d L) none) Set.univ
            (Scf.Loop.for k0_t4_loop k0_t4_ok ⟨⟩ (k0_t4_body L tabV (Memref.isWhole_whole _) idxV (Memref.isWhole_whole _) outV (Memref.isWhole_whole _) sI (Memref.isWhole_whole _)
              sB1 (Memref.isWhole_whole _) sB2 (Memref.isWhole_whole _) sB3 (Memref.isWhole_whole _) sB4 (Memref.isWhole_whole _) sB5 (Memref.isWhole_whole _)
              cc0_scratch6 cc0_scratch7 cc0_scratch8 cc0_scratch9 cc0_scratch10 cc0_scratch11 cc0_scratch12 cc0_scratch13 cc0_scratch14 cc0_scratch15 cc0_scoped0 v2 k0_t1 v39 c1))
            fun _ => ((sB3 : Memref sig .scVector .vmem S128x128 .f32).view.loc (thr d L) ↦{fullShare} scaled f) := by
  iintro H
  sl_for (inv3 d L f) $$ [H]
  case region =>
    intro k a
    unfold inv3
    iintro H
    sl_exec
    sl_step
    have hg0 : ∀ j : S128x128.Idx, 2 * k.val ≤ (j 0).val →
        (sB3 : Memref sig .scVector .vmem S128x128 .f32).view.read (Elt F) (upTo f k.val) j = f j := fun j hj => upTo_of_le hj
    iapply (pts_of_eq ?heq) $$ H
    case heq =>
      sl_unfold_run_names
      -- the stored pieces as plain terms over the loaded lanes
      simp only [k0_pay1, k0_pay2, k0_pay3, k0_pay4, k0_pay5, k0_pay6, k0_pay7, k0_pay8, k0_pay9, k0_pay10,
        k0_pay11, k0_pay12, k0_pay13, k0_pay14, k0_pay15, k0_pay16, k0_pay17, k0_pay18, k0_pay19, k0_pay20,
        k0_pay21, k0_pay22, k0_pay23, k0_pay24, k0_pay25, k0_pay26, k0_pay27, k0_pay28, k0_pay29, k0_pay30,
        k0_pay31, k0_pay32, k0_pay33, k0_pay34, k0_pay35, k0_pay36, k0_pay37, k0_pay38, k0_pay39, k0_pay40,
        k0_pay41, k0_pay42, k0_pay43, k0_pay44, k0_pay45, k0_pay46, k0_pay47, k0_pay48, k0_pay49, k0_pay50,
        k0_pay51, k0_pay52, k0_pay53, k0_pay54, k0_pay55, k0_pay56, k0_pay57, k0_pay58, k0_pay59, k0_pay60,
        k0_pay61, k0_pay62, k0_pay63, k0_pay64, k0_pay65, k0_pay66, k0_pay67, k0_pay68, k0_pay69, k0_pay70,
        k0_pay71, k0_pay72, k0_pay73, k0_pay74, k0_pay75, k0_pay76, k0_pay77, k0_pay78, k0_pay79, k0_pay80,
        k0_pay81, k0_pay82, k0_pay83, k0_pay84, k0_pay85, k0_pay86, k0_pay87, k0_pay88, k0_pay89, k0_pay90,
        k0_pay91, k0_pay92, k0_pay93, k0_pay94, k0_pay95, k0_pay96, k0_pay97, k0_pay98, k0_pay99, k0_pay100]
      refine ext3 (Done.last _ ?_)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      exact Done.zero _ (fun j => rfl)
  · isplitl [H]
    · unfold inv3
      iapply (pts_of_eq (upTo_zero f).symm) $$ H
    · iintro %acc HI
      unfold inv3
      iapply (pts_of_eq ?heq) $$ HI
      case heq =>
        have ht : Scf.trips k0_t4_loop.lb k0_t4_loop.ub k0_t4_loop.st = 64 := by decide
        rw [ht]; exact upTo_last f

end Cert.Proof.KB

end
-- ==== Proof.KB.RowLoop4.lean ====
/-
  Row loop 4 of the kernel: the 128 x 128 row buffer number 4 multiplied, entry by entry, by the scale.

  The loop runs sixty-four trips; trip `k` rewrites rows `2 k` and `2 k + 1`. Its invariant: before trip `k` the buffer
  holds the contents the loop started from with the rows below `2 k` scaled. One trip is sixteen loads of the contents
  it started with and sixteen stores, read back as one function by the shared lemmas on the trip's pieces; after the
  last trip `2 * 64 = 128` rows are scaled, that is all of them.
-/
import proofs.«219849_g103079215527_week1_w1_1010_20_alg».proof.Proof.KB.RowLib

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.KB.Row

variable {F : FTy → Type} [FloatOps F]

local notation "𝕄" => MT nD τ sig (HIx 1) (Elt F) ℕ UU ℕ

/-- The loop's invariant: before trip `k` the buffer holds `f` with the rows below `2 k` scaled. -/
def Row.inv4 (d : Dev nD) (L : grid0.Coords) (f : S128x128.Idx → Elt F (.f32 : EltTy)) (k : ℕ) (_ : Unit) : sProp 𝕄 :=
  (sB4 : Memref sig .scVector .vmem S128x128 .f32).view.loc (thr d L) ↦{fullShare} upTo f k

omit [FloatOps F] in
/-- Through the whole buffer, contents that read alike are equal. -/
private theorem Row.ext4 {g g' : (sB4 : Memref sig .scVector .vmem S128x128 .f32).view.ty.Contents (Elt F)}
    (h : ∀ j, (sB4 : Memref sig .scVector .vmem S128x128 .f32).view.read (Elt F) g j = g' j) : g = g' := funext h

/-- Row loop 4: every entry of the buffer is multiplied by the scale. Trip `k` rewrites rows `2 k` and `2 k + 1`
    in sixteen pieces, each loaded from the contents the trip started with and stored back scaled. -/
theorem rowLoop4 (d : Dev nD) (L : grid0.Coords) (f : Buf (Elt F) ((sB4 : Memref sig .scVector .vmem S128x128 .f32).view.loc (thr d L))) (v2 c0 : BitVec 32) :
      (((sB4 : Memref sig .scVector .vmem S128x128 .f32).view.loc (thr d L) ↦{fullShare} f) : sProp 𝕄)
        ⊢ wp frame (wpE (defs₀ (F := F)) 𝒱₀ (thr d L) none) Set.univ
            (Scf.Loop.for k0_t5_loop k0_t5_ok ⟨⟩ (k0_t5_body L tabV (Memref.isWhole_whole _) idxV (Memref.isWhole_whole _) outV (Memref.isWhole_whole _) sI (Memref.isWhole_whole _)
              sB1 (Memref.isWhole_whole _) sB2 (Memref.isWhole_whole _) sB3 (Memref.isWhole_whole _) sB4 (Memref.isWhole_whole _) sB5 (Memref.isWhole_whole _)
              cc0_scratch6 cc0_scratch7 cc0_scratch8 cc0_scratch9 cc0_scratch10 cc0_scratch11 cc0_scratch12 cc0_scratch13 cc0_scratch14 cc0_scratch15 cc0_scoped0 v2 c0))
            fun _ => ((sB4 : Memref sig .scVector .vmem S128x128 .f32).view.loc (thr d L) ↦{fullShare} scaled f) := by
  iintro H
  sl_for (inv4 d L f) $$ [H]
  case region =>
    intro k a
    unfold inv4
    iintro H
    sl_exec
    sl_step
    have hg0 : ∀ j : S128x128.Idx, 2 * k.val ≤ (j 0).val →
        (sB4 : Memref sig .scVector .vmem S128x128 .f32).view.read (Elt F) (upTo f k.val) j = f j := fun j hj => upTo_of_le hj
    iapply (pts_of_eq ?heq) $$ H
    case heq =>
      sl_unfold_run_names
      -- the stored pieces as plain terms over the loaded lanes
      simp only [k0_pay1, k0_pay2, k0_pay3, k0_pay4, k0_pay5, k0_pay6, k0_pay7, k0_pay8, k0_pay9, k0_pay10,
        k0_pay11, k0_pay12, k0_pay13, k0_pay14, k0_pay15, k0_pay16, k0_pay17, k0_pay18, k0_pay19, k0_pay20,
        k0_pay21, k0_pay22, k0_pay23, k0_pay24, k0_pay25, k0_pay26, k0_pay27, k0_pay28, k0_pay29, k0_pay30,
        k0_pay31, k0_pay32, k0_pay33, k0_pay34, k0_pay35, k0_pay36, k0_pay37, k0_pay38, k0_pay39, k0_pay40,
        k0_pay41, k0_pay42, k0_pay43, k0_pay44, k0_pay45, k0_pay46, k0_pay47, k0_pay48, k0_pay49, k0_pay50,
        k0_pay51, k0_pay52, k0_pay53, k0_pay54, k0_pay55, k0_pay56, k0_pay57, k0_pay58, k0_pay59, k0_pay60,
        k0_pay61, k0_pay62, k0_pay63, k0_pay64, k0_pay65, k0_pay66, k0_pay67, k0_pay68, k0_pay69, k0_pay70,
        k0_pay71, k0_pay72, k0_pay73, k0_pay74, k0_pay75, k0_pay76, k0_pay77, k0_pay78, k0_pay79, k0_pay80,
        k0_pay81, k0_pay82, k0_pay83, k0_pay84, k0_pay85, k0_pay86, k0_pay87, k0_pay88, k0_pay89, k0_pay90,
        k0_pay91, k0_pay92, k0_pay93, k0_pay94, k0_pay95, k0_pay96, k0_pay97, k0_pay98, k0_pay99, k0_pay100]
      refine ext4 (Done.last _ ?_)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      exact Done.zero _ (fun j => rfl)
  · isplitl [H]
    · unfold inv4
      iapply (pts_of_eq (upTo_zero f).symm) $$ H
    · iintro %acc HI
      unfold inv4
      iapply (pts_of_eq ?heq) $$ HI
      case heq =>
        have ht : Scf.trips k0_t5_loop.lb k0_t5_loop.ub k0_t5_loop.st = 64 := by decide
        rw [ht]; exact upTo_last f

end Cert.Proof.KB

end
-- ==== Proof.KB.RowLoop5.lean ====
/-
  Row loop 5 of the kernel: the 128 x 128 row buffer number 5 multiplied, entry by entry, by the scale.

  The loop runs sixty-four trips; trip `k` rewrites rows `2 k` and `2 k + 1`. Its invariant: before trip `k` the buffer
  holds the contents the loop started from with the rows below `2 k` scaled. One trip is sixteen loads of the contents
  it started with and sixteen stores, read back as one function by the shared lemmas on the trip's pieces; after the
  last trip `2 * 64 = 128` rows are scaled, that is all of them.
-/
import proofs.«219849_g103079215527_week1_w1_1010_20_alg».proof.Proof.KB.RowLib

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.KB.Row

variable {F : FTy → Type} [FloatOps F]

local notation "𝕄" => MT nD τ sig (HIx 1) (Elt F) ℕ UU ℕ

/-- The loop's invariant: before trip `k` the buffer holds `f` with the rows below `2 k` scaled. -/
def Row.inv5 (d : Dev nD) (L : grid0.Coords) (f : S128x128.Idx → Elt F (.f32 : EltTy)) (k : ℕ) (_ : Unit) : sProp 𝕄 :=
  (sB5 : Memref sig .scVector .vmem S128x128 .f32).view.loc (thr d L) ↦{fullShare} upTo f k

omit [FloatOps F] in
/-- Through the whole buffer, contents that read alike are equal. -/
private theorem Row.ext5 {g g' : (sB5 : Memref sig .scVector .vmem S128x128 .f32).view.ty.Contents (Elt F)}
    (h : ∀ j, (sB5 : Memref sig .scVector .vmem S128x128 .f32).view.read (Elt F) g j = g' j) : g = g' := funext h

/-- Row loop 5: every entry of the buffer is multiplied by the scale. Trip `k` rewrites rows `2 k` and `2 k + 1`
    in sixteen pieces, each loaded from the contents the trip started with and stored back scaled. -/
theorem rowLoop5 (d : Dev nD) (L : grid0.Coords) (f : Buf (Elt F) ((sB5 : Memref sig .scVector .vmem S128x128 .f32).view.loc (thr d L))) (v2 : BitVec 32) :
      (((sB5 : Memref sig .scVector .vmem S128x128 .f32).view.loc (thr d L) ↦{fullShare} f) : sProp 𝕄)
        ⊢ wp frame (wpE (defs₀ (F := F)) 𝒱₀ (thr d L) none) Set.univ
            (Scf.Loop.for k0_t6_loop k0_t6_ok ⟨⟩ (k0_t6_body L tabV (Memref.isWhole_whole _) idxV (Memref.isWhole_whole _) outV (Memref.isWhole_whole _) sI (Memref.isWhole_whole _)
              sB1 (Memref.isWhole_whole _) sB2 (Memref.isWhole_whole _) sB3 (Memref.isWhole_whole _) sB4 (Memref.isWhole_whole _) sB5 (Memref.isWhole_whole _)
              cc0_scratch6 cc0_scratch7 cc0_scratch8 cc0_scratch9 cc0_scratch10 cc0_scratch11 cc0_scratch12 cc0_scratch13 cc0_scratch14 cc0_scratch15 cc0_scoped0 v2))
            fun _ => ((sB5 : Memref sig .scVector .vmem S128x128 .f32).view.loc (thr d L) ↦{fullShare} scaled f) := by
  iintro H
  sl_for (inv5 d L f) $$ [H]
  case region =>
    intro k a
    unfold inv5
    iintro H
    sl_exec
    sl_step
    have hg0 : ∀ j : S128x128.Idx, 2 * k.val ≤ (j 0).val →
        (sB5 : Memref sig .scVector .vmem S128x128 .f32).view.read (Elt F) (upTo f k.val) j = f j := fun j hj => upTo_of_le hj
    iapply (pts_of_eq ?heq) $$ H
    case heq =>
      sl_unfold_run_names
      -- the stored pieces as plain terms over the loaded lanes
      simp only [k0_pay1, k0_pay2, k0_pay3, k0_pay4, k0_pay5, k0_pay6, k0_pay7, k0_pay8, k0_pay9, k0_pay10,
        k0_pay11, k0_pay12, k0_pay13, k0_pay14, k0_pay15, k0_pay16, k0_pay17, k0_pay18, k0_pay19, k0_pay20,
        k0_pay21, k0_pay22, k0_pay23, k0_pay24, k0_pay25, k0_pay26, k0_pay27, k0_pay28, k0_pay29, k0_pay30,
        k0_pay31, k0_pay32, k0_pay33, k0_pay34, k0_pay35, k0_pay36, k0_pay37, k0_pay38, k0_pay39, k0_pay40,
        k0_pay41, k0_pay42, k0_pay43, k0_pay44, k0_pay45, k0_pay46, k0_pay47, k0_pay48, k0_pay49, k0_pay50,
        k0_pay51, k0_pay52, k0_pay53, k0_pay54, k0_pay55, k0_pay56, k0_pay57, k0_pay58, k0_pay59, k0_pay60,
        k0_pay61, k0_pay62, k0_pay63, k0_pay64, k0_pay65, k0_pay66, k0_pay67, k0_pay68, k0_pay69, k0_pay70,
        k0_pay71, k0_pay72, k0_pay73, k0_pay74, k0_pay75, k0_pay76, k0_pay77, k0_pay78, k0_pay79, k0_pay80,
        k0_pay81, k0_pay82, k0_pay83, k0_pay84, k0_pay85, k0_pay86, k0_pay87, k0_pay88, k0_pay89, k0_pay90,
        k0_pay91, k0_pay92, k0_pay93, k0_pay94, k0_pay95, k0_pay96, k0_pay97, k0_pay98, k0_pay99, k0_pay100]
      refine ext5 (Done.last _ ?_)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      refine Done.step _ ?_ (by omega) hg0 _ ClosedOff.eq _ (fun x => pay_apply _ _ _ x)
      exact Done.zero _ (fun j => rfl)
  · isplitl [H]
    · unfold inv5
      iapply (pts_of_eq (upTo_zero f).symm) $$ H
    · iintro %acc HI
      unfold inv5
      iapply (pts_of_eq ?heq) $$ HI
      case heq =>
        have ht : Scf.trips k0_t6_loop.lb k0_t6_loop.ub k0_t6_loop.st = 64 := by decide
        rw [ht]; exact upTo_last f

end Cert.Proof.KB

end
-- ==== Proof.KB.TripA.lean ====
/-
  One trip of the outer loop, the conditional taken (trip k, k < 39).

  Per row buffer: the gather of index row 5 k + b lands; the buffer is scaled; its write-out into output chunk
  5 k + b starts. Then, per row buffer again: the write-out lands, so the chunk holds the flat lookup, and the gather
  of index row 5 k + 5 + b is fired into the buffer. The trip gives back the five index rows it waited for and the
  five chunks at the lookup, and leaves the five new gathers in flight.
-/
import proofs.«219849_g103079215527_week1_w1_1010_20_alg».proof.Proof.KB.Inv
import proofs.«219849_g103079215527_week1_w1_1010_20_alg».proof.Proof.KB.Conv
import proofs.«219849_g103079215527_week1_w1_1010_20_alg».proof.Proof.KB.RowLoop1
import proofs.«219849_g103079215527_week1_w1_1010_20_alg».proof.Proof.KB.RowLoop2
import proofs.«219849_g103079215527_week1_w1_1010_20_alg».proof.Proof.KB.RowLoop3
import proofs.«219849_g103079215527_week1_w1_1010_20_alg».proof.Proof.KB.RowLoop4
import proofs.«219849_g103079215527_week1_w1_1010_20_alg».proof.Proof.KB.RowLoop5

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]
variable (m : (ℓ : Loc nD τ sig) → Buf (Elt F) ℓ) (d : Dev nD) (L : grid0.Coords)
variable (fI : Buf (Elt F) ((sI : Memref sig .scVector .vmem S200x128 .i32).view.loc (thr d L)))

omit [FloatOps F] in
/-- The trip's output offsets: chunk 5 k + r of the worker. -/
theorem off11_closed (k : Fin k0_t1_loop.trips) (r : Fin 5) :
    k0_off11 L k (BitVec.ofNat 32 r.val) = ![128 * (200 * widL L + (5 * k.val + r.val)), 0] := by
  rw [k0_off11_eq]; unfold widL widN; congr 1; omega
omit [FloatOps F] in
/-- The offsets of the index rows the trip fires: row 5 k + 5 + r. -/
theorem off45_closed (k : Fin k0_t1_loop.trips) (r : Fin 5) : k0_off45 k (BitVec.ofNat 32 r.val) = ![5 * k.val + 5 + r.val, 0] := by
  rw [k0_off45_eq]; congr 1; omega

theorem tripA (hpre : PreOK m) (O : CellTallies nD τ sig (HIx 1)) (W : Waits sig (HIx 1)) (v2 : BitVec 32) (k : Fin k0_t1_loop.trips) (hk39 : k.val < 39) (hc : k0_cond1 k = 1#1)
    (row1 : Fin 2 → Nat) (hk1 : ∀ a, row1 a + S1x128.size a ≤ S200x128.size a) (hrow1 : row1 = ![5 * k.val, 0]) (fp1 : Buf (Elt F) ((sB1 : sBty).view.loc (thr d L)))
    (row2 : Fin 2 → Nat) (hk2 : ∀ a, row2 a + S1x128.size a ≤ S200x128.size a) (hrow2 : row2 = ![5 * k.val + 1, 0]) (fp2 : Buf (Elt F) ((sB2 : sBty).view.loc (thr d L)))
    (row3 : Fin 2 → Nat) (hk3 : ∀ a, row3 a + S1x128.size a ≤ S200x128.size a) (hrow3 : row3 = ![5 * k.val + 2, 0]) (fp3 : Buf (Elt F) ((sB3 : sBty).view.loc (thr d L)))
    (row4 : Fin 2 → Nat) (hk4 : ∀ a, row4 a + S1x128.size a ≤ S200x128.size a) (hrow4 : row4 = ![5 * k.val + 3, 0]) (fp4 : Buf (Elt F) ((sB4 : sBty).view.loc (thr d L)))
    (row5 : Fin 2 → Nat) (hk5 : ∀ a, row5 a + S1x128.size a ≤ S200x128.size a) (hrow5 : row5 = ![5 * k.val + 4, 0]) (fp5 : Buf (Elt F) ((sB5 : sBty).view.loc (thr d L))) :
    iprop(□ Transfers.MayWaits (thr d L) (none : HIx 1) O
      ∗ gFlight m d L fI cc0_scratch6 sB1 0 row1 hk1 (hinAll m d L fI hpre row1 hk1) fp1
      ∗ gFlight m d L fI cc0_scratch7 sB2 1 row2 hk2 (hinAll m d L fI hpre row2 hk2) fp2
      ∗ gFlight m d L fI cc0_scratch8 sB3 2 row3 hk3 (hinAll m d L fI hpre row3 hk3) fp3
      ∗ gFlight m d L fI cc0_scratch9 sB4 3 row4 hk4 (hinAll m d L fI hpre row4 hk4) fp4
      ∗ gFlight m d L fI cc0_scratch10 sB5 4 row5 hk5 (hinAll m d L fI hpre row5 hk5) fp5
      ∗ semVal (thr d L, SemLoc.dma cc0_scratch11.sem) 0
      ∗ semVal (thr d L, SemLoc.dma cc0_scratch12.sem) 0
      ∗ semVal (thr d L, SemLoc.dma cc0_scratch13.sem) 0
      ∗ semVal (thr d L, SemLoc.dma cc0_scratch14.sem) 0
      ∗ semVal (thr d L, SemLoc.dma cc0_scratch15.sem) 0
      ∗ (outLoc d ↦[chunkN (200 * widL L + (5 * k.val))]{fullShare} m (outLoc d))
      ∗ (outLoc d ↦[chunkN (200 * widL L + (5 * k.val + 1))]{fullShare} m (outLoc d))
      ∗ (outLoc d ↦[chunkN (200 * widL L + (5 * k.val + 2))]{fullShare} m (outLoc d))
      ∗ (outLoc d ↦[chunkN (200 * widL L + (5 * k.val + 3))]{fullShare} m (outLoc d))
      ∗ (outLoc d ↦[chunkN (200 * widL L + (5 * k.val + 4))]{fullShare} m (outLoc d))
      ∗ ((sI : Memref sig .scVector .vmem S200x128 .i32).view.loc (thr d L) ↦[rowSetN (5 * k.val + 5)]{fullShare} cI m d L fI)
      ∗ ((sI : Memref sig .scVector .vmem S200x128 .i32).view.loc (thr d L) ↦[rowSetN (5 * k.val + 5 + 1)]{fullShare} cI m d L fI)
      ∗ ((sI : Memref sig .scVector .vmem S200x128 .i32).view.loc (thr d L) ↦[rowSetN (5 * k.val + 5 + 2)]{fullShare} cI m d L fI)
      ∗ ((sI : Memref sig .scVector .vmem S200x128 .i32).view.loc (thr d L) ↦[rowSetN (5 * k.val + 5 + 3)]{fullShare} cI m d L fI)
      ∗ ((sI : Memref sig .scVector .vmem S200x128 .i32).view.loc (thr d L) ↦[rowSetN (5 * k.val + 5 + 4)]{fullShare} cI m d L fI)
      ∗ owes (thr d L) O W)
    ⊢ wp frame (wpE (defs₀ (F := F)) 𝒱₀ (thr d L) none) Set.univ
        (k0_t1_body L tabV (Memref.isWhole_whole _) idxV (Memref.isWhole_whole _) outV (Memref.isWhole_whole _) sI (Memref.isWhole_whole _)
            sB1 (Memref.isWhole_whole _) sB2 (Memref.isWhole_whole _) sB3 (Memref.isWhole_whole _) sB4 (Memref.isWhole_whole _) sB5 (Memref.isWhole_whole _)
            cc0_scratch6 cc0_scratch7 cc0_scratch8 cc0_scratch9 cc0_scratch10 cc0_scratch11 cc0_scratch12 cc0_scratch13 cc0_scratch14 cc0_scratch15 cc0_scoped0 v2 k ⟨⟩)
        fun _ => iprop(
          gAtom m d L fI hpre cc0_scratch6 sB1 0 (5 * k.val + 5)
          ∗ gAtom m d L fI hpre cc0_scratch7 sB2 1 (5 * k.val + 5 + 1)
          ∗ gAtom m d L fI hpre cc0_scratch8 sB3 2 (5 * k.val + 5 + 2)
          ∗ gAtom m d L fI hpre cc0_scratch9 sB4 3 (5 * k.val + 5 + 3)
          ∗ gAtom m d L fI hpre cc0_scratch10 sB5 4 (5 * k.val + 5 + 4)
          ∗ semVal (thr d L, SemLoc.dma cc0_scratch11.sem) 0
          ∗ semVal (thr d L, SemLoc.dma cc0_scratch12.sem) 0
          ∗ semVal (thr d L, SemLoc.dma cc0_scratch13.sem) 0
          ∗ semVal (thr d L, SemLoc.dma cc0_scratch14.sem) 0
          ∗ semVal (thr d L, SemLoc.dma cc0_scratch15.sem) 0
          ∗ (outLoc d ↦[chunkN (200 * widL L + (5 * k.val))]{fullShare} flatOf m d)
          ∗ (outLoc d ↦[chunkN (200 * widL L + (5 * k.val + 1))]{fullShare} flatOf m d)
          ∗ (outLoc d ↦[chunkN (200 * widL L + (5 * k.val + 2))]{fullShare} flatOf m d)
          ∗ (outLoc d ↦[chunkN (200 * widL L + (5 * k.val + 3))]{fullShare} flatOf m d)
          ∗ (outLoc d ↦[chunkN (200 * widL L + (5 * k.val + 4))]{fullShare} flatOf m d)
          ∗ ((sI : Memref sig .scVector .vmem S200x128 .i32).view.loc (thr d L) ↦[rowSetN (5 * k.val)]{fullShare} cI m d L fI)
          ∗ ((sI : Memref sig .scVector .vmem S200x128 .i32).view.loc (thr d L) ↦[rowSetN (5 * k.val + 1)]{fullShare} cI m d L fI)
          ∗ ((sI : Memref sig .scVector .vmem S200x128 .i32).view.loc (thr d L) ↦[rowSetN (5 * k.val + 2)]{fullShare} cI m d L fI)
          ∗ ((sI : Memref sig .scVector .vmem S200x128 .i32).view.loc (thr d L) ↦[rowSetN (5 * k.val + 3)]{fullShare} cI m d L fI)
          ∗ ((sI : Memref sig .scVector .vmem S200x128 .i32).view.loc (thr d L) ↦[rowSetN (5 * k.val + 4)]{fullShare} cI m d L fI)
          ∗ owesI d L O W) := by
  unfold gFlight
  iintro ⟨#Hmw, Hf1, Hf2, Hf3, Hf4, Hf5, Hw1, Hw2, Hw3, Hw4, Hw5, Ho0, Ho1, Ho2, Ho3, Ho4, Hn0, Hn1, Hn2, Hn3, Hn4, HO⟩
  ihave Ho0' := (Entails.of_eq (pts_out (F := F) d L (k0_off11 L k (BitVec.ofNat 32 0)) (k0_off11_inb L k 0) (200 * widL L + (5 * k.val)) (off11_closed L k 0) _).symm) $$ Ho0
  ihave Ho1' := (Entails.of_eq (pts_out (F := F) d L (k0_off11 L k (BitVec.ofNat 32 1)) (k0_off11_inb L k 1) (200 * widL L + (5 * k.val + 1)) (off11_closed L k 1) _).symm) $$ Ho1
  ihave Ho2' := (Entails.of_eq (pts_out (F := F) d L (k0_off11 L k (BitVec.ofNat 32 2)) (k0_off11_inb L k 2) (200 * widL L + (5 * k.val + 2)) (off11_closed L k 2) _).symm) $$ Ho2
  ihave Ho3' := (Entails.of_eq (pts_out (F := F) d L (k0_off11 L k (BitVec.ofNat 32 3)) (k0_off11_inb L k 3) (200 * widL L + (5 * k.val + 3)) (off11_closed L k 3) _).symm) $$ Ho3
  ihave Ho4' := (Entails.of_eq (pts_out (F := F) d L (k0_off11 L k (BitVec.ofNat 32 4)) (k0_off11_inb L k 4) (200 * widL L + (5 * k.val + 4)) (off11_closed L k 4) _).symm) $$ Ho4
  ihave Hn0' := (Entails.of_eq (pts_row (F := F) d L (k0_off45 k (BitVec.ofNat 32 0)) (k0_off45_inb k hc 0) (5 * k.val + 5) (off45_closed k 0) _).symm) $$ Hn0
  ihave Hn1' := (Entails.of_eq (pts_row (F := F) d L (k0_off45 k (BitVec.ofNat 32 1)) (k0_off45_inb k hc 1) (5 * k.val + 5 + 1) (off45_closed k 1) _).symm) $$ Hn1
  ihave Hn2' := (Entails.of_eq (pts_row (F := F) d L (k0_off45 k (BitVec.ofNat 32 2)) (k0_off45_inb k hc 2) (5 * k.val + 5 + 2) (off45_closed k 2) _).symm) $$ Hn2
  ihave Hn3' := (Entails.of_eq (pts_row (F := F) d L (k0_off45 k (BitVec.ofNat 32 3)) (k0_off45_inb k hc 3) (5 * k.val + 5 + 3) (off45_closed k 3) _).symm) $$ Hn3
  ihave Hn4' := (Entails.of_eq (pts_row (F := F) d L (k0_off45 k (BitVec.ofNat 32 4)) (k0_off45_inb k hc 4) (5 * k.val + 5 + 4) (off45_closed k 4) _).symm) $$ Hn4
  have hidx := fun (g0 : Buf (Elt F) ((sI : Memref sig .scVector .vmem S200x128 .i32).view.loc (thr d L))) row hk hs hq => inb_of_pre m d L hpre g0 (PAY m d L) rfl row hk hs hq
  unfold k0_t1_body
  sl_exec
  icases Hf1_dst with ⟨Hb1, Hrw1⟩
  ihave Hb1w := (Entails.of_eq (pts_W0 (F := F) d L sB1 (Memref.isWhole_whole _) _)) $$ Hb1
  rw [wp_bind]
  iapply (wp_wand_r Idealize.ShloMosaic.frame (wpE (defs₀ (F := F)) 𝒱₀ (thr d L) none) Set.univ)
  isplitl [Hb1w]
  · iapply (rowLoop1 (F := F) d L _ v2 0#32 1#32 k); iexact Hb1w
  iintro %_ Hb1s
  sl_exec
  icases Hf2_dst with ⟨Hb2, Hrw2⟩
  ihave Hb2w := (Entails.of_eq (pts_W0 (F := F) d L sB2 (Memref.isWhole_whole _) _)) $$ Hb2
  rw [wp_bind]
  iapply (wp_wand_r Idealize.ShloMosaic.frame (wpE (defs₀ (F := F)) 𝒱₀ (thr d L) none) Set.univ)
  isplitl [Hb2w]
  · iapply (rowLoop2 (F := F) d L _ v2 0#32 1#32 k); iexact Hb2w
  iintro %_ Hb2s
  sl_exec
  icases Hf3_dst with ⟨Hb3, Hrw3⟩
  ihave Hb3w := (Entails.of_eq (pts_W0 (F := F) d L sB3 (Memref.isWhole_whole _) _)) $$ Hb3
  rw [wp_bind]
  iapply (wp_wand_r Idealize.ShloMosaic.frame (wpE (defs₀ (F := F)) 𝒱₀ (thr d L) none) Set.univ)
  isplitl [Hb3w]
  · iapply (rowLoop3 (F := F) d L _ v2 k _ _); iexact Hb3w
  iintro %_ Hb3s
  sl_exec
  icases Hf4_dst with ⟨Hb4, Hrw4⟩
  ihave Hb4w := (Entails.of_eq (pts_W0 (F := F) d L sB4 (Memref.isWhole_whole _) _)) $$ Hb4
  rw [wp_bind]
  iapply (wp_wand_r Idealize.ShloMosaic.frame (wpE (defs₀ (F := F)) 𝒱₀ (thr d L) none) Set.univ)
  isplitl [Hb4w]
  · iapply (rowLoop4 (F := F) d L _ v2 _); iexact Hb4w
  iintro %_ Hb4s
  sl_exec
  icases Hf5_dst with ⟨Hb5, Hrw5⟩
  ihave Hb5w := (Entails.of_eq (pts_W0 (F := F) d L sB5 (Memref.isWhole_whole _) _)) $$ Hb5
  rw [wp_bind]
  iapply (wp_wand_r Idealize.ShloMosaic.frame (wpE (defs₀ (F := F)) 𝒱₀ (thr d L) none) Set.univ)
  isplitl [Hb5w]
  · iapply (rowLoop5 (F := F) d L _ v2); iexact Hb5w
  iintro %_ Hb5s
  ihave Ht1 := (Entails.of_eq (pts_T0 (F := F) d L _ _)) $$ Hf1_src
  ihave Ht2 := (Entails.of_eq (pts_T0 (F := F) d L _ _)) $$ Hf2_src
  ihave Ht3 := (Entails.of_eq (pts_T0 (F := F) d L _ _)) $$ Hf3_src
  ihave Ht4 := (Entails.of_eq (pts_T0 (F := F) d L _ _)) $$ Hf4_src
  ihave Ht5 := (Entails.of_eq (pts_T0 (F := F) d L _ _)) $$ Hf5_src
  sl_exec
  sl_step
  -- the five gathers fired
  isplitl [Hf1]
  · unfold gAtom
    iexists (⟨k0_off45 k (BitVec.ofNat 32 0), k0_off45_inb k hc 0⟩ : RowOff); iexists _; isplitr
    · ipureintro; exact off45_closed k 0
    · unfold gFlight; iexact Hf1
  isplitl [Hf2]
  · unfold gAtom
    iexists (⟨k0_off45 k (BitVec.ofNat 32 1), k0_off45_inb k hc 1⟩ : RowOff); iexists _; isplitr
    · ipureintro; exact off45_closed k 1
    · unfold gFlight; iexact Hf2
  isplitl [Hf3]
  · unfold gAtom
    iexists (⟨k0_off45 k (BitVec.ofNat 32 2), k0_off45_inb k hc 2⟩ : RowOff); iexists _; isplitr
    · ipureintro; exact off45_closed k 2
    · unfold gFlight; iexact Hf3
  isplitl [Hf4]
  · unfold gAtom
    iexists (⟨k0_off45 k (BitVec.ofNat 32 3), k0_off45_inb k hc 3⟩ : RowOff); iexists _; isplitr
    · ipureintro; exact off45_closed k 3
    · unfold gFlight; iexact Hf4
  isplitl [Hf5]
  · unfold gAtom
    iexists (⟨k0_off45 k (BitVec.ofNat 32 4), k0_off45_inb k hc 4⟩ : RowOff); iexists _; isplitr
    · ipureintro; exact off45_closed k 4
    · unfold gFlight; iexact Hf5
  -- the write-out semaphores, back at zero
  isplitl [Hw1]; · iexact Hw1
  isplitl [Hw2]; · iexact Hw2
  isplitl [Hw3]; · iexact Hw3
  isplitl [Hw4]; · iexact Hw4
  isplitl [Hw5]; · iexact Hw5
  -- the five chunks, at the flat lookup
  isplitl [Ho0']
  · iapply (Entails.of_eq (pts_chunk_sB1 m d L fI hpre _ _ (5 * k.val) (by omega) (off11_closed L k 0) row1 hk1 (hinAll m d L fI hpre row1 hk1) hrow1 fp1 _ rfl)); iexact Ho0'
  isplitl [Ho1']
  · iapply (Entails.of_eq (pts_chunk_sB2 m d L fI hpre _ _ (5 * k.val + 1) (by omega) (off11_closed L k 1) row2 hk2 (hinAll m d L fI hpre row2 hk2) hrow2 fp2 _ rfl)); iexact Ho1'
  isplitl [Ho2']
  · iapply (Entails.of_eq (pts_chunk_sB3 m d L fI hpre _ _ (5 * k.val + 2) (by omega) (off11_closed L k 2) row3 hk3 (hinAll m d L fI hpre row3 hk3) hrow3 fp3 _ rfl)); iexact Ho2'
  isplitl [Ho3']
  · iapply (Entails.of_eq (pts_chunk_sB4 m d L fI hpre _ _ (5 * k.val + 3) (by omega) (off11_closed L k 3) row4 hk4 (hinAll m d L fI hpre row4 hk4) hrow4 fp4 _ rfl)); iexact Ho3'
  isplitl [Ho4']
  · iapply (Entails.of_eq (pts_chunk_sB5 m d L fI hpre _ _ (5 * k.val + 4) (by omega) (off11_closed L k 4) row5 hk5 (hinAll m d L fI hpre row5 hk5) hrow5 fp5 _ rfl)); iexact Ho4'
  -- the five index rows the gathers held
  isplitl [Hrw1]
  · iapply (Entails.of_eq (pts_row (F := F) d L row1 hk1 (5 * k.val) hrow1 _)); iexact Hrw1
  isplitl [Hrw2]
  · iapply (Entails.of_eq (pts_row (F := F) d L row2 hk2 (5 * k.val + 1) hrow2 _)); iexact Hrw2
  isplitl [Hrw3]
  · iapply (Entails.of_eq (pts_row (F := F) d L row3 hk3 (5 * k.val + 2) hrow3 _)); iexact Hrw3
  isplitl [Hrw4]
  · iapply (Entails.of_eq (pts_row (F := F) d L row4 hk4 (5 * k.val + 3) hrow4 _)); iexact Hrw4
  isplitl [Hrw5]
  · iapply (Entails.of_eq (pts_row (F := F) d L row5 hk5 (5 * k.val + 4) hrow5 _)); iexact Hrw5
  unfold owesI
  iexists _; isplitr
  rotate_left
  · iexact HO
  · ipureintro; intro p hp
    simp only [Finset.mem_insert] at hp
    rcases hp with rfl | rfl | rfl | rfl | rfl | rfl | rfl | rfl | rfl | rfl | hp
    all_goals first | exact .inr rfl | exact .inl hp

end Cert.Proof.KB

end
-- ==== Proof.KB.TripLast.lean ====
/-
  The last trip of a worker's outer loop.

  A worker handles its 200 index rows five at a time, in 40 trips. Trip g works on rows 5 g, ..., 5 g + 4, one per row
  buffer. When a trip starts, the five gathers for its rows are in flight, one per buffer, each on its own semaphore; the
  five write-out semaphores are at zero; and the worker holds the five output chunks 200 w + 5 g, ..., 200 w + 5 g + 4 at
  their launch contents.

  For each buffer in turn the trip waits for the buffer's gather, which brings back the buffer (now holding, at row p, the
  table row that word p of the index row names), the index row, and the worker's read share of the table; it multiplies
  every entry of the buffer by the scale (the inner loop, proved on its own); and it starts the copy of the buffer into
  the buffer's output chunk. A copy in flight carries its source and its destination, so after the fifth buffer the
  worker holds five write-outs in flight, each carrying a chunk written with the scaled buffer and the buffer itself,
  together with the five gather semaphores at zero, the five read shares of the table and the five index rows.

  On every trip but the last the worker then waits for each write-out and starts the gather of the next trip's row into
  the freed buffer. The test for that is "g < 39": on trip 39 it fails, nothing more is done, and the state just
  described is the state after the trip: the write-outs of chunks 200 w + 195, ..., 200 w + 199, holding the scaled
  gathers of index rows 195, ..., 199. That is the statement below. The five waits taken on the way are recorded among
  the waits the worker has made; none of them is a wait on another thread's signal.
-/
import proofs.«219849_g103079215527_week1_w1_1010_20_alg».proof.Proof.KB.Inv
import proofs.«219849_g103079215527_week1_w1_1010_20_alg».proof.Proof.KB.Conv
import proofs.«219849_g103079215527_week1_w1_1010_20_alg».proof.Proof.KB.RowLoop1
import proofs.«219849_g103079215527_week1_w1_1010_20_alg».proof.Proof.KB.RowLoop2
import proofs.«219849_g103079215527_week1_w1_1010_20_alg».proof.Proof.KB.RowLoop3
import proofs.«219849_g103079215527_week1_w1_1010_20_alg».proof.Proof.KB.RowLoop4
import proofs.«219849_g103079215527_week1_w1_1010_20_alg».proof.Proof.KB.RowLoop5

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]
variable (m : (ℓ : Loc nD τ sig) → Buf (Elt F) ℓ) (d : Dev nD) (L : grid0.Coords)
variable (fI : Buf (Elt F) ((sI : Memref sig .scVector .vmem S200x128 .i32).view.loc (thr d L)))

/-- Where block r of trip g is written: the offsets of chunk 200 w + (5 g + r) of the output. -/
theorem off11_at (g : Fin k0_t1_loop.trips) (r : Fin 5) :
    k0_off11 L g (BitVec.ofNat 32 r.val) = ![128 * (200 * widL L + (5 * g.val + r.val)), 0] := by
  rw [k0_off11_eq]
  exact congrArg (fun t => (![t, 0] : Fin 2 → ℕ)) (by
    show _ = 128 * (200 * (2 * (L 1).val + (L 0).val) + (5 * g.val + r.val)); omega)

theorem tripLast (hpre : PreOK m) (O : CellTallies nD τ sig (HIx 1)) (W : Waits sig (HIx 1)) (v2 : BitVec 32) (k : Fin k0_t1_loop.trips) (hk : k.val = 39)
    (row1 : Fin 2 → Nat) (hk1 : ∀ a, row1 a + S1x128.size a ≤ S200x128.size a) (hrow1 : row1 = ![5 * k.val, 0]) (fp1 : Buf (Elt F) ((sB1 : sBty).view.loc (thr d L)))
    (row2 : Fin 2 → Nat) (hk2 : ∀ a, row2 a + S1x128.size a ≤ S200x128.size a) (hrow2 : row2 = ![5 * k.val + 1, 0]) (fp2 : Buf (Elt F) ((sB2 : sBty).view.loc (thr d L)))
    (row3 : Fin 2 → Nat) (hk3 : ∀ a, row3 a + S1x128.size a ≤ S200x128.size a) (hrow3 : row3 = ![5 * k.val + 2, 0]) (fp3 : Buf (Elt F) ((sB3 : sBty).view.loc (thr d L)))
    (row4 : Fin 2 → Nat) (hk4 : ∀ a, row4 a + S1x128.size a ≤ S200x128.size a) (hrow4 : row4 = ![5 * k.val + 3, 0]) (fp4 : Buf (Elt F) ((sB4 : sBty).view.loc (thr d L)))
    (row5 : Fin 2 → Nat) (hk5 : ∀ a, row5 a + S1x128.size a ≤ S200x128.size a) (hrow5 : row5 = ![5 * k.val + 4, 0]) (fp5 : Buf (Elt F) ((sB5 : sBty).view.loc (thr d L))) :
    iprop(□ Transfers.MayWaits (thr d L) (none : HIx 1) O
      ∗ gFlight m d L fI cc0_scratch6 sB1 0 row1 hk1 (hinAll m d L fI hpre row1 hk1) fp1
      ∗ gFlight m d L fI cc0_scratch7 sB2 1 row2 hk2 (hinAll m d L fI hpre row2 hk2) fp2
      ∗ gFlight m d L fI cc0_scratch8 sB3 2 row3 hk3 (hinAll m d L fI hpre row3 hk3) fp3
      ∗ gFlight m d L fI cc0_scratch9 sB4 3 row4 hk4 (hinAll m d L fI hpre row4 hk4) fp4
      ∗ gFlight m d L fI cc0_scratch10 sB5 4 row5 hk5 (hinAll m d L fI hpre row5 hk5) fp5
      ∗ semVal (thr d L, SemLoc.dma cc0_scratch11.sem) 0
      ∗ semVal (thr d L, SemLoc.dma cc0_scratch12.sem) 0
      ∗ semVal (thr d L, SemLoc.dma cc0_scratch13.sem) 0
      ∗ semVal (thr d L, SemLoc.dma cc0_scratch14.sem) 0
      ∗ semVal (thr d L, SemLoc.dma cc0_scratch15.sem) 0
      ∗ (outLoc d ↦[chunkN (200 * widL L + (5 * k.val))]{fullShare} m (outLoc d))
      ∗ (outLoc d ↦[chunkN (200 * widL L + (5 * k.val + 1))]{fullShare} m (outLoc d))
      ∗ (outLoc d ↦[chunkN (200 * widL L + (5 * k.val + 2))]{fullShare} m (outLoc d))
      ∗ (outLoc d ↦[chunkN (200 * widL L + (5 * k.val + 3))]{fullShare} m (outLoc d))
      ∗ (outLoc d ↦[chunkN (200 * widL L + (5 * k.val + 4))]{fullShare} m (outLoc d))
      ∗ owes (thr d L) O W)
    ⊢ wp frame (wpE (defs₀ (F := F)) 𝒱₀ (thr d L) none) Set.univ
        (k0_t1_body L tabV (Memref.isWhole_whole _) idxV (Memref.isWhole_whole _) outV (Memref.isWhole_whole _) sI (Memref.isWhole_whole _)
            sB1 (Memref.isWhole_whole _) sB2 (Memref.isWhole_whole _) sB3 (Memref.isWhole_whole _) sB4 (Memref.isWhole_whole _) sB5 (Memref.isWhole_whole _)
            cc0_scratch6 cc0_scratch7 cc0_scratch8 cc0_scratch9 cc0_scratch10 cc0_scratch11 cc0_scratch12 cc0_scratch13 cc0_scratch14 cc0_scratch15 cc0_scoped0 v2 k ⟨⟩)
        fun _ => iprop(
          wAtom1 m d L fI hpre (200 * widL L + 195) 195
          ∗ wAtom2 m d L fI hpre (200 * widL L + 196) 196
          ∗ wAtom3 m d L fI hpre (200 * widL L + 197) 197
          ∗ wAtom4 m d L fI hpre (200 * widL L + 198) 198
          ∗ wAtom5 m d L fI hpre (200 * widL L + 199) 199
          ∗ semVal (thr d L, SemLoc.dma cc0_scratch6.sem) 0
          ∗ semVal (thr d L, SemLoc.dma cc0_scratch7.sem) 0
          ∗ semVal (thr d L, SemLoc.dma cc0_scratch8.sem) 0
          ∗ semVal (thr d L, SemLoc.dma cc0_scratch9.sem) 0
          ∗ semVal (thr d L, SemLoc.dma cc0_scratch10.sem) 0
          ∗ ((tabV : Memref sig .scVector .hbm S100000x128 .f32).view.loc (thr d L) ↦{Transfers.shareTokN (tk (widL L)) 0} m (tabLoc d))
          ∗ ((tabV : Memref sig .scVector .hbm S100000x128 .f32).view.loc (thr d L) ↦{Transfers.shareTokN (tk (widL L)) 1} m (tabLoc d))
          ∗ ((tabV : Memref sig .scVector .hbm S100000x128 .f32).view.loc (thr d L) ↦{Transfers.shareTokN (tk (widL L)) 2} m (tabLoc d))
          ∗ ((tabV : Memref sig .scVector .hbm S100000x128 .f32).view.loc (thr d L) ↦{Transfers.shareTokN (tk (widL L)) 3} m (tabLoc d))
          ∗ ((tabV : Memref sig .scVector .hbm S100000x128 .f32).view.loc (thr d L) ↦{Transfers.shareTokN (tk (widL L)) 4} m (tabLoc d))
          ∗ ((sI : Memref sig .scVector .vmem S200x128 .i32).view.loc (thr d L) ↦[rowSetN (5 * k.val)]{fullShare} cI m d L fI)
          ∗ ((sI : Memref sig .scVector .vmem S200x128 .i32).view.loc (thr d L) ↦[rowSetN (5 * k.val + 1)]{fullShare} cI m d L fI)
          ∗ ((sI : Memref sig .scVector .vmem S200x128 .i32).view.loc (thr d L) ↦[rowSetN (5 * k.val + 2)]{fullShare} cI m d L fI)
          ∗ ((sI : Memref sig .scVector .vmem S200x128 .i32).view.loc (thr d L) ↦[rowSetN (5 * k.val + 3)]{fullShare} cI m d L fI)
          ∗ ((sI : Memref sig .scVector .vmem S200x128 .i32).view.loc (thr d L) ↦[rowSetN (5 * k.val + 4)]{fullShare} cI m d L fI)
          ∗ owesI d L O W) := by
  -- trip 39 fails the test "g < 39"
  have hc : ¬ k0_cond1 k = 1#1 := by
    have e : k = (⟨39, by decide⟩ : Fin k0_t1_loop.trips) := Fin.ext hk
    rw [e]; decide
  unfold gFlight
  iintro ⟨#Hmw, Hf1, Hf2, Hf3, Hf4, Hf5, Hw1, Hw2, Hw3, Hw4, Hw5, Ho0, Ho1, Ho2, Ho3, Ho4, HO⟩
  ihave Ho0' := (Entails.of_eq (pts_out (F := F) d L (k0_off11 L k (BitVec.ofNat 32 0)) (k0_off11_inb L k 0) (200 * widL L + (5 * k.val)) (off11_at L k 0) _).symm) $$ Ho0
  ihave Ho1' := (Entails.of_eq (pts_out (F := F) d L (k0_off11 L k (BitVec.ofNat 32 1)) (k0_off11_inb L k 1) (200 * widL L + (5 * k.val + 1)) (off11_at L k 1) _).symm) $$ Ho1
  ihave Ho2' := (Entails.of_eq (pts_out (F := F) d L (k0_off11 L k (BitVec.ofNat 32 2)) (k0_off11_inb L k 2) (200 * widL L + (5 * k.val + 2)) (off11_at L k 2) _).symm) $$ Ho2
  ihave Ho3' := (Entails.of_eq (pts_out (F := F) d L (k0_off11 L k (BitVec.ofNat 32 3)) (k0_off11_inb L k 3) (200 * widL L + (5 * k.val + 3)) (off11_at L k 3) _).symm) $$ Ho3
  ihave Ho4' := (Entails.of_eq (pts_out (F := F) d L (k0_off11 L k (BitVec.ofNat 32 4)) (k0_off11_inb L k 4) (200 * widL L + (5 * k.val + 4)) (off11_at L k 4) _).symm) $$ Ho4
  unfold k0_t1_body
  sl_exec
  -- buffer 1: its gather has landed; scale it; then its copy to its chunk starts, and the wait for buffer 2's gather is taken
  icases Hf1_dst with ⟨Hb1, Hrw1⟩
  ihave Hb1w := (Entails.of_eq (pts_W0 (F := F) d L sB1 (Memref.isWhole_whole _) _)) $$ Hb1
  rw [wp_bind]
  iapply (wp_wand_r Idealize.ShloMosaic.frame (wpE (defs₀ (F := F)) 𝒱₀ (thr d L) none) Set.univ)
  isplitl [Hb1w]
  · iapply (rowLoop1 (F := F) d L _ v2 0#32 1#32 k); iexact Hb1w
  iintro %_ Hb1s
  sl_exec
  -- buffer 2: its gather has landed; scale it; then its copy to its chunk starts, and the wait for buffer 3's gather is taken
  icases Hf2_dst with ⟨Hb2, Hrw2⟩
  ihave Hb2w := (Entails.of_eq (pts_W0 (F := F) d L sB2 (Memref.isWhole_whole _) _)) $$ Hb2
  rw [wp_bind]
  iapply (wp_wand_r Idealize.ShloMosaic.frame (wpE (defs₀ (F := F)) 𝒱₀ (thr d L) none) Set.univ)
  isplitl [Hb2w]
  · iapply (rowLoop2 (F := F) d L _ v2 0#32 1#32 k); iexact Hb2w
  iintro %_ Hb2s
  sl_exec
  -- buffer 3: its gather has landed; scale it; then its copy to its chunk starts, and the wait for buffer 4's gather is taken
  icases Hf3_dst with ⟨Hb3, Hrw3⟩
  ihave Hb3w := (Entails.of_eq (pts_W0 (F := F) d L sB3 (Memref.isWhole_whole _) _)) $$ Hb3
  rw [wp_bind]
  iapply (wp_wand_r Idealize.ShloMosaic.frame (wpE (defs₀ (F := F)) 𝒱₀ (thr d L) none) Set.univ)
  isplitl [Hb3w]
  · iapply (rowLoop3 (F := F) d L _ v2 k _ _); iexact Hb3w
  iintro %_ Hb3s
  sl_exec
  -- buffer 4: its gather has landed; scale it; then its copy to its chunk starts, and the wait for buffer 5's gather is taken
  icases Hf4_dst with ⟨Hb4, Hrw4⟩
  ihave Hb4w := (Entails.of_eq (pts_W0 (F := F) d L sB4 (Memref.isWhole_whole _) _)) $$ Hb4
  rw [wp_bind]
  iapply (wp_wand_r Idealize.ShloMosaic.frame (wpE (defs₀ (F := F)) 𝒱₀ (thr d L) none) Set.univ)
  isplitl [Hb4w]
  · iapply (rowLoop4 (F := F) d L _ v2 _); iexact Hb4w
  iintro %_ Hb4s
  sl_exec
  -- buffer 5: its gather has landed; scale it; then its copy to its chunk starts
  icases Hf5_dst with ⟨Hb5, Hrw5⟩
  ihave Hb5w := (Entails.of_eq (pts_W0 (F := F) d L sB5 (Memref.isWhole_whole _) _)) $$ Hb5
  rw [wp_bind]
  iapply (wp_wand_r Idealize.ShloMosaic.frame (wpE (defs₀ (F := F)) 𝒱₀ (thr d L) none) Set.univ)
  isplitl [Hb5w]
  · iapply (rowLoop5 (F := F) d L _ v2); iexact Hb5w
  iintro %_ Hb5s
  sl_exec
  -- the branch is not taken; what is left is the return
  sl_step
  -- the five write-outs in flight: chunks 200 w + 195 ... 199, holding the scaled gathers of index rows 195 ... 199
  isplitl [Hw1]
  · unfold wAtom1
    iexists (⟨k0_off11 L k (BitVec.ofNat 32 0), k0_off11_inb L k 0⟩ : OutOff); iexists (⟨row1, hk1⟩ : RowOff); iexists fp1
    isplitr
    · ipureintro
      exact (off11_at L k 0).trans (congrArg (fun t : ℕ => (![128 * (200 * widL L + t), 0] : Fin 2 → ℕ)) (show 5 * k.val + 0 = 195 by omega))
    isplitr
    · ipureintro
      exact hrow1.trans (congrArg (fun t : ℕ => (![t, 0] : Fin 2 → ℕ)) (show 5 * k.val = 195 by omega))
    · unfold wFlight1; iexact Hw1
  isplitl [Hw2]
  · unfold wAtom2
    iexists (⟨k0_off11 L k (BitVec.ofNat 32 1), k0_off11_inb L k 1⟩ : OutOff); iexists (⟨row2, hk2⟩ : RowOff); iexists fp2
    isplitr
    · ipureintro
      exact (off11_at L k 1).trans (congrArg (fun t : ℕ => (![128 * (200 * widL L + t), 0] : Fin 2 → ℕ)) (show 5 * k.val + 1 = 196 by omega))
    isplitr
    · ipureintro
      exact hrow2.trans (congrArg (fun t : ℕ => (![t, 0] : Fin 2 → ℕ)) (show 5 * k.val + 1 = 196 by omega))
    · unfold wFlight2; iexact Hw2
  isplitl [Hw3]
  · unfold wAtom3
    iexists (⟨k0_off11 L k (BitVec.ofNat 32 2), k0_off11_inb L k 2⟩ : OutOff); iexists (⟨row3, hk3⟩ : RowOff); iexists fp3
    isplitr
    · ipureintro
      exact (off11_at L k 2).trans (congrArg (fun t : ℕ => (![128 * (200 * widL L + t), 0] : Fin 2 → ℕ)) (show 5 * k.val + 2 = 197 by omega))
    isplitr
    · ipureintro
      exact hrow3.trans (congrArg (fun t : ℕ => (![t, 0] : Fin 2 → ℕ)) (show 5 * k.val + 2 = 197 by omega))
    · unfold wFlight3; iexact Hw3
  isplitl [Hw4]
  · unfold wAtom4
    iexists (⟨k0_off11 L k (BitVec.ofNat 32 3), k0_off11_inb L k 3⟩ : OutOff); iexists (⟨row4, hk4⟩ : RowOff); iexists fp4
    isplitr
    · ipureintro
      exact (off11_at L k 3).trans (congrArg (fun t : ℕ => (![128 * (200 * widL L + t), 0] : Fin 2 → ℕ)) (show 5 * k.val + 3 = 198 by omega))
    isplitr
    · ipureintro
      exact hrow4.trans (congrArg (fun t : ℕ => (![t, 0] : Fin 2 → ℕ)) (show 5 * k.val + 3 = 198 by omega))
    · unfold wFlight4; iexact Hw4
  isplitl [Hw5]
  · unfold wAtom5
    iexists (⟨k0_off11 L k (BitVec.ofNat 32 4), k0_off11_inb L k 4⟩ : OutOff); iexists (⟨row5, hk5⟩ : RowOff); iexists fp5
    isplitr
    · ipureintro
      exact (off11_at L k 4).trans (congrArg (fun t : ℕ => (![128 * (200 * widL L + t), 0] : Fin 2 → ℕ)) (show 5 * k.val + 4 = 199 by omega))
    isplitr
    · ipureintro
      exact hrow5.trans (congrArg (fun t : ℕ => (![t, 0] : Fin 2 → ℕ)) (show 5 * k.val + 4 = 199 by omega))
    · unfold wFlight5; iexact Hw5
  -- the gather semaphores, back at zero
  isplitl [Hf1]; · iexact Hf1
  isplitl [Hf2]; · iexact Hf2
  isplitl [Hf3]; · iexact Hf3
  isplitl [Hf4]; · iexact Hf4
  isplitl [Hf5]; · iexact Hf5
  -- the five read shares of the table
  isplitl [Hf1_src]; · iapply (Entails.of_eq (pts_T0 (F := F) d L _ _)); iexact Hf1_src
  isplitl [Hf2_src]; · iapply (Entails.of_eq (pts_T0 (F := F) d L _ _)); iexact Hf2_src
  isplitl [Hf3_src]; · iapply (Entails.of_eq (pts_T0 (F := F) d L _ _)); iexact Hf3_src
  isplitl [Hf4_src]; · iapply (Entails.of_eq (pts_T0 (F := F) d L _ _)); iexact Hf4_src
  isplitl [Hf5_src]; · iapply (Entails.of_eq (pts_T0 (F := F) d L _ _)); iexact Hf5_src
  -- the five index rows the gathers held
  isplitl [Hrw1]; · iapply (Entails.of_eq (pts_row (F := F) d L row1 hk1 (5 * k.val) hrow1 _)); iexact Hrw1
  isplitl [Hrw2]; · iapply (Entails.of_eq (pts_row (F := F) d L row2 hk2 (5 * k.val + 1) hrow2 _)); iexact Hrw2
  isplitl [Hrw3]; · iapply (Entails.of_eq (pts_row (F := F) d L row3 hk3 (5 * k.val + 2) hrow3 _)); iexact Hrw3
  isplitl [Hrw4]; · iapply (Entails.of_eq (pts_row (F := F) d L row4 hk4 (5 * k.val + 3) hrow4 _)); iexact Hrw4
  isplitl [Hrw5]; · iapply (Entails.of_eq (pts_row (F := F) d L row5 hk5 (5 * k.val + 4) hrow5 _)); iexact Hrw5
  -- the five waits taken are recorded at the index none
  unfold owesI
  iexists (insert (SemLoc.dma cc0_scratch10.sem, (default : HIx 1)) (insert (SemLoc.dma cc0_scratch9.sem, (default : HIx 1)) (insert (SemLoc.dma cc0_scratch8.sem, (default : HIx 1)) (insert (SemLoc.dma cc0_scratch7.sem, (default : HIx 1)) (insert (SemLoc.dma cc0_scratch6.sem, (default : HIx 1)) W))))); isplitr
  · ipureintro; intro p hp
    simp only [Finset.mem_insert] at hp
    rcases hp with rfl | rfl | rfl | rfl | rfl | hp
    all_goals first | exact .inr rfl | exact .inl hp
  · iexact HO

end Cert.Proof.KB

end
-- ==== Proof.KB.Peel.lean ====
/-
  Taking the intervals of the outer loop's invariant apart, five at a time.

  The index rows and the output chunks a worker holds are kept as separating conjunctions over intervals of numbers.
  One trip of the outer loop handles five consecutive rows and chunks: the rows (chunks) from a on are the five numbered
  a ... a + 4 and those from a + 5 on, and the rows (chunks) below a together with those five are the ones below a + 5.
  An empty interval holds nothing; all 200 rows are the index scratch held whole; the 200 chunks over the interval are the
  200 chunks indexed by the numbers below 200.

  The outer loop makes 40 trips; its inner condition (the trip number is below 39) holds on every trip but the last.
-/
import proofs.«219849_g103079215527_week1_w1_1010_20_alg».proof.Proof.KB.Inv

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]
variable (m : (ℓ : Loc nD τ sig) → Buf (Elt F) ℓ) (d : Dev nD) (L : grid0.Coords)
variable (fI : Buf (Elt F) ((sI : Memref sig .scVector .vmem S200x128 .i32).view.loc (thr d L)))

/-! ## Five numbers off either end of an interval -/

omit [FloatOps F] in
theorem sep_assoc_eq (P Q R : sProp 𝕄) : (iprop((P ∗ Q) ∗ R) : sProp 𝕄) = iprop(P ∗ Q ∗ R) := by
  have h : (iprop((P ∗ Q) ∗ R) : sProp 𝕄) ⊣⊢ iprop(P ∗ Q ∗ R) := sep_assoc
  exact equiv_iff.mp ⟨h.1, h.2⟩

omit [FloatOps F] in
/-- The numbers from a on are a, a + 1, a + 2, a + 3, a + 4 and those from a + 5 on. -/
theorem bigSep_Ico_peel5 (Φ : ℕ → sProp 𝕄) (a b : ℕ) (h : a + 5 ≤ b) :
    bigSep (Finset.Ico a b) Φ = iprop(Φ a ∗ Φ (a + 1) ∗ Φ (a + 2) ∗ Φ (a + 3) ∗ Φ (a + 4) ∗ bigSep (Finset.Ico (a + 5) b) Φ) := by
  show _ = iprop(Φ a ∗ Φ (a + 1) ∗ Φ (a + 1 + 1) ∗ Φ (a + 1 + 1 + 1) ∗ Φ (a + 1 + 1 + 1 + 1) ∗ bigSep (Finset.Ico (a + 1 + 1 + 1 + 1 + 1) b) Φ)
  rw [bigSep_Ico_left Φ (show a < b by omega), bigSep_Ico_left Φ (show a + 1 < b by omega), bigSep_Ico_left Φ (show a + 1 + 1 < b by omega),
    bigSep_Ico_left Φ (show a + 1 + 1 + 1 < b by omega), bigSep_Ico_left Φ (show a + 1 + 1 + 1 + 1 < b by omega)]

omit [FloatOps F] in
/-- The numbers below a with a, a + 1, a + 2, a + 3, a + 4 are the numbers below a + 5. -/
theorem bigSep_Ico_push5 (Φ : ℕ → sProp 𝕄) (a : ℕ) :
    (iprop(bigSep (Finset.Ico 0 a) Φ ∗ Φ a ∗ Φ (a + 1) ∗ Φ (a + 2) ∗ Φ (a + 3) ∗ Φ (a + 4)) : sProp 𝕄) = bigSep (Finset.Ico 0 (a + 5)) Φ := by
  show (iprop(bigSep (Finset.Ico 0 a) Φ ∗ Φ a ∗ Φ (a + 1) ∗ Φ (a + 1 + 1) ∗ Φ (a + 1 + 1 + 1) ∗ Φ (a + 1 + 1 + 1 + 1)) : sProp 𝕄)
    = bigSep (Finset.Ico 0 (a + 1 + 1 + 1 + 1 + 1)) Φ
  rw [bigSep_Ico_right Φ (Nat.zero_le (a + 1 + 1 + 1 + 1)), bigSep_Ico_right Φ (Nat.zero_le (a + 1 + 1 + 1)), bigSep_Ico_right Φ (Nat.zero_le (a + 1 + 1)),
    bigSep_Ico_right Φ (Nat.zero_le (a + 1)), bigSep_Ico_right Φ (Nat.zero_le a),
    sep_assoc_eq, sep_assoc_eq, sep_assoc_eq, sep_assoc_eq]

/-! ## The index rows -/

theorem rowsI_peel5 (a : ℕ) (h : a + 5 ≤ 200) :
    rowsI m d L fI a 200 = iprop(((sI : Memref sig .scVector .vmem S200x128 .i32).view.loc (thr d L) ↦[rowSetN a]{fullShare} cI m d L fI) ∗ ((sI : Memref sig .scVector .vmem S200x128 .i32).view.loc (thr d L) ↦[rowSetN (a + 1)]{fullShare} cI m d L fI) ∗ ((sI : Memref sig .scVector .vmem S200x128 .i32).view.loc (thr d L) ↦[rowSetN (a + 2)]{fullShare} cI m d L fI) ∗ ((sI : Memref sig .scVector .vmem S200x128 .i32).view.loc (thr d L) ↦[rowSetN (a + 3)]{fullShare} cI m d L fI) ∗ ((sI : Memref sig .scVector .vmem S200x128 .i32).view.loc (thr d L) ↦[rowSetN (a + 4)]{fullShare} cI m d L fI) ∗ rowsI m d L fI (a + 5) 200) :=
  bigSep_Ico_peel5 (fun r => ((sI : Memref sig .scVector .vmem S200x128 .i32).view.loc (thr d L) ↦[rowSetN r]{fullShare} cI m d L fI)) a 200 h

theorem rowsI_push5 (a : ℕ) :
    (iprop(rowsI m d L fI 0 a ∗ ((sI : Memref sig .scVector .vmem S200x128 .i32).view.loc (thr d L) ↦[rowSetN a]{fullShare} cI m d L fI) ∗ ((sI : Memref sig .scVector .vmem S200x128 .i32).view.loc (thr d L) ↦[rowSetN (a + 1)]{fullShare} cI m d L fI) ∗ ((sI : Memref sig .scVector .vmem S200x128 .i32).view.loc (thr d L) ↦[rowSetN (a + 2)]{fullShare} cI m d L fI) ∗ ((sI : Memref sig .scVector .vmem S200x128 .i32).view.loc (thr d L) ↦[rowSetN (a + 3)]{fullShare} cI m d L fI) ∗ ((sI : Memref sig .scVector .vmem S200x128 .i32).view.loc (thr d L) ↦[rowSetN (a + 4)]{fullShare} cI m d L fI)) : sProp 𝕄) = rowsI m d L fI 0 (a + 5) :=
  bigSep_Ico_push5 (fun r => ((sI : Memref sig .scVector .vmem S200x128 .i32).view.loc (thr d L) ↦[rowSetN r]{fullShare} cI m d L fI)) a

theorem rowsI_zero : rowsI m d L fI 0 0 = iprop(emp) := bigSep_Ico_empty _ 0
theorem rowsI_end : rowsI m d L fI 200 200 = iprop(emp) := bigSep_Ico_empty _ 200

/-- All 200 rows are the index scratch held whole. -/
theorem rowsI_whole : rowsI m d L fI 0 200 = ((sI : Memref sig .scVector .vmem S200x128 .i32).view.loc (thr d L) ↦{fullShare} cI m d L fI) :=
  (sI_rows d L (cI m d L fI)).symm

/-! ## The output chunks -/

theorem chunksO_peel5 (a : ℕ) (h : a + 5 ≤ 200) (f : Buf (Elt F) (outLoc d)) :
    chunksO d L a 200 f = iprop((outLoc d ↦[chunkN (200 * widL L + a)]{fullShare} f) ∗ (outLoc d ↦[chunkN (200 * widL L + (a + 1))]{fullShare} f) ∗ (outLoc d ↦[chunkN (200 * widL L + (a + 2))]{fullShare} f) ∗ (outLoc d ↦[chunkN (200 * widL L + (a + 3))]{fullShare} f) ∗ (outLoc d ↦[chunkN (200 * widL L + (a + 4))]{fullShare} f) ∗ chunksO d L (a + 5) 200 f) :=
  bigSep_Ico_peel5 (fun n => (outLoc d ↦[chunkN (200 * widL L + n)]{fullShare} f)) a 200 h

theorem chunksO_push5 (a : ℕ) (f : Buf (Elt F) (outLoc d)) :
    (iprop(chunksO d L 0 a f ∗ (outLoc d ↦[chunkN (200 * widL L + a)]{fullShare} f) ∗ (outLoc d ↦[chunkN (200 * widL L + (a + 1))]{fullShare} f) ∗ (outLoc d ↦[chunkN (200 * widL L + (a + 2))]{fullShare} f) ∗ (outLoc d ↦[chunkN (200 * widL L + (a + 3))]{fullShare} f) ∗ (outLoc d ↦[chunkN (200 * widL L + (a + 4))]{fullShare} f)) : sProp 𝕄) = chunksO d L 0 (a + 5) f :=
  bigSep_Ico_push5 (fun n => (outLoc d ↦[chunkN (200 * widL L + n)]{fullShare} f)) a

theorem chunksO_zero (f : Buf (Elt F) (outLoc d)) : chunksO d L 0 0 f = iprop(emp) := bigSep_Ico_empty _ 0
theorem chunksO_end (f : Buf (Elt F) (outLoc d)) : chunksO d L 200 200 f = iprop(emp) := bigSep_Ico_empty _ 200

/-- The 200 chunks a worker is handed, and the 200 it hands back. -/
theorem chunks_go :
    (bigSep Finset.univ fun k : Fin 200 => outLoc d ↦[chunkN (200 * widL L + k.val)]{fullShare} m (outLoc d)) = chunksO d L 0 200 (m (outLoc d)) :=
  bigSep_fin200 (fun n => (outLoc d ↦[chunkN (200 * widL L + n)]{fullShare} m (outLoc d)))
theorem chunks_td :
    chunksO d L 0 200 (flatOf m d) = (bigSep Finset.univ fun k : Fin 200 => outLoc d ↦[chunkN (200 * widL L + k.val)]{fullShare} flatOf m d) :=
  (bigSep_fin200 (fun n => (outLoc d ↦[chunkN (200 * widL L + n)]{fullShare} flatOf m d))).symm

/-! ## The outer loop's trips -/

omit [FloatOps F] in
theorem trips40 : k0_t1_loop.trips = 40 := by decide

omit [FloatOps F] in
theorem cond_all : ∀ k : Fin k0_t1_loop.trips, (k.val < 39 → k0_cond1 k = 1#1) ∧ (k.val = 39 → ¬ k0_cond1 k = 1#1) := by decide +kernel

omit [FloatOps F] in
/-- The inner condition holds on every trip but the last, -/
theorem cond_lt (k : Fin k0_t1_loop.trips) (h : k.val < 39) : k0_cond1 k = 1#1 := (cond_all k).1 h
omit [FloatOps F] in
/-- and fails on the last. -/
theorem cond_last (k : Fin k0_t1_loop.trips) (h : k.val = 39) : ¬ k0_cond1 k = 1#1 := (cond_all k).2 h

end Cert.Proof.KB

end
-- ==== Proof.KB.Body.lean ====
/-
  One worker's task, whole: it fetches its slab of tokens, fires the first five gathers, runs the forty trips of
  the outer loop at the invariant of Inv.lean, waits for the last five write-outs, and returns its read shares as it
  got them and its 200 output chunks holding the flat lookup.
-/
import proofs.«219849_g103079215527_week1_w1_1010_20_alg».proof.Proof.KB.Iface
import proofs.«219849_g103079215527_week1_w1_1010_20_alg».proof.Proof.KB.Cells
import proofs.«219849_g103079215527_week1_w1_1010_20_alg».proof.Proof.KB.TripA
import proofs.«219849_g103079215527_week1_w1_1010_20_alg».proof.Proof.KB.TripLast
import proofs.«219849_g103079215527_week1_w1_1010_20_alg».proof.Proof.KB.Peel

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]
variable (m : (ℓ : Loc nD τ sig) → Buf (Elt F) ℓ)

section
variable (d : Dev nD) (L : grid0.Coords)

omit [FloatOps F] in
theorem pts_idx (q : PosShare TreeShare) (f : Buf (Elt F) (idxLoc d)) :
    ((idxV : Memref sig .scVector .hbm S32x200x128 .i32).view.loc (thr d L) ↦{q} f : sProp 𝕄) = idxLoc d ↦{q} f := by
  simp only [Memref.view_whole, View.set_whole]
omit [FloatOps F] in
theorem pts_tab (q : PosShare TreeShare) (f : Buf (Elt F) (tabLoc d)) :
    ((tabV : Memref sig .scVector .hbm S100000x128 .f32).view.loc (thr d L) ↦{q} f : sProp 𝕄) = tabLoc d ↦{q} f := by
  simp only [Memref.view_whole, View.set_whole]
omit [FloatOps F] in
theorem pts_sB (b : Ref sig .scVector) (f : Buf (Elt F) ((thr d L).loc b)) :
    ((Memref.whole b).view.loc (thr d L) ↦{fullShare} f : sProp 𝕄) = (thr d L).loc b ↦{fullShare} f := rfl
omit [FloatOps F] in
theorem pts_sBset (b : Ref sig .scVector) (f : Buf (Elt F) ((thr d L).loc b)) :
    ((Memref.whole b).view.loc (thr d L) ↦[(Memref.whole b : Memref sig .scVector _ _ _).view.set]{fullShare} f : sProp 𝕄) = (thr d L).loc b ↦{fullShare} f := by
  simp only [Memref.view_whole, View.set_whole]

omit [FloatOps F] in
/-- A share of an array is five read tokens of it and a remainder. -/
theorem toks5_split {ℓ : Loc nD τ sig} (q : PosShare TreeShare) (f : Buf (Elt F) ℓ) :
    (ℓ ↦{q} f : sProp 𝕄) ⊢ iprop((ℓ ↦{Transfers.shareDrop q 5} f) ∗ (ℓ ↦{Transfers.shareTokN q 0} f) ∗ (ℓ ↦{Transfers.shareTokN q 1} f)
      ∗ (ℓ ↦{Transfers.shareTokN q 2} f) ∗ (ℓ ↦{Transfers.shareTokN q 3} f) ∗ (ℓ ↦{Transfers.shareTokN q 4} f)) := by
  refine (Transfers.pointsTo_toks_range q 5).1.trans ?_
  rw [show Finset.range 5 = {0, 1, 2, 3, 4} by decide, SparseCore.bigSep_insert' (by decide), SparseCore.bigSep_insert' (by decide),
    SparseCore.bigSep_insert' (by decide), SparseCore.bigSep_insert' (by decide), bigSep_singleton]
  try exact BI.Entails.refl _
omit [FloatOps F] in
theorem toks5_join {ℓ : Loc nD τ sig} (q : PosShare TreeShare) (f : Buf (Elt F) ℓ) :
    iprop((ℓ ↦{Transfers.shareDrop q 5} f) ∗ (ℓ ↦{Transfers.shareTokN q 0} f) ∗ (ℓ ↦{Transfers.shareTokN q 1} f)
      ∗ (ℓ ↦{Transfers.shareTokN q 2} f) ∗ (ℓ ↦{Transfers.shareTokN q 3} f) ∗ (ℓ ↦{Transfers.shareTokN q 4} f)) ⊢ (ℓ ↦{q} f : sProp 𝕄) := by
  refine BI.Entails.trans ?_ (Transfers.pointsTo_toks_range q 5).2
  rw [show Finset.range 5 = {0, 1, 2, 3, 4} by decide, SparseCore.bigSep_insert' (by decide), SparseCore.bigSep_insert' (by decide),
    SparseCore.bigSep_insert' (by decide), SparseCore.bigSep_insert' (by decide), bigSep_singleton]
  try exact BI.Entails.refl _
end

section
variable (d : Dev nD) (L : grid0.Coords) (fI : Buf (Elt F) ((sI : Memref sig .scVector .vmem S200x128 .i32).view.loc (thr d L))) (hpre : PreOK m)
variable (O : CellTallies nD τ sig (HIx 1)) (W : Waits sig (HIx 1))

theorem gAtom_eq (sem : DmaSems sig S_) (sB : sBty) (t n : ℕ) :
    gAtom m d L fI hpre sem sB t n = iprop(∃ ro : RowOff, ∃ fp : Buf (Elt F) (sB.view.loc (thr d L)), ⌜ro.1 = ![n, 0]⌝
      ∗ gFlight m d L fI sem sB t ro.1 ro.2 (hinAll m d L fI hpre ro.1 ro.2) fp) := rfl

/-- After the fortieth trip the invariant is its second form. -/
theorem inv_last (acc : PUnit) : inv m d L fI hpre O W (Scf.trips k0_t1_loop.lb k0_t1_loop.ub k0_t1_loop.st) acc = invB m d L fI hpre O W := by
  have h : Scf.trips k0_t1_loop.lb k0_t1_loop.ub k0_t1_loop.st = 40 := trips40
  unfold inv; rw [h, if_neg (by omega)]
end

set_option maxHeartbeats 4000000 in
/-- The worker's task. -/
theorem tile_body (hF : (K (F := F)).Facts) (hpre : PreOK m) : TileBody m := by
  intro d L O W hO
  simp only [cc0_gather_eq_skeleton]; unfold cc0_gather_skel
  rw [(K (F := F)).scopedBufs_V hF d (cV L) (jV L), SparseCore.Cfg.scopedSems0_V (Val := Elt F) d (cV L) (jV L), ownSems0_V, ownBufs_V]
  unfold goRes
  iintro ⟨#Hlv, -, ⟨Hidx, Htab, Hout⟩, ⟨⟨%fI, HsI⟩, ⟨%f1, Hb1⟩, ⟨%f2, Hb2⟩, ⟨%f3, Hb3⟩, ⟨%f4, Hb4⟩, ⟨%f5, Hb5⟩, Hbufs⟩,
    ⟨Hs0, Hg1, Hg2, Hg3, Hg4, Hg5, Hw1, Hw2, Hw3, Hw4, Hw5, Hsems⟩, HO⟩
  ihave Hmw := ((K (F := F)).mayWaits_none (thr := thr d L) hO) $$ Hlv
  ihave Hidx' := (Entails.of_eq (pts_idx (F := F) d L _ _).symm) $$ Hidx
  ihave Htab' := (Entails.of_eq (pts_tab (F := F) d L _ _).symm) $$ Htab
  ihave HsI' := (Entails.of_eq (pts_sB (F := F) d L cc0_scratch0 _).symm) $$ HsI
  ihave Hb1' := (Entails.of_eq (pts_sB (F := F) d L cc0_scratch1 _).symm) $$ Hb1
  ihave Hb2' := (Entails.of_eq (pts_sB (F := F) d L cc0_scratch2 _).symm) $$ Hb2
  ihave Hb3' := (Entails.of_eq (pts_sB (F := F) d L cc0_scratch3 _).symm) $$ Hb3
  ihave Hb4' := (Entails.of_eq (pts_sB (F := F) d L cc0_scratch4 _).symm) $$ Hb4
  ihave Hb5' := (Entails.of_eq (pts_sB (F := F) d L cc0_scratch5 _).symm) $$ Hb5
  ihave Ht := (toks5_split (F := F) _ _) $$ Htab'
  icases Ht with ⟨Htr, Ht0, Ht1, Ht2, Ht3, Ht4⟩
  ihave Hch := (Entails.of_eq (chunks_go (F := F) m d L)) $$ Hout
  -- the fetch of the worker's slab of tokens, and its wait
  sl_exec
  have hidx := fun (g0 : Buf (Elt F) ((sI : Memref sig .scVector .vmem S200x128 .i32).view.loc (thr d L))) row hk hs hq => inb_of_pre m d L hpre g0 (PAY m d L) rfl row hk hs hq
  -- the index scratch by rows; the first five go with the first five gathers
  have hcI : (((sI : Memref sig .scVector .vmem S200x128 .i32).view.loc (thr d L) ↦{fullShare}
      View.write (Elt F) (sI : Memref sig .scVector .vmem S200x128 .i32).view fI (tile_body.sl.dma0 m d L) Finset.univ) : sProp 𝕄)
        = ((sI : Memref sig .scVector .vmem S200x128 .i32).view.loc (thr d L) ↦{fullShare} cI m d L fI) := rfl
  ihave HsI'' := (Entails.of_eq hcI) $$ HsI'
  ihave Hrows := (Entails.of_eq ((rowsI_whole (F := F) m d L fI).symm.trans (rowsI_peel5 (F := F) m d L fI 0 (by omega)))) $$ HsI''
  icases Hrows with ⟨Hr0, Hr1, Hr2, Hr3, Hr4, Hrest⟩
  ihave Hr0' := (Entails.of_eq (pts_row (F := F) d L ![0, 0] inb_S200x128_S1x128_0_0 0 rfl _).symm) $$ Hr0
  ihave Hr1' := (Entails.of_eq (pts_row (F := F) d L ![1, 0] inb_S200x128_S1x128_1_0 (0 + 1) rfl _).symm) $$ Hr1
  ihave Hr2' := (Entails.of_eq (pts_row (F := F) d L ![2, 0] inb_S200x128_S1x128_2_0 (0 + 2) rfl _).symm) $$ Hr2
  ihave Hr3' := (Entails.of_eq (pts_row (F := F) d L ![3, 0] inb_S200x128_S1x128_3_0 (0 + 3) rfl _).symm) $$ Hr3
  ihave Hr4' := (Entails.of_eq (pts_row (F := F) d L ![4, 0] inb_S200x128_S1x128_4_0 (0 + 4) rfl _).symm) $$ Hr4
  sl_exec
  -- the outer loop, at its invariant
  sl_for (inv m d L fI hpre O W) $$ [Hmw Hg1 Hg2 Hg3 Hg4 Hg5 Hw1 Hw2 Hw3 Hw4 Hw5 Hrest Hch HO]
  case region =>
    intro k _
    have hk40 : k.val < 40 := lt_of_lt_of_le k.isLt (le_of_eq trips40)
    have e5 : 5 * (k.val + 1) = 5 * k.val + 5 := by ring
    by_cases h39 : k.val < 39
    · have hc := cond_lt k h39
      unfold inv
      rw [if_pos hk40, if_pos (show k.val + 1 < 40 by omega)]
      unfold invA
      rw [e5]
      simp only [Nat.add_zero]
      rw [rowsI_peel5 (F := F) m d L fI (5 * k.val + 5) (by omega), chunksO_peel5 (F := F) d L (5 * k.val) (by omega) (m (outLoc d)),
        ← rowsI_push5 (F := F) m d L fI (5 * k.val), ← chunksO_push5 (F := F) d L (5 * k.val) (flatOf m d),
        gAtom_eq m d L fI hpre cc0_scratch6 sB1 0 (5 * k.val),
        gAtom_eq m d L fI hpre cc0_scratch7 sB2 1 (5 * k.val + 1),
        gAtom_eq m d L fI hpre cc0_scratch8 sB3 2 (5 * k.val + 2),
        gAtom_eq m d L fI hpre cc0_scratch9 sB4 3 (5 * k.val + 3),
        gAtom_eq m d L fI hpre cc0_scratch10 sB5 4 (5 * k.val + 4)]
      unfold owesI
      iintro ⟨#Hmw, ⟨%ro1, %fp1, %e1, Hf1⟩, ⟨%ro2, %fp2, %e2, Hf2⟩, ⟨%ro3, %fp3, %e3, Hf3⟩, ⟨%ro4, %fp4, %e4, Hf4⟩, ⟨%ro5, %fp5, %e5', Hf5⟩,
        Hw1, Hw2, Hw3, Hw4, Hw5, Hret, ⟨Hn0, Hn1, Hn2, Hn3, Hn4, Hfut⟩, Hdone, ⟨Ho0, Ho1, Ho2, Ho3, Ho4, Htodo⟩, ⟨%W', %hW', HO⟩⟩
      iapply (wp_wand_r Idealize.ShloMosaic.frame (wpE (defs₀ (F := F)) 𝒱₀ (thr d L) none) Set.univ)
      isplitl [Hf1 Hf2 Hf3 Hf4 Hf5 Hw1 Hw2 Hw3 Hw4 Hw5 Ho0 Ho1 Ho2 Ho3 Ho4 Hn0 Hn1 Hn2 Hn3 Hn4 HO]
      · iapply (tripA m d L fI hpre O W' _ k h39 hc ro1.1 ro1.2 e1 fp1 ro2.1 ro2.2 e2 fp2 ro3.1 ro3.2 e3 fp3 ro4.1 ro4.2 e4 fp4 ro5.1 ro5.2 e5' fp5)
        isplitr; · iexact Hmw
        isplitl [Hf1]; · iexact Hf1
        isplitl [Hf2]; · iexact Hf2
        isplitl [Hf3]; · iexact Hf3
        isplitl [Hf4]; · iexact Hf4
        isplitl [Hf5]; · iexact Hf5
        isplitl [Hw1]; · iexact Hw1
        isplitl [Hw2]; · iexact Hw2
        isplitl [Hw3]; · iexact Hw3
        isplitl [Hw4]; · iexact Hw4
        isplitl [Hw5]; · iexact Hw5
        isplitl [Ho0]; · iexact Ho0
        isplitl [Ho1]; · iexact Ho1
        isplitl [Ho2]; · iexact Ho2
        isplitl [Ho3]; · iexact Ho3
        isplitl [Ho4]; · iexact Ho4
        isplitl [Hn0]; · iexact Hn0
        isplitl [Hn1]; · iexact Hn1
        isplitl [Hn2]; · iexact Hn2
        isplitl [Hn3]; · iexact Hn3
        isplitl [Hn4]; · iexact Hn4
        iexact HO
      unfold owesI
      iintro %_ ⟨Hg1, Hg2, Hg3, Hg4, Hg5, Hw1, Hw2, Hw3, Hw4, Hw5, Hc0, Hc1, Hc2, Hc3, Hc4, Hq0, Hq1, Hq2, Hq3, Hq4, ⟨%W'', %hW'', HO⟩⟩
      isplitr; · iexact Hmw
      isplitl [Hg1]; · iexact Hg1
      isplitl [Hg2]; · iexact Hg2
      isplitl [Hg3]; · iexact Hg3
      isplitl [Hg4]; · iexact Hg4
      isplitl [Hg5]; · iexact Hg5
      isplitl [Hw1]; · iexact Hw1
      isplitl [Hw2]; · iexact Hw2
      isplitl [Hw3]; · iexact Hw3
      isplitl [Hw4]; · iexact Hw4
      isplitl [Hw5]; · iexact Hw5
      isplitl [Hret Hq0 Hq1 Hq2 Hq3 Hq4]
      · isplitl [Hret]; · iexact Hret
        isplitl [Hq0]; · iexact Hq0
        isplitl [Hq1]; · iexact Hq1
        isplitl [Hq2]; · iexact Hq2
        isplitl [Hq3]; · iexact Hq3
        iexact Hq4
      isplitl [Hfut]; · iexact Hfut
      isplitl [Hdone Hc0 Hc1 Hc2 Hc3 Hc4]
      · isplitl [Hdone]; · iexact Hdone
        isplitl [Hc0]; · iexact Hc0
        isplitl [Hc1]; · iexact Hc1
        isplitl [Hc2]; · iexact Hc2
        isplitl [Hc3]; · iexact Hc3
        iexact Hc4
      isplitl [Htodo]; · iexact Htodo
      iexists W''; isplitr
      · ipureintro; intro p hp
        rcases hW'' p hp with h | h
        · exact hW' p h
        · exact .inr h
      · iexact HO
    · have h39' : k.val = 39 := by omega
      unfold inv
      rw [if_pos hk40, if_neg (show ¬ k.val + 1 < 40 by omega)]
      unfold invA invB
      rw [chunksO_peel5 (F := F) d L (5 * k.val) (by omega) (m (outLoc d)),
        congrArg (fun n => rowsI m d L fI 0 n) (show 200 = 5 * k.val + 5 by omega), ← rowsI_push5 (F := F) m d L fI (5 * k.val),
        congrArg (fun n => chunksO d L 0 n (flatOf m d)) (show 195 = 5 * k.val by omega)]
      simp only [Nat.add_zero]
      rw [gAtom_eq m d L fI hpre cc0_scratch6 sB1 0 (5 * k.val),
        gAtom_eq m d L fI hpre cc0_scratch7 sB2 1 (5 * k.val + 1),
        gAtom_eq m d L fI hpre cc0_scratch8 sB3 2 (5 * k.val + 2),
        gAtom_eq m d L fI hpre cc0_scratch9 sB4 3 (5 * k.val + 3),
        gAtom_eq m d L fI hpre cc0_scratch10 sB5 4 (5 * k.val + 4)]
      unfold owesI
      iintro ⟨#Hmw, ⟨%ro1, %fp1, %e1, Hf1⟩, ⟨%ro2, %fp2, %e2, Hf2⟩, ⟨%ro3, %fp3, %e3, Hf3⟩, ⟨%ro4, %fp4, %e4, Hf4⟩, ⟨%ro5, %fp5, %e5', Hf5⟩,
        Hw1, Hw2, Hw3, Hw4, Hw5, Hret, -, Hdone, ⟨Ho0, Ho1, Ho2, Ho3, Ho4, -⟩, ⟨%W', %hW', HO⟩⟩
      iapply (wp_wand_r Idealize.ShloMosaic.frame (wpE (defs₀ (F := F)) 𝒱₀ (thr d L) none) Set.univ)
      isplitl [Hf1 Hf2 Hf3 Hf4 Hf5 Hw1 Hw2 Hw3 Hw4 Hw5 Ho0 Ho1 Ho2 Ho3 Ho4 HO]
      · iapply (tripLast m d L fI hpre O W' _ k h39' ro1.1 ro1.2 e1 fp1 ro2.1 ro2.2 e2 fp2 ro3.1 ro3.2 e3 fp3 ro4.1 ro4.2 e4 fp4 ro5.1 ro5.2 e5' fp5)
        isplitr; · iexact Hmw
        isplitl [Hf1]; · iexact Hf1
        isplitl [Hf2]; · iexact Hf2
        isplitl [Hf3]; · iexact Hf3
        isplitl [Hf4]; · iexact Hf4
        isplitl [Hf5]; · iexact Hf5
        isplitl [Hw1]; · iexact Hw1
        isplitl [Hw2]; · iexact Hw2
        isplitl [Hw3]; · iexact Hw3
        isplitl [Hw4]; · iexact Hw4
        isplitl [Hw5]; · iexact Hw5
        isplitl [Ho0]; · iexact Ho0
        isplitl [Ho1]; · iexact Ho1
        isplitl [Ho2]; · iexact Ho2
        isplitl [Ho3]; · iexact Ho3
        isplitl [Ho4]; · iexact Ho4
        iexact HO
      unfold owesI
      iintro %_ ⟨Hv1, Hv2, Hv3, Hv4, Hv5, Hg1, Hg2, Hg3, Hg4, Hg5, Ht0, Ht1, Ht2, Ht3, Ht4, Hq0, Hq1, Hq2, Hq3, Hq4, ⟨%W'', %hW'', HO⟩⟩
      isplitr; · iexact Hmw
      isplitl [Hv1]; · iexact Hv1
      isplitl [Hv2]; · iexact Hv2
      isplitl [Hv3]; · iexact Hv3
      isplitl [Hv4]; · iexact Hv4
      isplitl [Hv5]; · iexact Hv5
      isplitl [Hg1]; · iexact Hg1
      isplitl [Hg2]; · iexact Hg2
      isplitl [Hg3]; · iexact Hg3
      isplitl [Hg4]; · iexact Hg4
      isplitl [Hg5]; · iexact Hg5
      isplitl [Ht0]; · iexact Ht0
      isplitl [Ht1]; · iexact Ht1
      isplitl [Ht2]; · iexact Ht2
      isplitl [Ht3]; · iexact Ht3
      isplitl [Ht4]; · iexact Ht4
      isplitl [Hret Hq0 Hq1 Hq2 Hq3 Hq4]
      · isplitl [Hret]; · iexact Hret
        isplitl [Hq0]; · iexact Hq0
        isplitl [Hq1]; · iexact Hq1
        isplitl [Hq2]; · iexact Hq2
        isplitl [Hq3]; · iexact Hq3
        iexact Hq4
      isplitl [Hdone]; · iexact Hdone
      iexists W''; isplitr
      · ipureintro; intro p hp
        rcases hW'' p hp with h | h
        · exact hW' p h
        · exact .inr h
      · iexact HO
  · -- the invariant before the first trip: the five gathers of index rows 0 … 4 are in flight
    unfold inv
    rw [if_pos (show 0 < 40 by omega)]
    unfold invA
    simp only [Nat.mul_zero, Nat.zero_add]
    rw [rowsI_zero, chunksO_zero]
    isplitr; · iexact Hmw
    isplitl [Hg1]
    · unfold gAtom
      iexists (⟨![0, 0], inb_S200x128_S1x128_0_0⟩ : RowOff); iexists f1; isplitr
      · ipureintro; rfl
      · unfold gFlight; iexact Hg1
    isplitl [Hg2]
    · unfold gAtom
      iexists (⟨![1, 0], inb_S200x128_S1x128_1_0⟩ : RowOff); iexists f2; isplitr
      · ipureintro; rfl
      · unfold gFlight; iexact Hg2
    isplitl [Hg3]
    · unfold gAtom
      iexists (⟨![2, 0], inb_S200x128_S1x128_2_0⟩ : RowOff); iexists f3; isplitr
      · ipureintro; rfl
      · unfold gFlight; iexact Hg3
    isplitl [Hg4]
    · unfold gAtom
      iexists (⟨![3, 0], inb_S200x128_S1x128_3_0⟩ : RowOff); iexists f4; isplitr
      · ipureintro; rfl
      · unfold gFlight; iexact Hg4
    isplitl [Hg5]
    · unfold gAtom
      iexists (⟨![4, 0], inb_S200x128_S1x128_4_0⟩ : RowOff); iexists f5; isplitr
      · ipureintro; rfl
      · unfold gFlight; iexact Hg5
    isplitl [Hw1]; · iexact Hw1
    isplitl [Hw2]; · iexact Hw2
    isplitl [Hw3]; · iexact Hw3
    isplitl [Hw4]; · iexact Hw4
    isplitl [Hw5]; · iexact Hw5
    isplitr; · iempintro
    isplitl [Hrest]; · iexact Hrest
    isplitr; · iempintro
    isplitl [Hch]; · iexact Hch
    unfold owesI
    iexists _; isplitr
    rotate_left
    · iexact HO
    · ipureintro; intro p hp
      simp only [Finset.mem_insert] at hp
      rcases hp with rfl | hp
      · exact .inr rfl
      · exact .inl hp
  iintro %_ HI
  ihave HB := (Entails.of_eq (inv_last m d L fI hpre O W _)) $$ HI
  unfold invB wAtom1 wAtom2 wAtom3 wAtom4 wAtom5 owesI
  icases HB with ⟨#Hmw2, ⟨%oo1, %rq1, %fq1, %eo1, %er1, Hv1⟩, ⟨%oo2, %rq2, %fq2, %eo2, %er2, Hv2⟩, ⟨%oo3, %rq3, %fq3, %eo3, %er3, Hv3⟩,
    ⟨%oo4, %rq4, %fq4, %eo4, %er4, Hv4⟩, ⟨%oo5, %rq5, %fq5, %eo5, %er5, Hv5⟩, Hg1, Hg2, Hg3, Hg4, Hg5, Hk0, Hk1, Hk2, Hk3, Hk4, Hrows, Hdone, ⟨%W', %hW', HO⟩⟩
  unfold wFlight1 wFlight2 wFlight3 wFlight4 wFlight5
  sl_exec
  sl_step
  -- what the task hands back
  have hpush : (iprop(chunksO d L 0 195 (flatOf m d) ∗ (outLoc d ↦[chunkN (200 * widL L + 195)]{fullShare} flatOf m d) ∗ (outLoc d ↦[chunkN (200 * widL L + 196)]{fullShare} flatOf m d) ∗ (outLoc d ↦[chunkN (200 * widL L + 197)]{fullShare} flatOf m d) ∗ (outLoc d ↦[chunkN (200 * widL L + 198)]{fullShare} flatOf m d) ∗ (outLoc d ↦[chunkN (200 * widL L + 199)]{fullShare} flatOf m d)) : sProp 𝕄)
      = chunksO d L 0 200 (flatOf m d) := chunksO_push5 (F := F) d L 195 (flatOf m d)
  unfold tdRes
  isplitl [Hidx' Htr Hk0 Hk1 Hk2 Hk3 Hk4 Hdone Hv1_dst Hv2_dst Hv3_dst Hv4_dst Hv5_dst]
  · isplitl [Hidx']; · iapply (Entails.of_eq (pts_idx (F := F) d L _ _)); iexact Hidx'
    isplitl [Htr Hk0 Hk1 Hk2 Hk3 Hk4]
    · iapply (Entails.of_eq (pts_tab (F := F) d L _ _))
      iapply (toks5_join (F := F) _ _)
      isplitl [Htr]; · iexact Htr
      isplitl [Hk0]; · iexact Hk0
      isplitl [Hk1]; · iexact Hk1
      isplitl [Hk2]; · iexact Hk2
      isplitl [Hk3]; · iexact Hk3
      iexact Hk4
    · iapply (Entails.of_eq (chunks_td (F := F) m d L))
      iapply (Entails.of_eq hpush)
      isplitl [Hdone]; · iexact Hdone
      isplitl [Hv1_dst]; · iapply (Entails.of_eq (pts_chunk_sB1 m d L fI hpre _ _ 195 (by omega) eo1 rq1.1 rq1.2 (hinAll m d L fI hpre rq1.1 rq1.2) er1 fq1 _ rfl)); iexact Hv1_dst
      isplitl [Hv2_dst]; · iapply (Entails.of_eq (pts_chunk_sB2 m d L fI hpre _ _ 196 (by omega) eo2 rq2.1 rq2.2 (hinAll m d L fI hpre rq2.1 rq2.2) er2 fq2 _ rfl)); iexact Hv2_dst
      isplitl [Hv3_dst]; · iapply (Entails.of_eq (pts_chunk_sB3 m d L fI hpre _ _ 197 (by omega) eo3 rq3.1 rq3.2 (hinAll m d L fI hpre rq3.1 rq3.2) er3 fq3 _ rfl)); iexact Hv3_dst
      isplitl [Hv4_dst]; · iapply (Entails.of_eq (pts_chunk_sB4 m d L fI hpre _ _ 198 (by omega) eo4 rq4.1 rq4.2 (hinAll m d L fI hpre rq4.1 rq4.2) er4 fq4 _ rfl)); iexact Hv4_dst
      iapply (Entails.of_eq (pts_chunk_sB5 m d L fI hpre _ _ 199 (by omega) eo5 rq5.1 rq5.2 (hinAll m d L fI hpre rq5.1 rq5.2) er5 fq5 _ rfl)); iexact Hv5_dst
  isplitl [Hrows Hv1_src Hv2_src Hv3_src Hv4_src Hv5_src Hbufs]
  · isplitl [Hrows]
    · iexists _; iapply (Entails.of_eq (pts_sB (F := F) d L cc0_scratch0 _)); iapply (Entails.of_eq (rowsI_whole (F := F) m d L fI)); iexact Hrows
    isplitl [Hv1_src]; · iexists _; iapply (Entails.of_eq (pts_sBset (F := F) d L cc0_scratch1 _)); iexact Hv1_src
    isplitl [Hv2_src]; · iexists _; iapply (Entails.of_eq (pts_sBset (F := F) d L cc0_scratch2 _)); iexact Hv2_src
    isplitl [Hv3_src]; · iexists _; iapply (Entails.of_eq (pts_sBset (F := F) d L cc0_scratch3 _)); iexact Hv3_src
    isplitl [Hv4_src]; · iexists _; iapply (Entails.of_eq (pts_sBset (F := F) d L cc0_scratch4 _)); iexact Hv4_src
    isplitl [Hv5_src]; · iexists _; iapply (Entails.of_eq (pts_sBset (F := F) d L cc0_scratch5 _)); iexact Hv5_src
    iexact Hbufs
  isplitl [Hs0 Hg1 Hg2 Hg3 Hg4 Hg5 Hv1 Hv2 Hv3 Hv4 Hv5 Hsems]
  · isplitl [Hs0]; · iexact Hs0
    isplitl [Hg1]; · iexact Hg1
    isplitl [Hg2]; · iexact Hg2
    isplitl [Hg3]; · iexact Hg3
    isplitl [Hg4]; · iexact Hg4
    isplitl [Hg5]; · iexact Hg5
    isplitl [Hv1]; · iexact Hv1
    isplitl [Hv2]; · iexact Hv2
    isplitl [Hv3]; · iexact Hv3
    isplitl [Hv4]; · iexact Hv4
    isplitl [Hv5]; · iexact Hv5
    iexact Hsems
  iexists _; isplitr
  rotate_left
  · iexact HO
  · ipureintro; intro p hp
    simp only [Finset.mem_insert] at hp
    rcases hp with rfl | rfl | rfl | rfl | rfl | hp
    all_goals first | exact .inr rfl | exact hW' p hp

end Cert.Proof.KB

end
-- ==== Proof.lean ====
/-
  The certificate's claim, assembled.

  The kernel is an embedding lookup on the two SparseCores: 32 workers each fetch their slab of the 819200 tokens,
  gather the table rows the tokens name, five 128-row chunks at a time, scale every entry by one fixed float and write
  the chunks out; the host reshapes the tokens before the call and the flat result after it. The reference is
  jnp.take(table, tokens) times the same float. Under the precondition (every token between 0 and 99999) both are the
  function `Cert.Spec.G` of the two argument arrays, entry by entry, at any reading of the floats: the two sides apply
  the same single multiplication to the same table entry, so no law of arithmetic is used and finiteness of the table
  is never opened.

  The kernel's run (`run_main`, at the word level and at the extended reals) gives each kernel frame by dropping the
  result, and at the extended reals the algebraic claim beside the reference's run (`Cert.RefSide.run`); the ideal
  pass rewrote nothing, so `preserves` is trivial.
-/
import proofs.«219849_g103079215527_week1_w1_1010_20_alg».proof.Defs
import proofs.«219849_g103079215527_week1_w1_1010_20_alg».proof.Proof.Gen.Kernel
import proofs.«219849_g103079215527_week1_w1_1010_20_alg».proof.Proof.Gen.Kernel.Skeleton
import proofs.«219849_g103079215527_week1_w1_1010_20_alg».proof.Proof.Gen.KernelIdeal
import proofs.«219849_g103079215527_week1_w1_1010_20_alg».proof.Proof.Gen.KernelIdeal.Skeleton
import proofs.«219849_g103079215527_week1_w1_1010_20_alg».proof.Proof.Gen.ReferenceIdeal
import proofs.«219849_g103079215527_week1_w1_1010_20_alg».proof.Proof.Gen.Pre_input_domain
import Idealize.ShloMosaic.Adequacy
import Idealize.ShloMosaic.Init
import proofs.«219849_g103079215527_week1_w1_1010_20_alg».proof.Proof.PreDecode
import proofs.«219849_g103079215527_week1_w1_1010_20_alg».proof.Proof.RefRun
import proofs.«219849_g103079215527_week1_w1_1010_20_alg».proof.Proof.KI.Launch
import proofs.«219849_g103079215527_week1_w1_1010_20_alg».proof.Proof.KI.Body
import proofs.«219849_g103079215527_week1_w1_1010_20_alg».proof.Proof.KB.Launch
import proofs.«219849_g103079215527_week1_w1_1010_20_alg».proof.Proof.KB.Body

noncomputable section

namespace Cert.Proof

open Idealize.ShloMosaic Idealize.SL.Sem

/-- Under the precondition every token names a row of the table (the idealized kernel's memory). -/
theorem preOK_KI (m : (ℓ : Loc Cert.KernelIdeal.nD Cert.KernelIdeal.τ Cert.KernelIdeal.sig) → Buf (Elt Ideal) ℓ) (h : Cert.Pre_KernelIdeal m) :
    Cert.Proof.KI.PreOK (F := Ideal) m :=
  fun d i => Cert.PreDecode.tokens_le (F := Ideal) _ _ (h d) i

/-- The same at the word level. -/
theorem preOK_KB (m : (ℓ : Loc Cert.Kernel.nD Cert.Kernel.τ Cert.Kernel.sig) → Buf (Elt Bits) ℓ) (h : Cert.Pre_Kernel m) :
    Cert.Proof.KB.PreOK (F := Bits) m :=
  fun d i => Cert.PreDecode.tokens_le (F := Bits) _ _ (h d) i

theorem frame_K : Cert.frame_Kernel := fun m ρ hp =>
  (θ_run Cert.Kernel.defs _ _).mono (fun _ h c => (h c).2)
    (Cert.Proof.KB.run_main (F := Bits) m ρ (Cert.Proof.KB.tile_body m Cert.Proof.KB.facts (preOK_KB m hp)))

theorem frame_KI : Cert.frame_KernelIdeal := fun m ρ hp =>
  (θ_run Cert.KernelIdeal.defs _ _).mono (fun _ h c => (h c).2)
    (Cert.Proof.KI.run_main (F := Ideal) m ρ (Cert.Proof.KI.tile_body m Cert.Proof.KI.facts (preOK_KI m hp)))

theorem frame_R : Cert.frame_ReferenceIdeal := fun m ρ hp =>
  (θ_run Cert.ReferenceIdeal.defs _ _).mono (fun _ h c => (h c).2)
    (Cert.RefSide.run m ρ (fun c i => Cert.PreDecode.tokens_le (F := Ideal) _ _ (hp c) i))

/-- Both idealized programs end with the lookup `Cert.Spec.G` of the (agreeing) arguments in their result array. -/
theorem algebraic : Cert.algebraic_KernelIdeal_ReferenceIdeal := fun m ρ m' ρ' hp hagree =>
  ⟨fun c => Cert.Spec.G (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Proof.KI.run_main (F := Ideal) m ρ (Cert.Proof.KI.tile_body m Cert.Proof.KI.facts (preOK_KI m hp)),
    (θ_run Cert.ReferenceIdeal.defs _ _).mono
      (fun _ h c => ⟨by rw [(h c).1, (hagree c).1, (hagree c).2], (h c).2⟩)
      (Cert.RefSide.run m' ρ' (fun c i => by rw [(hagree c).1]; exact preOK_KI m hp c i))⟩

theorem claim : Cert.Claim :=
  ⟨Cert.Kernel.Gen.facts, Cert.KernelIdeal.Gen.facts, Cert.ReferenceIdeal.Gen.facts, Cert.Pre_input_domain.Gen.facts,
    frame_K, frame_KI, frame_R, trivial, algebraic⟩

end Cert.Proof

end
